-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S3x256x256 : Shape := ⟨3, ![3, 256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S256 .f32) (main_arg6 : FVec F S256 .f32) (main_arg7 : FVec F S3x256x256 .f32) (main_arg8 : FVec F S256 .f32) (main_arg9 : FVec F S256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S3x256x256 .f32 := Host.absf main_arg7
  let main_cst_10 : FVec F S_ .f32 := constant S_ .f32 0x7F800000#32
  let main_v30 : FVec F S3x256x256 .f32 := broadcastInDim S3x256x256 ![] bcast_S_S3x256x256 main_cst_10
  let main_v31 : IVec S3x256x256 1 := cmpf .olt main_v29 main_v30
  let main_c_11 : IVec S_ 1 := constantI S_ 1 1#1
  let main_v32 : IVec S_ 1 := (fun x v => Host.reduce IntOp.andi x v reducesTo_S3x256x256_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S10000x256 .f32) (main_arg1 : IVec S2x320000 32) (main_arg2 : FVec F S320000 .f32) (main_arg3 : FVec F S3x256x256 .f32) (main_arg4 : FVec F S256 .f32) (main_arg5 : FVec F S256 .f32) (main_arg6 : FVec F S256 .f32) (main_arg7 : FVec F S3x256x256 .f32) (main_arg8 : FVec F S256 .f32) (main_arg9 : FVec F S256 .f32) (main_arg10 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S3x256x256 .f32 := Host.absf main_arg3
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S3x256x256 : Shape := ⟨3, ![3, 256, 256]⟩
abbrev S256 : Shape := ⟨1, ![256]⟩
abbrev S_ : Shape := ⟨0, ![]⟩
abbrev S1x320000 : Shape := ⟨2, ![1, 320000]⟩
abbrev S10000 : Shape := ⟨1, ![10000]⟩
abbrev S320000x1 : Shape := ⟨2, ![320000, 1]⟩
abbrev S320000x256 : Shape := ⟨2, ![320000, 256]⟩
abbrev S1x256x256 : Shape := ⟨3, ![1, 256, 256]⟩
abbrev S256x256 : Shape := ⟨2, ![256, 256]⟩
abbrev S1x256 : Shape := ⟨2, ![1, 256]⟩
abbrev S1000x256 : Shape := ⟨2, ![1000, 256]⟩
abbrev S1000 : Shape := ⟨1, ![1000]⟩
abbrev S1000x1 : Shape := ⟨2, ![1000, 1]⟩

abbrev nBuf : Space → Nat
  | .hbm => 184
  | .vmem => 28
  | .smem => 0
  | _ => 0

abbrev hbmTy0_0 (i : Nat) : BufTy := match i % 128 with
  | 0 => ⟨S10000x256, .f32⟩
  | 1 => ⟨S2x320000, .i32⟩
  | 2 => ⟨S320000, .f32⟩
  | 3 => ⟨S3x256x256, .f32⟩
  | 4 => ⟨S256, .f32⟩
  | 5 => ⟨S256, .f32⟩
  | 6 => ⟨S256, .f32⟩
  | 7 => ⟨S3x256x256, .f32⟩
  | 8 => ⟨S256, .f32⟩
  | 9 => ⟨S256, .f32⟩
  | 10 => ⟨S256, .f32⟩
  | 11 => ⟨S_, .f32⟩
  | 12 => ⟨S_, .f32⟩
  | 13 => ⟨S_, .f32⟩
  | 14 => ⟨S320000, .i1⟩
  | 15 => ⟨S_, .f32⟩
  | 16 => ⟨S320000, .f32⟩
  | 17 => ⟨S320000, .f32⟩
  | 18 => ⟨S_, .f32⟩
  | 19 => ⟨S320000, .f32⟩
  | 20 => ⟨S320000, .i1⟩
  | 21 => ⟨S_, .f32⟩
  | 22 => ⟨S320000, .f32⟩
  | 23 => ⟨S320000, .f32⟩
  | 24 => ⟨S_, .f32⟩
  | 25 => ⟨S320000, .f32⟩
  | 26 => ⟨S320000, .i1⟩
  | 27 => ⟨S_, .f32⟩
  | 28 => ⟨S320000, .f32⟩
  | 29 => ⟨S320000, .f32⟩
  | 30 => ⟨S320000, .f32⟩
  | 31 => ⟨S_, .f32⟩
  | 32 => ⟨S320000, .f32⟩
  | 33 => ⟨S320000, .f32⟩
  | 34 => ⟨S1x320000, .i32⟩
  | 35 => ⟨S320000, .i32⟩
  | 36 => ⟨S1x320000, .i32⟩
  | 37 => ⟨S320000, .i32⟩
  | 38 => ⟨S_, .f32⟩
  | 39 => ⟨S10000, .f32⟩
  | 40 => ⟨S320000x1, .i32⟩
  | 41 => ⟨S10000, .f32⟩
  | 42 => ⟨S_, .f32⟩
  | 43 => ⟨S10000, .f32⟩
  | 44 => ⟨S10000, .i1⟩
  | 45 => ⟨S_, .f32⟩
  | 46 => ⟨S10000, .f32⟩
  | 47 => ⟨S10000, .f32⟩
  | 48 => ⟨S_, .f32⟩
  | 49 => ⟨S_, .f32⟩
  | 50 => ⟨S10000, .f32⟩
  | 51 => ⟨S10000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000, .f32⟩
  | 61 => ⟨S320000, .f32⟩
  | 62 => ⟨S320000, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000, .f32⟩
  | 72 => ⟨S320000, .f32⟩
  | 73 => ⟨S_, .f32⟩
  | 74 => ⟨S_, .f32⟩
  | 75 => ⟨S_, .f32⟩
  | 76 => ⟨S10000x256, .i1⟩
  | 77 => ⟨S_, .f32⟩
  | 78 => ⟨S10000x256, .f32⟩
  | 79 => ⟨S10000x256, .f32⟩
  | 80 => ⟨S_, .f32⟩
  | 81 => ⟨S10000x256, .f32⟩
  | 82 => ⟨S10000x256, .i1⟩
  | 83 => ⟨S_, .f32⟩
  | 84 => ⟨S10000x256, .f32⟩
  | 85 => ⟨S10000x256, .f32⟩
  | 86 => ⟨S_, .f32⟩
  | 87 => ⟨S10000x256, .f32⟩
  | 88 => ⟨S10000x256, .i1⟩
  | 89 => ⟨S_, .f32⟩
  | 90 => ⟨S10000x256, .f32⟩
  | 91 => ⟨S10000x256, .f32⟩
  | 92 => ⟨S320000x1, .f32⟩
  | 93 => ⟨S_, .i32⟩
  | 94 => ⟨S320000, .i32⟩
  | 95 => ⟨S320000, .i1⟩
  | 96 => ⟨S_, .i32⟩
  | 97 => ⟨S320000, .i32⟩
  | 98 => ⟨S320000, .i32⟩
  | 99 => ⟨S320000, .i32⟩
  | 100 => ⟨S320000x1, .i32⟩
  | 101 => ⟨S320000x256, .f32⟩
  | 102 => ⟨S320000x256, .f32⟩
  | 103 => ⟨S320000x256, .f32⟩
  | 104 => ⟨S_, .f32⟩
  | 105 => ⟨S10000x256, .f32⟩
  | 106 => ⟨S320000x1, .i32⟩
  | 107 => ⟨S10000x256, .f32⟩
  | 108 => ⟨S320000x1, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x256, .f32⟩
  | 118 => ⟨S320000x256, .f32⟩
  | 119 => ⟨S320000x256, .f32⟩
  | 120 => ⟨S_, .f32⟩
  | 121 => ⟨S10000x256, .f32⟩
  | 122 => ⟨S320000x1, .i32⟩
  | 123 => ⟨S10000x256, .f32⟩
  | 124 => ⟨S_, .f32⟩
  | 125 => ⟨S10000x256, .f32⟩
  | 126 => ⟨S10000x256, .f32⟩
  | 127 => ⟨S10000x256, .f32⟩
  | _ => ⟨S10000x256, .f32⟩

abbrev hbmTy0_1 (i : Nat) : BufTy := match i % 128 with
  | 0 => ⟨S1x256x256, .f32⟩
  | 1 => ⟨S256x256, .f32⟩
  | 2 => ⟨S1x256x256, .f32⟩
  | 3 => ⟨S256x256, .f32⟩
  | 4 => ⟨S1x256x256, .f32⟩
  | 5 => ⟨S256x256, .f32⟩
  | 6 => ⟨S1x256, .f32⟩
  | 7 => ⟨S1x256, .f32⟩
  | 8 => ⟨S1x256, .f32⟩
  | 9 => ⟨S10000x256, .f32⟩
  | 10 => ⟨S320000x1, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000x256, .f32⟩
  | 20 => ⟨S320000x256, .f32⟩
  | 21 => ⟨S320000x256, .f32⟩
  | 22 => ⟨S_, .f32⟩
  | 23 => ⟨S10000x256, .f32⟩
  | 24 => ⟨S320000x1, .i32⟩
  | 25 => ⟨S10000x256, .f32⟩
  | 26 => ⟨S320000x1, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x256, .f32⟩
  | 36 => ⟨S320000x256, .f32⟩
  | 37 => ⟨S320000x256, .f32⟩
  | 38 => ⟨S_, .f32⟩
  | 39 => ⟨S10000x256, .f32⟩
  | 40 => ⟨S320000x1, .i32⟩
  | 41 => ⟨S10000x256, .f32⟩
  | 42 => ⟨S_, .f32⟩
  | 43 => ⟨S10000x256, .f32⟩
  | 44 => ⟨S10000x256, .f32⟩
  | 45 => ⟨S10000x256, .f32⟩
  | 46 => ⟨S1x256x256, .f32⟩
  | 47 => ⟨S256x256, .f32⟩
  | 48 => ⟨S1x256x256, .f32⟩
  | 49 => ⟨S256x256, .f32⟩
  | 50 => ⟨S1x256x256, .f32⟩
  | 51 => ⟨S256x256, .f32⟩
  | 52 => ⟨S1x256, .f32⟩
  | 53 => ⟨S1x256, .f32⟩
  | 54 => ⟨S1x256, .f32⟩
  | 55 => ⟨S10000x256, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S1000x256, .f32⟩
  | .local _ .vmem, ⟨5, _⟩ => ⟨S1000x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S1000x256, .f32⟩
  | .local _ .vmem, ⟨16, _⟩ => ⟨S1000x256, .f32⟩
  | .local _ .vmem, ⟨17, _⟩ => ⟨S1000x256, .f32⟩
  | .local _ .vmem, ⟨18, _⟩ => ⟨S1000x256, .f32⟩
  | .local _ .vmem, ⟨19, _⟩ => ⟨S1000x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1000x256, .f32⟩
  | .local _ .vmem, ⟨27, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_call0_v0 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_call1_v0 : Ref sig .tc := ⟨.hbm, 22, rfl⟩
abbrev main_call0_v6 : Ref sig .tc := ⟨.hbm, 23, rfl⟩
abbrev main_call0_cst_0 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_call2_v0 : Ref sig .tc := ⟨.hbm, 28, rfl⟩
abbrev main_v0 : Ref sig .tc := ⟨.hbm, 29, rfl⟩
abbrev main_v1 : Ref sig .tc := ⟨.hbm, 30, rfl⟩
abbrev main_cst_2 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_4 : Ref sig .tc := ⟨.hbm, 42, rfl⟩
abbrev main_v11 : Ref sig .tc := ⟨.hbm, 43, rfl⟩
abbrev main_v12 : Ref sig .tc := ⟨.hbm, 44, rfl⟩
abbrev main_cst_5 : Ref sig .tc := ⟨.hbm, 45, rfl⟩
abbrev main_v13 : Ref sig .tc := ⟨.hbm, 46, rfl⟩
abbrev main_v14 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v15 : Ref sig .tc := ⟨.hbm, 51, rfl⟩
abbrev main_c : Ref sig .tc := ⟨.hbm, 52, rfl⟩
abbrev main_v16 : Ref sig .tc := ⟨.hbm, 53, rfl⟩
abbrev main_v17 : Ref sig .tc := ⟨.hbm, 54, rfl⟩
abbrev main_c_7 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_8 : Ref sig .tc := ⟨.hbm, 63, rfl⟩
abbrev main_v25 : Ref sig .tc := ⟨.hbm, 64, rfl⟩
abbrev main_v26 : Ref sig .tc := ⟨.hbm, 65, rfl⟩
abbrev main_c_9 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_10 : Ref sig .tc := ⟨.hbm, 73, rfl⟩
abbrev main_cst_11 : Ref sig .tc := ⟨.hbm, 74, rfl⟩
abbrev main_cst_12 : Ref sig .tc := ⟨.hbm, 75, rfl⟩
abbrev main_call2_v0 : Ref sig .tc := ⟨.hbm, 76, rfl⟩
abbrev main_call2_v1 : Ref sig .tc := ⟨.hbm, 77, rfl⟩
abbrev main_call2_call0_v0 : Ref sig .tc := ⟨.hbm, 78, rfl⟩
abbrev main_call2_v2 : Ref sig .tc := ⟨.hbm, 79, rfl⟩
abbrev main_call2_cst : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_call1_v0 : Ref sig .tc := ⟨.hbm, 84, rfl⟩
abbrev main_call2_v6 : Ref sig .tc := ⟨.hbm, 85, rfl⟩
abbrev main_call2_cst_0 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_call2_v0 : Ref sig .tc := ⟨.hbm, 90, rfl⟩
abbrev main_v33 : Ref sig .tc := ⟨.hbm, 91, rfl⟩
abbrev main_v34 : Ref sig .tc := ⟨.hbm, 92, rfl⟩
abbrev main_c_13 : Ref sig .tc := ⟨.hbm, 93, rfl⟩
abbrev main_v35 : Ref sig .tc := ⟨.hbm, 94, rfl⟩
abbrev main_v36 : Ref sig .tc := ⟨.hbm, 95, rfl⟩
abbrev main_c_14 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_cst_15 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_c_16 : Ref sig .tc := ⟨.hbm, 109, rfl⟩
abbrev main_v48 : Ref sig .tc := ⟨.hbm, 110, rfl⟩
abbrev main_v49 : Ref sig .tc := ⟨.hbm, 111, rfl⟩
abbrev main_c_17 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_cst_18 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_19 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_c_20 : Ref sig .tc := ⟨.hbm, 139, rfl⟩
abbrev main_v74 : Ref sig .tc := ⟨.hbm, 140, rfl⟩
abbrev main_v75 : Ref sig .tc := ⟨.hbm, 141, rfl⟩
abbrev main_c_21 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_cst_22 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_c_23 : Ref sig .tc := ⟨.hbm, 155, rfl⟩
abbrev main_v87 : Ref sig .tc := ⟨.hbm, 156, rfl⟩
abbrev main_v88 : Ref sig .tc := ⟨.hbm, 157, rfl⟩
abbrev main_c_24 : Ref sig .tc := ⟨.hbm, 158, rfl⟩
abbrev main_v89 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_cst_25 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_cst_26 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S320000 : S_.BroadcastsInDim S320000 (![] : Fin 0 → Fin S320000.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  bcast_S320000x1_S320000x256_0_1 : S320000x1.BroadcastsInDim S320000x256 (![0, 1] : Fin 2 → Fin S320000x256.rank)
  slices_S3x256x256_S1x256x256_0_0_0 : S3x256x256.Slices ![0, 0, 0] S1x256x256
  shapeCasts_S1x256x256_S256x256 : S1x256x256.ShapeCasts S256x256
  slices_S3x256x256_S1x256x256_1_0_0 : S3x256x256.Slices ![1, 0, 0] S1x256x256
  slices_S3x256x256_S1x256x256_2_0_0 : S3x256x256.Slices ![2, 0, 0] S1x256x256
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S1000 : S1000x256.Reduces [1] S1000
  shapeCasts_S1000_S1000x1 : S1000.ShapeCasts S1000x1
  broadcasts_S1000x1_S1000x256 : S1000x1.Broadcasts S1000x256
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S10000x256.size a
  hwx0_1 : ∀ i : grid0.Coords, EltTy.bits .f32 = 32 ∨ (Rect.block (s := S10000x256) S1000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S10000x256.size a
  hwx0_2 : ∀ i : grid0.Coords, EltTy.bits .f32 = 32 ∨ (Rect.block (s := S10000x256) S1000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x256.size a ≤ S10000x256.size a
  hwx0_9 : ∀ i : grid0.Coords, EltTy.bits .f32 = 32 ∨ (Rect.block (s := S10000x256) S1000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1000x256.size a ≤ S10000x256.size a
  hwx1_9 : ∀ i : grid1.Coords, EltTy.bits .f32 = 32 ∨ (Rect.block (s := S10000x256) S1000x256.size (cc1_transform_9 i) (hinb1_9 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v33) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S1000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v64) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v68) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v69) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v70) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v71) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v72) S1000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v72) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v85) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v101) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v103) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v105) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v107) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v108) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v109) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v110) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v111) S1000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S3x256x256 : Shape := ⟨3, ![3, 256, 256]⟩
abbrev S256 : Shape := ⟨1, ![256]⟩
abbrev S_ : Shape := ⟨0, ![]⟩
abbrev S1x320000 : Shape := ⟨2, ![1, 320000]⟩
abbrev S10000 : Shape := ⟨1, ![10000]⟩
abbrev S320000x1 : Shape := ⟨2, ![320000, 1]⟩
abbrev S1x256x256 : Shape := ⟨3, ![1, 256, 256]⟩
abbrev S256x256 : Shape := ⟨2, ![256, 256]⟩
abbrev S320000x256 : Shape := ⟨2, ![320000, 256]⟩
abbrev S1x256 : Shape := ⟨2, ![1, 256]⟩
abbrev S10000x1 : Shape := ⟨2, ![10000, 1]⟩

abbrev nBuf : Space → Nat
  | .hbm => 410
  | .vmem => 0
  | .smem => 0
  | _ => 0

abbrev hbmTy0_0 (i : Nat) : BufTy := match i % 128 with
  | 0 => ⟨S10000x256, .f32⟩
  | 1 => ⟨S2x320000, .i32⟩
  | 2 => ⟨S320000, .f32⟩
  | 3 => ⟨S3x256x256, .f32⟩
  | 4 => ⟨S256, .f32⟩
  | 5 => ⟨S256, .f32⟩
  | 6 => ⟨S256, .f32⟩
  | 7 => ⟨S3x256x256, .f32⟩
  | 8 => ⟨S256, .f32⟩
  | 9 => ⟨S256, .f32⟩
  | 10 => ⟨S256, .f32⟩
  | 11 => ⟨S_, .f32⟩
  | 12 => ⟨S_, .f32⟩
  | 13 => ⟨S_, .f32⟩
  | 14 => ⟨S320000, .i1⟩
  | 15 => ⟨S_, .f32⟩
  | 16 => ⟨S320000, .f32⟩
  | 17 => ⟨S320000, .f32⟩
  | 18 => ⟨S_, .f32⟩
  | 19 => ⟨S320000, .f32⟩
  | 20 => ⟨S320000, .i1⟩
  | 21 => ⟨S_, .f32⟩
  | 22 => ⟨S320000, .f32⟩
  | 23 => ⟨S320000, .f32⟩
  | 24 => ⟨S_, .f32⟩
  | 25 => ⟨S320000, .f32⟩
  | 26 => ⟨S320000, .i1⟩
  | 27 => ⟨S_, .f32⟩
  | 28 => ⟨S320000, .f32⟩
  | 29 => ⟨S320000, .f32⟩
  | 30 => ⟨S320000, .f32⟩
  | 31 => ⟨S_, .f32⟩
  | 32 => ⟨S320000, .f32⟩
  | 33 => ⟨S320000, .f32⟩
  | 34 => ⟨S1x320000, .i32⟩
  | 35 => ⟨S320000, .i32⟩
  | 36 => ⟨S1x320000, .i32⟩
  | 37 => ⟨S320000, .i32⟩
  | 38 => ⟨S_, .f32⟩
  | 39 => ⟨S10000, .f32⟩
  | 40 => ⟨S320000x1, .i32⟩
  | 41 => ⟨S10000, .f32⟩
  | 42 => ⟨S_, .f32⟩
  | 43 => ⟨S10000, .f32⟩
  | 44 => ⟨S10000, .i1⟩
  | 45 => ⟨S_, .f32⟩
  | 46 => ⟨S10000, .f32⟩
  | 47 => ⟨S10000, .f32⟩
  | 48 => ⟨S_, .f32⟩
  | 49 => ⟨S_, .f32⟩
  | 50 => ⟨S10000, .f32⟩
  | 51 => ⟨S10000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000, .f32⟩
  | 61 => ⟨S320000, .f32⟩
  | 62 => ⟨S320000, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000, .f32⟩
  | 72 => ⟨S320000, .f32⟩
  | 73 => ⟨S_, .f32⟩
  | 74 => ⟨S_, .f32⟩
  | 75 => ⟨S_, .f32⟩
  | 76 => ⟨S10000x256, .i1⟩
  | 77 => ⟨S_, .f32⟩
  | 78 => ⟨S10000x256, .f32⟩
  | 79 => ⟨S10000x256, .f32⟩
  | 80 => ⟨S_, .f32⟩
  | 81 => ⟨S10000x256, .f32⟩
  | 82 => ⟨S10000x256, .i1⟩
  | 83 => ⟨S_, .f32⟩
  | 84 => ⟨S10000x256, .f32⟩
  | 85 => ⟨S10000x256, .f32⟩
  | 86 => ⟨S_, .f32⟩
  | 87 => ⟨S10000x256, .f32⟩
  | 88 => ⟨S10000x256, .i1⟩
  | 89 => ⟨S_, .f32⟩
  | 90 => ⟨S10000x256, .f32⟩
  | 91 => ⟨S10000x256, .f32⟩
  | 92 => ⟨S1x256x256, .f32⟩
  | 93 => ⟨S256x256, .f32⟩
  | 94 => ⟨S10000x256, .f32⟩
  | 95 => ⟨S320000x1, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000x256, .f32⟩
  | 105 => ⟨S320000x256, .f32⟩
  | 106 => ⟨S320000x256, .f32⟩
  | 107 => ⟨S_, .f32⟩
  | 108 => ⟨S10000x256, .f32⟩
  | 109 => ⟨S320000x1, .i32⟩
  | 110 => ⟨S10000x256, .f32⟩
  | 111 => ⟨S1x256x256, .f32⟩
  | 112 => ⟨S256x256, .f32⟩
  | 113 => ⟨S10000x256, .f32⟩
  | 114 => ⟨S10000x256, .f32⟩
  | 115 => ⟨S320000x1, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x256, .f32⟩
  | 125 => ⟨S320000x256, .f32⟩
  | 126 => ⟨S320000x256, .f32⟩
  | 127 => ⟨S_, .f32⟩
  | _ => ⟨S10000x256, .f32⟩

abbrev hbmTy0_1 (i : Nat) : BufTy := match i % 128 with
  | 0 => ⟨S10000x256, .f32⟩
  | 1 => ⟨S320000x1, .i32⟩
  | 2 => ⟨S10000x256, .f32⟩
  | 3 => ⟨S_, .f32⟩
  | 4 => ⟨S10000x256, .f32⟩
  | 5 => ⟨S10000x256, .f32⟩
  | 6 => ⟨S10000x256, .f32⟩
  | 7 => ⟨S1x256x256, .f32⟩
  | 8 => ⟨S256x256, .f32⟩
  | 9 => ⟨S10000x256, .f32⟩
  | 10 => ⟨S10000x256, .f32⟩
  | 11 => ⟨S1x256, .f32⟩
  | 12 => ⟨S10000x256, .f32⟩
  | 13 => ⟨S10000x256, .f32⟩
  | 14 => ⟨S_, .f32⟩
  | 15 => ⟨S_, .f32⟩
  | 16 => ⟨S_, .f32⟩
  | 17 => ⟨S10000x256, .i1⟩
  | 18 => ⟨S_, .f32⟩
  | 19 => ⟨S10000x256, .f32⟩
  | 20 => ⟨S10000x256, .f32⟩
  | 21 => ⟨S_, .f32⟩
  | 22 => ⟨S10000x256, .f32⟩
  | 23 => ⟨S10000x256, .i1⟩
  | 24 => ⟨S_, .f32⟩
  | 25 => ⟨S10000x256, .f32⟩
  | 26 => ⟨S10000x256, .f32⟩
  | 27 => ⟨S_, .f32⟩
  | 28 => ⟨S10000x256, .f32⟩
  | 29 => ⟨S10000x256, .i1⟩
  | 30 => ⟨S_, .f32⟩
  | 31 => ⟨S10000x256, .f32⟩
  | 32 => ⟨S10000x256, .f32⟩
  | 33 => ⟨S_, .f32⟩
  | 34 => ⟨S10000, .f32⟩
  | 35 => ⟨S10000x1, .f32⟩
  | 36 => ⟨S_, .f32⟩
  | 37 => ⟨S10000x1, .f32⟩
  | 38 => ⟨S10000x1, .f32⟩
  | 39 => ⟨S10000x256, .f32⟩
  | 40 => ⟨S10000x256, .f32⟩
  | 41 => ⟨S10000x256, .f32⟩
  | 42 => ⟨S_, .f32⟩
  | 43 => ⟨S10000, .f32⟩
  | 44 => ⟨S10000x1, .f32⟩
  | 45 => ⟨S_, .f32⟩
  | 46 => ⟨S10000x1, .f32⟩
  | 47 => ⟨S10000x1, .f32⟩
  | 48 => ⟨S10000x256, .f32⟩
  | 49 => ⟨S10000x256, .f32⟩
  | 50 => ⟨S_, .f32⟩
  | 51 => ⟨S10000x1, .f32⟩
  | 52 => ⟨S10000x1, .f32⟩
  | 53 => ⟨S10000x1, .f32⟩
  | 54 => ⟨S10000x256, .f32⟩
  | 55 => ⟨S10000x256, .f32⟩
  | 56 => ⟨S1x256, .f32⟩
  | 57 => ⟨S10000x256, .f32⟩
  | 58 => ⟨S10000x256, .f32⟩
  | 59 => ⟨S1x256, .f32⟩
  | 60 => ⟨S10000x256, .f32⟩
  | 61 => ⟨S10000x256, .f32⟩
  | 62 => ⟨S_, .f32⟩
  | 63 => ⟨S_, .f32⟩
  | 64 => ⟨S_, .f32⟩
  | 65 => ⟨S10000x256, .i1⟩
  | 66 => ⟨S_, .f32⟩
  | 67 => ⟨S10000x256, .f32⟩
  | 68 => ⟨S10000x256, .f32⟩
  | 69 => ⟨S_, .f32⟩
  | 70 => ⟨S10000x256, .f32⟩
  | 71 => ⟨S10000x256, .i1⟩
  | 72 => ⟨S_, .f32⟩
  | 73 => ⟨S10000x256, .f32⟩
  | 74 => ⟨S10000x256, .f32⟩
  | 75 => ⟨S_, .f32⟩
  | 76 => ⟨S10000x256, .f32⟩
  | 77 => ⟨S10000x256, .i1⟩
  | 78 => ⟨S_, .f32⟩
  | 79 => ⟨S10000x256, .f32⟩
  | 80 => ⟨S10000x256, .f32⟩
  | 81 => ⟨S_, .f32⟩
  | 82 => ⟨S10000x256, .f32⟩
  | 83 => ⟨S10000x256, .f32⟩
  | 84 => ⟨S_, .f32⟩
  | 85 => ⟨S_, .f32⟩
  | 86 => ⟨S_, .f32⟩
  | 87 => ⟨S10000x256, .i1⟩
  | 88 => ⟨S_, .f32⟩
  | 89 => ⟨S10000x256, .f32⟩
  | 90 => ⟨S10000x256, .f32⟩
  | 91 => ⟨S_, .f32⟩
  | 92 => ⟨S10000x256, .f32⟩
  | 93 => ⟨S10000x256, .i1⟩
  | 94 => ⟨S_, .f32⟩
  | 95 => ⟨S10000x256, .f32⟩
  | 96 => ⟨S10000x256, .f32⟩
  | 97 => ⟨S_, .f32⟩
  | 98 => ⟨S10000x256, .f32⟩
  | 99 => ⟨S10000x256, .i1⟩
  | 100 => ⟨S_, .f32⟩
  | 101 => ⟨S10000x256, .f32⟩
  | 102 => ⟨S10000x256, .f32⟩
  | 103 => ⟨S10000x256, .f32⟩
  | 104 => ⟨S_, .f32⟩
  | 105 => ⟨S_, .f32⟩
  | 106 => ⟨S_, .f32⟩
  | 107 => ⟨S10000x256, .i1⟩
  | 108 => ⟨S_, .f32⟩
  | 109 => ⟨S10000x256, .f32⟩
  | 110 => ⟨S10000x256, .f32⟩
  | 111 => ⟨S_, .f32⟩
  | 112 => ⟨S10000x256, .f32⟩
  | 113 => ⟨S10000x256, .i1⟩
  | 114 => ⟨S_, .f32⟩
  | 115 => ⟨S10000x256, .f32⟩
  | 116 => ⟨S10000x256, .f32⟩
  | 117 => ⟨S_, .f32⟩
  | 118 => ⟨S10000x256, .f32⟩
  | 119 => ⟨S10000x256, .i1⟩
  | 120 => ⟨S_, .f32⟩
  | 121 => ⟨S10000x256, .f32⟩
  | 122 => ⟨S10000x256, .f32⟩
  | 123 => ⟨S1x256x256, .f32⟩
  | 124 => ⟨S256x256, .f32⟩
  | 125 => ⟨S10000x256, .f32⟩
  | 126 => ⟨S320000x1, .f32⟩
  | 127 => ⟨S_, .i32⟩
  | _ => ⟨S10000x256, .f32⟩

abbrev hbmTy0_2 (i : Nat) : BufTy := match i % 128 with
  | 0 => ⟨S320000, .i32⟩
  | 1 => ⟨S320000, .i1⟩
  | 2 => ⟨S_, .i32⟩
  | 3 => ⟨S320000, .i32⟩
  | 4 => ⟨S320000, .i32⟩
  | 5 => ⟨S320000, .i32⟩
  | 6 => ⟨S320000x1, .i32⟩
  | 7 => ⟨S320000x256, .f32⟩
  | 8 => ⟨S320000x256, .f32⟩
  | 9 => ⟨S320000x256, .f32⟩
  | 10 => ⟨S_, .f32⟩
  | 11 => ⟨S10000x256, .f32⟩
  | 12 => ⟨S320000x1, .i32⟩
  | 13 => ⟨S10000x256, .f32⟩
  | 14 => ⟨S1x256x256, .f32⟩
  | 15 => ⟨S256x256, .f32⟩
  | 16 => ⟨S10000x256, .f32⟩
  | 17 => ⟨S10000x256, .f32⟩
  | 18 => ⟨S320000x1, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x256, .f32⟩
  | 28 => ⟨S320000x256, .f32⟩
  | 29 => ⟨S320000x256, .f32⟩
  | 30 => ⟨S_, .f32⟩
  | 31 => ⟨S10000x256, .f32⟩
  | 32 => ⟨S320000x1, .i32⟩
  | 33 => ⟨S10000x256, .f32⟩
  | 34 => ⟨S_, .f32⟩
  | 35 => ⟨S10000x256, .f32⟩
  | 36 => ⟨S10000x256, .f32⟩
  | 37 => ⟨S10000x256, .f32⟩
  | 38 => ⟨S1x256x256, .f32⟩
  | 39 => ⟨S256x256, .f32⟩
  | 40 => ⟨S10000x256, .f32⟩
  | 41 => ⟨S10000x256, .f32⟩
  | 42 => ⟨S1x256, .f32⟩
  | 43 => ⟨S10000x256, .f32⟩
  | 44 => ⟨S10000x256, .f32⟩
  | 45 => ⟨S_, .f32⟩
  | 46 => ⟨S_, .f32⟩
  | 47 => ⟨S_, .f32⟩
  | 48 => ⟨S10000x256, .i1⟩
  | 49 => ⟨S_, .f32⟩
  | 50 => ⟨S10000x256, .f32⟩
  | 51 => ⟨S10000x256, .f32⟩
  | 52 => ⟨S_, .f32⟩
  | 53 => ⟨S10000x256, .f32⟩
  | 54 => ⟨S10000x256, .i1⟩
  | 55 => ⟨S_, .f32⟩
  | 56 => ⟨S10000x256, .f32⟩
  | 57 => ⟨S10000x256, .f32⟩
  | 58 => ⟨S_, .f32⟩
  | 59 => ⟨S10000x256, .f32⟩
  | 60 => ⟨S10000x256, .i1⟩
  | 61 => ⟨S_, .f32⟩
  | 62 => ⟨S10000x256, .f32⟩
  | 63 => ⟨S10000x256, .f32⟩
  | 64 => ⟨S_, .f32⟩
  | 65 => ⟨S10000, .f32⟩
  | 66 => ⟨S10000x1, .f32⟩
  | 67 => ⟨S_, .f32⟩
  | 68 => ⟨S10000x1, .f32⟩
  | 69 => ⟨S10000x1, .f32⟩
  | 70 => ⟨S10000x256, .f32⟩
  | 71 => ⟨S10000x256, .f32⟩
  | 72 => ⟨S10000x256, .f32⟩
  | 73 => ⟨S_, .f32⟩
  | 74 => ⟨S10000, .f32⟩
  | 75 => ⟨S10000x1, .f32⟩
  | 76 => ⟨S_, .f32⟩
  | 77 => ⟨S10000x1, .f32⟩
  | 78 => ⟨S10000x1, .f32⟩
  | 79 => ⟨S10000x256, .f32⟩
  | 80 => ⟨S10000x256, .f32⟩
  | 81 => ⟨S_, .f32⟩
  | 82 => ⟨S10000x1, .f32⟩
  | 83 => ⟨S10000x1, .f32⟩
  | 84 => ⟨S10000x1, .f32⟩
  | 85 => ⟨S10000x256, .f32⟩
  | 86 => ⟨S10000x256, .f32⟩
  | 87 => ⟨S1x256, .f32⟩
  | 88 => ⟨S10000x256, .f32⟩
  | 89 => ⟨S10000x256, .f32⟩
  | 90 => ⟨S1x256, .f32⟩
  | 91 => ⟨S10000x256, .f32⟩
  | 92 => ⟨S10000x256, .f32⟩
  | 93 => ⟨S_, .f32⟩
  | 94 => ⟨S_, .f32⟩
  | 95 => ⟨S_, .f32⟩
  | 96 => ⟨S10000x256, .i1⟩
  | 97 => ⟨S_, .f32⟩
  | 98 => ⟨S10000x256, .f32⟩
  | 99 => ⟨S10000x256, .f32⟩
  | 100 => ⟨S_, .f32⟩
  | 101 => ⟨S10000x256, .f32⟩
  | 102 => ⟨S10000x256, .i1⟩
  | 103 => ⟨S_, .f32⟩
  | 104 => ⟨S10000x256, .f32⟩
  | 105 => ⟨S10000x256, .f32⟩
  | 106 => ⟨S_, .f32⟩
  | 107 => ⟨S10000x256, .f32⟩
  | 108 => ⟨S10000x256, .i1⟩
  | 109 => ⟨S_, .f32⟩
  | 110 => ⟨S10000x256, .f32⟩
  | 111 => ⟨S10000x256, .f32⟩
  | 112 => ⟨S_, .f32⟩
  | 113 => ⟨S10000x256, .f32⟩
  | 114 => ⟨S10000x256, .f32⟩
  | 115 => ⟨S_, .f32⟩
  | 116 => ⟨S_, .f32⟩
  | 117 => ⟨S_, .f32⟩
  | 118 => ⟨S10000x256, .i1⟩
  | 119 => ⟨S_, .f32⟩
  | 120 => ⟨S10000x256, .f32⟩
  | 121 => ⟨S10000x256, .f32⟩
  | 122 => ⟨S_, .f32⟩
  | 123 => ⟨S10000x256, .f32⟩
  | 124 => ⟨S10000x256, .i1⟩
  | 125 => ⟨S_, .f32⟩
  | 126 => ⟨S10000x256, .f32⟩
  | 127 => ⟨S10000x256, .f32⟩
  | _ => ⟨S10000x256, .f32⟩

abbrev hbmTy0_3 (i : Nat) : BufTy := match i % 128 with
  | 0 => ⟨S_, .f32⟩
  | 1 => ⟨S10000x256, .f32⟩
  | 2 => ⟨S10000x256, .i1⟩
  | 3 => ⟨S_, .f32⟩
  | 4 => ⟨S10000x256, .f32⟩
  | 5 => ⟨S10000x256, .f32⟩
  | 6 => ⟨S10000x256, .f32⟩
  | 7 => ⟨S_, .f32⟩
  | 8 => ⟨S_, .f32⟩
  | 9 => ⟨S_, .f32⟩
  | 10 => ⟨S10000x256, .i1⟩
  | 11 => ⟨S_, .f32⟩
  | 12 => ⟨S10000x256, .f32⟩
  | 13 => ⟨S10000x256, .f32⟩
  | 14 => ⟨S_, .f32⟩
  | 15 => ⟨S10000x256, .f32⟩
  | 16 => ⟨S10000x256, .i1⟩
  | 17 => ⟨S_, .f32⟩
  | 18 => ⟨S10000x256, .f32⟩
  | 19 => ⟨S10000x256, .f32⟩
  | 20 => ⟨S_, .f32⟩
  | 21 => ⟨S10000x256, .f32⟩
  | 22 => ⟨S10000x256, .i1⟩
  | 23 => ⟨S_, .f32⟩
  | 24 => ⟨S10000x256, .f32⟩
  | 25 => ⟨S10000x256, .f32⟩
  | _ => ⟨S10000x256, .f32⟩

abbrev hbmTy (i : Nat) : BufTy := match i / 128 with
  | 0 => hbmTy0_0 i
  | 1 => hbmTy0_1 i
  | 2 => hbmTy0_2 i
  | 3 => hbmTy0_3 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_call0_call0_v0 : Ref sig .tc := ⟨.hbm, 16, rfl⟩
abbrev main_call0_v2 : Ref sig .tc := ⟨.hbm, 17, rfl⟩
abbrev main_call0_cst : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_call1_v0 : Ref sig .tc := ⟨.hbm, 22, rfl⟩
abbrev main_call0_v6 : Ref sig .tc := ⟨.hbm, 23, rfl⟩
abbrev main_call0_cst_0 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_call2_v0 : Ref sig .tc := ⟨.hbm, 28, rfl⟩
abbrev main_v0 : Ref sig .tc := ⟨.hbm, 29, rfl⟩
abbrev main_v1 : Ref sig .tc := ⟨.hbm, 30, rfl⟩
abbrev main_cst_2 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_3 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_4 : Ref sig .tc := ⟨.hbm, 42, rfl⟩
abbrev main_v11 : Ref sig .tc := ⟨.hbm, 43, rfl⟩
abbrev main_v12 : Ref sig .tc := ⟨.hbm, 44, rfl⟩
abbrev main_cst_5 : Ref sig .tc := ⟨.hbm, 45, rfl⟩
abbrev main_v13 : Ref sig .tc := ⟨.hbm, 46, rfl⟩
abbrev main_v14 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v15 : Ref sig .tc := ⟨.hbm, 51, rfl⟩
abbrev main_c : Ref sig .tc := ⟨.hbm, 52, rfl⟩
abbrev main_v16 : Ref sig .tc := ⟨.hbm, 53, rfl⟩
abbrev main_v17 : Ref sig .tc := ⟨.hbm, 54, rfl⟩
abbrev main_c_7 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_8 : Ref sig .tc := ⟨.hbm, 63, rfl⟩
abbrev main_v25 : Ref sig .tc := ⟨.hbm, 64, rfl⟩
abbrev main_v26 : Ref sig .tc := ⟨.hbm, 65, rfl⟩
abbrev main_c_9 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_10 : Ref sig .tc := ⟨.hbm, 73, rfl⟩
abbrev main_cst_11 : Ref sig .tc := ⟨.hbm, 74, rfl⟩
abbrev main_cst_12 : Ref sig .tc := ⟨.hbm, 75, rfl⟩
abbrev main_call2_v0 : Ref sig .tc := ⟨.hbm, 76, rfl⟩
abbrev main_call2_v1 : Ref sig .tc := ⟨.hbm, 77, rfl⟩
abbrev main_call2_call0_v0 : Ref sig .tc := ⟨.hbm, 78, rfl⟩
abbrev main_call2_v2 : Ref sig .tc := ⟨.hbm, 79, rfl⟩
abbrev main_call2_cst : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_call1_v0 : Ref sig .tc := ⟨.hbm, 84, rfl⟩
abbrev main_call2_v6 : Ref sig .tc := ⟨.hbm, 85, rfl⟩
abbrev main_call2_cst_0 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_call2_v0 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_c_13 : Ref sig .tc := ⟨.hbm, 96, rfl⟩
abbrev main_v38 : Ref sig .tc := ⟨.hbm, 97, rfl⟩
abbrev main_v39 : Ref sig .tc := ⟨.hbm, 98, rfl⟩
abbrev main_c_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_cst_15 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_c_16 : Ref sig .tc := ⟨.hbm, 116, rfl⟩
abbrev main_v55 : Ref sig .tc := ⟨.hbm, 117, rfl⟩
abbrev main_v56 : Ref sig .tc := ⟨.hbm, 118, rfl⟩
abbrev main_c_17 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_cst_18 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_cst_19 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_cst_20 : Ref sig .tc := ⟨.hbm, 142, rfl⟩
abbrev main_cst_21 : Ref sig .tc := ⟨.hbm, 143, rfl⟩
abbrev main_cst_22 : Ref sig .tc := ⟨.hbm, 144, rfl⟩
abbrev main_call3_v0 : Ref sig .tc := ⟨.hbm, 145, rfl⟩
abbrev main_call3_v1 : Ref sig .tc := ⟨.hbm, 146, rfl⟩
abbrev main_call3_call0_v0 : Ref sig .tc := ⟨.hbm, 147, rfl⟩
abbrev main_call3_v2 : Ref sig .tc := ⟨.hbm, 148, rfl⟩
abbrev main_call3_cst : Ref sig .tc := ⟨.hbm, 149, rfl⟩
abbrev main_call3_v3 : Ref sig .tc := ⟨.hbm, 150, rfl⟩
abbrev main_call3_v4 : Ref sig .tc := ⟨.hbm, 151, rfl⟩
abbrev main_call3_v5 : Ref sig .tc := ⟨.hbm, 152, rfl⟩
abbrev main_call3_call1_v0 : Ref sig .tc := ⟨.hbm, 153, rfl⟩
abbrev main_call3_v6 : Ref sig .tc := ⟨.hbm, 154, rfl⟩
abbrev main_call3_cst_0 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_call2_v0 : Ref sig .tc := ⟨.hbm, 159, rfl⟩
abbrev main_v77 : Ref sig .tc := ⟨.hbm, 160, rfl⟩
abbrev main_cst_23 : Ref sig .tc := ⟨.hbm, 161, rfl⟩
abbrev main_v78 : Ref sig .tc := ⟨.hbm, 162, rfl⟩
abbrev main_v79 : Ref sig .tc := ⟨.hbm, 163, rfl⟩
abbrev main_cst_24 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_cst_25 : Ref sig .tc := ⟨.hbm, 170, rfl⟩
abbrev main_v85 : Ref sig .tc := ⟨.hbm, 171, rfl⟩
abbrev main_v86 : Ref sig .tc := ⟨.hbm, 172, rfl⟩
abbrev main_cst_26 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_cst_27 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_v97 : Ref sig .tc := ⟨.hbm, 185, rfl⟩
abbrev main_v98 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_cst_28 : Ref sig .tc := ⟨.hbm, 190, rfl⟩
abbrev main_cst_29 : Ref sig .tc := ⟨.hbm, 191, rfl⟩
abbrev main_cst_30 : Ref sig .tc := ⟨.hbm, 192, rfl⟩
abbrev main_call4_v0 : Ref sig .tc := ⟨.hbm, 193, rfl⟩
abbrev main_call4_v1 : Ref sig .tc := ⟨.hbm, 194, rfl⟩
abbrev main_call4_call0_v0 : Ref sig .tc := ⟨.hbm, 195, rfl⟩
abbrev main_call4_v2 : Ref sig .tc := ⟨.hbm, 196, rfl⟩
abbrev main_call4_cst : Ref sig .tc := ⟨.hbm, 197, rfl⟩
abbrev main_call4_v3 : Ref sig .tc := ⟨.hbm, 198, rfl⟩
abbrev main_call4_v4 : Ref sig .tc := ⟨.hbm, 199, rfl⟩
abbrev main_call4_v5 : Ref sig .tc := ⟨.hbm, 200, rfl⟩
abbrev main_call4_call1_v0 : Ref sig .tc := ⟨.hbm, 201, rfl⟩
abbrev main_call4_v6 : Ref sig .tc := ⟨.hbm, 202, rfl⟩
abbrev main_call4_cst_0 : Ref sig .tc := ⟨.hbm, 203, rfl⟩
abbrev main_call4_v7 : Ref sig .tc := ⟨.hbm, 204, rfl⟩
abbrev main_call4_v8 : Ref sig .tc := ⟨.hbm, 205, rfl⟩
abbrev main_call4_v9 : Ref sig .tc := ⟨.hbm, 206, rfl⟩
abbrev main_call4_call2_v0 : Ref sig .tc := ⟨.hbm, 207, rfl⟩
abbrev main_v102 : Ref sig .tc := ⟨.hbm, 208, rfl⟩
abbrev main_call5_cst : Ref sig .tc := ⟨.hbm, 209, rfl⟩
abbrev main_call5_v0 : Ref sig .tc := ⟨.hbm, 210, rfl⟩
abbrev main_v103 : Ref sig .tc := ⟨.hbm, 211, rfl⟩
abbrev main_cst_31 : Ref sig .tc := ⟨.hbm, 212, rfl⟩
abbrev main_cst_32 : Ref sig .tc := ⟨.hbm, 213, rfl⟩
abbrev main_cst_33 : Ref sig .tc := ⟨.hbm, 214, rfl⟩
abbrev main_call6_v0 : Ref sig .tc := ⟨.hbm, 215, rfl⟩
abbrev main_call6_v1 : Ref sig .tc := ⟨.hbm, 216, rfl⟩
abbrev main_call6_call0_v0 : Ref sig .tc := ⟨.hbm, 217, rfl⟩
abbrev main_call6_v2 : Ref sig .tc := ⟨.hbm, 218, rfl⟩
abbrev main_call6_cst : Ref sig .tc := ⟨.hbm, 219, rfl⟩
abbrev main_call6_v3 : Ref sig .tc := ⟨.hbm, 220, rfl⟩
abbrev main_call6_v4 : Ref sig .tc := ⟨.hbm, 221, rfl⟩
abbrev main_call6_v5 : Ref sig .tc := ⟨.hbm, 222, rfl⟩
abbrev main_call6_call1_v0 : Ref sig .tc := ⟨.hbm, 223, rfl⟩
abbrev main_call6_v6 : Ref sig .tc := ⟨.hbm, 224, rfl⟩
abbrev main_call6_cst_0 : Ref sig .tc := ⟨.hbm, 225, rfl⟩
abbrev main_call6_v7 : Ref sig .tc := ⟨.hbm, 226, rfl⟩
abbrev main_call6_v8 : Ref sig .tc := ⟨.hbm, 227, rfl⟩
abbrev main_call6_v9 : Ref sig .tc := ⟨.hbm, 228, rfl⟩
abbrev main_call6_call2_v0 : Ref sig .tc := ⟨.hbm, 229, rfl⟩
abbrev main_v104 : Ref sig .tc := ⟨.hbm, 230, rfl⟩
abbrev main_v105 : Ref sig .tc := ⟨.hbm, 231, rfl⟩
abbrev main_cst_34 : Ref sig .tc := ⟨.hbm, 232, rfl⟩
abbrev main_cst_35 : Ref sig .tc := ⟨.hbm, 233, rfl⟩
abbrev main_cst_36 : Ref sig .tc := ⟨.hbm, 234, rfl⟩
abbrev main_call7_v0 : Ref sig .tc := ⟨.hbm, 235, rfl⟩
abbrev main_call7_v1 : Ref sig .tc := ⟨.hbm, 236, rfl⟩
abbrev main_call7_call0_v0 : Ref sig .tc := ⟨.hbm, 237, rfl⟩
abbrev main_call7_v2 : Ref sig .tc := ⟨.hbm, 238, rfl⟩
abbrev main_call7_cst : Ref sig .tc := ⟨.hbm, 239, rfl⟩
abbrev main_call7_v3 : Ref sig .tc := ⟨.hbm, 240, rfl⟩
abbrev main_call7_v4 : Ref sig .tc := ⟨.hbm, 241, rfl⟩
abbrev main_call7_v5 : Ref sig .tc := ⟨.hbm, 242, rfl⟩
abbrev main_call7_call1_v0 : Ref sig .tc := ⟨.hbm, 243, rfl⟩
abbrev main_call7_v6 : Ref sig .tc := ⟨.hbm, 244, rfl⟩
abbrev main_call7_cst_0 : Ref sig .tc := ⟨.hbm, 245, rfl⟩
abbrev main_call7_v7 : Ref sig .tc := ⟨.hbm, 246, rfl⟩
abbrev main_call7_v8 : Ref sig .tc := ⟨.hbm, 247, rfl⟩
abbrev main_call7_v9 : Ref sig .tc := ⟨.hbm, 248, rfl⟩
abbrev main_call7_call2_v0 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_c_37 : Ref sig .tc := ⟨.hbm, 255, rfl⟩
abbrev main_v111 : Ref sig .tc := ⟨.hbm, 256, rfl⟩
abbrev main_v112 : Ref sig .tc := ⟨.hbm, 257, rfl⟩
abbrev main_c_38 : Ref sig .tc := ⟨.hbm, 258, rfl⟩
abbrev main_v113 : Ref sig .tc := ⟨.hbm, 259, rfl⟩
abbrev main_v114 : Ref sig .tc := ⟨.hbm, 260, rfl⟩
abbrev main_v115 : Ref sig .tc := ⟨.hbm, 261, rfl⟩
abbrev main_v116 : Ref sig .tc := ⟨.hbm, 262, rfl⟩
abbrev main_v117 : Ref sig .tc := ⟨.hbm, 263, rfl⟩
abbrev main_v118 : Ref sig .tc := ⟨.hbm, 264, rfl⟩
abbrev main_v119 : Ref sig .tc := ⟨.hbm, 265, rfl⟩
abbrev main_cst_39 : Ref sig .tc := ⟨.hbm, 266, rfl⟩
abbrev main_v120 : Ref sig .tc := ⟨.hbm, 267, rfl⟩
abbrev main_v121 : Ref sig .tc := ⟨.hbm, 268, rfl⟩
abbrev main_v122 : Ref sig .tc := ⟨.hbm, 269, rfl⟩
abbrev main_v123 : Ref sig .tc := ⟨.hbm, 270, rfl⟩
abbrev main_v124 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_c_40 : Ref sig .tc := ⟨.hbm, 275, rfl⟩
abbrev main_v128 : Ref sig .tc := ⟨.hbm, 276, rfl⟩
abbrev main_v129 : Ref sig .tc := ⟨.hbm, 277, rfl⟩
abbrev main_c_41 : Ref sig .tc := ⟨.hbm, 278, rfl⟩
abbrev main_v130 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩
abbrev main_cst_42 : Ref sig .tc := ⟨.hbm, 286, rfl⟩
abbrev main_v137 : Ref sig .tc := ⟨.hbm, 287, rfl⟩
abbrev main_v138 : Ref sig .tc := ⟨.hbm, 288, rfl⟩
abbrev main_v139 : Ref sig .tc := ⟨.hbm, 289, rfl⟩
abbrev main_cst_43 : Ref sig .tc := ⟨.hbm, 290, rfl⟩
abbrev main_v140 : Ref sig .tc := ⟨.hbm, 291, rfl⟩
abbrev main_v141 : Ref sig .tc := ⟨.hbm, 292, rfl⟩
abbrev main_v142 : Ref sig .tc := ⟨.hbm, 293, rfl⟩
abbrev main_v143 : Ref sig .tc := ⟨.hbm, 294, rfl⟩
abbrev main_v144 : Ref sig .tc := ⟨.hbm, 295, rfl⟩
abbrev main_v145 : Ref sig .tc := ⟨.hbm, 296, rfl⟩
abbrev main_v146 : Ref sig .tc := ⟨.hbm, 297, rfl⟩
abbrev main_v147 : Ref sig .tc := ⟨.hbm, 298, rfl⟩
abbrev main_v148 : Ref sig .tc := ⟨.hbm, 299, rfl⟩
abbrev main_v149 : Ref sig .tc := ⟨.hbm, 300, rfl⟩
abbrev main_cst_44 : Ref sig .tc := ⟨.hbm, 301, rfl⟩
abbrev main_cst_45 : Ref sig .tc := ⟨.hbm, 302, rfl⟩
abbrev main_cst_46 : Ref sig .tc := ⟨.hbm, 303, rfl⟩
abbrev main_call8_v0 : Ref sig .tc := ⟨.hbm, 304, rfl⟩
abbrev main_call8_v1 : Ref sig .tc := ⟨.hbm, 305, rfl⟩
abbrev main_call8_call0_v0 : Ref sig .tc := ⟨.hbm, 306, rfl⟩
abbrev main_call8_v2 : Ref sig .tc := ⟨.hbm, 307, rfl⟩
abbrev main_call8_cst : Ref sig .tc := ⟨.hbm, 308, rfl⟩
abbrev main_call8_v3 : Ref sig .tc := ⟨.hbm, 309, rfl⟩
abbrev main_call8_v4 : Ref sig .tc := ⟨.hbm, 310, rfl⟩
abbrev main_call8_v5 : Ref sig .tc := ⟨.hbm, 311, rfl⟩
abbrev main_call8_call1_v0 : Ref sig .tc := ⟨.hbm, 312, rfl⟩
abbrev main_call8_v6 : Ref sig .tc := ⟨.hbm, 313, rfl⟩
abbrev main_call8_cst_0 : Ref sig .tc := ⟨.hbm, 314, rfl⟩
abbrev main_call8_v7 : Ref sig .tc := ⟨.hbm, 315, rfl⟩
abbrev main_call8_v8 : Ref sig .tc := ⟨.hbm, 316, rfl⟩
abbrev main_call8_v9 : Ref sig .tc := ⟨.hbm, 317, rfl⟩
abbrev main_call8_call2_v0 : Ref sig .tc := ⟨.hbm, 318, rfl⟩
abbrev main_v150 : Ref sig .tc := ⟨.hbm, 319, rfl⟩
abbrev main_cst_47 : Ref sig .tc := ⟨.hbm, 320, rfl⟩
abbrev main_v151 : Ref sig .tc := ⟨.hbm, 321, rfl⟩
abbrev main_v152 : Ref sig .tc := ⟨.hbm, 322, rfl⟩
abbrev main_cst_48 : Ref sig .tc := ⟨.hbm, 323, rfl⟩
abbrev main_v153 : Ref sig .tc := ⟨.hbm, 324, rfl⟩
abbrev main_v154 : Ref sig .tc := ⟨.hbm, 325, rfl⟩
abbrev main_v155 : Ref sig .tc := ⟨.hbm, 326, rfl⟩
abbrev main_v156 : Ref sig .tc := ⟨.hbm, 327, rfl⟩
abbrev main_v157 : Ref sig .tc := ⟨.hbm, 328, rfl⟩
abbrev main_cst_49 : Ref sig .tc := ⟨.hbm, 329, rfl⟩
abbrev main_v158 : Ref sig .tc := ⟨.hbm, 330, rfl⟩
abbrev main_v159 : Ref sig .tc := ⟨.hbm, 331, rfl⟩
abbrev main_cst_50 : Ref sig .tc := ⟨.hbm, 332, rfl⟩
abbrev main_v160 : Ref sig .tc := ⟨.hbm, 333, rfl⟩
abbrev main_v161 : Ref sig .tc := ⟨.hbm, 334, rfl⟩
abbrev main_v162 : Ref sig .tc := ⟨.hbm, 335, rfl⟩
abbrev main_v163 : Ref sig .tc := ⟨.hbm, 336, rfl⟩
abbrev main_cst_51 : Ref sig .tc := ⟨.hbm, 337, rfl⟩
abbrev main_v164 : Ref sig .tc := ⟨.hbm, 338, rfl⟩
abbrev main_v165 : Ref sig .tc := ⟨.hbm, 339, rfl⟩
abbrev main_v166 : Ref sig .tc := ⟨.hbm, 340, rfl⟩
abbrev main_v167 : Ref sig .tc := ⟨.hbm, 341, rfl⟩
abbrev main_v168 : Ref sig .tc := ⟨.hbm, 342, rfl⟩
abbrev main_v169 : Ref sig .tc := ⟨.hbm, 343, rfl⟩
abbrev main_v170 : Ref sig .tc := ⟨.hbm, 344, rfl⟩
abbrev main_v171 : Ref sig .tc := ⟨.hbm, 345, rfl⟩
abbrev main_v172 : Ref sig .tc := ⟨.hbm, 346, rfl⟩
abbrev main_v173 : Ref sig .tc := ⟨.hbm, 347, rfl⟩
abbrev main_v174 : Ref sig .tc := ⟨.hbm, 348, rfl⟩
abbrev main_cst_52 : Ref sig .tc := ⟨.hbm, 349, rfl⟩
abbrev main_cst_53 : Ref sig .tc := ⟨.hbm, 350, rfl⟩
abbrev main_cst_54 : Ref sig .tc := ⟨.hbm, 351, rfl⟩
abbrev main_call9_v0 : Ref sig .tc := ⟨.hbm, 352, rfl⟩
abbrev main_call9_v1 : Ref sig .tc := ⟨.hbm, 353, rfl⟩
abbrev main_call9_call0_v0 : Ref sig .tc := ⟨.hbm, 354, rfl⟩
abbrev main_call9_v2 : Ref sig .tc := ⟨.hbm, 355, rfl⟩
abbrev main_call9_cst : Ref sig .tc := ⟨.hbm, 356, rfl⟩
abbrev main_call9_v3 : Ref sig .tc := ⟨.hbm, 357, rfl⟩
abbrev main_call9_v4 : Ref sig .tc := ⟨.hbm, 358, rfl⟩
abbrev main_call9_v5 : Ref sig .tc := ⟨.hbm, 359, rfl⟩
abbrev main_call9_call1_v0 : Ref sig .tc := ⟨.hbm, 360, rfl⟩
abbrev main_call9_v6 : Ref sig .tc := ⟨.hbm, 361, rfl⟩
abbrev main_call9_cst_0 : Ref sig .tc := ⟨.hbm, 362, rfl⟩
abbrev main_call9_v7 : Ref sig .tc := ⟨.hbm, 363, rfl⟩
abbrev main_call9_v8 : Ref sig .tc := ⟨.hbm, 364, rfl⟩
abbrev main_call9_v9 : Ref sig .tc := ⟨.hbm, 365, rfl⟩
abbrev main_call9_call2_v0 : Ref sig .tc := ⟨.hbm, 366, rfl⟩
abbrev main_v175 : Ref sig .tc := ⟨.hbm, 367, rfl⟩
abbrev main_call10_cst : Ref sig .tc := ⟨.hbm, 368, rfl⟩
abbrev main_call10_v0 : Ref sig .tc := ⟨.hbm, 369, rfl⟩
abbrev main_v176 : Ref sig .tc := ⟨.hbm, 370, rfl⟩
abbrev main_cst_55 : Ref sig .tc := ⟨.hbm, 371, rfl⟩
abbrev main_cst_56 : Ref sig .tc := ⟨.hbm, 372, rfl⟩
abbrev main_cst_57 : Ref sig .tc := ⟨.hbm, 373, rfl⟩
abbrev main_call11_v0 : Ref sig .tc := ⟨.hbm, 374, rfl⟩
abbrev main_call11_v1 : Ref sig .tc := ⟨.hbm, 375, rfl⟩
abbrev main_call11_call0_v0 : Ref sig .tc := ⟨.hbm, 376, rfl⟩
abbrev main_call11_v2 : Ref sig .tc := ⟨.hbm, 377, rfl⟩
abbrev main_call11_cst : Ref sig .tc := ⟨.hbm, 378, rfl⟩
abbrev main_call11_v3 : Ref sig .tc := ⟨.hbm, 379, rfl⟩
abbrev main_call11_v4 : Ref sig .tc := ⟨.hbm, 380, rfl⟩
abbrev main_call11_v5 : Ref sig .tc := ⟨.hbm, 381, rfl⟩
abbrev main_call11_call1_v0 : Ref sig .tc := ⟨.hbm, 382, rfl⟩
abbrev main_call11_v6 : Ref sig .tc := ⟨.hbm, 383, rfl⟩
abbrev main_call11_cst_0 : Ref sig .tc := ⟨.hbm, 384, rfl⟩
abbrev main_call11_v7 : Ref sig .tc := ⟨.hbm, 385, rfl⟩
abbrev main_call11_v8 : Ref sig .tc := ⟨.hbm, 386, rfl⟩
abbrev main_call11_v9 : Ref sig .tc := ⟨.hbm, 387, rfl⟩
abbrev main_call11_call2_v0 : Ref sig .tc := ⟨.hbm, 388, rfl⟩
abbrev main_v177 : Ref sig .tc := ⟨.hbm, 389, rfl⟩
abbrev main_v178 : Ref sig .tc := ⟨.hbm, 390, rfl⟩
abbrev main_cst_58 : Ref sig .tc := ⟨.hbm, 391, rfl⟩
abbrev main_cst_59 : Ref sig .tc := ⟨.hbm, 392, rfl⟩
abbrev main_cst_60 : Ref sig .tc := ⟨.hbm, 393, rfl⟩
abbrev main_call12_v0 : Ref sig .tc := ⟨.hbm, 394, rfl⟩
abbrev main_call12_v1 : Ref sig .tc := ⟨.hbm, 395, rfl⟩
abbrev main_call12_call0_v0 : Ref sig .tc := ⟨.hbm, 396, rfl⟩
abbrev main_call12_v2 : Ref sig .tc := ⟨.hbm, 397, rfl⟩
abbrev main_call12_cst : Ref sig .tc := ⟨.hbm, 398, rfl⟩
abbrev main_call12_v3 : Ref sig .tc := ⟨.hbm, 399, rfl⟩
abbrev main_call12_v4 : Ref sig .tc := ⟨.hbm, 400, rfl⟩
abbrev main_call12_v5 : Ref sig .tc := ⟨.hbm, 401, rfl⟩
abbrev main_call12_call1_v0 : Ref sig .tc := ⟨.hbm, 402, rfl⟩
abbrev main_call12_v6 : Ref sig .tc := ⟨.hbm, 403, rfl⟩
abbrev main_call12_cst_0 : Ref sig .tc := ⟨.hbm, 404, rfl⟩
abbrev main_call12_v7 : Ref sig .tc := ⟨.hbm, 405, rfl⟩
abbrev main_call12_v8 : Ref sig .tc := ⟨.hbm, 406, rfl⟩
abbrev main_call12_v9 : Ref sig .tc := ⟨.hbm, 407, rfl⟩
abbrev main_call12_call2_v0 : Ref sig .tc := ⟨.hbm, 408, rfl⟩
abbrev main_v179 : Ref sig .tc := ⟨.hbm, 409, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  slices_S3x256x256_S1x256x256_0_0_0 : S3x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  slices_S3x256x256_S1x256x256_1_0_0 : S3x256x256.Slices ![1, 0, 0] S1x256x256
  slices_S3x256x256_S1x256x256_2_0_0 : S3x256x256.Slices ![2, 0, 0] S1x256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.Stages.lean ====
/-
  The sparse half of the network as pure functions of the argument arrays: the same host operations both programs apply
  before and between their dense layers, named once.

    ewOf w        = max |scrub w| 1e-6                               edge weights made safe and positive
    rowOf e, colOf e                                                 the two rows of the edge list
    wrapOf i      = i < 0 ? i + 10000 : i, as a column               an index wrapped as jnp does
    degOf, disOf                                                     degree by scatter-add; deg^(-1/2) where deg > 0, else 0
    normOf e w    = -dis[row] · ew · dis[col]                        the scaled Laplacian's off-diagonal weights
    safeOf x      = scrub x
    propOf n r c t = scatter-add over rows r of n[:,None] · t[c]      one sparse product with the Laplacian
    tx2Of p t     = 2·p − t                                          the Chebyshev recurrence
    wOf k W       = W[k]                                             a [256,256] slice of the weights
-/
import proofs.«134588_j19095424598406_1_alg».proof.ReferenceIdeal
import proofs.«134588_j19095424598406_1_alg».proof.Proof.Gen.ReferenceIdeal

noncomputable section

namespace Cert.Stages

open Idealize.ShloMosaic Cert.ReferenceIdeal Cert.ReferenceIdeal.Facts₀

variable {F : FTy → Type} [FloatOps F]

/-- `nan_to_num(·, 0, 0, 0)` of an edge vector, as its three selects. -/
def scrubE (x : FVec F S320000 .f32) : FVec F S320000 .f32 :=
  let a := select (cmpf .une x x) (broadcastInDim S320000 ![] bcast_S_S320000 (id (constant S_ .f32 0x00000000#32))) x
  let b := select (cmpf .oeq a (broadcastInDim S320000 ![] bcast_S_S320000 (constant S_ .f32 0x7F800000#32)))
    (broadcastInDim S320000 ![] bcast_S_S320000 (id (constant S_ .f32 0x00000000#32))) a
  select (cmpf .oeq b (broadcastInDim S320000 ![] bcast_S_S320000 (constant S_ .f32 0xFF800000#32)))
    (broadcastInDim S320000 ![] bcast_S_S320000 (id (constant S_ .f32 0x00000000#32))) b

/-- The same of a node-feature array. -/
def safeOf (x : FVec F S10000x256 .f32) : FVec F S10000x256 .f32 :=
  let a := select (cmpf .une x x) (broadcastInDim S10000x256 ![] bcast_S_S10000x256 (id (constant S_ .f32 0x00000000#32))) x
  let b := select (cmpf .oeq a (broadcastInDim S10000x256 ![] bcast_S_S10000x256 (constant S_ .f32 0x7F800000#32)))
    (broadcastInDim S10000x256 ![] bcast_S_S10000x256 (id (constant S_ .f32 0x00000000#32))) a
  select (cmpf .oeq b (broadcastInDim S10000x256 ![] bcast_S_S10000x256 (constant S_ .f32 0xFF800000#32)))
    (broadcastInDim S10000x256 ![] bcast_S_S10000x256 (id (constant S_ .f32 0x00000000#32))) b

def ewOf (w : FVec F S320000 .f32) : FVec F S320000 .f32 :=
  maximumf (Host.absf (scrubE w)) (broadcastInDim S320000 ![] bcast_S_S320000 (constant S_ .f32 0x358637BD#32))

def rowOf (e : IVec S2x320000 32) : IVec S320000 32 :=
  shapeCast S320000 (extractStridedSlice S1x320000 ![0, 0] e slices_S2x320000_S1x320000_0_0) shapeCasts_S1x320000_S320000

def colOf (e : IVec S2x320000 32) : IVec S320000 32 :=
  shapeCast S320000 (extractStridedSlice S1x320000 ![1, 0] e slices_S2x320000_S1x320000_1_0) shapeCasts_S1x320000_S320000

def wrapOf (i : IVec S320000 32) : IVec S320000x1 32 :=
  broadcastInDim S320000x1 ![0] bcast_S320000_S320000x1_0
    (select (cmpi .slt i (broadcastInDim S320000 ![] bcast_S_S320000 (constantI S_ 32 0#32)))
      (addi i (broadcastInDim S320000 ![] bcast_S_S320000 (constantI S_ 32 10000#32))) i)

def degOf (r : IVec S320000 32) (w : FVec F S320000 .f32) : FVec F S10000 .f32 :=
  Host.scatterAdd scatter_S10000_S320000x1_S320000_n_0_0_1
    (broadcastInDim S10000 ![] bcast_S_S10000 (constant S_ .f32 0x00000000#32))
    (broadcastInDim S320000x1 ![0] bcast_S320000_S320000x1_0 r) w

def disOf (d : FVec F S10000 .f32) : FVec F S10000 .f32 :=
  select (cmpf .ogt d (broadcastInDim S10000 ![] bcast_S_S10000 (constant S_ .f32 0x00000000#32)))
    (Host.powf d (broadcastInDim S10000 ![] bcast_S_S10000 (constant S_ .f32 0xBF000000#32)))
    (broadcastInDim S10000 ![] bcast_S_S10000 (id (constant S_ .f32 0x00000000#32)))

def normOf (e : IVec S2x320000 32) (w : FVec F S320000 .f32) : FVec F S320000 .f32 :=
  mulf (mulf (Host.negf (Host.gather gather_S10000_S320000x1_S320000_n_0_n_n_0_1_1
      (disOf (degOf (rowOf e) (ewOf w))) (wrapOf (rowOf e)))) (ewOf w))
    (Host.gather gather_S10000_S320000x1_S320000_n_0_n_n_0_1_1 (disOf (degOf (rowOf e) (ewOf w))) (wrapOf (colOf e)))

def propOf (n : FVec F S320000 .f32) (r c : IVec S320000 32) (t : FVec F S10000x256 .f32) : FVec F S10000x256 .f32 :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 r)
    (mulf (broadcastInDim S320000x256 ![0, 1] bcast_S320000x1_S320000x256_0_1
        (broadcastInDim S320000x1 ![0] bcast_S320000_S320000x1_0 n))
      (Host.gather gather_S10000x256_S320000x1_S320000x256_1_0_n_n_0_1_1256 t (wrapOf c)))

def tx2Of (p t : FVec F S10000x256 .f32) : FVec F S10000x256 .f32 :=
  subf (mulf (broadcastInDim S10000x256 ![] bcast_S_S10000x256 (constant S_ .f32 0x40000000#32)) p) t

def w0Of (W : FVec F S3x256x256 .f32) : FVec F S256x256 .f32 :=
  shapeCast S256x256 (extractStridedSlice S1x256x256 ![0, 0, 0] W slices_S3x256x256_S1x256x256_0_0_0) shapeCasts_S1x256x256_S256x256
def w1Of (W : FVec F S3x256x256 .f32) : FVec F S256x256 .f32 :=
  shapeCast S256x256 (extractStridedSlice S1x256x256 ![1, 0, 0] W slices_S3x256x256_S1x256x256_1_0_0) shapeCasts_S1x256x256_S256x256
def w2Of (W : FVec F S3x256x256 .f32) : FVec F S256x256 .f32 :=
  shapeCast S256x256 (extractStridedSlice S1x256x256 ![2, 0, 0] W slices_S3x256x256_S1x256x256_2_0_0) shapeCasts_S1x256x256_S256x256

end Cert.Stages

end
-- ==== Proof.Net.lean ====
/-
  The whole network over a dense layer `D` left abstract: the edge weights are normalised once, the features scrubbed,
  and twice over — with the first and then the second layer's parameters — the three Chebyshev terms
  `h`, `L h`, `2 L (L h) − h` (`L` the sparse product `propOf`) go through `D`.
  Both programs compute this composition; they differ in how they compute `D`.
-/
import proofs.«134588_j19095424598406_1_alg».proof.Proof.Stages

noncomputable section

namespace Cert.Stages

open Idealize.ShloMosaic Cert.ReferenceIdeal

variable {F : FTy → Type} [FloatOps F]

/-- A dense layer: three feature arrays, three weight matrices, bias, scale and shift. -/
abbrev Dense (F : FTy → Type) : Type :=
  FVec F S10000x256 .f32 → FVec F S10000x256 .f32 → FVec F S10000x256 .f32 →
  FVec F S256x256 .f32 → FVec F S256x256 .f32 → FVec F S256x256 .f32 →
  FVec F S256 .f32 → FVec F S256 .f32 → FVec F S256 .f32 → FVec F S10000x256 .f32

/-- One layer: the Chebyshev terms of `h` through `D` with the parameters `W b g be`. -/
def blockOf (D : Dense F) (e : IVec S2x320000 32) (w : FVec F S320000 .f32) (h : FVec F S10000x256 .f32)
    (W : FVec F S3x256x256 .f32) (b g be : FVec F S256 .f32) : FVec F S10000x256 .f32 :=
  D h (propOf (normOf e w) (rowOf e) (colOf e) h)
    (tx2Of (propOf (normOf e w) (rowOf e) (colOf e) (propOf (normOf e w) (rowOf e) (colOf e) h)) h)
    (w0Of W) (w1Of W) (w2Of W) b g be

/-- The network: two layers from the scrubbed features. -/
def netOf (D : Dense F) (x : FVec F S10000x256 .f32) (e : IVec S2x320000 32) (w : FVec F S320000 .f32)
    (W1 : FVec F S3x256x256 .f32) (b1 g1 be1 : FVec F S256 .f32)
    (W2 : FVec F S3x256x256 .f32) (b2 g2 be2 : FVec F S256 .f32) : FVec F S10000x256 .f32 :=
  blockOf D e w (blockOf D e w (safeOf x) W1 b1 g1 be1) W2 b2 g2 be2

end Cert.Stages

end
-- ==== Proof.HostRead.lean ====
/-
  The idealized kernel program's host operations read back as the shared stages: from any buffer contents `W`, after the
  seven host stretches before the first region the first region's windows hold the scrubbed features, their two sparse
  products' Chebyshev terms, the first layer's weight slices and its bias, scale and shift as rows; and after the stretch
  between the regions the second region's windows hold the same of the first region's output. The edge normalisation,
  the edge list's rows and the second layer's parameters pass through untouched. The last stretch before each region is
  read from arbitrary contents, so that the normalisation it reads stays a name.
-/
import proofs.«134588_j19095424598406_1_alg».proof.Proof.Gen.KernelIdeal.Launch
import proofs.«134588_j19095424598406_1_alg».proof.Proof.Net
import Idealize.ShloMosaic.Lib.StableHlo.Run

noncomputable section

namespace Cert.KernelIdeal.HostRead

open Cert.KernelIdeal Cert.KernelIdeal.Gen Idealize.ShloMosaic Idealize.ShloMosaic.TcCoe Idealize.SL.Sem Idealize.ShloMosaic.StableHlo
open Cert.Stages

variable {F : FTy → Type} [FloatOps F]

/-- The contents after the first six host stretches. -/
abbrev pre5 (W : Valuation τ sig (Elt F)) : Valuation τ sig (Elt F) :=
  after hostOps0_5 (after hostOps0_4 (after hostOps0_3 (after hostOps0_2 (after hostOps0_1 (after hostOps0 W)))))

/-- The contents after all seven: the first region's entry. -/
abbrev pre0 (W : Valuation τ sig (Elt F)) : Valuation τ sig (Elt F) := after hostOps0_6 (pre5 W)

variable (W : Valuation τ sig (Elt F))

/-! The first six stretches: the normalisation, the edge rows, the scrubbed features. -/

theorem pre5_v33 : pre5 W (main_v33 : DevRef τ sig) = safeOf (W (main_arg0 : DevRef τ sig)) := by after_results_simp; rfl
theorem pre5_v32 : pre5 W (main_v32 : DevRef τ sig) = normOf (W (main_arg1 : DevRef τ sig)) (W (main_arg2 : DevRef τ sig)) := by after_results_simp; rfl
theorem pre5_v5 : pre5 W (main_v5 : DevRef τ sig) = rowOf (W (main_arg1 : DevRef τ sig)) := by after_results_simp; rfl
theorem pre5_v7 : pre5 W (main_v7 : DevRef τ sig) = colOf (W (main_arg1 : DevRef τ sig)) := by after_results_simp; rfl
theorem pre5_arg3 : pre5 W (main_arg3 : DevRef τ sig) = W (main_arg3 : DevRef τ sig) := by after_results_simp
theorem pre5_arg4 : pre5 W (main_arg4 : DevRef τ sig) = W (main_arg4 : DevRef τ sig) := by after_results_simp
theorem pre5_arg5 : pre5 W (main_arg5 : DevRef τ sig) = W (main_arg5 : DevRef τ sig) := by after_results_simp
theorem pre5_arg6 : pre5 W (main_arg6 : DevRef τ sig) = W (main_arg6 : DevRef τ sig) := by after_results_simp
theorem pre5_arg7 : pre5 W (main_arg7 : DevRef τ sig) = W (main_arg7 : DevRef τ sig) := by after_results_simp
theorem pre5_arg8 : pre5 W (main_arg8 : DevRef τ sig) = W (main_arg8 : DevRef τ sig) := by after_results_simp
theorem pre5_arg9 : pre5 W (main_arg9 : DevRef τ sig) = W (main_arg9 : DevRef τ sig) := by after_results_simp
theorem pre5_arg10 : pre5 W (main_arg10 : DevRef τ sig) = W (main_arg10 : DevRef τ sig) := by after_results_simp

/-! The seventh stretch, from any contents. -/

theorem s6_v33 : after hostOps0_6 W (main_v33 : DevRef τ sig) = W (main_v33 : DevRef τ sig) := by after_results_simp
theorem s6_v32 : after hostOps0_6 W (main_v32 : DevRef τ sig) = W (main_v32 : DevRef τ sig) := by after_results_simp
theorem s6_v5 : after hostOps0_6 W (main_v5 : DevRef τ sig) = W (main_v5 : DevRef τ sig) := by after_results_simp
theorem s6_v7 : after hostOps0_6 W (main_v7 : DevRef τ sig) = W (main_v7 : DevRef τ sig) := by after_results_simp
theorem s6_arg7 : after hostOps0_6 W (main_arg7 : DevRef τ sig) = W (main_arg7 : DevRef τ sig) := by after_results_simp
theorem s6_arg8 : after hostOps0_6 W (main_arg8 : DevRef τ sig) = W (main_arg8 : DevRef τ sig) := by after_results_simp
theorem s6_arg9 : after hostOps0_6 W (main_arg9 : DevRef τ sig) = W (main_arg9 : DevRef τ sig) := by after_results_simp
theorem s6_arg10 : after hostOps0_6 W (main_arg10 : DevRef τ sig) = W (main_arg10 : DevRef τ sig) := by after_results_simp

theorem s6_v46 : after hostOps0_6 W (main_v46 : DevRef τ sig)
    = propOf (W (main_v32 : DevRef τ sig)) (W (main_v5 : DevRef τ sig)) (W (main_v7 : DevRef τ sig)) (W (main_v33 : DevRef τ sig)) := by
  after_results_simp; rfl

theorem s6_v62 : after hostOps0_6 W (main_v62 : DevRef τ sig)
    = tx2Of (propOf (W (main_v32 : DevRef τ sig)) (W (main_v5 : DevRef τ sig)) (W (main_v7 : DevRef τ sig))
        (propOf (W (main_v32 : DevRef τ sig)) (W (main_v5 : DevRef τ sig)) (W (main_v7 : DevRef τ sig)) (W (main_v33 : DevRef τ sig))))
      (W (main_v33 : DevRef τ sig)) := by
  after_results_simp; rfl

theorem s6_v64 : after hostOps0_6 W (main_v64 : DevRef τ sig) = w0Of (W (main_arg3 : DevRef τ sig)) := by after_results_simp; rfl
theorem s6_v66 : after hostOps0_6 W (main_v66 : DevRef τ sig) = w1Of (W (main_arg3 : DevRef τ sig)) := by after_results_simp; rfl
theorem s6_v68 : after hostOps0_6 W (main_v68 : DevRef τ sig) = w2Of (W (main_arg3 : DevRef τ sig)) := by after_results_simp; rfl
theorem s6_v69 : after hostOps0_6 W (main_v69 : DevRef τ sig) = shapeCast S1x256 (W (main_arg4 : DevRef τ sig)) shapeCasts_S256_S1x256 := by
  after_results_simp; rfl
theorem s6_v70 : after hostOps0_6 W (main_v70 : DevRef τ sig) = shapeCast S1x256 (W (main_arg5 : DevRef τ sig)) shapeCasts_S256_S1x256 := by
  after_results_simp; rfl
theorem s6_v71 : after hostOps0_6 W (main_v71 : DevRef τ sig) = shapeCast S1x256 (W (main_arg6 : DevRef τ sig)) shapeCasts_S256_S1x256 := by
  after_results_simp; rfl

/-! The stretch between the regions, from any contents. -/

theorem mid_v72 : after hostOps1 W (main_v72 : DevRef τ sig) = W (main_v72 : DevRef τ sig) := by after_results_simp

theorem mid_v85 : after hostOps1 W (main_v85 : DevRef τ sig)
    = propOf (W (main_v32 : DevRef τ sig)) (W (main_v5 : DevRef τ sig)) (W (main_v7 : DevRef τ sig)) (W (main_v72 : DevRef τ sig)) := by
  after_results_simp; rfl

theorem mid_v101 : after hostOps1 W (main_v101 : DevRef τ sig)
    = tx2Of (propOf (W (main_v32 : DevRef τ sig)) (W (main_v5 : DevRef τ sig)) (W (main_v7 : DevRef τ sig))
        (propOf (W (main_v32 : DevRef τ sig)) (W (main_v5 : DevRef τ sig)) (W (main_v7 : DevRef τ sig)) (W (main_v72 : DevRef τ sig))))
      (W (main_v72 : DevRef τ sig)) := by
  after_results_simp; rfl

theorem mid_v103 : after hostOps1 W (main_v103 : DevRef τ sig) = w0Of (W (main_arg7 : DevRef τ sig)) := by after_results_simp; rfl
theorem mid_v105 : after hostOps1 W (main_v105 : DevRef τ sig) = w1Of (W (main_arg7 : DevRef τ sig)) := by after_results_simp; rfl
theorem mid_v107 : after hostOps1 W (main_v107 : DevRef τ sig) = w2Of (W (main_arg7 : DevRef τ sig)) := by after_results_simp; rfl
theorem mid_v108 : after hostOps1 W (main_v108 : DevRef τ sig) = shapeCast S1x256 (W (main_arg8 : DevRef τ sig)) shapeCasts_S256_S1x256 := by
  after_results_simp; rfl
theorem mid_v109 : after hostOps1 W (main_v109 : DevRef τ sig) = shapeCast S1x256 (W (main_arg9 : DevRef τ sig)) shapeCasts_S256_S1x256 := by
  after_results_simp; rfl
theorem mid_v110 : after hostOps1 W (main_v110 : DevRef τ sig) = shapeCast S1x256 (W (main_arg10 : DevRef τ sig)) shapeCasts_S256_S1x256 := by
  after_results_simp; rfl

end Cert.KernelIdeal.HostRead

end
-- ==== Proof.Spec.lean ====
/-
  The dense half of one Chebyshev layer, element by element, over the extended reals.

  For node features `t0 t1 t2 : [10000, 256]` (the three Chebyshev terms), weights `w0 w1 w2 : [256, 256]` and
  vectors `b g be : [256]`, row `r`, column `q`:

    conv r q  = ((Σ_k t0[r,k]·w0[k,q] + Σ_k t1[r,k]·w1[k,q]) + Σ_k t2[r,k]·w2[k,q]) + b[q]
    c r q     = scrub (conv r q)                      -- scrub: a NaN, +∞ or −∞ becomes 0
    mean r    = (Σ_q c r q) / 256
    dev r q   = c r q − mean r
    var r     = (Σ_q dev r q · dev r q) / 256
    ln r q    = dev r q · rsqrt (var r + ε) · g[q] + be[q]
    out r q   = scrub (scrub (max (scrub (ln r q)) 0) + t0[r,q])

  Every operation is the exact one of the extended reals, in this order and grouping; no law of arithmetic is used, so
  nothing here needs the inputs finite.
-/
import Idealize.ShloMosaic.Lib.ValueIdx
import Idealize.ShloMosaic.PureOps.Ideal.Laws

noncomputable section

open scoped BigOperators

namespace Cert.Cheb

open Idealize.ShloMosaic Idealize.ShloMosaic.ValueIdx

/-- Node features, a weight matrix, a per-column vector. -/
abbrev SN : Shape := ⟨2, ![10000, 256]⟩
abbrev SW : Shape := ⟨2, ![256, 256]⟩
abbrev SV : Shape := ⟨1, ![256]⟩

/-- The words of 0, +∞, −∞, 256 and ε = f32(1e-5) as extended reals. -/
abbrev zero : EReal := Ideal.ofBits .f32 0x00000000#32
abbrev pinf : EReal := Ideal.ofBits .f32 0x7F800000#32
abbrev ninf : EReal := Ideal.ofBits .f32 0xFF800000#32
abbrev n256 : EReal := Ideal.ofBits .f32 0x43800000#32
abbrev eps : EReal := Ideal.ofBits .f32 0x3727C5AC#32

/-- `nan_to_num(x, 0, 0, 0)` at one element: three selects in a row, on "x ≠ x", "= +∞", "= −∞". -/
def scrub (x : EReal) : EReal :=
  let a := Scalar.select (Ideal.cmp .une x x) zero x
  let b := Scalar.select (Ideal.cmp .oeq a pinf) zero a
  Scalar.select (Ideal.cmp .oeq b ninf) zero b

section
variable (t0 t1 t2 : SN.Idx → EReal) (w0 w1 w2 : SW.Idx → EReal) (b g be : SV.Idx → EReal)

/-- The three products summed left to right, plus the bias. -/
def conv (r : Fin 10000) (q : Fin 256) : EReal :=
  (((∑ k : Fin 256, t0 (ix2 r k) * w0 (ix2 k q)) + (∑ k : Fin 256, t1 (ix2 r k) * w1 (ix2 k q)))
    + (∑ k : Fin 256, t2 (ix2 r k) * w2 (ix2 k q))) + b (ix1 q)

def cv (r : Fin 10000) (q : Fin 256) : EReal := scrub (conv t0 t1 t2 w0 w1 w2 b r q)

def mean (r : Fin 10000) : EReal := Ideal.div (∑ q : Fin 256, cv t0 t1 t2 w0 w1 w2 b r q) n256

def dev (r : Fin 10000) (q : Fin 256) : EReal := cv t0 t1 t2 w0 w1 w2 b r q - mean t0 t1 t2 w0 w1 w2 b r

def var (r : Fin 10000) : EReal :=
  Ideal.div (∑ q : Fin 256, dev t0 t1 t2 w0 w1 w2 b r q * dev t0 t1 t2 w0 w1 w2 b r q) n256

def ln (r : Fin 10000) (q : Fin 256) : EReal :=
  dev t0 t1 t2 w0 w1 w2 b r q * Ideal.rsqrt (var t0 t1 t2 w0 w1 w2 b r + eps) * g (ix1 q) + be (ix1 q)

/-- One element of the layer's output. -/
def layerAt (r : Fin 10000) (q : Fin 256) : EReal :=
  scrub (scrub (max (scrub (ln t0 t1 t2 w0 w1 w2 b g be r q)) zero) + t0 (ix2 r q))

/-- The layer's output array. -/
def layer : SN.Idx → EReal := fun i => layerAt t0 t1 t2 w0 w1 w2 b g be (i 0) (i 1)

theorem layer_ix2 (r : Fin 10000) (q : Fin 256) :
    layer t0 t1 t2 w0 w1 w2 b g be (ix2 r q) = layerAt t0 t1 t2 w0 w1 w2 b g be r q := rfl

end

end Cert.Cheb

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyOps.lean ====
/-
  The non-pointwise operations of the dense layer's body, each read at an entry written by coordinates.

  Over a block of 1000 rows and 256 lanes: the product of a [1000, 256] block with a [256, 256] matrix into a zero
  accumulator is, at (p, q), the sum over k of block (p, k) times matrix (k, q); the sum along the lanes kept as a
  column is, at (p, 0), the sum over k of the block at (p, k); a column repeated along the lanes reads its row's entry;
  a row repeated along the rows reads its lane's entry; and the three selects that replace a NaN, +∞ or −∞ by zero are,
  entry by entry, the specification's scrub.
-/
import proofs.«134588_j19095424598406_1_alg».proof.Proof.Spec
import proofs.«134588_j19095424598406_1_alg».proof.Proof.LibPlainDot
import proofs.«134588_j19095424598406_1_alg».proof.Proof.LibLayoutCol
import proofs.«134588_j19095424598406_1_alg».proof.Proof.Gen.KernelIdeal
import Idealize.ShloMosaic.Lib.ValueLayout

noncomputable section

open scoped BigOperators

namespace Cert.KernelIdeal.BodyAt

open Idealize.ShloMosaic Idealize.ShloMosaic.ValueIdx
open Cert.KernelIdeal Cert.KernelIdeal.Gen

/-- A NaN, +∞ or −∞ replaced by zero, entry by entry. -/
def scrubV {S : Shape} (v : FVec Ideal S .f32) : FVec Ideal S .f32 := fun i => Cert.Cheb.scrub (v i)

theorem scrubV_apply {S : Shape} (v : FVec Ideal S .f32) (i : S.Idx) : scrubV v i = Cert.Cheb.scrub (v i) := rfl

/-- A block times a square matrix, into a zero accumulator. -/
def mm (a : FVec Ideal S1000x256 .f32) (w : FVec Ideal S256x256 .f32) : FVec Ideal S1000x256 .f32 :=
  matmul (F := Ideal) dot_S1000x256_S256x256_S1000x256_1_0_0_1_n_n none (truncf .bf16 a bitsLt_bf16_f32)
    (truncf .bf16 w bitsLt_bf16_f32) (constant (F := Ideal) S1000x256 .f32 0x00000000#32)

/-- The product at (p, q): the sum over the contracted axis. -/
theorem mm_at (a : FVec Ideal S1000x256 .f32) (w : FVec Ideal S256x256 .f32) (p : Fin 1000) (q : Fin 256) :
    mm a w (ix2 p q) = ∑ k : Fin 256, a (ix2 p k) * w (ix2 k q) := by
  unfold mm
  refine (Cert.LibPlainDot.matmul_zero_apply dot_S1000x256_S256x256_S1000x256_1_0_0_1_n_n none 256 rfl rfl _ _
    (ix2 p q) (fun k => ix2 p k) (fun k => ix2 k q) ?_ ?_).trans ?_
  · intro c
    exact Cert.LibPlainDot.ext2 _ _ rfl rfl
  · intro c
    exact Cert.LibPlainDot.ext2 _ _ rfl rfl
  · rfl

/-- The sum along the lanes, kept as a column. -/
def rowSum (v : FVec Ideal S1000x256 .f32) : FVec Ideal S1000x1 .f32 :=
  shapeCast S1000x1 (multiReduction (F := Ideal) .add [1] S1000 v 0x00000000#32 reduces_S1000x256_S1000 (.inl rfl) rfl)
    shapeCasts_S1000_S1000x1

theorem rowSum_at (v : FVec Ideal S1000x256 .f32) (p : Fin 1000) (u : Fin 1) :
    rowSum v (ix2 p u) = ∑ k : Fin 256, v (ix2 p k) := by
  unfold rowSum
  refine (shapeCast_a_a1_apply _ shapeCasts_S1000_S1000x1 p u).trans ?_
  refine (Ideal.multiReduction_add_single v 0x00000000#32 reduces_S1000x256_S1000 (.inl rfl) rfl (ix1 p)).trans ?_
  exact Finset.sum_congr rfl fun k _ => congrArg v (Cert.LibPlainDot.ext2 _ _ rfl rfl)

/-- A column repeated along the lanes. -/
def colB (w : FVec Ideal S1000x1 .f32) : FVec Ideal S1000x256 .f32 := broadcastTo S1000x256 w broadcasts_S1000x1_S1000x256

theorem colB_at (w : FVec Ideal S1000x1 .f32) (p : Fin 1000) (q : Fin 256) : colB w (ix2 p q) = w (ix2 p (0 : Fin 1)) :=
  broadcastTo_a1_ab_apply w broadcasts_S1000x1_S1000x256 p q

/-- A row repeated along the rows. -/
def rowB (v : FVec Ideal S1x256 .f32) : FVec Ideal S1000x256 .f32 := broadcastTo S1000x256 v broadcasts_S1x256_S1000x256

theorem rowB_at (v : FVec Ideal S1x256 .f32) (p : Fin 1000) (q : Fin 256) : rowB v (ix2 p q) = v (ix2 (0 : Fin 1) q) :=
  broadcastTo_1b_ab_apply v broadcasts_S1x256_S1000x256 p q

end Cert.KernelIdeal.BodyAt

end
-- ==== Proof.BodyStages.lean ====
/-
  The body's arithmetic as a composition of named stages, block by block (region 0).

  conv    = ((x0·w0 + x1·w1) + x2·w2) + bias row, then scrubbed;
  layer norm over the 256 lanes of the scrubbed block: mean = lane sum / 256, dev = c − mean, var = lane sum of dev² / 256,
  dev · rsqrt (var + ε) · γ row + β row; scrubbed; maximum with zero;
  last   = scrub (scrub (that) + x0).
  Each printed payload is such a composition, the same operations in the same order.
-/
import proofs.«134588_j19095424598406_1_alg».proof.Proof.BodyOps
import proofs.«134588_j19095424598406_1_alg».proof.Proof.Gen.KernelIdeal.Skeleton

noncomputable section

open scoped BigOperators

namespace Cert.KernelIdeal.BodyAt

open Idealize.ShloMosaic Idealize.ShloMosaic.ValueIdx
open Cert.KernelIdeal Cert.KernelIdeal.Gen

/-- The three products summed left to right, plus the bias row. -/
def convV (x0 x1 x2 : FVec Ideal S1000x256 .f32) (x3 x4 x5 : FVec Ideal S256x256 .f32) (x6 : FVec Ideal S1x256 .f32) :
    FVec Ideal S1000x256 .f32 :=
  addf (addf (addf (mm x0 x3) (mm x1 x4)) (mm x2 x5)) (rowB x6)

/-- The word of 256 and of ε, as columns. -/
def n256V : FVec Ideal S1000x1 .f32 := broadcast S1000x1 (Scalar.ofBits (F := Ideal) .f32 0x43800000#32)
def epsV : FVec Ideal S1000x1 .f32 := broadcast S1000x1 (Scalar.ofBits (F := Ideal) .f32 0x3727C5AC#32)

def meanV (c : FVec Ideal S1000x256 .f32) : FVec Ideal S1000x1 .f32 := divf (rowSum c) n256V
def devV (c : FVec Ideal S1000x256 .f32) : FVec Ideal S1000x256 .f32 := subf c (colB (meanV c))
def varV (c : FVec Ideal S1000x256 .f32) : FVec Ideal S1000x1 .f32 := divf (rowSum (mulf (devV c) (devV c))) n256V
def invV (c : FVec Ideal S1000x256 .f32) : FVec Ideal S1000x1 .f32 := rsqrt (addf (varV c) epsV)

/-- Layer norm over the lanes, scaled and shifted, scrubbed, then the maximum with zero. -/
def lnReluV (c : FVec Ideal S1000x256 .f32) (gv bev : FVec Ideal S1x256 .f32) : FVec Ideal S1000x256 .f32 :=
  maximumf (scrubV (addf (mulf (mulf (devV c) (colB (invV c))) (rowB gv)) (rowB bev)))
    (broadcast S1000x256 (Scalar.ofBits (F := Ideal) .f32 0x00000000#32))

/-- The first two of a scrub's three selects (on "x ≠ x", then on "= +∞"). -/
def sel2V {S : Shape} (v : FVec Ideal S .f32) : FVec Ideal S .f32 :=
  select (cmpf .oeq (select (cmpf .one v v) (broadcast S (Scalar.ofBits (F := Ideal) .f32 0x00000000#32)) v)
      (broadcast S (Scalar.ofBits (F := Ideal) .f32 0x7F800000#32)))
    (broadcast S (Scalar.ofBits (F := Ideal) .f32 0x00000000#32))
    (select (cmpf .one v v) (broadcast S (Scalar.ofBits (F := Ideal) .f32 0x00000000#32)) v)

/-- The third select (on "= −∞") over the first two is the scrub. -/
theorem scrub_of_sel2 {S : Shape} (v : FVec Ideal S .f32) :
    select (cmpf .oeq (sel2V v) (broadcast S (Scalar.ofBits (F := Ideal) .f32 0xFF800000#32)))
      (broadcast S (Scalar.ofBits (F := Ideal) .f32 0x00000000#32)) (sel2V v) = scrubV v := rfl

/-- The three selects in a row. -/
def scrub3V {S : Shape} (v : FVec Ideal S .f32) : FVec Ideal S .f32 :=
  select (cmpf .oeq (sel2V v) (broadcast S (Scalar.ofBits (F := Ideal) .f32 0xFF800000#32)))
    (broadcast S (Scalar.ofBits (F := Ideal) .f32 0x00000000#32)) (sel2V v)

theorem scrub3V_eq {S : Shape} (v : FVec Ideal S .f32) : scrub3V v = scrubV v := rfl

/-- The first payload: the conv under the first two selects of its scrub. -/
theorem pay3_eq (x0 x1 x2 : Vec Ideal S1000x256 .f32) (x3 x4 x5 : Vec Ideal S256x256 .f32) (x6 : Vec Ideal S1x256 .f32) :
    k0_pay3 x0 x1 x2 x3 x4 x5 x6 = sel2V (convV x0 x1 x2 x3 x4 x5 x6) := by
  unfold k0_pay3 k0_pay2
  simp only [shapeCast_self]
  show sel2V _ = _
  exact congrArg sel2V rfl

/-- The first scrub's last select over the payloads that carry its first two: the scrubbed conv. -/
theorem conv_eq (x0 x1 x2 : Vec Ideal S1000x256 .f32) (x3 x4 x5 : Vec Ideal S256x256 .f32) (x6 : Vec Ideal S1x256 .f32) :
    select (k0_pay4 x0 x1 x2 x3 x4 x5 x6) (k0_pay5 (F := Ideal)) (k0_pay3 x0 x1 x2 x3 x4 x5 x6)
      = scrubV (convV x0 x1 x2 x3 x4 x5 x6) := by
  have e4 : k0_pay4 x0 x1 x2 x3 x4 x5 x6
      = cmpf .oeq (k0_pay3 x0 x1 x2 x3 x4 x5 x6) (broadcast S1000x256 (Scalar.ofBits (F := Ideal) .f32 0xFF800000#32)) := rfl
  have e5 : k0_pay5 (F := Ideal) = broadcast S1000x256 (Scalar.ofBits (F := Ideal) .f32 0x00000000#32) := rfl
  rw [e4, e5, pay3_eq]
  exact scrub_of_sel2 _

/-- The middle payload: layer norm, scrub and maximum of the block its first select leaves. -/
theorem pay6_eq (v33 : FVec Ideal S1000x256 .f32) (v35 : IVec S1000x256 1) (v36 : FVec Ideal S1000x256 .f32)
    (v56 v60 : Vec Ideal S1x256 .f32) :
    k0_pay6 v33 v35 v36 v56 v60 = lnReluV (select v35 v36 v33) v56 v60 := by
  unfold k0_pay6
  simp only [shapeCast_self]
  rfl

/-- The last payload: the residual added to the scrubbed block, scrubbed. -/
theorem pay1_eq (v1 v76 : FVec Ideal S1000x256 .f32) :
    k0_pay1 v1 v76 (Scalar.ofBits .f32 0x00000000#32) (Scalar.ofBits .f32 0x00000000#32) (cmpf .one v76 v76)
        (broadcast S1000x256 (Scalar.ofBits .f32 0x00000000#32))
      = scrubV (addf (scrubV v76) v1) := by
  unfold k0_pay1
  show scrub3V _ = _
  rw [scrub3V_eq]
  show scrubV (addf (scrub3V _) _) = _
  rw [scrub3V_eq]

/-- The last payload over the middle one and its two small companions. -/
theorem pay1_tail_eq (v1 v33 : FVec Ideal S1000x256 .f32) (v35 : IVec S1000x256 1) (v36 : FVec Ideal S1000x256 .f32)
    (v56 v60 : Vec Ideal S1x256 .f32) :
    k0_pay1 v1 (k0_pay6 v33 v35 v36 v56 v60) (Scalar.ofBits .f32 0x00000000#32) (Scalar.ofBits .f32 0x00000000#32)
        (k0_pay7 v33 v35 v36 v56 v60) (k0_pay8 (F := Ideal))
      = scrubV (addf (scrubV (k0_pay6 v33 v35 v36 v56 v60)) v1) := by
  have e7 : k0_pay7 v33 v35 v36 v56 v60
      = cmpf .one (k0_pay6 v33 v35 v36 v56 v60) (k0_pay6 v33 v35 v36 v56 v60) := rfl
  have e8 : k0_pay8 (F := Ideal) = broadcast S1000x256 (Scalar.ofBits (F := Ideal) .f32 0x00000000#32) := rfl
  rw [e7, e8]
  exact pay1_eq _ _

end Cert.KernelIdeal.BodyAt

end
-- ==== Proof.BodyStages1.lean ====
/-
  The body's arithmetic as a composition of the named stages, block by block (region 1): the second call of the same
  body, whose printed payloads are those of region 0 under other names.
-/
import proofs.«134588_j19095424598406_1_alg».proof.Proof.BodyStages

noncomputable section

open scoped BigOperators

namespace Cert.KernelIdeal.BodyAt.Region1

open Idealize.ShloMosaic Idealize.ShloMosaic.ValueIdx
open Cert.KernelIdeal Cert.KernelIdeal.Gen Cert.KernelIdeal.BodyAt

/-- The first payload: the conv under the first two selects of its scrub. -/
theorem pay3_eq (x0 x1 x2 : Vec Ideal S1000x256 .f32) (x3 x4 x5 : Vec Ideal S256x256 .f32) (x6 : Vec Ideal S1x256 .f32) :
    k1_pay3 x0 x1 x2 x3 x4 x5 x6 = sel2V (convV x0 x1 x2 x3 x4 x5 x6) := by
  unfold k1_pay3 k1_pay2
  simp only [shapeCast_self]
  show sel2V _ = _
  exact congrArg sel2V rfl

/-- The first scrub's last select over the payloads that carry its first two: the scrubbed conv. -/
theorem conv_eq (x0 x1 x2 : Vec Ideal S1000x256 .f32) (x3 x4 x5 : Vec Ideal S256x256 .f32) (x6 : Vec Ideal S1x256 .f32) :
    select (k1_pay4 x0 x1 x2 x3 x4 x5 x6) (k1_pay5 (F := Ideal)) (k1_pay3 x0 x1 x2 x3 x4 x5 x6)
      = scrubV (convV x0 x1 x2 x3 x4 x5 x6) := by
  have e4 : k1_pay4 x0 x1 x2 x3 x4 x5 x6
      = cmpf .oeq (k1_pay3 x0 x1 x2 x3 x4 x5 x6) (broadcast S1000x256 (Scalar.ofBits (F := Ideal) .f32 0xFF800000#32)) := rfl
  have e5 : k1_pay5 (F := Ideal) = broadcast S1000x256 (Scalar.ofBits (F := Ideal) .f32 0x00000000#32) := rfl
  rw [e4, e5, pay3_eq]
  exact scrub_of_sel2 _

/-- The middle payload: layer norm, scrub and maximum of the block its first select leaves. -/
theorem pay6_eq (v33 : FVec Ideal S1000x256 .f32) (v35 : IVec S1000x256 1) (v36 : FVec Ideal S1000x256 .f32)
    (v56 v60 : Vec Ideal S1x256 .f32) :
    k1_pay6 v33 v35 v36 v56 v60 = lnReluV (select v35 v36 v33) v56 v60 := by
  unfold k1_pay6
  simp only [shapeCast_self]
  rfl

/-- The last payload: the residual added to the scrubbed block, scrubbed. -/
theorem pay1_eq (v1 v76 : FVec Ideal S1000x256 .f32) :
    k1_pay1 v1 v76 (Scalar.ofBits .f32 0x00000000#32) (Scalar.ofBits .f32 0x00000000#32) (cmpf .one v76 v76)
        (broadcast S1000x256 (Scalar.ofBits .f32 0x00000000#32))
      = scrubV (addf (scrubV v76) v1) := by
  unfold k1_pay1
  show scrub3V _ = _
  rw [scrub3V_eq]
  show scrubV (addf (scrub3V _) _) = _
  rw [scrub3V_eq]

/-- The last payload over the middle one and its two small companions. -/
theorem pay1_tail_eq (v1 v33 : FVec Ideal S1000x256 .f32) (v35 : IVec S1000x256 1) (v36 : FVec Ideal S1000x256 .f32)
    (v56 v60 : Vec Ideal S1x256 .f32) :
    k1_pay1 v1 (k1_pay6 v33 v35 v36 v56 v60) (Scalar.ofBits .f32 0x00000000#32) (Scalar.ofBits .f32 0x00000000#32)
        (k1_pay7 v33 v35 v36 v56 v60) (k1_pay8 (F := Ideal))
      = scrubV (addf (scrubV (k1_pay6 v33 v35 v36 v56 v60)) v1) := by
  have e7 : k1_pay7 v33 v35 v36 v56 v60
      = cmpf .one (k1_pay6 v33 v35 v36 v56 v60) (k1_pay6 v33 v35 v36 v56 v60) := rfl
  have e8 : k1_pay8 (F := Ideal) = broadcast S1000x256 (Scalar.ofBits (F := Ideal) .f32 0x00000000#32) := rfl
  rw [e7, e8]
  exact pay1_eq _ _

end Cert.KernelIdeal.BodyAt.Region1

end
-- ==== Proof.BodyBlock.lean ====
/-
  The composed stages of the dense layer's body at one entry, and the block each region's body leaves as that composition.

  For a row block t of 1000 rows, the input blocks being rows 1000·t … 1000·t + 999 of the node features and the weight,
  bias, scale and shift blocks being the whole arrays, entry (p, q) of scrub (scrub (layer norm, scrub, maximum with zero
  of the scrubbed conv) + x0) is the layer's element at row 1000·t + p, column q: the same products, sums, scrubs, mean,
  variance, reciprocal root and maximum, in the same order and grouping.
-/
import proofs.«134588_j19095424598406_1_alg».proof.Proof.BodyStages
import proofs.«134588_j19095424598406_1_alg».proof.Proof.BodyStages1
import proofs.«134588_j19095424598406_1_alg».proof.Proof.Gen.KernelIdeal.Frame

noncomputable section

open scoped BigOperators

namespace Cert.KernelIdeal.BodyAt

open Idealize.ShloMosaic Idealize.ShloMosaic.ValueIdx
open Cert.KernelIdeal Cert.KernelIdeal.Gen

/-- Layer norm of one row `c` of 256 lanes at lane `q`, scaled by `gq` and shifted by `beq`. -/
def lnOf (c : Fin 256 → EReal) (gq beq : EReal) (q : Fin 256) : EReal :=
  (c q - Ideal.div (∑ k : Fin 256, c k) Cert.Cheb.n256)
      * Ideal.rsqrt (Ideal.div (∑ k : Fin 256, (c k - Ideal.div (∑ k' : Fin 256, c k') Cert.Cheb.n256)
          * (c k - Ideal.div (∑ k' : Fin 256, c k') Cert.Cheb.n256)) Cert.Cheb.n256 + Cert.Cheb.eps)
      * gq + beq

/-- The layer-norm stage at an entry. -/
theorem lnReluV_at (c : FVec Ideal S1000x256 .f32) (gv bev : FVec Ideal S1x256 .f32) (p : Fin 1000) (q : Fin 256) :
    lnReluV c gv bev (ix2 p q)
      = max (Cert.Cheb.scrub (lnOf (fun k => c (ix2 p k)) (gv (ix2 (0 : Fin 1) q)) (bev (ix2 (0 : Fin 1) q)) q)) Cert.Cheb.zero := by
  have hmean : ∀ u : Fin 1, meanV c (ix2 p u) = Ideal.div (∑ k : Fin 256, c (ix2 p k)) Cert.Cheb.n256 := fun u => by
    show Ideal.div (rowSum c (ix2 p u)) _ = _
    rw [rowSum_at]
    rfl
  have hdev : ∀ k : Fin 256, devV c (ix2 p k) = c (ix2 p k) - Ideal.div (∑ k' : Fin 256, c (ix2 p k')) Cert.Cheb.n256 := fun k => by
    show c (ix2 p k) - colB (meanV c) (ix2 p k) = _
    rw [colB_at, hmean]
  have hvar : ∀ u : Fin 1, varV c (ix2 p u)
      = Ideal.div (∑ k : Fin 256, (c (ix2 p k) - Ideal.div (∑ k' : Fin 256, c (ix2 p k')) Cert.Cheb.n256)
          * (c (ix2 p k) - Ideal.div (∑ k' : Fin 256, c (ix2 p k')) Cert.Cheb.n256)) Cert.Cheb.n256 := fun u => by
    show Ideal.div (rowSum (mulf (devV c) (devV c)) (ix2 p u)) _ = _
    rw [rowSum_at]
    refine congrArg (fun s => Ideal.div s _) (Finset.sum_congr rfl fun k _ => ?_)
    show devV c (ix2 p k) * devV c (ix2 p k) = _
    rw [hdev]
  have hinv : invV c (ix2 p (0 : Fin 1))
      = Ideal.rsqrt (Ideal.div (∑ k : Fin 256, (c (ix2 p k) - Ideal.div (∑ k' : Fin 256, c (ix2 p k')) Cert.Cheb.n256)
          * (c (ix2 p k) - Ideal.div (∑ k' : Fin 256, c (ix2 p k')) Cert.Cheb.n256)) Cert.Cheb.n256 + Cert.Cheb.eps) := by
    show Ideal.rsqrt (varV c (ix2 p (0 : Fin 1)) + _) = _
    rw [hvar]
    rfl
  show max (Cert.Cheb.scrub (devV c (ix2 p q) * colB (invV c) (ix2 p q) * rowB gv (ix2 p q) + rowB bev (ix2 p q))) _ = _
  rw [hdev, colB_at, hinv, rowB_at, rowB_at]
  rfl

theorem hz : (![0, 0] : Fin 2 → Nat) = fun _ => 0 := funext fun a => by fin_cases a <;> rfl

section
variable (x0 x1 x2 : Vec Ideal S1000x256 .f32) (x3 x4 x5 : Vec Ideal S256x256 .f32) (x6 x7 x8 : Vec Ideal S1x256 .f32)

/-- The block region 0's body leaves, as the composition of the stages. -/
theorem out0_9_eq : Gen.out0_9 (F := Ideal) x0 x1 x2 x3 x4 x5 x6 x7 x8
    = scrubV (addf (scrubV (lnReluV (scrubV (convV x0 x1 x2 x3 x4 x5 x6)) x7 x8)) x0) := by
  unfold out0_9
  rw [View.canon_unit_zero hz]
  simp only [View.ld_unit_zero (S := S1000x256) hz, View.ld_unit_zero (S := S256x256) hz, View.ld_unit_zero (S := S1x256) hz]
  rw [pay1_tail_eq, pay6_eq, conv_eq]
  unfold k0_pay2
  simp only [shapeCast_self]

/-- The block region 1's body leaves: the same composition. -/
theorem out1_9_eq : Gen.out1_9 (F := Ideal) x0 x1 x2 x3 x4 x5 x6 x7 x8
    = scrubV (addf (scrubV (lnReluV (scrubV (convV x0 x1 x2 x3 x4 x5 x6)) x7 x8)) x0) := by
  unfold out1_9
  rw [View.canon_unit_zero hz]
  simp only [View.ld_unit_zero (S := S1000x256) hz, View.ld_unit_zero (S := S256x256) hz, View.ld_unit_zero (S := S1x256) hz]
  rw [Region1.pay1_tail_eq, Region1.pay6_eq, Region1.conv_eq]
  unfold k1_pay2
  simp only [shapeCast_self]

end

section
variable {x0 x1 x2 : Vec Ideal S1000x256 .f32} {x3 x4 x5 : Vec Ideal S256x256 .f32} {x6 x7 x8 : Vec Ideal S1x256 .f32}
  {t0 t1 t2 : Cert.Cheb.SN.Idx → EReal} {w0 w1 w2 : Cert.Cheb.SW.Idx → EReal} {b g be : Cert.Cheb.SV.Idx → EReal}

/-- Entry (p, q) of the composed stages at row block t is the layer's element at row 1000·t + p, column q. -/
theorem stages_at (t : Fin 10)
    (h0 : ∀ (p : Fin 1000) (k : Fin 256), x0 (ix2 p k) = t0 (ix2 ⟨1000 * t.val + p.val, by omega⟩ k))
    (h1 : ∀ (p : Fin 1000) (k : Fin 256), x1 (ix2 p k) = t1 (ix2 ⟨1000 * t.val + p.val, by omega⟩ k))
    (h2 : ∀ (p : Fin 1000) (k : Fin 256), x2 (ix2 p k) = t2 (ix2 ⟨1000 * t.val + p.val, by omega⟩ k))
    (hw0 : ∀ k q : Fin 256, x3 (ix2 k q) = w0 (ix2 k q)) (hw1 : ∀ k q : Fin 256, x4 (ix2 k q) = w1 (ix2 k q))
    (hw2 : ∀ k q : Fin 256, x5 (ix2 k q) = w2 (ix2 k q))
    (hb : ∀ q : Fin 256, x6 (ix2 (0 : Fin 1) q) = b (ix1 q)) (hg : ∀ q : Fin 256, x7 (ix2 (0 : Fin 1) q) = g (ix1 q))
    (hbe : ∀ q : Fin 256, x8 (ix2 (0 : Fin 1) q) = be (ix1 q)) (p : Fin 1000) (q : Fin 256) :
    scrubV (addf (scrubV (lnReluV (scrubV (convV x0 x1 x2 x3 x4 x5 x6)) x7 x8)) x0) (ix2 p q)
      = Cert.Cheb.layerAt t0 t1 t2 w0 w1 w2 b g be ⟨1000 * t.val + p.val, by omega⟩ q := by
  have hc : ∀ k : Fin 256, scrubV (convV x0 x1 x2 x3 x4 x5 x6) (ix2 p k)
      = Cert.Cheb.cv t0 t1 t2 w0 w1 w2 b ⟨1000 * t.val + p.val, by omega⟩ k := fun k => by
    show Cert.Cheb.scrub (((mm x0 x3 (ix2 p k) + mm x1 x4 (ix2 p k)) + mm x2 x5 (ix2 p k)) + rowB x6 (ix2 p k)) = _
    rw [mm_at, mm_at, mm_at, rowB_at, hb k]
    simp only [h0, h1, h2, hw0, hw1, hw2]
    rfl
  show Cert.Cheb.scrub (Cert.Cheb.scrub (lnReluV (scrubV (convV x0 x1 x2 x3 x4 x5 x6)) x7 x8 (ix2 p q)) + x0 (ix2 p q)) = _
  rw [lnReluV_at, h0 p q, hg q, hbe q]
  simp only [hc]
  rfl

end

end Cert.KernelIdeal.BodyAt

end
-- ==== Proof.BodyAt.lean ====
/-
  The body's output block at one entry is the specification's element, for each of the two calls of the body.

  For a row block t of 1000 rows, the input blocks being rows 1000·t … 1000·t + 999 of the node features and the weight,
  bias, scale and shift blocks being the whole arrays, entry (p, q) of the block the body leaves is the layer's element at
  row 1000·t + p, column q.
-/
import proofs.«134588_j19095424598406_1_alg».proof.Proof.BodyBlock

noncomputable section

namespace Cert.KernelIdeal.BodyAt

open Cert.KernelIdeal Cert.KernelIdeal.Gen Idealize.ShloMosaic Idealize.ShloMosaic.ValueIdx

/-- Region 0. -/
theorem out0_9_at {x0 x1 x2 : Vec Ideal S1000x256 .f32} {x3 x4 x5 : Vec Ideal S256x256 .f32} {x6 x7 x8 : Vec Ideal S1x256 .f32}
    {t0 t1 t2 : Cert.Cheb.SN.Idx → EReal} {w0 w1 w2 : Cert.Cheb.SW.Idx → EReal} {b g be : Cert.Cheb.SV.Idx → EReal} (t : Fin 10)
    (h0 : ∀ (p : Fin 1000) (k : Fin 256), x0 (ix2 p k) = t0 (ix2 ⟨1000 * t.val + p.val, by omega⟩ k))
    (h1 : ∀ (p : Fin 1000) (k : Fin 256), x1 (ix2 p k) = t1 (ix2 ⟨1000 * t.val + p.val, by omega⟩ k))
    (h2 : ∀ (p : Fin 1000) (k : Fin 256), x2 (ix2 p k) = t2 (ix2 ⟨1000 * t.val + p.val, by omega⟩ k))
    (hw0 : ∀ k q : Fin 256, x3 (ix2 k q) = w0 (ix2 k q)) (hw1 : ∀ k q : Fin 256, x4 (ix2 k q) = w1 (ix2 k q))
    (hw2 : ∀ k q : Fin 256, x5 (ix2 k q) = w2 (ix2 k q))
    (hb : ∀ q : Fin 256, x6 (ix2 (0 : Fin 1) q) = b (ix1 q)) (hg : ∀ q : Fin 256, x7 (ix2 (0 : Fin 1) q) = g (ix1 q))
    (hbe : ∀ q : Fin 256, x8 (ix2 (0 : Fin 1) q) = be (ix1 q)) (p : Fin 1000) (q : Fin 256) :
    Gen.out0_9 (F := Ideal) x0 x1 x2 x3 x4 x5 x6 x7 x8 (ix2 p q)
      = Cert.Cheb.layerAt t0 t1 t2 w0 w1 w2 b g be ⟨1000 * t.val + p.val, by omega⟩ q := by
  rw [out0_9_eq]
  exact stages_at t h0 h1 h2 hw0 hw1 hw2 hb hg hbe p q

/-- Region 1. -/
theorem out1_9_at {x0 x1 x2 : Vec Ideal S1000x256 .f32} {x3 x4 x5 : Vec Ideal S256x256 .f32} {x6 x7 x8 : Vec Ideal S1x256 .f32}
    {t0 t1 t2 : Cert.Cheb.SN.Idx → EReal} {w0 w1 w2 : Cert.Cheb.SW.Idx → EReal} {b g be : Cert.Cheb.SV.Idx → EReal} (t : Fin 10)
    (h0 : ∀ (p : Fin 1000) (k : Fin 256), x0 (ix2 p k) = t0 (ix2 ⟨1000 * t.val + p.val, by omega⟩ k))
    (h1 : ∀ (p : Fin 1000) (k : Fin 256), x1 (ix2 p k) = t1 (ix2 ⟨1000 * t.val + p.val, by omega⟩ k))
    (h2 : ∀ (p : Fin 1000) (k : Fin 256), x2 (ix2 p k) = t2 (ix2 ⟨1000 * t.val + p.val, by omega⟩ k))
    (hw0 : ∀ k q : Fin 256, x3 (ix2 k q) = w0 (ix2 k q)) (hw1 : ∀ k q : Fin 256, x4 (ix2 k q) = w1 (ix2 k q))
    (hw2 : ∀ k q : Fin 256, x5 (ix2 k q) = w2 (ix2 k q))
    (hb : ∀ q : Fin 256, x6 (ix2 (0 : Fin 1) q) = b (ix1 q)) (hg : ∀ q : Fin 256, x7 (ix2 (0 : Fin 1) q) = g (ix1 q))
    (hbe : ∀ q : Fin 256, x8 (ix2 (0 : Fin 1) q) = be (ix1 q)) (p : Fin 1000) (q : Fin 256) :
    Gen.out1_9 (F := Ideal) x0 x1 x2 x3 x4 x5 x6 x7 x8 (ix2 p q)
      = Cert.Cheb.layerAt t0 t1 t2 w0 w1 w2 b g be ⟨1000 * t.val + p.val, by omega⟩ q := by
  rw [out1_9_eq]
  exact stages_at t h0 h1 h2 hw0 hw1 hw2 hb hg hbe p q

end Cert.KernelIdeal.BodyAt

end
-- ==== Proof.Final.lean ====
/-
  From blocks to arrays: each region's output array after its ten grid points is the dense layer of the arrays its
  windows read. Point `t` reads rows `1000 t … 1000 t + 999` of the three feature arrays, the whole weight matrices and
  the vectors' one row, and writes back rows `1000 t … 1000 t + 999` of the output; element by element its block is the
  specification's layer at that row (the body lemma), and the ten row blocks cover the array.
-/
import proofs.«134588_j19095424598406_1_alg».proof.Proof.Gen.KernelIdeal.Frame
import proofs.«134588_j19095424598406_1_alg».proof.Proof.Spec
import proofs.«134588_j19095424598406_1_alg».proof.Proof.BodyAt
import Idealize.ShloMosaic.Lib.Pipeline.Value
import Idealize.ShloMosaic.Lib.ValueIdx

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

/-- A [1,256] array's one row as a vector. -/
def rowVec (x : S1x256.Idx → EReal) : Cert.Cheb.SV.Idx → EReal := fun j => x (ix2 (0 : Fin 1) (j 0))

/-! ## Region 0 -/

/-- The printed index maps of region 0, decided over its ten grid points: the row windows and the output move with the
    point along the rows, the weight and vector windows stay. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem tN0 (t : Fin cfg0.N) : t.val < 10 := lt_of_lt_of_eq t.isLt N_0

/-- Row window 0's block at point `t` is rows `1000 t … 1000 t + 999` of its array. -/
theorem iblk0_0_at (c : Dev nD) (t : Fin cfg0.N) (p : Fin 1000) (k : Fin 256) :
    iblk0 V c 0 t (ix2 p k) = V c main_v33 (ix2 ⟨1000 * t.val + p.val, by have := tN0 t; omega⟩ k) := by
  obtain ⟨e0, e1, e2, e3, e4, e5, -⟩ := idx_facts0 t
  show V c main_v33 (((cfg0.win 0).blk t).view.emb (ix2 p k)) = _
  congr 1
  funext a; apply Fin.ext
  match a with
  | ⟨0, _⟩ => show win0_0.index t (0 : Fin 2) * 1000 + 1 * p.val = 1000 * t.val + p.val; omega
  | ⟨1, _⟩ => show win0_0.index t (1 : Fin 2) * 256 + 1 * k.val = k.val; omega

/-- Row window 1's block at point `t` is rows `1000 t … 1000 t + 999` of its array. -/
theorem iblk0_1_at (c : Dev nD) (t : Fin cfg0.N) (p : Fin 1000) (k : Fin 256) :
    iblk0 V c 1 t (ix2 p k) = V c main_v46 (ix2 ⟨1000 * t.val + p.val, by have := tN0 t; omega⟩ k) := by
  obtain ⟨e0, e1, e2, e3, e4, e5, -⟩ := idx_facts0 t
  show V c main_v46 (((cfg0.win 1).blk t).view.emb (ix2 p k)) = _
  congr 1
  funext a; apply Fin.ext
  match a with
  | ⟨0, _⟩ => show win0_1.index t (0 : Fin 2) * 1000 + 1 * p.val = 1000 * t.val + p.val; omega
  | ⟨1, _⟩ => show win0_1.index t (1 : Fin 2) * 256 + 1 * k.val = k.val; omega

/-- Row window 2's block at point `t` is rows `1000 t … 1000 t + 999` of its array. -/
theorem iblk0_2_at (c : Dev nD) (t : Fin cfg0.N) (p : Fin 1000) (k : Fin 256) :
    iblk0 V c 2 t (ix2 p k) = V c main_v62 (ix2 ⟨1000 * t.val + p.val, by have := tN0 t; omega⟩ k) := by
  obtain ⟨e0, e1, e2, e3, e4, e5, -⟩ := idx_facts0 t
  show V c main_v62 (((cfg0.win 2).blk t).view.emb (ix2 p k)) = _
  congr 1
  funext a; apply Fin.ext
  match a with
  | ⟨0, _⟩ => show win0_2.index t (0 : Fin 2) * 1000 + 1 * p.val = 1000 * t.val + p.val; omega
  | ⟨1, _⟩ => show win0_2.index t (1 : Fin 2) * 256 + 1 * k.val = k.val; omega

/-- Weight window 3's block at every point is its whole array. -/
theorem iblk0_3_at (c : Dev nD) (t : Fin cfg0.N) (k q : Fin 256) :
    iblk0 V c 3 t (ix2 k q) = V c main_v64 (ix2 k q) := by
  obtain ⟨-, -, -, -, -, -, -, -, e8, e9, e10, e11, e12, e13, -⟩ := idx_facts0 t
  show V c main_v64 (((cfg0.win 3).blk t).view.emb (ix2 k q)) = _
  congr 1
  funext a; apply Fin.ext
  match a with
  | ⟨0, _⟩ => show win0_3.index t (0 : Fin 2) * 256 + 1 * k.val = k.val; omega
  | ⟨1, _⟩ => show win0_3.index t (1 : Fin 2) * 256 + 1 * q.val = q.val; omega

/-- Weight window 4's block at every point is its whole array. -/
theorem iblk0_4_at (c : Dev nD) (t : Fin cfg0.N) (k q : Fin 256) :
    iblk0 V c 4 t (ix2 k q) = V c main_v66 (ix2 k q) := by
  obtain ⟨-, -, -, -, -, -, -, -, e8, e9, e10, e11, e12, e13, -⟩ := idx_facts0 t
  show V c main_v66 (((cfg0.win 4).blk t).view.emb (ix2 k q)) = _
  congr 1
  funext a; apply Fin.ext
  match a with
  | ⟨0, _⟩ => show win0_4.index t (0 : Fin 2) * 256 + 1 * k.val = k.val; omega
  | ⟨1, _⟩ => show win0_4.index t (1 : Fin 2) * 256 + 1 * q.val = q.val; omega

/-- Weight window 5's block at every point is its whole array. -/
theorem iblk0_5_at (c : Dev nD) (t : Fin cfg0.N) (k q : Fin 256) :
    iblk0 V c 5 t (ix2 k q) = V c main_v68 (ix2 k q) := by
  obtain ⟨-, -, -, -, -, -, -, -, e8, e9, e10, e11, e12, e13, -⟩ := idx_facts0 t
  show V c main_v68 (((cfg0.win 5).blk t).view.emb (ix2 k q)) = _
  congr 1
  funext a; apply Fin.ext
  match a with
  | ⟨0, _⟩ => show win0_5.index t (0 : Fin 2) * 256 + 1 * k.val = k.val; omega
  | ⟨1, _⟩ => show win0_5.index t (1 : Fin 2) * 256 + 1 * q.val = q.val; omega

/-- Vector window 6's block at every point is its array's one row. -/
theorem iblk0_6_at (c : Dev nD) (t : Fin cfg0.N) (q : Fin 256) :
    iblk0 V c 6 t (ix2 (0 : Fin 1) q) = rowVec (V c main_v69) (ix1 q) := by
  obtain ⟨-, -, -, -, -, -, -, -, -, -, -, -, -, -, e14, e15, e16, e17, e18, e19⟩ := idx_facts0 t
  show V c main_v69 (((cfg0.win 6).blk t).view.emb (ix2 (0 : Fin 1) q)) = V c main_v69 (ix2 (0 : Fin 1) q)
  congr 1
  funext a; apply Fin.ext
  match a with
  | ⟨0, _⟩ => show win0_6.index t (0 : Fin 2) * 1 + 1 * 0 = 0; omega
  | ⟨1, _⟩ => show win0_6.index t (1 : Fin 2) * 256 + 1 * q.val = q.val; omega

/-- Vector window 7's block at every point is its array's one row. -/
theorem iblk0_7_at (c : Dev nD) (t : Fin cfg0.N) (q : Fin 256) :
    iblk0 V c 7 t (ix2 (0 : Fin 1) q) = rowVec (V c main_v70) (ix1 q) := by
  obtain ⟨-, -, -, -, -, -, -, -, -, -, -, -, -, -, e14, e15, e16, e17, e18, e19⟩ := idx_facts0 t
  show V c main_v70 (((cfg0.win 7).blk t).view.emb (ix2 (0 : Fin 1) q)) = V c main_v70 (ix2 (0 : Fin 1) q)
  congr 1
  funext a; apply Fin.ext
  match a with
  | ⟨0, _⟩ => show win0_7.index t (0 : Fin 2) * 1 + 1 * 0 = 0; omega
  | ⟨1, _⟩ => show win0_7.index t (1 : Fin 2) * 256 + 1 * q.val = q.val; omega

/-- Vector window 8's block at every point is its array's one row. -/
theorem iblk0_8_at (c : Dev nD) (t : Fin cfg0.N) (q : Fin 256) :
    iblk0 V c 8 t (ix2 (0 : Fin 1) q) = rowVec (V c main_v71) (ix1 q) := by
  obtain ⟨-, -, -, -, -, -, -, -, -, -, -, -, -, -, e14, e15, e16, e17, e18, e19⟩ := idx_facts0 t
  show V c main_v71 (((cfg0.win 8).blk t).view.emb (ix2 (0 : Fin 1) q)) = V c main_v71 (ix2 (0 : Fin 1) q)
  congr 1
  funext a; apply Fin.ext
  match a with
  | ⟨0, _⟩ => show win0_8.index t (0 : Fin 2) * 1 + 1 * 0 = 0; omega
  | ⟨1, _⟩ => show win0_8.index t (1 : Fin 2) * 256 + 1 * q.val = q.val; omega

/-- What region 0's output array ends holding: the dense layer of the arrays its windows read. -/
abbrev G0 (c : Dev nD) : S10000x256.Idx → EReal :=
  Cert.Cheb.layer (V c main_v33) (V c main_v46) (V c main_v62) (V c main_v64) (V c main_v66) (V c main_v68)
    (rowVec (V c main_v69)) (rowVec (V c main_v70)) (rowVec (V c main_v71))

/-- If the body's output block at point `t`, element by element, is a function `G` of the array index, then what point
    `t` writes back is block `t` of `G`. -/
theorem flushed0_of (c : Dev nD) (t : Fin cfg0.N) (G : S10000x256.Idx → EReal)
    (hG : ∀ (p : Fin 1000) (q : Fin 256), out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix2 p q)
      = G (ix2 ⟨1000 * t.val + p.val, by have := tN0 t; omega⟩ q)) :
    (dat0 V c).flushed 9 t = ((cfg0.win 9).blk t).view.read (Elt Ideal) G := by
  show (cfg0.win 9).cut (grid0.coords t) ((dat0 V c).after 9 t) = _
  rw [after0_9]
  funext y
  obtain ⟨p, q, rfl⟩ : ∃ (p : Fin 1000) (q : Fin 256), y = ix2 p q := ⟨y 0, y 1, eq_ix2 y⟩
  obtain ⟨-, -, -, -, -, -, e6, e7, -⟩ := idx_facts0 t
  refine (hG p q).trans ?_
  show _ = G (((cfg0.win 9).blk t).view.emb (ix2 p q))
  congr 1
  funext a; apply Fin.ext
  match a with
  | ⟨0, _⟩ => show 1000 * t.val + p.val = win0_9.index t (0 : Fin 2) * 1000 + 1 * p.val; omega
  | ⟨1, _⟩ => show q.val = win0_9.index t (1 : Fin 2) * 256 + 1 * q.val; omega

theorem G0_at (c : Dev nD) (r : Fin 10000) (q : Fin 256) :
    G0 V c (ix2 r q) = Cert.Cheb.layerAt (V c main_v33) (V c main_v46) (V c main_v62) (V c main_v64) (V c main_v66) (V c main_v68)
      (rowVec (V c main_v69)) (rowVec (V c main_v70)) (rowVec (V c main_v71)) r q := rfl

/-- What point `t` writes back is block `t` of the layer's array. -/
theorem flushed0_eq (c : Dev nD) (t : Fin cfg0.N) :
    (dat0 V c).flushed 9 t = ((cfg0.win 9).blk t).view.read (Elt Ideal) (G0 V c) :=
  flushed0_of V c t (G0 V c) fun p q =>
    (Cert.KernelIdeal.BodyAt.out0_9_at (x0 := iblk0 V c 0 t) (x1 := iblk0 V c 1 t) (x2 := iblk0 V c 2 t)
      (x3 := iblk0 V c 3 t) (x4 := iblk0 V c 4 t) (x5 := iblk0 V c 5 t) (x6 := iblk0 V c 6 t) (x7 := iblk0 V c 7 t)
      (x8 := iblk0 V c 8 t) (t0 := V c main_v33) (t1 := V c main_v46) (t2 := V c main_v62)
      (w0 := V c main_v64) (w1 := V c main_v66) (w2 := V c main_v68)
      (b := rowVec (V c main_v69)) (g := rowVec (V c main_v70)) (be := rowVec (V c main_v71)) ⟨t.val, tN0 t⟩
      (iblk0_0_at V c t) (iblk0_1_at V c t) (iblk0_2_at V c t) (iblk0_3_at V c t) (iblk0_4_at V c t) (iblk0_5_at V c t)
      (iblk0_6_at V c t) (iblk0_7_at V c t) (iblk0_8_at V c t) p q).trans (G0_at V c _ q).symm

/-- An index of the output array is in point `t`'s block iff each coordinate is in the block's range. -/
theorem mem_blk0 (t : Fin cfg0.N) (i : S10000x256.Idx) :
    i ∈ ((cfg0.win 9).blk t).view.set ↔ ∀ a : Fin 2, win0_9.index t a * S1000x256.size a ≤ (i a).val ∧ (i a).val < win0_9.index t a * S1000x256.size a + S1000x256.size a := by
  show i ∈ ((View.whole main_v72).slice (win0_9.rect t)).set ↔ _
  rw [View.set_slice_whole, Rect.mem_set_unit]
  exact Iff.rfl

/-- The ten row blocks cover the array: row `r` is in block `r / 1000`. -/
theorem cover0 (i : S10000x256.Idx) :
    ∃ t : Fin cfg0.N, (cfg0.win 9).flush t = true ∧ i ∈ ((cfg0.win 9).blk t).view.set := by
  have hi0 : (i 0).val < 10000 := (i 0).isLt
  have hi1 : (i 1).val < 256 := (i 1).isLt
  let t : Fin cfg0.N := ⟨(i 0).val / 1000, lt_of_lt_of_eq (by omega : (i 0).val / 1000 < 10) N_0.symm⟩
  obtain ⟨-, -, -, -, -, -, e6, e7, -⟩ := idx_facts0 t
  have ht : t.val = (i 0).val / 1000 := rfl
  refine ⟨t, flush0_9 t, ?_⟩
  rw [mem_blk0]
  intro a
  match a with
  | ⟨0, _⟩ => show win0_9.index t (0 : Fin 2) * 1000 ≤ (i 0).val ∧ (i 0).val < win0_9.index t (0 : Fin 2) * 1000 + 1000; omega
  | ⟨1, _⟩ => show win0_9.index t (1 : Fin 2) * 256 ≤ (i 1).val ∧ (i 1).val < win0_9.index t (1 : Fin 2) * 256 + 256; omega

/-- Region 0's output array after its ten points. -/
theorem final0 (c : Dev nD) : (dat0 V c).arrAt 9 cfg0.N = G0 V c :=
  (dat0 V c).arrAt_eq_of_cover 9 (G0 V c) (fun t _ => flushed0_eq V c t) (cover0)

/-! ## Region 1 -/

/-- The printed index maps of region 1, decided over its ten grid points: the row windows and the output move with the
    point along the rows, the weight and vector windows stay. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem tN1 (t : Fin cfg1.N) : t.val < 10 := lt_of_lt_of_eq t.isLt N_1

/-- Row window 0's block at point `t` is rows `1000 t … 1000 t + 999` of its array. -/
theorem iblk1_0_at (c : Dev nD) (t : Fin cfg1.N) (p : Fin 1000) (k : Fin 256) :
    iblk1 V c 0 t (ix2 p k) = V c main_v72 (ix2 ⟨1000 * t.val + p.val, by have := tN1 t; omega⟩ k) := by
  obtain ⟨e0, e1, e2, e3, e4, e5, -⟩ := idx_facts1 t
  show V c main_v72 (((cfg1.win 0).blk t).view.emb (ix2 p k)) = _
  congr 1
  funext a; apply Fin.ext
  match a with
  | ⟨0, _⟩ => show win1_0.index t (0 : Fin 2) * 1000 + 1 * p.val = 1000 * t.val + p.val; omega
  | ⟨1, _⟩ => show win1_0.index t (1 : Fin 2) * 256 + 1 * k.val = k.val; omega

/-- Row window 1's block at point `t` is rows `1000 t … 1000 t + 999` of its array. -/
theorem iblk1_1_at (c : Dev nD) (t : Fin cfg1.N) (p : Fin 1000) (k : Fin 256) :
    iblk1 V c 1 t (ix2 p k) = V c main_v85 (ix2 ⟨1000 * t.val + p.val, by have := tN1 t; omega⟩ k) := by
  obtain ⟨e0, e1, e2, e3, e4, e5, -⟩ := idx_facts1 t
  show V c main_v85 (((cfg1.win 1).blk t).view.emb (ix2 p k)) = _
  congr 1
  funext a; apply Fin.ext
  match a with
  | ⟨0, _⟩ => show win1_1.index t (0 : Fin 2) * 1000 + 1 * p.val = 1000 * t.val + p.val; omega
  | ⟨1, _⟩ => show win1_1.index t (1 : Fin 2) * 256 + 1 * k.val = k.val; omega

/-- Row window 2's block at point `t` is rows `1000 t … 1000 t + 999` of its array. -/
theorem iblk1_2_at (c : Dev nD) (t : Fin cfg1.N) (p : Fin 1000) (k : Fin 256) :
    iblk1 V c 2 t (ix2 p k) = V c main_v101 (ix2 ⟨1000 * t.val + p.val, by have := tN1 t; omega⟩ k) := by
  obtain ⟨e0, e1, e2, e3, e4, e5, -⟩ := idx_facts1 t
  show V c main_v101 (((cfg1.win 2).blk t).view.emb (ix2 p k)) = _
  congr 1
  funext a; apply Fin.ext
  match a with
  | ⟨0, _⟩ => show win1_2.index t (0 : Fin 2) * 1000 + 1 * p.val = 1000 * t.val + p.val; omega
  | ⟨1, _⟩ => show win1_2.index t (1 : Fin 2) * 256 + 1 * k.val = k.val; omega

/-- Weight window 3's block at every point is its whole array. -/
theorem iblk1_3_at (c : Dev nD) (t : Fin cfg1.N) (k q : Fin 256) :
    iblk1 V c 3 t (ix2 k q) = V c main_v103 (ix2 k q) := by
  obtain ⟨-, -, -, -, -, -, -, -, e8, e9, e10, e11, e12, e13, -⟩ := idx_facts1 t
  show V c main_v103 (((cfg1.win 3).blk t).view.emb (ix2 k q)) = _
  congr 1
  funext a; apply Fin.ext
  match a with
  | ⟨0, _⟩ => show win1_3.index t (0 : Fin 2) * 256 + 1 * k.val = k.val; omega
  | ⟨1, _⟩ => show win1_3.index t (1 : Fin 2) * 256 + 1 * q.val = q.val; omega

/-- Weight window 4's block at every point is its whole array. -/
theorem iblk1_4_at (c : Dev nD) (t : Fin cfg1.N) (k q : Fin 256) :
    iblk1 V c 4 t (ix2 k q) = V c main_v105 (ix2 k q) := by
  obtain ⟨-, -, -, -, -, -, -, -, e8, e9, e10, e11, e12, e13, -⟩ := idx_facts1 t
  show V c main_v105 (((cfg1.win 4).blk t).view.emb (ix2 k q)) = _
  congr 1
  funext a; apply Fin.ext
  match a with
  | ⟨0, _⟩ => show win1_4.index t (0 : Fin 2) * 256 + 1 * k.val = k.val; omega
  | ⟨1, _⟩ => show win1_4.index t (1 : Fin 2) * 256 + 1 * q.val = q.val; omega

/-- Weight window 5's block at every point is its whole array. -/
theorem iblk1_5_at (c : Dev nD) (t : Fin cfg1.N) (k q : Fin 256) :
    iblk1 V c 5 t (ix2 k q) = V c main_v107 (ix2 k q) := by
  obtain ⟨-, -, -, -, -, -, -, -, e8, e9, e10, e11, e12, e13, -⟩ := idx_facts1 t
  show V c main_v107 (((cfg1.win 5).blk t).view.emb (ix2 k q)) = _
  congr 1
  funext a; apply Fin.ext
  match a with
  | ⟨0, _⟩ => show win1_5.index t (0 : Fin 2) * 256 + 1 * k.val = k.val; omega
  | ⟨1, _⟩ => show win1_5.index t (1 : Fin 2) * 256 + 1 * q.val = q.val; omega

/-- Vector window 6's block at every point is its array's one row. -/
theorem iblk1_6_at (c : Dev nD) (t : Fin cfg1.N) (q : Fin 256) :
    iblk1 V c 6 t (ix2 (0 : Fin 1) q) = rowVec (V c main_v108) (ix1 q) := by
  obtain ⟨-, -, -, -, -, -, -, -, -, -, -, -, -, -, e14, e15, e16, e17, e18, e19⟩ := idx_facts1 t
  show V c main_v108 (((cfg1.win 6).blk t).view.emb (ix2 (0 : Fin 1) q)) = V c main_v108 (ix2 (0 : Fin 1) q)
  congr 1
  funext a; apply Fin.ext
  match a with
  | ⟨0, _⟩ => show win1_6.index t (0 : Fin 2) * 1 + 1 * 0 = 0; omega
  | ⟨1, _⟩ => show win1_6.index t (1 : Fin 2) * 256 + 1 * q.val = q.val; omega

/-- Vector window 7's block at every point is its array's one row. -/
theorem iblk1_7_at (c : Dev nD) (t : Fin cfg1.N) (q : Fin 256) :
    iblk1 V c 7 t (ix2 (0 : Fin 1) q) = rowVec (V c main_v109) (ix1 q) := by
  obtain ⟨-, -, -, -, -, -, -, -, -, -, -, -, -, -, e14, e15, e16, e17, e18, e19⟩ := idx_facts1 t
  show V c main_v109 (((cfg1.win 7).blk t).view.emb (ix2 (0 : Fin 1) q)) = V c main_v109 (ix2 (0 : Fin 1) q)
  congr 1
  funext a; apply Fin.ext
  match a with
  | ⟨0, _⟩ => show win1_7.index t (0 : Fin 2) * 1 + 1 * 0 = 0; omega
  | ⟨1, _⟩ => show win1_7.index t (1 : Fin 2) * 256 + 1 * q.val = q.val; omega

/-- Vector window 8's block at every point is its array's one row. -/
theorem iblk1_8_at (c : Dev nD) (t : Fin cfg1.N) (q : Fin 256) :
    iblk1 V c 8 t (ix2 (0 : Fin 1) q) = rowVec (V c main_v110) (ix1 q) := by
  obtain ⟨-, -, -, -, -, -, -, -, -, -, -, -, -, -, e14, e15, e16, e17, e18, e19⟩ := idx_facts1 t
  show V c main_v110 (((cfg1.win 8).blk t).view.emb (ix2 (0 : Fin 1) q)) = V c main_v110 (ix2 (0 : Fin 1) q)
  congr 1
  funext a; apply Fin.ext
  match a with
  | ⟨0, _⟩ => show win1_8.index t (0 : Fin 2) * 1 + 1 * 0 = 0; omega
  | ⟨1, _⟩ => show win1_8.index t (1 : Fin 2) * 256 + 1 * q.val = q.val; omega

/-- What region 1's output array ends holding: the dense layer of the arrays its windows read. -/
abbrev G1 (c : Dev nD) : S10000x256.Idx → EReal :=
  Cert.Cheb.layer (V c main_v72) (V c main_v85) (V c main_v101) (V c main_v103) (V c main_v105) (V c main_v107)
    (rowVec (V c main_v108)) (rowVec (V c main_v109)) (rowVec (V c main_v110))

/-- If the body's output block at point `t`, element by element, is a function `G` of the array index, then what point
    `t` writes back is block `t` of `G`. -/
theorem flushed1_of (c : Dev nD) (t : Fin cfg1.N) (G : S10000x256.Idx → EReal)
    (hG : ∀ (p : Fin 1000) (q : Fin 256), out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 p q)
      = G (ix2 ⟨1000 * t.val + p.val, by have := tN1 t; omega⟩ q)) :
    (dat1 V c).flushed 9 t = ((cfg1.win 9).blk t).view.read (Elt Ideal) G := by
  show (cfg1.win 9).cut (grid1.coords t) ((dat1 V c).after 9 t) = _
  rw [after1_9]
  funext y
  obtain ⟨p, q, rfl⟩ : ∃ (p : Fin 1000) (q : Fin 256), y = ix2 p q := ⟨y 0, y 1, eq_ix2 y⟩
  obtain ⟨-, -, -, -, -, -, e6, e7, -⟩ := idx_facts1 t
  refine (hG p q).trans ?_
  show _ = G (((cfg1.win 9).blk t).view.emb (ix2 p q))
  congr 1
  funext a; apply Fin.ext
  match a with
  | ⟨0, _⟩ => show 1000 * t.val + p.val = win1_9.index t (0 : Fin 2) * 1000 + 1 * p.val; omega
  | ⟨1, _⟩ => show q.val = win1_9.index t (1 : Fin 2) * 256 + 1 * q.val; omega

theorem G1_at (c : Dev nD) (r : Fin 10000) (q : Fin 256) :
    G1 V c (ix2 r q) = Cert.Cheb.layerAt (V c main_v72) (V c main_v85) (V c main_v101) (V c main_v103) (V c main_v105) (V c main_v107)
      (rowVec (V c main_v108)) (rowVec (V c main_v109)) (rowVec (V c main_v110)) r q := rfl

/-- What point `t` writes back is block `t` of the layer's array. -/
theorem flushed1_eq (c : Dev nD) (t : Fin cfg1.N) :
    (dat1 V c).flushed 9 t = ((cfg1.win 9).blk t).view.read (Elt Ideal) (G1 V c) :=
  flushed1_of V c t (G1 V c) fun p q =>
    (Cert.KernelIdeal.BodyAt.out1_9_at (x0 := iblk1 V c 0 t) (x1 := iblk1 V c 1 t) (x2 := iblk1 V c 2 t)
      (x3 := iblk1 V c 3 t) (x4 := iblk1 V c 4 t) (x5 := iblk1 V c 5 t) (x6 := iblk1 V c 6 t) (x7 := iblk1 V c 7 t)
      (x8 := iblk1 V c 8 t) (t0 := V c main_v72) (t1 := V c main_v85) (t2 := V c main_v101)
      (w0 := V c main_v103) (w1 := V c main_v105) (w2 := V c main_v107)
      (b := rowVec (V c main_v108)) (g := rowVec (V c main_v109)) (be := rowVec (V c main_v110)) ⟨t.val, tN1 t⟩
      (iblk1_0_at V c t) (iblk1_1_at V c t) (iblk1_2_at V c t) (iblk1_3_at V c t) (iblk1_4_at V c t) (iblk1_5_at V c t)
      (iblk1_6_at V c t) (iblk1_7_at V c t) (iblk1_8_at V c t) p q).trans (G1_at V c _ q).symm

/-- An index of the output array is in point `t`'s block iff each coordinate is in the block's range. -/
theorem mem_blk1 (t : Fin cfg1.N) (i : S10000x256.Idx) :
    i ∈ ((cfg1.win 9).blk t).view.set ↔ ∀ a : Fin 2, win1_9.index t a * S1000x256.size a ≤ (i a).val ∧ (i a).val < win1_9.index t a * S1000x256.size a + S1000x256.size a := by
  show i ∈ ((View.whole main_v111).slice (win1_9.rect t)).set ↔ _
  rw [View.set_slice_whole, Rect.mem_set_unit]
  exact Iff.rfl

/-- The ten row blocks cover the array: row `r` is in block `r / 1000`. -/
theorem cover1 (i : S10000x256.Idx) :
    ∃ t : Fin cfg1.N, (cfg1.win 9).flush t = true ∧ i ∈ ((cfg1.win 9).blk t).view.set := by
  have hi0 : (i 0).val < 10000 := (i 0).isLt
  have hi1 : (i 1).val < 256 := (i 1).isLt
  let t : Fin cfg1.N := ⟨(i 0).val / 1000, lt_of_lt_of_eq (by omega : (i 0).val / 1000 < 10) N_1.symm⟩
  obtain ⟨-, -, -, -, -, -, e6, e7, -⟩ := idx_facts1 t
  have ht : t.val = (i 0).val / 1000 := rfl
  refine ⟨t, flush1_9 t, ?_⟩
  rw [mem_blk1]
  intro a
  match a with
  | ⟨0, _⟩ => show win1_9.index t (0 : Fin 2) * 1000 ≤ (i 0).val ∧ (i 0).val < win1_9.index t (0 : Fin 2) * 1000 + 1000; omega
  | ⟨1, _⟩ => show win1_9.index t (1 : Fin 2) * 256 ≤ (i 1).val ∧ (i 1).val < win1_9.index t (1 : Fin 2) * 256 + 256; omega

/-- Region 1's output array after its ten points. -/
theorem final1 (c : Dev nD) : (dat1 V c).arrAt 9 cfg1.N = G1 V c :=
  (dat1 V c).arrAt_eq_of_cover 9 (G1 V c) (fun t _ => flushed1_eq V c t) (cover1)

end Cert.KernelIdeal.Final

end
-- ==== Proof.KernelValue.lean ====
/-
  The idealized kernel program's result as the network over the specification's dense layer: the second region's output
  array is the layer of what its windows hold, which the host stretch between the regions computes from the first
  region's output array, itself the layer of what the first stretches compute from the arguments.
-/
import proofs.«134588_j19095424598406_1_alg».proof.Proof.Gen.KernelIdeal.Frame
import proofs.«134588_j19095424598406_1_alg».proof.Proof.HostRead
import proofs.«134588_j19095424598406_1_alg».proof.Proof.Final

set_option maxRecDepth 16384

noncomputable section

namespace Cert.KernelIdeal.Value

open Cert.KernelIdeal Cert.KernelIdeal.Gen Idealize.ShloMosaic Idealize.ShloMosaic.TcCoe Idealize.SL.Sem Idealize.ShloMosaic.StableHlo
open Idealize.ShloMosaic.ValueIdx Idealize.ShloMosaic.Pipeline
open Cert.Stages Cert.KernelIdeal.HostRead Cert.KernelIdeal.Final

/-- The specification's layer as a dense layer. -/
def layerD : Dense Ideal := fun t0 t1 t2 w0 w1 w2 b g be => Cert.Cheb.layer t0 t1 t2 w0 w1 w2 b g be

/-- A vector stored as a [1,256] row and read back as that row is the vector. -/
theorem rowVec_cast (b : FVec Ideal S256 .f32) : rowVec (shapeCast S1x256 b shapeCasts_S256_S1x256) = b := by
  funext j
  obtain ⟨q, rfl⟩ : ∃ q : Fin 256, j = ix1 q := ⟨j 0, eq_ix1 j⟩
  show shapeCast S1x256 b shapeCasts_S256_S1x256 (ix2 (0 : Fin 1) q) = b (ix1 q)
  refine shapeCast_apply b shapeCasts_S256_S1x256 _ _ ?_
  rw [Shape.rowMajor_val_two, Shape.rowMajor_val_one]
  show q.val = 0 * 256 + q.val
  omega

variable (m : (ℓ : Loc nD τ sig) → Buf (Elt Ideal) ℓ) (ρ : Dev nD → PrngReg) (c : Dev nD)

/-! ## The first region's windows -/

theorem V7_v33 : V7 m ρ c main_v33 = (safeOf (F := Ideal) (m ((c : Thread nD τ).loc main_arg0))) :=
  (s6_v33 (pre5 (W0 m ρ c))).trans (pre5_v33 (W0 m ρ c))
theorem V7_v46 : V7 m ρ c main_v46 = propOf (F := Ideal) (normOf (F := Ideal) (m ((c : Thread nD τ).loc main_arg1)) (m ((c : Thread nD τ).loc main_arg2))) (rowOf (m ((c : Thread nD τ).loc main_arg1))) (colOf (m ((c : Thread nD τ).loc main_arg1))) (safeOf (F := Ideal) (m ((c : Thread nD τ).loc main_arg0))) :=
  (s6_v46 (pre5 (W0 m ρ c))).trans (by rw [pre5_v32, pre5_v5, pre5_v7, pre5_v33])
theorem V7_v62 : V7 m ρ c main_v62 = tx2Of (F := Ideal) (propOf (normOf (F := Ideal) (m ((c : Thread nD τ).loc main_arg1)) (m ((c : Thread nD τ).loc main_arg2))) (rowOf (m ((c : Thread nD τ).loc main_arg1))) (colOf (m ((c : Thread nD τ).loc main_arg1))) (propOf (normOf (F := Ideal) (m ((c : Thread nD τ).loc main_arg1)) (m ((c : Thread nD τ).loc main_arg2))) (rowOf (m ((c : Thread nD τ).loc main_arg1))) (colOf (m ((c : Thread nD τ).loc main_arg1))) (safeOf (F := Ideal) (m ((c : Thread nD τ).loc main_arg0))))) (safeOf (F := Ideal) (m ((c : Thread nD τ).loc main_arg0))) :=
  (s6_v62 (pre5 (W0 m ρ c))).trans (by rw [pre5_v32, pre5_v5, pre5_v7, pre5_v33])
theorem V7_v64 : V7 m ρ c main_v64 = w0Of (F := Ideal) (m ((c : Thread nD τ).loc main_arg3)) := (s6_v64 (pre5 (W0 m ρ c))).trans (by rw [pre5_arg3])
theorem V7_v66 : V7 m ρ c main_v66 = w1Of (F := Ideal) (m ((c : Thread nD τ).loc main_arg3)) := (s6_v66 (pre5 (W0 m ρ c))).trans (by rw [pre5_arg3])
theorem V7_v68 : V7 m ρ c main_v68 = w2Of (F := Ideal) (m ((c : Thread nD τ).loc main_arg3)) := (s6_v68 (pre5 (W0 m ρ c))).trans (by rw [pre5_arg3])
theorem V7_v69 : V7 m ρ c main_v69 = shapeCast S1x256 (m ((c : Thread nD τ).loc main_arg4)) shapeCasts_S256_S1x256 :=
  (s6_v69 (pre5 (W0 m ρ c))).trans (by rw [pre5_arg4])
theorem V7_v70 : V7 m ρ c main_v70 = shapeCast S1x256 (m ((c : Thread nD τ).loc main_arg5)) shapeCasts_S256_S1x256 :=
  (s6_v70 (pre5 (W0 m ρ c))).trans (by rw [pre5_arg5])
theorem V7_v71 : V7 m ρ c main_v71 = shapeCast S1x256 (m ((c : Thread nD τ).loc main_arg6)) shapeCasts_S256_S1x256 :=
  (s6_v71 (pre5 (W0 m ρ c))).trans (by rw [pre5_arg6])

/-- The first region's output array: the first layer. -/
theorem first_layer : G0 (V7 m ρ) c = (blockOf (F := Ideal) layerD (m ((c : Thread nD τ).loc main_arg1)) (m ((c : Thread nD τ).loc main_arg2)) (safeOf (F := Ideal) (m ((c : Thread nD τ).loc main_arg0))) (m ((c : Thread nD τ).loc main_arg3)) (m ((c : Thread nD τ).loc main_arg4)) (m ((c : Thread nD τ).loc main_arg5)) (m ((c : Thread nD τ).loc main_arg6))) := by
  unfold G0
  rw [V7_v33, V7_v46, V7_v62, V7_v64, V7_v66, V7_v68, V7_v69, V7_v70, V7_v71, rowVec_cast, rowVec_cast, rowVec_cast]
  rfl

/-! ## Between the regions: what the first region and the first stretches left -/

theorem W8_v72 : W8 m ρ c (Proc.devRef .tc main_v72) = (blockOf (F := Ideal) layerD (m ((c : Thread nD τ).loc main_arg1)) (m ((c : Thread nD τ).loc main_arg2)) (safeOf (F := Ideal) (m ((c : Thread nD τ).loc main_arg0))) (m ((c : Thread nD τ).loc main_arg3)) (m ((c : Thread nD τ).loc main_arg4)) (m ((c : Thread nD τ).loc main_arg5)) (m ((c : Thread nD τ).loc main_arg6))) :=
  (W8_arr m ρ c 9).trans ((final0 (V7 m ρ) c).trans (first_layer m ρ c))
theorem W8_v32 : W8 m ρ c (Proc.devRef .tc main_v32) = (normOf (F := Ideal) (m ((c : Thread nD τ).loc main_arg1)) (m ((c : Thread nD τ).loc main_arg2))) :=
  (W8_of_ne m ρ c main_v32 (by decide)).trans ((s6_v32 (pre5 (W0 m ρ c))).trans (pre5_v32 (W0 m ρ c)))
theorem W8_v5 : W8 m ρ c (Proc.devRef .tc main_v5) = (rowOf (m ((c : Thread nD τ).loc main_arg1))) :=
  (W8_of_ne m ρ c main_v5 (by decide)).trans ((s6_v5 (pre5 (W0 m ρ c))).trans (pre5_v5 (W0 m ρ c)))
theorem W8_v7 : W8 m ρ c (Proc.devRef .tc main_v7) = (colOf (m ((c : Thread nD τ).loc main_arg1))) :=
  (W8_of_ne m ρ c main_v7 (by decide)).trans ((s6_v7 (pre5 (W0 m ρ c))).trans (pre5_v7 (W0 m ρ c)))
theorem W8_arg7 : W8 m ρ c (Proc.devRef .tc main_arg7) = (m ((c : Thread nD τ).loc main_arg7)) :=
  (W8_of_ne m ρ c main_arg7 (by decide)).trans ((s6_arg7 (pre5 (W0 m ρ c))).trans (pre5_arg7 (W0 m ρ c)))
theorem W8_arg8 : W8 m ρ c (Proc.devRef .tc main_arg8) = (m ((c : Thread nD τ).loc main_arg8)) :=
  (W8_of_ne m ρ c main_arg8 (by decide)).trans ((s6_arg8 (pre5 (W0 m ρ c))).trans (pre5_arg8 (W0 m ρ c)))
theorem W8_arg9 : W8 m ρ c (Proc.devRef .tc main_arg9) = (m ((c : Thread nD τ).loc main_arg9)) :=
  (W8_of_ne m ρ c main_arg9 (by decide)).trans ((s6_arg9 (pre5 (W0 m ρ c))).trans (pre5_arg9 (W0 m ρ c)))
theorem W8_arg10 : W8 m ρ c (Proc.devRef .tc main_arg10) = (m ((c : Thread nD τ).loc main_arg10)) :=
  (W8_of_ne m ρ c main_arg10 (by decide)).trans ((s6_arg10 (pre5 (W0 m ρ c))).trans (pre5_arg10 (W0 m ρ c)))

/-! ## The second region's windows -/

theorem V9_v72 : V9 m ρ c main_v72 = (blockOf (F := Ideal) layerD (m ((c : Thread nD τ).loc main_arg1)) (m ((c : Thread nD τ).loc main_arg2)) (safeOf (F := Ideal) (m ((c : Thread nD τ).loc main_arg0))) (m ((c : Thread nD τ).loc main_arg3)) (m ((c : Thread nD τ).loc main_arg4)) (m ((c : Thread nD τ).loc main_arg5)) (m ((c : Thread nD τ).loc main_arg6))) := (mid_v72 (W8 m ρ c)).trans (W8_v72 m ρ c)
theorem V9_v85 : V9 m ρ c main_v85 = propOf (F := Ideal) (normOf (F := Ideal) (m ((c : Thread nD τ).loc main_arg1)) (m ((c : Thread nD τ).loc main_arg2))) (rowOf (m ((c : Thread nD τ).loc main_arg1))) (colOf (m ((c : Thread nD τ).loc main_arg1))) (blockOf (F := Ideal) layerD (m ((c : Thread nD τ).loc main_arg1)) (m ((c : Thread nD τ).loc main_arg2)) (safeOf (F := Ideal) (m ((c : Thread nD τ).loc main_arg0))) (m ((c : Thread nD τ).loc main_arg3)) (m ((c : Thread nD τ).loc main_arg4)) (m ((c : Thread nD τ).loc main_arg5)) (m ((c : Thread nD τ).loc main_arg6))) :=
  (mid_v85 (W8 m ρ c)).trans (by rw [W8_v32, W8_v5, W8_v7, W8_v72])
theorem V9_v101 : V9 m ρ c main_v101 = tx2Of (F := Ideal) (propOf (normOf (F := Ideal) (m ((c : Thread nD τ).loc main_arg1)) (m ((c : Thread nD τ).loc main_arg2))) (rowOf (m ((c : Thread nD τ).loc main_arg1))) (colOf (m ((c : Thread nD τ).loc main_arg1))) (propOf (normOf (F := Ideal) (m ((c : Thread nD τ).loc main_arg1)) (m ((c : Thread nD τ).loc main_arg2))) (rowOf (m ((c : Thread nD τ).loc main_arg1))) (colOf (m ((c : Thread nD τ).loc main_arg1))) (blockOf (F := Ideal) layerD (m ((c : Thread nD τ).loc main_arg1)) (m ((c : Thread nD τ).loc main_arg2)) (safeOf (F := Ideal) (m ((c : Thread nD τ).loc main_arg0))) (m ((c : Thread nD τ).loc main_arg3)) (m ((c : Thread nD τ).loc main_arg4)) (m ((c : Thread nD τ).loc main_arg5)) (m ((c : Thread nD τ).loc main_arg6))))) (blockOf (F := Ideal) layerD (m ((c : Thread nD τ).loc main_arg1)) (m ((c : Thread nD τ).loc main_arg2)) (safeOf (F := Ideal) (m ((c : Thread nD τ).loc main_arg0))) (m ((c : Thread nD τ).loc main_arg3)) (m ((c : Thread nD τ).loc main_arg4)) (m ((c : Thread nD τ).loc main_arg5)) (m ((c : Thread nD τ).loc main_arg6))) :=
  (mid_v101 (W8 m ρ c)).trans (by rw [W8_v32, W8_v5, W8_v7, W8_v72])
theorem V9_v103 : V9 m ρ c main_v103 = w0Of (F := Ideal) (m ((c : Thread nD τ).loc main_arg7)) := (mid_v103 (W8 m ρ c)).trans (by rw [W8_arg7])
theorem V9_v105 : V9 m ρ c main_v105 = w1Of (F := Ideal) (m ((c : Thread nD τ).loc main_arg7)) := (mid_v105 (W8 m ρ c)).trans (by rw [W8_arg7])
theorem V9_v107 : V9 m ρ c main_v107 = w2Of (F := Ideal) (m ((c : Thread nD τ).loc main_arg7)) := (mid_v107 (W8 m ρ c)).trans (by rw [W8_arg7])
theorem V9_v108 : V9 m ρ c main_v108 = shapeCast S1x256 (m ((c : Thread nD τ).loc main_arg8)) shapeCasts_S256_S1x256 :=
  (mid_v108 (W8 m ρ c)).trans (by rw [W8_arg8])
theorem V9_v109 : V9 m ρ c main_v109 = shapeCast S1x256 (m ((c : Thread nD τ).loc main_arg9)) shapeCasts_S256_S1x256 :=
  (mid_v109 (W8 m ρ c)).trans (by rw [W8_arg9])
theorem V9_v110 : V9 m ρ c main_v110 = shapeCast S1x256 (m ((c : Thread nD τ).loc main_arg10)) shapeCasts_S256_S1x256 :=
  (mid_v110 (W8 m ρ c)).trans (by rw [W8_arg10])

/-- The second region's output array: the network. -/
theorem second_layer : G1 (V9 m ρ) c = netOf (F := Ideal) layerD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold G1
  rw [V9_v72, V9_v85, V9_v101, V9_v103, V9_v105, V9_v107, V9_v108, V9_v109, V9_v110, rowVec_cast, rowVec_cast, rowVec_cast]
  rfl

/-- The result buffer after the run holds the network over the specification's layer. -/
theorem result_eq : W10 m ρ c (Proc.devRef .tc main_v111) = netOf (F := Ideal) layerD (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W10_arr m ρ c 9).trans ((final1 (V9 m ρ) c).trans (second_layer m ρ c))

end Cert.KernelIdeal.Value

end
-- ==== Proof.RefRunLib.lean ====
/-
  Two facts about a predicate holding of every element of a list (`List.Forall`): it holds of a concatenation when it
  holds of both parts, and then of each member. They let a long line of host operations be stated piece by piece.
-/
import Mathlib.Data.List.Basic

namespace Cert.ReferenceIdeal.RefRun

/-- A predicate that holds of every element of `a` and of `b` holds of every element of `a ++ b`. -/
theorem forall_append {α : Type*} {p : α → Prop} {a b : List α} (ha : a.Forall p) (hb : b.Forall p) :
    (a ++ b).Forall p :=
  List.forall_iff_forall_mem.mpr fun x hx =>
    (List.mem_append.mp hx).elim (List.forall_iff_forall_mem.mp ha x) (List.forall_iff_forall_mem.mp hb x)

end Cert.ReferenceIdeal.RefRun
-- ==== Proof.RefOps0.lean ====
/-
  Statements 1 to 60 of the reference program's @main as lists of host operations, every call of an outlined
  function replaced by the callee's operations over that call's buffers, in the order they run. The lists are cut where
  a stage of the computation ends; the window is their concatenation, and running the window is running that line.
-/
import proofs.«134588_j19095424598406_1_alg».proof.ReferenceIdeal
import proofs.«134588_j19095424598406_1_alg».proof.Proof.Gen.ReferenceIdeal
import proofs.«134588_j19095424598406_1_alg».proof.Proof.RefRunLib
import Idealize.ShloMosaic.Lib.StableHlo.Run

noncomputable section

namespace Cert.ReferenceIdeal.RefRun

open Idealize.ShloMosaic Idealize.SL.Sem Cert.ReferenceIdeal Cert.ReferenceIdeal.Facts₀

variable {F : FTy → Type} [FloatOps F]

/-- The edge weights scrubbed: three zero constants and the three selects replacing NaN, +∞ and −∞ by 0. -/
abbrev scrubW : List (HloOp τ sig (Elt F)) :=
  [
    StableHlo.nullary main_cst (constant S_ .f32 0x00000000#32),
    StableHlo.nullary main_cst_0 (constant S_ .f32 0x00000000#32),
    StableHlo.nullary main_cst_1 (constant S_ .f32 0x00000000#32),
    StableHlo.TRef.binary (.of main_arg2 : StableHlo.TRef sig ⟨S320000, .f32⟩) (.of main_arg2 : StableHlo.TRef sig ⟨S320000, .f32⟩) main_call0.v0 (cmpf .une),
    StableHlo.TRef.unary (.of main_cst : StableHlo.TRef sig ⟨S_, .f32⟩) main_call0.v1 id,
    StableHlo.TRef.unary main_call0.v1 main_call0.call0.v0 (broadcastInDim S320000 ![] bcast_S_S320000),
    StableHlo.TRef.ternary main_call0.v0 main_call0.call0.v0 (.of main_arg2 : StableHlo.TRef sig ⟨S320000, .f32⟩) main_call0.call0.v1 select,
    StableHlo.TRef.nullary main_call0.cst (constant S_ .f32 0x7F800000#32),
    StableHlo.TRef.unary main_call0.cst main_call0.v3 (broadcastInDim S320000 ![] bcast_S_S320000),
    StableHlo.TRef.binary main_call0.call0.v1 main_call0.v3 main_call0.v4 (cmpf .oeq),
    StableHlo.TRef.unary (.of main_cst_1 : StableHlo.TRef sig ⟨S_, .f32⟩) main_call0.v5 id,
    StableHlo.TRef.unary main_call0.v5 main_call0.call1.v0 (broadcastInDim S320000 ![] bcast_S_S320000),
    StableHlo.TRef.ternary main_call0.v4 main_call0.call1.v0 main_call0.call0.v1 main_call0.call1.v1 select,
    StableHlo.TRef.nullary main_call0.cst_0 (constant S_ .f32 0xFF800000#32),
    StableHlo.TRef.unary main_call0.cst_0 main_call0.v7 (broadcastInDim S320000 ![] bcast_S_S320000),
    StableHlo.TRef.binary main_call0.call1.v1 main_call0.v7 main_call0.v8 (cmpf .oeq),
    StableHlo.TRef.unary (.of main_cst_0 : StableHlo.TRef sig ⟨S_, .f32⟩) main_call0.v9 id,
    StableHlo.TRef.unary main_call0.v9 main_call0.call2.v0 (broadcastInDim S320000 ![] bcast_S_S320000),
    StableHlo.TRef.ternary main_call0.v8 main_call0.call2.v0 main_call0.call1.v1 main_call0.call2.v1 select ]
theorem scrubW_sub : (scrubW : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem scrubW_fresh : (scrubW : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- |w| clamped below by 1e-6, the two rows of the edge list, the degree by scatter-add, its positivity test and its power −1/2. -/
abbrev degree : List (HloOp τ sig (Elt F)) :=
  [
    StableHlo.unary main_v0 main_v1 (Host.absf : (⟨S320000, .f32⟩ : BufTy).Contents (Elt F) → (⟨S320000, .f32⟩ : BufTy).Contents (Elt F)),
    StableHlo.nullary main_cst_2 (constant S_ .f32 0x358637BD#32),
    StableHlo.unary main_cst_2 main_v2 (broadcastInDim S320000 ![] bcast_S_S320000 : (⟨S_, .f32⟩ : BufTy).Contents (Elt F) → (⟨S320000, .f32⟩ : BufTy).Contents (Elt F)),
    StableHlo.binary main_v1 main_v2 main_v3 (maximumf : (⟨S320000, .f32⟩ : BufTy).Contents (Elt F) → (⟨S320000, .f32⟩ : BufTy).Contents (Elt F) → (⟨S320000, .f32⟩ : BufTy).Contents (Elt F)),
    StableHlo.unary main_arg1 main_v4 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v4 main_v5 rfl shapeCasts_S1x320000_S320000,
    StableHlo.unary main_arg1 main_v6 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v6 main_v7 rfl shapeCasts_S1x320000_S320000,
    StableHlo.nullary main_cst_3 (constant S_ .f32 0x00000000#32),
    StableHlo.unary main_cst_3 main_v8 (broadcastInDim S10000 ![] bcast_S_S10000 : (⟨S_, .f32⟩ : BufTy).Contents (Elt F) → (⟨S10000, .f32⟩ : BufTy).Contents (Elt F)),
    StableHlo.unary main_v5 main_v9 (broadcastInDim S320000x1 ![0] bcast_S320000_S320000x1_0 : (⟨S320000, .i32⟩ : BufTy).Contents (Elt F) → (⟨S320000x1, .i32⟩ : BufTy).Contents (Elt F)),
    StableHlo.ternary main_v8 main_v9 main_v3 main_v10 ((fun x i u => Host.scatterAdd scatter_S10000_S320000x1_S320000_n_0_0_1 x i u) : (⟨S10000, .f32⟩ : BufTy).Contents (Elt F) → (⟨S320000x1, .i32⟩ : BufTy).Contents (Elt F) → (⟨S320000, .f32⟩ : BufTy).Contents (Elt F) → (⟨S10000, .f32⟩ : BufTy).Contents (Elt F)),
    StableHlo.nullary main_cst_4 (constant S_ .f32 0x00000000#32),
    StableHlo.unary main_cst_4 main_v11 (broadcastInDim S10000 ![] bcast_S_S10000 : (⟨S_, .f32⟩ : BufTy).Contents (Elt F) → (⟨S10000, .f32⟩ : BufTy).Contents (Elt F)),
    StableHlo.binary main_v10 main_v11 main_v12 (cmpf .ogt : (⟨S10000, .f32⟩ : BufTy).Contents (Elt F) → (⟨S10000, .f32⟩ : BufTy).Contents (Elt F) → (⟨S10000, .i1⟩ : BufTy).Contents (Elt F)),
    StableHlo.nullary main_cst_5 (constant S_ .f32 0xBF000000#32),
    StableHlo.unary main_cst_5 main_v13 (broadcastInDim S10000 ![] bcast_S_S10000 : (⟨S_, .f32⟩ : BufTy).Contents (Elt F) → (⟨S10000, .f32⟩ : BufTy).Contents (Elt F)),
    StableHlo.binary main_v10 main_v13 main_v14 (Host.powf : (⟨S10000, .f32⟩ : BufTy).Contents (Elt F) → (⟨S10000, .f32⟩ : BufTy).Contents (Elt F) → (⟨S10000, .f32⟩ : BufTy).Contents (Elt F)),
    StableHlo.nullary main_cst_6 (constant S_ .f32 0x00000000#32) ]
theorem degree_sub : (degree : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub ..⟩
theorem degree_fresh : (degree : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- deg^(−1/2) where the degree is positive, else 0. -/
abbrev invSqrtDeg : List (HloOp τ sig (Elt F)) :=
  [
    StableHlo.TRef.unary (.of main_cst_6 : StableHlo.TRef sig ⟨S_, .f32⟩) main_call1.v0 id,
    StableHlo.TRef.unary main_call1.v0 main_call1.v1 (broadcastInDim S10000 ![] bcast_S_S10000),
    StableHlo.TRef.ternary (.of main_v12 : StableHlo.TRef sig ⟨S10000, .i1⟩) (.of main_v14 : StableHlo.TRef sig ⟨S10000, .f32⟩) main_call1.v1 main_call1.v2 select ]
theorem invSqrtDeg_sub : (invSqrtDeg : List (HloOp τ sig (Elt F))).Forall fun op => op.bufs ⊆ StableHlo.tcRefs τ sig :=
  ⟨StableHlo.unary_bufs_sub .., StableHlo.unary_bufs_sub .., StableHlo.ternary_bufs_sub ..⟩
theorem invSqrtDeg_fresh : (invSqrtDeg : List (HloOp τ sig (Elt F))).Forall fun op => op.fresh = ∅ :=
  ⟨rfl, rfl, rfl⟩

/-- Both index rows wrapped and gathered: the weights −dis[row] · ew · dis[col]. -/
abbrev normW : List (HloOp τ sig (Elt F)) :=
  [
    StableHlo.nullary main_c (constantI S_ 32 0#32),
    StableHlo.unary main_c main_v16 (broadcastInDim S320000 ![] bcast_S_S320000 : (⟨S_, .i32⟩ : BufTy).Contents (Elt F) → (⟨S320000, .i32⟩ : BufTy).Contents (Elt F)),
    StableHlo.binary main_v5 main_v16 main_v17 (cmpi .slt : (⟨S320000, .i32⟩ : BufTy).Contents (Elt F) → (⟨S320000, .i32⟩ : BufTy).Contents (Elt F) → (⟨S320000, .i1⟩ : BufTy).Contents (Elt F)),
    StableHlo.nullary main_c_7 (constantI S_ 32 10000#32),
    StableHlo.unary main_c_7 main_v18 (broadcastInDim S320000 ![] bcast_S_S320000 : (⟨S_, .i32⟩ : BufTy).Contents (Elt F) → (⟨S320000, .i32⟩ : BufTy).Contents (Elt F)),
    StableHlo.binary main_v5 main_v18 main_v19 (addi : (⟨S320000, .i32⟩ : BufTy).Contents (Elt F) → (⟨S320000, .i32⟩ : BufTy).Contents (Elt F) → (⟨S320000, .i32⟩ : BufTy).Contents (Elt F)),
    StableHlo.ternary main_v17 main_v19 main_v5 main_v20 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v20 main_v21 (broadcastInDim S320000x1 ![0] bcast_S320000_S320000x1_0 : (⟨S320000, .i32⟩ : BufTy).Contents (Elt F) → (⟨S320000x1, .i32⟩ : BufTy).Contents (Elt F)),
    StableHlo.binary main_v15 main_v21 main_v22 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.unary main_v22 main_v23 (Host.negf : (⟨S320000, .f32⟩ : BufTy).Contents (Elt F) → (⟨S320000, .f32⟩ : BufTy).Contents (Elt F)),
    StableHlo.binary main_v23 main_v3 main_v24 (mulf : (⟨S320000, .f32⟩ : BufTy).Contents (Elt F) → (⟨S320000, .f32⟩ : BufTy).Contents (Elt F) → (⟨S320000, .f32⟩ : BufTy).Contents (Elt F)),
    StableHlo.nullary main_c_8 (constantI S_ 32 0#32),
    StableHlo.unary main_c_8 main_v25 (broadcastInDim S320000 ![] bcast_S_S320000 : (⟨S_, .i32⟩ : BufTy).Contents (Elt F) → (⟨S320000, .i32⟩ : BufTy).Contents (Elt F)),
    StableHlo.binary main_v7 main_v25 main_v26 (cmpi .slt : (⟨S320000, .i32⟩ : BufTy).Contents (Elt F) → (⟨S320000, .i32⟩ : BufTy).Contents (Elt F) → (⟨S320000, .i1⟩ : BufTy).Contents (Elt F)),
    StableHlo.nullary main_c_9 (constantI S_ 32 10000#32),
    StableHlo.unary main_c_9 main_v27 (broadcastInDim S320000 ![] bcast_S_S320000 : (⟨S_, .i32⟩ : BufTy).Contents (Elt F) → (⟨S320000, .i32⟩ : BufTy).Contents (Elt F)),
    StableHlo.binary main_v7 main_v27 main_v28 (addi : (⟨S320000, .i32⟩ : BufTy).Contents (Elt F) → (⟨S320000, .i32⟩ : BufTy).Contents (Elt F) → (⟨S320000, .i32⟩ : BufTy).Contents (Elt F)),
    StableHlo.ternary main_v26 main_v28 main_v7 main_v29 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v29 main_v30 (broadcastInDim S320000x1 ![0] bcast_S320000_S320000x1_0 : (⟨S320000, .i32⟩ : BufTy).Contents (Elt F) → (⟨S320000x1, .i32⟩ : BufTy).Contents (Elt F)),
    StableHlo.binary main_v15 main_v30 main_v31 ((fun x i => Host.gather gather_S10000_S320000x1_S320000_n_0_n_n_0_1_1 x i) : (⟨S10000, .f32⟩ : BufTy).Contents (Elt F) → (⟨S320000x1, .i32⟩ : BufTy).Contents (Elt F) → (⟨S320000, .f32⟩ : BufTy).Contents (Elt F)),
    StableHlo.binary main_v24 main_v31 main_v32 (mulf : (⟨S320000, .f32⟩ : BufTy).Contents (Elt F) → (⟨S320000, .f32⟩ : BufTy).Contents (Elt F) → (⟨S320000, .f32⟩ : BufTy).Contents (Elt F)) ]
theorem normW_sub : (normW : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem normW_fresh : (normW : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The node features scrubbed. -/
abbrev scrubX : List (HloOp τ sig (Elt F)) :=
  [
    StableHlo.nullary main_cst_10 (constant S_ .f32 0x00000000#32),
    StableHlo.nullary main_cst_11 (constant S_ .f32 0x00000000#32),
    StableHlo.nullary main_cst_12 (constant S_ .f32 0x00000000#32),
    StableHlo.TRef.binary (.of main_arg0 : StableHlo.TRef sig ⟨S10000x256, .f32⟩) (.of main_arg0 : StableHlo.TRef sig ⟨S10000x256, .f32⟩) main_call2.v0 (cmpf .une),
    StableHlo.TRef.unary (.of main_cst_10 : StableHlo.TRef sig ⟨S_, .f32⟩) main_call2.v1 id,
    StableHlo.TRef.unary main_call2.v1 main_call2.call0.v0 (broadcastInDim S10000x256 ![] bcast_S_S10000x256),
    StableHlo.TRef.ternary main_call2.v0 main_call2.call0.v0 (.of main_arg0 : StableHlo.TRef sig ⟨S10000x256, .f32⟩) main_call2.call0.v1 select,
    StableHlo.TRef.nullary main_call2.cst (constant S_ .f32 0x7F800000#32),
    StableHlo.TRef.unary main_call2.cst main_call2.v3 (broadcastInDim S10000x256 ![] bcast_S_S10000x256),
    StableHlo.TRef.binary main_call2.call0.v1 main_call2.v3 main_call2.v4 (cmpf .oeq),
    StableHlo.TRef.unary (.of main_cst_12 : StableHlo.TRef sig ⟨S_, .f32⟩) main_call2.v5 id,
    StableHlo.TRef.unary main_call2.v5 main_call2.call1.v0 (broadcastInDim S10000x256 ![] bcast_S_S10000x256),
    StableHlo.TRef.ternary main_call2.v4 main_call2.call1.v0 main_call2.call0.v1 main_call2.call1.v1 select,
    StableHlo.TRef.nullary main_call2.cst_0 (constant S_ .f32 0xFF800000#32),
    StableHlo.TRef.unary main_call2.cst_0 main_call2.v7 (broadcastInDim S10000x256 ![] bcast_S_S10000x256),
    StableHlo.TRef.binary main_call2.call1.v1 main_call2.v7 main_call2.v8 (cmpf .oeq),
    StableHlo.TRef.unary (.of main_cst_11 : StableHlo.TRef sig ⟨S_, .f32⟩) main_call2.v9 id,
    StableHlo.TRef.unary main_call2.v9 main_call2.call2.v0 (broadcastInDim S10000x256 ![] bcast_S_S10000x256),
    StableHlo.TRef.ternary main_call2.v8 main_call2.call2.v0 main_call2.call1.v1 main_call2.call2.v1 select ]
theorem scrubX_sub : (scrubX : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem scrubX_fresh : (scrubX : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 1: the first weight matrix and the product with the features. -/
abbrev l1_term0 : List (HloOp τ sig (Elt F)) :=
  [
    StableHlo.unary main_arg3 main_v34 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v34 main_v35 rfl shapeCasts_S1x256x256_S256x256,
    StableHlo.binary main_v33 main_v35 main_v36 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) ]
theorem l1_term0_sub : (l1_term0 : List (HloOp τ sig (Elt F))).Forall fun op => op.bufs ⊆ StableHlo.tcRefs τ sig :=
  ⟨StableHlo.unary_bufs_sub .., StableHlo.reshape_bufs_sub .., StableHlo.binary_bufs_sub ..⟩
theorem l1_term0_fresh : (l1_term0 : List (HloOp τ sig (Elt F))).Forall fun op => op.fresh = ∅ :=
  ⟨rfl, rfl, rfl⟩

/-- Layer 1, first sparse product: the weights as a column and the wrapped column index. -/
abbrev l1_prop1a : List (HloOp τ sig (Elt F)) :=
  [
    StableHlo.unary main_v32 main_v37 (broadcastInDim S320000x1 ![0] bcast_S320000_S320000x1_0 : (⟨S320000, .f32⟩ : BufTy).Contents (Elt F) → (⟨S320000x1, .f32⟩ : BufTy).Contents (Elt F)),
    StableHlo.nullary main_c_13 (constantI S_ 32 0#32),
    StableHlo.unary main_c_13 main_v38 (broadcastInDim S320000 ![] bcast_S_S320000 : (⟨S_, .i32⟩ : BufTy).Contents (Elt F) → (⟨S320000, .i32⟩ : BufTy).Contents (Elt F)),
    StableHlo.binary main_v7 main_v38 main_v39 (cmpi .slt : (⟨S320000, .i32⟩ : BufTy).Contents (Elt F) → (⟨S320000, .i32⟩ : BufTy).Contents (Elt F) → (⟨S320000, .i1⟩ : BufTy).Contents (Elt F)),
    StableHlo.nullary main_c_14 (constantI S_ 32 10000#32),
    StableHlo.unary main_c_14 main_v40 (broadcastInDim S320000 ![] bcast_S_S320000 : (⟨S_, .i32⟩ : BufTy).Contents (Elt F) → (⟨S320000, .i32⟩ : BufTy).Contents (Elt F)),
    StableHlo.binary main_v7 main_v40 main_v41 (addi : (⟨S320000, .i32⟩ : BufTy).Contents (Elt F) → (⟨S320000, .i32⟩ : BufTy).Contents (Elt F) → (⟨S320000, .i32⟩ : BufTy).Contents (Elt F)),
    StableHlo.ternary main_v39 main_v41 main_v7 main_v42 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)) ]
theorem l1_prop1a_sub : (l1_prop1a : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
theorem l1_prop1a_fresh : (l1_prop1a : List (HloOp τ sig (Elt F))).Forall fun op => op.fresh = ∅ :=
  ⟨rfl, rfl, rfl, rfl, rfl, rfl, rfl, rfl⟩

/-- Statements 1 to 60 as one line. -/
abbrev win0 : List (HloOp τ sig (Elt F)) := scrubW ++ (degree ++ (invSqrtDeg ++ (normW ++ (scrubX ++ (l1_term0 ++ (l1_prop1a))))))

theorem win0_sub : (win0 : List (HloOp τ sig (Elt F))).Forall fun op => op.bufs ⊆ StableHlo.tcRefs τ sig :=
  forall_append scrubW_sub (forall_append degree_sub (forall_append invSqrtDeg_sub (forall_append normW_sub (forall_append scrubX_sub (forall_append l1_term0_sub (l1_prop1a_sub))))))
theorem win0_fresh : (win0 : List (HloOp τ sig (Elt F))).Forall fun op => op.fresh = ∅ :=
  forall_append scrubW_fresh (forall_append degree_fresh (forall_append invSqrtDeg_fresh (forall_append normW_fresh (forall_append scrubX_fresh (forall_append l1_term0_fresh (l1_prop1a_fresh))))))

set_option maxRecDepth 8192 in
set_option maxHeartbeats 4000000 in
/-- The window is that line: each callee's definition unfolded at its call, both sides are one chain of steps once
    sequencing is reassociated. -/
theorem main_part0_eq (c : Dev nD) : main_part0 (F := F) c = StableHlo.seq win0 := by
  simp only [main_part0, fn_nan_to_num.body, fn_where.body, fn_where_0.body, fn_where_1.body, fn_nan_to_num_2.body, fn_where_3.body, fn_where_4.body, fn_nan_to_num_5.body, fn_relu.body, StableHlo.seq_append, StableHlo.seq, bind_assoc, pure_bind] <;> rfl

end Cert.ReferenceIdeal.RefRun

end
-- ==== Proof.RefOps1.lean ====
/-
  Statements 61 to 120 of the reference program's @main as lists of host operations, every call of an outlined
  function replaced by the callee's operations over that call's buffers, in the order they run. The lists are cut where
  a stage of the computation ends; the window is their concatenation, and running the window is running that line.
-/
import proofs.«134588_j19095424598406_1_alg».proof.ReferenceIdeal
import proofs.«134588_j19095424598406_1_alg».proof.Proof.Gen.ReferenceIdeal
import proofs.«134588_j19095424598406_1_alg».proof.Proof.RefRunLib
import Idealize.ShloMosaic.Lib.StableHlo.Run

noncomputable section

namespace Cert.ReferenceIdeal.RefRun

open Idealize.ShloMosaic Idealize.SL.Sem Cert.ReferenceIdeal Cert.ReferenceIdeal.Facts₀

variable {F : FTy → Type} [FloatOps F]

/-- Layer 1, first sparse product: gather, scale, scatter-add over the rows. -/
abbrev l1_prop1b : List (HloOp τ sig (Elt F)) :=
  [
    StableHlo.unary main_v42 main_v43 (broadcastInDim S320000x1 ![0] bcast_S320000_S320000x1_0 : (⟨S320000, .i32⟩ : BufTy).Contents (Elt F) → (⟨S320000x1, .i32⟩ : BufTy).Contents (Elt F)),
    StableHlo.binary main_v33 main_v43 main_v44 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.unary main_v37 main_v45 (broadcastInDim S320000x256 ![0, 1] bcast_S320000x1_S320000x256_0_1 : (⟨S320000x1, .f32⟩ : BufTy).Contents (Elt F) → (⟨S320000x256, .f32⟩ : BufTy).Contents (Elt F)),
    StableHlo.binary main_v45 main_v44 main_v46 (mulf : (⟨S320000x256, .f32⟩ : BufTy).Contents (Elt F) → (⟨S320000x256, .f32⟩ : BufTy).Contents (Elt F) → (⟨S320000x256, .f32⟩ : BufTy).Contents (Elt F)),
    StableHlo.nullary main_cst_15 (constant S_ .f32 0x00000000#32),
    StableHlo.unary main_cst_15 main_v47 (broadcastInDim S10000x256 ![] bcast_S_S10000x256 : (⟨S_, .f32⟩ : BufTy).Contents (Elt F) → (⟨S10000x256, .f32⟩ : BufTy).Contents (Elt F)),
    StableHlo.unary main_v5 main_v48 (broadcastInDim S320000x1 ![0] bcast_S320000_S320000x1_0 : (⟨S320000, .i32⟩ : BufTy).Contents (Elt F) → (⟨S320000x1, .i32⟩ : BufTy).Contents (Elt F)),
    StableHlo.ternary main_v47 main_v48 main_v46 main_v49 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ]
theorem l1_prop1b_sub : (l1_prop1b : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem l1_prop1b_fresh : (l1_prop1b : List (HloOp τ sig (Elt F))).Forall fun op => op.fresh = ∅ :=
  ⟨rfl, rfl, rfl, rfl, rfl, rfl, rfl, rfl⟩

/-- Layer 1: the second weight matrix, its product and the running sum. -/
abbrev l1_term1 : List (HloOp τ sig (Elt F)) :=
  [
    StableHlo.unary main_arg3 main_v50 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v50 main_v51 rfl shapeCasts_S1x256x256_S256x256,
    StableHlo.binary main_v49 main_v51 main_v52 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v36 main_v52 main_v53 (addf : (⟨S10000x256, .f32⟩ : BufTy).Contents (Elt F) → (⟨S10000x256, .f32⟩ : BufTy).Contents (Elt F) → (⟨S10000x256, .f32⟩ : BufTy).Contents (Elt F)) ]
theorem l1_term1_sub : (l1_term1 : List (HloOp τ sig (Elt F))).Forall fun op => op.bufs ⊆ StableHlo.tcRefs τ sig :=
  ⟨StableHlo.unary_bufs_sub .., StableHlo.reshape_bufs_sub .., StableHlo.binary_bufs_sub .., StableHlo.binary_bufs_sub ..⟩
theorem l1_term1_fresh : (l1_term1 : List (HloOp τ sig (Elt F))).Forall fun op => op.fresh = ∅ :=
  ⟨rfl, rfl, rfl, rfl⟩

/-- Layer 1, second sparse product. -/
abbrev l1_prop2 : List (HloOp τ sig (Elt F)) :=
  [
    StableHlo.unary main_v32 main_v54 (broadcastInDim S320000x1 ![0] bcast_S320000_S320000x1_0 : (⟨S320000, .f32⟩ : BufTy).Contents (Elt F) → (⟨S320000x1, .f32⟩ : BufTy).Contents (Elt F)),
    StableHlo.nullary main_c_16 (constantI S_ 32 0#32),
    StableHlo.unary main_c_16 main_v55 (broadcastInDim S320000 ![] bcast_S_S320000 : (⟨S_, .i32⟩ : BufTy).Contents (Elt F) → (⟨S320000, .i32⟩ : BufTy).Contents (Elt F)),
    StableHlo.binary main_v7 main_v55 main_v56 (cmpi .slt : (⟨S320000, .i32⟩ : BufTy).Contents (Elt F) → (⟨S320000, .i32⟩ : BufTy).Contents (Elt F) → (⟨S320000, .i1⟩ : BufTy).Contents (Elt F)),
    StableHlo.nullary main_c_17 (constantI S_ 32 10000#32),
    StableHlo.unary main_c_17 main_v57 (broadcastInDim S320000 ![] bcast_S_S320000 : (⟨S_, .i32⟩ : BufTy).Contents (Elt F) → (⟨S320000, .i32⟩ : BufTy).Contents (Elt F)),
    StableHlo.binary main_v7 main_v57 main_v58 (addi : (⟨S320000, .i32⟩ : BufTy).Contents (Elt F) → (⟨S320000, .i32⟩ : BufTy).Contents (Elt F) → (⟨S320000, .i32⟩ : BufTy).Contents (Elt F)),
    StableHlo.ternary main_v56 main_v58 main_v7 main_v59 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v59 main_v60 (broadcastInDim S320000x1 ![0] bcast_S320000_S320000x1_0 : (⟨S320000, .i32⟩ : BufTy).Contents (Elt F) → (⟨S320000x1, .i32⟩ : BufTy).Contents (Elt F)),
    StableHlo.binary main_v49 main_v60 main_v61 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.unary main_v54 main_v62 (broadcastInDim S320000x256 ![0, 1] bcast_S320000x1_S320000x256_0_1 : (⟨S320000x1, .f32⟩ : BufTy).Contents (Elt F) → (⟨S320000x256, .f32⟩ : BufTy).Contents (Elt F)),
    StableHlo.binary main_v62 main_v61 main_v63 (mulf : (⟨S320000x256, .f32⟩ : BufTy).Contents (Elt F) → (⟨S320000x256, .f32⟩ : BufTy).Contents (Elt F) → (⟨S320000x256, .f32⟩ : BufTy).Contents (Elt F)),
    StableHlo.nullary main_cst_18 (constant S_ .f32 0x00000000#32),
    StableHlo.unary main_cst_18 main_v64 (broadcastInDim S10000x256 ![] bcast_S_S10000x256 : (⟨S_, .f32⟩ : BufTy).Contents (Elt F) → (⟨S10000x256, .f32⟩ : BufTy).Contents (Elt F)),
    StableHlo.unary main_v5 main_v65 (broadcastInDim S320000x1 ![0] bcast_S320000_S320000x1_0 : (⟨S320000, .i32⟩ : BufTy).Contents (Elt F) → (⟨S320000x1, .i32⟩ : BufTy).Contents (Elt F)),
    StableHlo.ternary main_v64 main_v65 main_v63 main_v66 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ]
theorem l1_prop2_sub : (l1_prop2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem l1_prop2_fresh : (l1_prop2 : List (HloOp τ sig (Elt F))).Forall fun op => op.fresh = ∅ :=
  ⟨rfl, rfl, rfl, rfl, rfl, rfl, rfl, rfl, rfl, rfl, rfl, rfl, rfl, rfl, rfl, rfl⟩

/-- Layer 1: the recurrence 2·p − t. -/
abbrev l1_cheb : List (HloOp τ sig (Elt F)) :=
  [
    StableHlo.nullary main_cst_19 (constant S_ .f32 0x40000000#32),
    StableHlo.unary main_cst_19 main_v67 (broadcastInDim S10000x256 ![] bcast_S_S10000x256 : (⟨S_, .f32⟩ : BufTy).Contents (Elt F) → (⟨S10000x256, .f32⟩ : BufTy).Contents (Elt F)),
    StableHlo.binary main_v67 main_v66 main_v68 (mulf : (⟨S10000x256, .f32⟩ : BufTy).Contents (Elt F) → (⟨S10000x256, .f32⟩ : BufTy).Contents (Elt F) → (⟨S10000x256, .f32⟩ : BufTy).Contents (Elt F)),
    StableHlo.binary main_v68 main_v33 main_v69 (subf : (⟨S10000x256, .f32⟩ : BufTy).Contents (Elt F) → (⟨S10000x256, .f32⟩ : BufTy).Contents (Elt F) → (⟨S10000x256, .f32⟩ : BufTy).Contents (Elt F)) ]
theorem l1_cheb_sub : (l1_cheb : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
theorem l1_cheb_fresh : (l1_cheb : List (HloOp τ sig (Elt F))).Forall fun op => op.fresh = ∅ :=
  ⟨rfl, rfl, rfl, rfl⟩

/-- Layer 1: the third weight matrix, its product and the running sum. -/
abbrev l1_term2 : List (HloOp τ sig (Elt F)) :=
  [
    StableHlo.unary main_arg3 main_v70 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v70 main_v71 rfl shapeCasts_S1x256x256_S256x256,
    StableHlo.binary main_v69 main_v71 main_v72 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v53 main_v72 main_v73 (addf : (⟨S10000x256, .f32⟩ : BufTy).Contents (Elt F) → (⟨S10000x256, .f32⟩ : BufTy).Contents (Elt F) → (⟨S10000x256, .f32⟩ : BufTy).Contents (Elt F)) ]
theorem l1_term2_sub : (l1_term2 : List (HloOp τ sig (Elt F))).Forall fun op => op.bufs ⊆ StableHlo.tcRefs τ sig :=
  ⟨StableHlo.unary_bufs_sub .., StableHlo.reshape_bufs_sub .., StableHlo.binary_bufs_sub .., StableHlo.binary_bufs_sub ..⟩
theorem l1_term2_fresh : (l1_term2 : List (HloOp τ sig (Elt F))).Forall fun op => op.fresh = ∅ :=
  ⟨rfl, rfl, rfl, rfl⟩

/-- Layer 1: the bias spread over the rows and added. -/
abbrev l1_bias : List (HloOp τ sig (Elt F)) :=
  [
    StableHlo.unary main_arg4 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S10000x256 ![0, 1] bcast_S1x256_S10000x256_0_1 : (⟨S1x256, .f32⟩ : BufTy).Contents (Elt F) → (⟨S10000x256, .f32⟩ : BufTy).Contents (Elt F)),
    StableHlo.binary main_v73 main_v75 main_v76 (addf : (⟨S10000x256, .f32⟩ : BufTy).Contents (Elt F) → (⟨S10000x256, .f32⟩ : BufTy).Contents (Elt F) → (⟨S10000x256, .f32⟩ : BufTy).Contents (Elt F)) ]
theorem l1_bias_sub : (l1_bias : List (HloOp τ sig (Elt F))).Forall fun op => op.bufs ⊆ StableHlo.tcRefs τ sig :=
  ⟨StableHlo.unary_bufs_sub .., StableHlo.unary_bufs_sub .., StableHlo.binary_bufs_sub ..⟩
theorem l1_bias_fresh : (l1_bias : List (HloOp τ sig (Elt F))).Forall fun op => op.fresh = ∅ :=
  ⟨rfl, rfl, rfl⟩

/-- Layer 1: the sum scrubbed. -/
abbrev l1_scrubA : List (HloOp τ sig (Elt F)) :=
  [
    StableHlo.nullary main_cst_20 (constant S_ .f32 0x00000000#32),
    StableHlo.nullary main_cst_21 (constant S_ .f32 0x00000000#32),
    StableHlo.nullary main_cst_22 (constant S_ .f32 0x00000000#32),
    StableHlo.TRef.binary (.of main_v76 : StableHlo.TRef sig ⟨S10000x256, .f32⟩) (.of main_v76 : StableHlo.TRef sig ⟨S10000x256, .f32⟩) main_call3.v0 (cmpf .une),
    StableHlo.TRef.unary (.of main_cst_20 : StableHlo.TRef sig ⟨S_, .f32⟩) main_call3.v1 id,
    StableHlo.TRef.unary main_call3.v1 main_call3.call0.v0 (broadcastInDim S10000x256 ![] bcast_S_S10000x256),
    StableHlo.TRef.ternary main_call3.v0 main_call3.call0.v0 (.of main_v76 : StableHlo.TRef sig ⟨S10000x256, .f32⟩) main_call3.call0.v1 select,
    StableHlo.TRef.nullary main_call3.cst (constant S_ .f32 0x7F800000#32),
    StableHlo.TRef.unary main_call3.cst main_call3.v3 (broadcastInDim S10000x256 ![] bcast_S_S10000x256),
    StableHlo.TRef.binary main_call3.call0.v1 main_call3.v3 main_call3.v4 (cmpf .oeq),
    StableHlo.TRef.unary (.of main_cst_22 : StableHlo.TRef sig ⟨S_, .f32⟩) main_call3.v5 id,
    StableHlo.TRef.unary main_call3.v5 main_call3.call1.v0 (broadcastInDim S10000x256 ![] bcast_S_S10000x256),
    StableHlo.TRef.ternary main_call3.v4 main_call3.call1.v0 main_call3.call0.v1 main_call3.call1.v1 select,
    StableHlo.TRef.nullary main_call3.cst_0 (constant S_ .f32 0xFF800000#32),
    StableHlo.TRef.unary main_call3.cst_0 main_call3.v7 (broadcastInDim S10000x256 ![] bcast_S_S10000x256),
    StableHlo.TRef.binary main_call3.call1.v1 main_call3.v7 main_call3.v8 (cmpf .oeq),
    StableHlo.TRef.unary (.of main_cst_21 : StableHlo.TRef sig ⟨S_, .f32⟩) main_call3.v9 id,
    StableHlo.TRef.unary main_call3.v9 main_call3.call2.v0 (broadcastInDim S10000x256 ![] bcast_S_S10000x256),
    StableHlo.TRef.ternary main_call3.v8 main_call3.call2.v0 main_call3.call1.v1 main_call3.call2.v1 select ]
theorem l1_scrubA_sub : (l1_scrubA : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l1_scrubA_fresh : (l1_scrubA : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 1, normalisation: row mean, deviation, squared deviation, row variance, deviation again. -/
abbrev l1_normA : List (HloOp τ sig (Elt F)) :=
  [
    StableHlo.nullary main_cst_23 (constant S_ .f32 0x00000000#32),
    StableHlo.binary main_v77 main_cst_23 main_v78 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    StableHlo.unary main_v78 main_v79 (broadcastInDim S10000x1 ![0] bcast_S10000_S10000x1_0 : (⟨S10000, .f32⟩ : BufTy).Contents (Elt F) → (⟨S10000x1, .f32⟩ : BufTy).Contents (Elt F)),
    StableHlo.nullary main_cst_24 (constant S_ .f32 0x43800000#32),
    StableHlo.unary main_cst_24 main_v80 (broadcastInDim S10000x1 ![] bcast_S_S10000x1 : (⟨S_, .f32⟩ : BufTy).Contents (Elt F) → (⟨S10000x1, .f32⟩ : BufTy).Contents (Elt F)),
    StableHlo.binary main_v79 main_v80 main_v81 (Host.divf : (⟨S10000x1, .f32⟩ : BufTy).Contents (Elt F) → (⟨S10000x1, .f32⟩ : BufTy).Contents (Elt F) → (⟨S10000x1, .f32⟩ : BufTy).Contents (Elt F)),
    StableHlo.unary main_v81 main_v82 (broadcastInDim S10000x256 ![0, 1] bcast_S10000x1_S10000x256_0_1 : (⟨S10000x1, .f32⟩ : BufTy).Contents (Elt F) → (⟨S10000x256, .f32⟩ : BufTy).Contents (Elt F)),
    StableHlo.binary main_v77 main_v82 main_v83 (subf : (⟨S10000x256, .f32⟩ : BufTy).Contents (Elt F) → (⟨S10000x256, .f32⟩ : BufTy).Contents (Elt F) → (⟨S10000x256, .f32⟩ : BufTy).Contents (Elt F)),
    StableHlo.binary main_v83 main_v83 main_v84 (mulf : (⟨S10000x256, .f32⟩ : BufTy).Contents (Elt F) → (⟨S10000x256, .f32⟩ : BufTy).Contents (Elt F) → (⟨S10000x256, .f32⟩ : BufTy).Contents (Elt F)),
    StableHlo.nullary main_cst_25 (constant S_ .f32 0x00000000#32),
    StableHlo.binary main_v84 main_cst_25 main_v85 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    StableHlo.unary main_v85 main_v86 (broadcastInDim S10000x1 ![0] bcast_S10000_S10000x1_0 : (⟨S10000, .f32⟩ : BufTy).Contents (Elt F) → (⟨S10000x1, .f32⟩ : BufTy).Contents (Elt F)),
    StableHlo.nullary main_cst_26 (constant S_ .f32 0x43800000#32),
    StableHlo.unary main_cst_26 main_v87 (broadcastInDim S10000x1 ![] bcast_S_S10000x1 : (⟨S_, .f32⟩ : BufTy).Contents (Elt F) → (⟨S10000x1, .f32⟩ : BufTy).Contents (Elt F)),
    StableHlo.binary main_v86 main_v87 main_v88 (Host.divf : (⟨S10000x1, .f32⟩ : BufTy).Contents (Elt F) → (⟨S10000x1, .f32⟩ : BufTy).Contents (Elt F) → (⟨S10000x1, .f32⟩ : BufTy).Contents (Elt F)),
    StableHlo.unary main_v81 main_v89 (broadcastInDim S10000x256 ![0, 1] bcast_S10000x1_S10000x256_0_1 : (⟨S10000x1, .f32⟩ : BufTy).Contents (Elt F) → (⟨S10000x256, .f32⟩ : BufTy).Contents (Elt F)),
    StableHlo.binary main_v77 main_v89 main_v90 (subf : (⟨S10000x256, .f32⟩ : BufTy).Contents (Elt F) → (⟨S10000x256, .f32⟩ : BufTy).Contents (Elt F) → (⟨S10000x256, .f32⟩ : BufTy).Contents (Elt F)) ]
theorem l1_normA_sub : (l1_normA : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub ..⟩
theorem l1_normA_fresh : (l1_normA : List (HloOp τ sig (Elt F))).Forall fun op => op.fresh = ∅ :=
  ⟨rfl, rfl, rfl, rfl, rfl, rfl, rfl, rfl, rfl, rfl, rfl, rfl, rfl, rfl, rfl, rfl, rfl⟩

/-- Statements 61 to 120 as one line. -/
abbrev win1 : List (HloOp τ sig (Elt F)) := l1_prop1b ++ (l1_term1 ++ (l1_prop2 ++ (l1_cheb ++ (l1_term2 ++ (l1_bias ++ (l1_scrubA ++ (l1_normA)))))))

theorem win1_sub : (win1 : List (HloOp τ sig (Elt F))).Forall fun op => op.bufs ⊆ StableHlo.tcRefs τ sig :=
  forall_append l1_prop1b_sub (forall_append l1_term1_sub (forall_append l1_prop2_sub (forall_append l1_cheb_sub (forall_append l1_term2_sub (forall_append l1_bias_sub (forall_append l1_scrubA_sub (l1_normA_sub)))))))
theorem win1_fresh : (win1 : List (HloOp τ sig (Elt F))).Forall fun op => op.fresh = ∅ :=
  forall_append l1_prop1b_fresh (forall_append l1_term1_fresh (forall_append l1_prop2_fresh (forall_append l1_cheb_fresh (forall_append l1_term2_fresh (forall_append l1_bias_fresh (forall_append l1_scrubA_fresh (l1_normA_fresh)))))))

set_option maxRecDepth 8192 in
set_option maxHeartbeats 4000000 in
/-- The window is that line: each callee's definition unfolded at its call, both sides are one chain of steps once
    sequencing is reassociated. -/
theorem main_part1_eq (c : Dev nD) : main_part1 (F := F) c = StableHlo.seq win1 := by
  simp only [main_part1, fn_nan_to_num.body, fn_where.body, fn_where_0.body, fn_where_1.body, fn_nan_to_num_2.body, fn_where_3.body, fn_where_4.body, fn_nan_to_num_5.body, fn_relu.body, StableHlo.seq_append, StableHlo.seq, bind_assoc, pure_bind] <;> rfl

end Cert.ReferenceIdeal.RefRun

end
-- ==== Proof.RefOps2.lean ====
/-
  Statements 121 to 180 of the reference program's @main as lists of host operations, every call of an outlined
  function replaced by the callee's operations over that call's buffers, in the order they run. The lists are cut where
  a stage of the computation ends; the window is their concatenation, and running the window is running that line.
-/
import proofs.«134588_j19095424598406_1_alg».proof.ReferenceIdeal
import proofs.«134588_j19095424598406_1_alg».proof.Proof.Gen.ReferenceIdeal
import proofs.«134588_j19095424598406_1_alg».proof.Proof.RefRunLib
import Idealize.ShloMosaic.Lib.StableHlo.Run

noncomputable section

namespace Cert.ReferenceIdeal.RefRun

open Idealize.ShloMosaic Idealize.SL.Sem Cert.ReferenceIdeal Cert.ReferenceIdeal.Facts₀

variable {F : FTy → Type} [FloatOps F]

/-- Layer 1, normalisation: rsqrt of variance + ε, scale and shift. -/
abbrev l1_normB : List (HloOp τ sig (Elt F)) :=
  [
    StableHlo.nullary main_cst_27 (constant S_ .f32 0x3727C5AC#32),
    StableHlo.unary main_cst_27 main_v91 (broadcastInDim S10000x1 ![] bcast_S_S10000x1 : (⟨S_, .f32⟩ : BufTy).Contents (Elt F) → (⟨S10000x1, .f32⟩ : BufTy).Contents (Elt F)),
    StableHlo.binary main_v88 main_v91 main_v92 (addf : (⟨S10000x1, .f32⟩ : BufTy).Contents (Elt F) → (⟨S10000x1, .f32⟩ : BufTy).Contents (Elt F) → (⟨S10000x1, .f32⟩ : BufTy).Contents (Elt F)),
    StableHlo.unary main_v92 main_v93 (Host.rsqrt : (⟨S10000x1, .f32⟩ : BufTy).Contents (Elt F) → (⟨S10000x1, .f32⟩ : BufTy).Contents (Elt F)),
    StableHlo.unary main_v93 main_v94 (broadcastInDim S10000x256 ![0, 1] bcast_S10000x1_S10000x256_0_1 : (⟨S10000x1, .f32⟩ : BufTy).Contents (Elt F) → (⟨S10000x256, .f32⟩ : BufTy).Contents (Elt F)),
    StableHlo.binary main_v90 main_v94 main_v95 (mulf : (⟨S10000x256, .f32⟩ : BufTy).Contents (Elt F) → (⟨S10000x256, .f32⟩ : BufTy).Contents (Elt F) → (⟨S10000x256, .f32⟩ : BufTy).Contents (Elt F)),
    StableHlo.unary main_arg5 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S10000x256 ![0, 1] bcast_S1x256_S10000x256_0_1 : (⟨S1x256, .f32⟩ : BufTy).Contents (Elt F) → (⟨S10000x256, .f32⟩ : BufTy).Contents (Elt F)),
    StableHlo.binary main_v95 main_v97 main_v98 (mulf : (⟨S10000x256, .f32⟩ : BufTy).Contents (Elt F) → (⟨S10000x256, .f32⟩ : BufTy).Contents (Elt F) → (⟨S10000x256, .f32⟩ : BufTy).Contents (Elt F)),
    StableHlo.unary main_arg6 main_v99 (broadcastInDim S1x256 ![1] bcast_S256_S1x256_1 : (⟨S256, .f32⟩ : BufTy).Contents (Elt F) → (⟨S1x256, .f32⟩ : BufTy).Contents (Elt F)),
    StableHlo.unary main_v99 main_v100 (broadcastInDim S10000x256 ![0, 1] bcast_S1x256_S10000x256_0_1 : (⟨S1x256, .f32⟩ : BufTy).Contents (Elt F) → (⟨S10000x256, .f32⟩ : BufTy).Contents (Elt F)),
    StableHlo.binary main_v98 main_v100 main_v101 (addf : (⟨S10000x256, .f32⟩ : BufTy).Contents (Elt F) → (⟨S10000x256, .f32⟩ : BufTy).Contents (Elt F) → (⟨S10000x256, .f32⟩ : BufTy).Contents (Elt F)) ]
theorem l1_normB_sub : (l1_normB : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem l1_normB_fresh : (l1_normB : List (HloOp τ sig (Elt F))).Forall fun op => op.fresh = ∅ :=
  ⟨rfl, rfl, rfl, rfl, rfl, rfl, rfl, rfl, rfl, rfl, rfl, rfl⟩

/-- Layer 1: the normalised rows scrubbed. -/
abbrev l1_scrubB : List (HloOp τ sig (Elt F)) :=
  [
    StableHlo.nullary main_cst_28 (constant S_ .f32 0x00000000#32),
    StableHlo.nullary main_cst_29 (constant S_ .f32 0x00000000#32),
    StableHlo.nullary main_cst_30 (constant S_ .f32 0x00000000#32),
    StableHlo.TRef.binary (.of main_v101 : StableHlo.TRef sig ⟨S10000x256, .f32⟩) (.of main_v101 : StableHlo.TRef sig ⟨S10000x256, .f32⟩) main_call4.v0 (cmpf .une),
    StableHlo.TRef.unary (.of main_cst_28 : StableHlo.TRef sig ⟨S_, .f32⟩) main_call4.v1 id,
    StableHlo.TRef.unary main_call4.v1 main_call4.call0.v0 (broadcastInDim S10000x256 ![] bcast_S_S10000x256),
    StableHlo.TRef.ternary main_call4.v0 main_call4.call0.v0 (.of main_v101 : StableHlo.TRef sig ⟨S10000x256, .f32⟩) main_call4.call0.v1 select,
    StableHlo.TRef.nullary main_call4.cst (constant S_ .f32 0x7F800000#32),
    StableHlo.TRef.unary main_call4.cst main_call4.v3 (broadcastInDim S10000x256 ![] bcast_S_S10000x256),
    StableHlo.TRef.binary main_call4.call0.v1 main_call4.v3 main_call4.v4 (cmpf .oeq),
    StableHlo.TRef.unary (.of main_cst_30 : StableHlo.TRef sig ⟨S_, .f32⟩) main_call4.v5 id,
    StableHlo.TRef.unary main_call4.v5 main_call4.call1.v0 (broadcastInDim S10000x256 ![] bcast_S_S10000x256),
    StableHlo.TRef.ternary main_call4.v4 main_call4.call1.v0 main_call4.call0.v1 main_call4.call1.v1 select,
    StableHlo.TRef.nullary main_call4.cst_0 (constant S_ .f32 0xFF800000#32),
    StableHlo.TRef.unary main_call4.cst_0 main_call4.v7 (broadcastInDim S10000x256 ![] bcast_S_S10000x256),
    StableHlo.TRef.binary main_call4.call1.v1 main_call4.v7 main_call4.v8 (cmpf .oeq),
    StableHlo.TRef.unary (.of main_cst_29 : StableHlo.TRef sig ⟨S_, .f32⟩) main_call4.v9 id,
    StableHlo.TRef.unary main_call4.v9 main_call4.call2.v0 (broadcastInDim S10000x256 ![] bcast_S_S10000x256),
    StableHlo.TRef.ternary main_call4.v8 main_call4.call2.v0 main_call4.call1.v1 main_call4.call2.v1 select ]
theorem l1_scrubB_sub : (l1_scrubB : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l1_scrubB_fresh : (l1_scrubB : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 1: max with 0. -/
abbrev l1_relu : List (HloOp τ sig (Elt F)) :=
  [
    StableHlo.TRef.nullary main_call5.cst (constant S_ .f32 0x00000000#32),
    StableHlo.TRef.unary main_call5.cst main_call5.v0 (broadcastInDim S10000x256 ![] bcast_S_S10000x256),
    StableHlo.TRef.binary (.of main_v102 : StableHlo.TRef sig ⟨S10000x256, .f32⟩) main_call5.v0 main_call5.v1 maximumf ]
theorem l1_relu_sub : (l1_relu : List (HloOp τ sig (Elt F))).Forall fun op => op.bufs ⊆ StableHlo.tcRefs τ sig :=
  ⟨StableHlo.nullary_bufs_sub .., StableHlo.unary_bufs_sub .., StableHlo.binary_bufs_sub ..⟩
theorem l1_relu_fresh : (l1_relu : List (HloOp τ sig (Elt F))).Forall fun op => op.fresh = ∅ :=
  ⟨rfl, rfl, rfl⟩

/-- Layer 1: the rectified rows scrubbed. -/
abbrev l1_scrubC : List (HloOp τ sig (Elt F)) :=
  [
    StableHlo.nullary main_cst_31 (constant S_ .f32 0x00000000#32),
    StableHlo.nullary main_cst_32 (constant S_ .f32 0x00000000#32),
    StableHlo.nullary main_cst_33 (constant S_ .f32 0x00000000#32),
    StableHlo.TRef.binary (.of main_v103 : StableHlo.TRef sig ⟨S10000x256, .f32⟩) (.of main_v103 : StableHlo.TRef sig ⟨S10000x256, .f32⟩) main_call6.v0 (cmpf .une),
    StableHlo.TRef.unary (.of main_cst_31 : StableHlo.TRef sig ⟨S_, .f32⟩) main_call6.v1 id,
    StableHlo.TRef.unary main_call6.v1 main_call6.call0.v0 (broadcastInDim S10000x256 ![] bcast_S_S10000x256),
    StableHlo.TRef.ternary main_call6.v0 main_call6.call0.v0 (.of main_v103 : StableHlo.TRef sig ⟨S10000x256, .f32⟩) main_call6.call0.v1 select,
    StableHlo.TRef.nullary main_call6.cst (constant S_ .f32 0x7F800000#32),
    StableHlo.TRef.unary main_call6.cst main_call6.v3 (broadcastInDim S10000x256 ![] bcast_S_S10000x256),
    StableHlo.TRef.binary main_call6.call0.v1 main_call6.v3 main_call6.v4 (cmpf .oeq),
    StableHlo.TRef.unary (.of main_cst_33 : StableHlo.TRef sig ⟨S_, .f32⟩) main_call6.v5 id,
    StableHlo.TRef.unary main_call6.v5 main_call6.call1.v0 (broadcastInDim S10000x256 ![] bcast_S_S10000x256),
    StableHlo.TRef.ternary main_call6.v4 main_call6.call1.v0 main_call6.call0.v1 main_call6.call1.v1 select,
    StableHlo.TRef.nullary main_call6.cst_0 (constant S_ .f32 0xFF800000#32),
    StableHlo.TRef.unary main_call6.cst_0 main_call6.v7 (broadcastInDim S10000x256 ![] bcast_S_S10000x256),
    StableHlo.TRef.binary main_call6.call1.v1 main_call6.v7 main_call6.v8 (cmpf .oeq),
    StableHlo.TRef.unary (.of main_cst_32 : StableHlo.TRef sig ⟨S_, .f32⟩) main_call6.v9 id,
    StableHlo.TRef.unary main_call6.v9 main_call6.call2.v0 (broadcastInDim S10000x256 ![] bcast_S_S10000x256),
    StableHlo.TRef.ternary main_call6.v8 main_call6.call2.v0 main_call6.call1.v1 main_call6.call2.v1 select ]
theorem l1_scrubC_sub : (l1_scrubC : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l1_scrubC_fresh : (l1_scrubC : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 1: the layer's input added. -/
abbrev l1_resid : List (HloOp τ sig (Elt F)) :=
  [
    StableHlo.binary main_v104 main_v33 main_v105 (addf : (⟨S10000x256, .f32⟩ : BufTy).Contents (Elt F) → (⟨S10000x256, .f32⟩ : BufTy).Contents (Elt F) → (⟨S10000x256, .f32⟩ : BufTy).Contents (Elt F)) ]
theorem l1_resid_sub : (l1_resid : List (HloOp τ sig (Elt F))).Forall fun op => op.bufs ⊆ StableHlo.tcRefs τ sig :=
  StableHlo.binary_bufs_sub ..
theorem l1_resid_fresh : (l1_resid : List (HloOp τ sig (Elt F))).Forall fun op => op.fresh = ∅ :=
  rfl

/-- Layer 1: the sum scrubbed, the layer's result. -/
abbrev l1_scrubD : List (HloOp τ sig (Elt F)) :=
  [
    StableHlo.nullary main_cst_34 (constant S_ .f32 0x00000000#32),
    StableHlo.nullary main_cst_35 (constant S_ .f32 0x00000000#32),
    StableHlo.nullary main_cst_36 (constant S_ .f32 0x00000000#32),
    StableHlo.TRef.binary (.of main_v105 : StableHlo.TRef sig ⟨S10000x256, .f32⟩) (.of main_v105 : StableHlo.TRef sig ⟨S10000x256, .f32⟩) main_call7.v0 (cmpf .une),
    StableHlo.TRef.unary (.of main_cst_34 : StableHlo.TRef sig ⟨S_, .f32⟩) main_call7.v1 id,
    StableHlo.TRef.unary main_call7.v1 main_call7.call0.v0 (broadcastInDim S10000x256 ![] bcast_S_S10000x256),
    StableHlo.TRef.ternary main_call7.v0 main_call7.call0.v0 (.of main_v105 : StableHlo.TRef sig ⟨S10000x256, .f32⟩) main_call7.call0.v1 select,
    StableHlo.TRef.nullary main_call7.cst (constant S_ .f32 0x7F800000#32),
    StableHlo.TRef.unary main_call7.cst main_call7.v3 (broadcastInDim S10000x256 ![] bcast_S_S10000x256),
    StableHlo.TRef.binary main_call7.call0.v1 main_call7.v3 main_call7.v4 (cmpf .oeq),
    StableHlo.TRef.unary (.of main_cst_36 : StableHlo.TRef sig ⟨S_, .f32⟩) main_call7.v5 id,
    StableHlo.TRef.unary main_call7.v5 main_call7.call1.v0 (broadcastInDim S10000x256 ![] bcast_S_S10000x256),
    StableHlo.TRef.ternary main_call7.v4 main_call7.call1.v0 main_call7.call0.v1 main_call7.call1.v1 select,
    StableHlo.TRef.nullary main_call7.cst_0 (constant S_ .f32 0xFF800000#32),
    StableHlo.TRef.unary main_call7.cst_0 main_call7.v7 (broadcastInDim S10000x256 ![] bcast_S_S10000x256),
    StableHlo.TRef.binary main_call7.call1.v1 main_call7.v7 main_call7.v8 (cmpf .oeq),
    StableHlo.TRef.unary (.of main_cst_35 : StableHlo.TRef sig ⟨S_, .f32⟩) main_call7.v9 id,
    StableHlo.TRef.unary main_call7.v9 main_call7.call2.v0 (broadcastInDim S10000x256 ![] bcast_S_S10000x256),
    StableHlo.TRef.ternary main_call7.v8 main_call7.call2.v0 main_call7.call1.v1 main_call7.call2.v1 select ]
theorem l1_scrubD_sub : (l1_scrubD : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l1_scrubD_fresh : (l1_scrubD : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 2: the first weight matrix and the product with the features. -/
abbrev l2_term0 : List (HloOp τ sig (Elt F)) :=
  [
    StableHlo.unary main_arg7 main_v107 ((extractStridedSlice S1x256x256 ![0, 0, 0] · slices_S3x256x256_S1x256x256_0_0_0) : (⟨S3x256x256, .f32⟩ : BufTy).Contents (Elt F) → (⟨S1x256x256, .f32⟩ : BufTy).Contents (Elt F)),
    StableHlo.reshape main_v107 main_v108 rfl shapeCasts_S1x256x256_S256x256,
    StableHlo.binary main_v106 main_v108 main_v109 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)) ]
theorem l2_term0_sub : (l2_term0 : List (HloOp τ sig (Elt F))).Forall fun op => op.bufs ⊆ StableHlo.tcRefs τ sig :=
  ⟨StableHlo.unary_bufs_sub .., StableHlo.reshape_bufs_sub .., StableHlo.binary_bufs_sub ..⟩
theorem l2_term0_fresh : (l2_term0 : List (HloOp τ sig (Elt F))).Forall fun op => op.fresh = ∅ :=
  ⟨rfl, rfl, rfl⟩

/-- Layer 2, first sparse product. -/
abbrev l2_prop1 : List (HloOp τ sig (Elt F)) :=
  [
    StableHlo.unary main_v32 main_v110 (broadcastInDim S320000x1 ![0] bcast_S320000_S320000x1_0 : (⟨S320000, .f32⟩ : BufTy).Contents (Elt F) → (⟨S320000x1, .f32⟩ : BufTy).Contents (Elt F)),
    StableHlo.nullary main_c_37 (constantI S_ 32 0#32),
    StableHlo.unary main_c_37 main_v111 (broadcastInDim S320000 ![] bcast_S_S320000 : (⟨S_, .i32⟩ : BufTy).Contents (Elt F) → (⟨S320000, .i32⟩ : BufTy).Contents (Elt F)),
    StableHlo.binary main_v7 main_v111 main_v112 (cmpi .slt : (⟨S320000, .i32⟩ : BufTy).Contents (Elt F) → (⟨S320000, .i32⟩ : BufTy).Contents (Elt F) → (⟨S320000, .i1⟩ : BufTy).Contents (Elt F)),
    StableHlo.nullary main_c_38 (constantI S_ 32 10000#32),
    StableHlo.unary main_c_38 main_v113 (broadcastInDim S320000 ![] bcast_S_S320000 : (⟨S_, .i32⟩ : BufTy).Contents (Elt F) → (⟨S320000, .i32⟩ : BufTy).Contents (Elt F)),
    StableHlo.binary main_v7 main_v113 main_v114 (addi : (⟨S320000, .i32⟩ : BufTy).Contents (Elt F) → (⟨S320000, .i32⟩ : BufTy).Contents (Elt F) → (⟨S320000, .i32⟩ : BufTy).Contents (Elt F)),
    StableHlo.ternary main_v112 main_v114 main_v7 main_v115 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v115 main_v116 (broadcastInDim S320000x1 ![0] bcast_S320000_S320000x1_0 : (⟨S320000, .i32⟩ : BufTy).Contents (Elt F) → (⟨S320000x1, .i32⟩ : BufTy).Contents (Elt F)),
    StableHlo.binary main_v106 main_v116 main_v117 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.unary main_v110 main_v118 (broadcastInDim S320000x256 ![0, 1] bcast_S320000x1_S320000x256_0_1 : (⟨S320000x1, .f32⟩ : BufTy).Contents (Elt F) → (⟨S320000x256, .f32⟩ : BufTy).Contents (Elt F)),
    StableHlo.binary main_v118 main_v117 main_v119 (mulf : (⟨S320000x256, .f32⟩ : BufTy).Contents (Elt F) → (⟨S320000x256, .f32⟩ : BufTy).Contents (Elt F) → (⟨S320000x256, .f32⟩ : BufTy).Contents (Elt F)),
    StableHlo.nullary main_cst_39 (constant S_ .f32 0x00000000#32),
    StableHlo.unary main_cst_39 main_v120 (broadcastInDim S10000x256 ![] bcast_S_S10000x256 : (⟨S_, .f32⟩ : BufTy).Contents (Elt F) → (⟨S10000x256, .f32⟩ : BufTy).Contents (Elt F)),
    StableHlo.unary main_v5 main_v121 (broadcastInDim S320000x1 ![0] bcast_S320000_S320000x1_0 : (⟨S320000, .i32⟩ : BufTy).Contents (Elt F) → (⟨S320000x1, .i32⟩ : BufTy).Contents (Elt F)),
    StableHlo.ternary main_v120 main_v121 main_v119 main_v122 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ]
theorem l2_prop1_sub : (l2_prop1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem l2_prop1_fresh : (l2_prop1 : List (HloOp τ sig (Elt F))).Forall fun op => op.fresh = ∅ :=
  ⟨rfl, rfl, rfl, rfl, rfl, rfl, rfl, rfl, rfl, rfl, rfl, rfl, rfl, rfl, rfl, rfl⟩

/-- Layer 2: the second weight matrix, its product and the running sum. -/
abbrev l2_term1 : List (HloOp τ sig (Elt F)) :=
  [
    StableHlo.unary main_arg7 main_v123 ((extractStridedSlice S1x256x256 ![1, 0, 0] · slices_S3x256x256_S1x256x256_1_0_0) : (⟨S3x256x256, .f32⟩ : BufTy).Contents (Elt F) → (⟨S1x256x256, .f32⟩ : BufTy).Contents (Elt F)),
    StableHlo.reshape main_v123 main_v124 rfl shapeCasts_S1x256x256_S256x256,
    StableHlo.binary main_v122 main_v124 main_v125 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v109 main_v125 main_v126 (addf : (⟨S10000x256, .f32⟩ : BufTy).Contents (Elt F) → (⟨S10000x256, .f32⟩ : BufTy).Contents (Elt F) → (⟨S10000x256, .f32⟩ : BufTy).Contents (Elt F)) ]
theorem l2_term1_sub : (l2_term1 : List (HloOp τ sig (Elt F))).Forall fun op => op.bufs ⊆ StableHlo.tcRefs τ sig :=
  ⟨StableHlo.unary_bufs_sub .., StableHlo.reshape_bufs_sub .., StableHlo.binary_bufs_sub .., StableHlo.binary_bufs_sub ..⟩
theorem l2_term1_fresh : (l2_term1 : List (HloOp τ sig (Elt F))).Forall fun op => op.fresh = ∅ :=
  ⟨rfl, rfl, rfl, rfl⟩

/-- Layer 2, second sparse product: the weights as a column, the wrapped column index, the gather and its scale. -/
abbrev l2_prop2a : List (HloOp τ sig (Elt F)) :=
  [
    StableHlo.unary main_v32 main_v127 (broadcastInDim S320000x1 ![0] bcast_S320000_S320000x1_0 : (⟨S320000, .f32⟩ : BufTy).Contents (Elt F) → (⟨S320000x1, .f32⟩ : BufTy).Contents (Elt F)),
    StableHlo.nullary main_c_40 (constantI S_ 32 0#32),
    StableHlo.unary main_c_40 main_v128 (broadcastInDim S320000 ![] bcast_S_S320000 : (⟨S_, .i32⟩ : BufTy).Contents (Elt F) → (⟨S320000, .i32⟩ : BufTy).Contents (Elt F)),
    StableHlo.binary main_v7 main_v128 main_v129 (cmpi .slt : (⟨S320000, .i32⟩ : BufTy).Contents (Elt F) → (⟨S320000, .i32⟩ : BufTy).Contents (Elt F) → (⟨S320000, .i1⟩ : BufTy).Contents (Elt F)),
    StableHlo.nullary main_c_41 (constantI S_ 32 10000#32),
    StableHlo.unary main_c_41 main_v130 (broadcastInDim S320000 ![] bcast_S_S320000 : (⟨S_, .i32⟩ : BufTy).Contents (Elt F) → (⟨S320000, .i32⟩ : BufTy).Contents (Elt F)),
    StableHlo.binary main_v7 main_v130 main_v131 (addi : (⟨S320000, .i32⟩ : BufTy).Contents (Elt F) → (⟨S320000, .i32⟩ : BufTy).Contents (Elt F) → (⟨S320000, .i32⟩ : BufTy).Contents (Elt F)),
    StableHlo.ternary main_v129 main_v131 main_v7 main_v132 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v132 main_v133 (broadcastInDim S320000x1 ![0] bcast_S320000_S320000x1_0 : (⟨S320000, .i32⟩ : BufTy).Contents (Elt F) → (⟨S320000x1, .i32⟩ : BufTy).Contents (Elt F)),
    StableHlo.binary main_v122 main_v133 main_v134 ((fun x i => Host.gather gather_S10000x256_S320000x1_S320000x256_1_0_n_n_0_1_1256 x i) : (⟨S10000x256, .f32⟩ : BufTy).Contents (Elt F) → (⟨S320000x1, .i32⟩ : BufTy).Contents (Elt F) → (⟨S320000x256, .f32⟩ : BufTy).Contents (Elt F)),
    StableHlo.unary main_v127 main_v135 (broadcastInDim S320000x256 ![0, 1] bcast_S320000x1_S320000x256_0_1 : (⟨S320000x1, .f32⟩ : BufTy).Contents (Elt F) → (⟨S320000x256, .f32⟩ : BufTy).Contents (Elt F)) ]
theorem l2_prop2a_sub : (l2_prop2a : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub ..⟩
theorem l2_prop2a_fresh : (l2_prop2a : List (HloOp τ sig (Elt F))).Forall fun op => op.fresh = ∅ :=
  ⟨rfl, rfl, rfl, rfl, rfl, rfl, rfl, rfl, rfl, rfl, rfl⟩

/-- Statements 121 to 180 as one line. -/
abbrev win2 : List (HloOp τ sig (Elt F)) := l1_normB ++ (l1_scrubB ++ (l1_relu ++ (l1_scrubC ++ (l1_resid ++ (l1_scrubD ++ (l2_term0 ++ (l2_prop1 ++ (l2_term1 ++ (l2_prop2a)))))))))

theorem win2_sub : (win2 : List (HloOp τ sig (Elt F))).Forall fun op => op.bufs ⊆ StableHlo.tcRefs τ sig :=
  forall_append l1_normB_sub (forall_append l1_scrubB_sub (forall_append l1_relu_sub (forall_append l1_scrubC_sub (forall_append l1_resid_sub (forall_append l1_scrubD_sub (forall_append l2_term0_sub (forall_append l2_prop1_sub (forall_append l2_term1_sub (l2_prop2a_sub)))))))))
theorem win2_fresh : (win2 : List (HloOp τ sig (Elt F))).Forall fun op => op.fresh = ∅ :=
  forall_append l1_normB_fresh (forall_append l1_scrubB_fresh (forall_append l1_relu_fresh (forall_append l1_scrubC_fresh (forall_append l1_resid_fresh (forall_append l1_scrubD_fresh (forall_append l2_term0_fresh (forall_append l2_prop1_fresh (forall_append l2_term1_fresh (l2_prop2a_fresh)))))))))

set_option maxRecDepth 8192 in
set_option maxHeartbeats 4000000 in
/-- The window is that line: each callee's definition unfolded at its call, both sides are one chain of steps once
    sequencing is reassociated. -/
theorem main_part2_eq (c : Dev nD) : main_part2 (F := F) c = StableHlo.seq win2 := by
  simp only [main_part2, fn_nan_to_num.body, fn_where.body, fn_where_0.body, fn_where_1.body, fn_nan_to_num_2.body, fn_where_3.body, fn_where_4.body, fn_nan_to_num_5.body, fn_relu.body, StableHlo.seq_append, StableHlo.seq, bind_assoc, pure_bind] <;> rfl

end Cert.ReferenceIdeal.RefRun

end
-- ==== Proof.RefOps3.lean ====
/-
  Statements 181 to 240 of the reference program's @main as lists of host operations, every call of an outlined
  function replaced by the callee's operations over that call's buffers, in the order they run. The lists are cut where
  a stage of the computation ends; the window is their concatenation, and running the window is running that line.
-/
import proofs.«134588_j19095424598406_1_alg».proof.ReferenceIdeal
import proofs.«134588_j19095424598406_1_alg».proof.Proof.Gen.ReferenceIdeal
import proofs.«134588_j19095424598406_1_alg».proof.Proof.RefRunLib
import Idealize.ShloMosaic.Lib.StableHlo.Run

noncomputable section

namespace Cert.ReferenceIdeal.RefRun

open Idealize.ShloMosaic Idealize.SL.Sem Cert.ReferenceIdeal Cert.ReferenceIdeal.Facts₀

variable {F : FTy → Type} [FloatOps F]

/-- Layer 2, second sparse product: the scatter-add over the rows. -/
abbrev l2_prop2b : List (HloOp τ sig (Elt F)) :=
  [
    StableHlo.binary main_v135 main_v134 main_v136 (mulf : (⟨S320000x256, .f32⟩ : BufTy).Contents (Elt F) → (⟨S320000x256, .f32⟩ : BufTy).Contents (Elt F) → (⟨S320000x256, .f32⟩ : BufTy).Contents (Elt F)),
    StableHlo.nullary main_cst_42 (constant S_ .f32 0x00000000#32),
    StableHlo.unary main_cst_42 main_v137 (broadcastInDim S10000x256 ![] bcast_S_S10000x256 : (⟨S_, .f32⟩ : BufTy).Contents (Elt F) → (⟨S10000x256, .f32⟩ : BufTy).Contents (Elt F)),
    StableHlo.unary main_v5 main_v138 (broadcastInDim S320000x1 ![0] bcast_S320000_S320000x1_0 : (⟨S320000, .i32⟩ : BufTy).Contents (Elt F) → (⟨S320000x1, .i32⟩ : BufTy).Contents (Elt F)),
    StableHlo.ternary main_v137 main_v138 main_v136 main_v139 ((fun x i u => Host.scatterAdd scatter_S10000x256_S320000x1_S320000x256_1_0_0_1 x i u) : (⟨S10000x256, .f32⟩ : BufTy).Contents (Elt F) → (⟨S320000x1, .i32⟩ : BufTy).Contents (Elt F) → (⟨S320000x256, .f32⟩ : BufTy).Contents (Elt F) → (⟨S10000x256, .f32⟩ : BufTy).Contents (Elt F)) ]
theorem l2_prop2b_sub : (l2_prop2b : List (HloOp τ sig (Elt F))).Forall fun op => op.bufs ⊆ StableHlo.tcRefs τ sig :=
  ⟨StableHlo.binary_bufs_sub .., StableHlo.nullary_bufs_sub .., StableHlo.unary_bufs_sub .., StableHlo.unary_bufs_sub .., StableHlo.ternary_bufs_sub ..⟩
theorem l2_prop2b_fresh : (l2_prop2b : List (HloOp τ sig (Elt F))).Forall fun op => op.fresh = ∅ :=
  ⟨rfl, rfl, rfl, rfl, rfl⟩

/-- Layer 2: the recurrence 2·p − t. -/
abbrev l2_cheb : List (HloOp τ sig (Elt F)) :=
  [
    StableHlo.nullary main_cst_43 (constant S_ .f32 0x40000000#32),
    StableHlo.unary main_cst_43 main_v140 (broadcastInDim S10000x256 ![] bcast_S_S10000x256 : (⟨S_, .f32⟩ : BufTy).Contents (Elt F) → (⟨S10000x256, .f32⟩ : BufTy).Contents (Elt F)),
    StableHlo.binary main_v140 main_v139 main_v141 (mulf : (⟨S10000x256, .f32⟩ : BufTy).Contents (Elt F) → (⟨S10000x256, .f32⟩ : BufTy).Contents (Elt F) → (⟨S10000x256, .f32⟩ : BufTy).Contents (Elt F)),
    StableHlo.binary main_v141 main_v106 main_v142 (subf : (⟨S10000x256, .f32⟩ : BufTy).Contents (Elt F) → (⟨S10000x256, .f32⟩ : BufTy).Contents (Elt F) → (⟨S10000x256, .f32⟩ : BufTy).Contents (Elt F)) ]
theorem l2_cheb_sub : (l2_cheb : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
theorem l2_cheb_fresh : (l2_cheb : List (HloOp τ sig (Elt F))).Forall fun op => op.fresh = ∅ :=
  ⟨rfl, rfl, rfl, rfl⟩

/-- Layer 2: the third weight matrix, its product and the running sum. -/
abbrev l2_term2 : List (HloOp τ sig (Elt F)) :=
  [
    StableHlo.unary main_arg7 main_v143 ((extractStridedSlice S1x256x256 ![2, 0, 0] · slices_S3x256x256_S1x256x256_2_0_0) : (⟨S3x256x256, .f32⟩ : BufTy).Contents (Elt F) → (⟨S1x256x256, .f32⟩ : BufTy).Contents (Elt F)),
    StableHlo.reshape main_v143 main_v144 rfl shapeCasts_S1x256x256_S256x256,
    StableHlo.binary main_v142 main_v144 main_v145 ((fun l r => Host.dotGeneral dot_S10000x256_S256x256_S10000x256_1_0_0_1_n_n none l r) : (⟨S10000x256, .f32⟩ : BufTy).Contents (Elt F) → (⟨S256x256, .f32⟩ : BufTy).Contents (Elt F) → (⟨S10000x256, .f32⟩ : BufTy).Contents (Elt F)),
    StableHlo.binary main_v126 main_v145 main_v146 (addf : (⟨S10000x256, .f32⟩ : BufTy).Contents (Elt F) → (⟨S10000x256, .f32⟩ : BufTy).Contents (Elt F) → (⟨S10000x256, .f32⟩ : BufTy).Contents (Elt F)) ]
theorem l2_term2_sub : (l2_term2 : List (HloOp τ sig (Elt F))).Forall fun op => op.bufs ⊆ StableHlo.tcRefs τ sig :=
  ⟨StableHlo.unary_bufs_sub .., StableHlo.reshape_bufs_sub .., StableHlo.binary_bufs_sub .., StableHlo.binary_bufs_sub ..⟩
theorem l2_term2_fresh : (l2_term2 : List (HloOp τ sig (Elt F))).Forall fun op => op.fresh = ∅ :=
  ⟨rfl, rfl, rfl, rfl⟩

/-- Layer 2: the bias spread over the rows and added. -/
abbrev l2_bias : List (HloOp τ sig (Elt F)) :=
  [
    StableHlo.unary main_arg8 main_v147 (broadcastInDim S1x256 ![1] bcast_S256_S1x256_1 : (⟨S256, .f32⟩ : BufTy).Contents (Elt F) → (⟨S1x256, .f32⟩ : BufTy).Contents (Elt F)),
    StableHlo.unary main_v147 main_v148 (broadcastInDim S10000x256 ![0, 1] bcast_S1x256_S10000x256_0_1 : (⟨S1x256, .f32⟩ : BufTy).Contents (Elt F) → (⟨S10000x256, .f32⟩ : BufTy).Contents (Elt F)),
    StableHlo.binary main_v146 main_v148 main_v149 (addf : (⟨S10000x256, .f32⟩ : BufTy).Contents (Elt F) → (⟨S10000x256, .f32⟩ : BufTy).Contents (Elt F) → (⟨S10000x256, .f32⟩ : BufTy).Contents (Elt F)) ]
theorem l2_bias_sub : (l2_bias : List (HloOp τ sig (Elt F))).Forall fun op => op.bufs ⊆ StableHlo.tcRefs τ sig :=
  ⟨StableHlo.unary_bufs_sub .., StableHlo.unary_bufs_sub .., StableHlo.binary_bufs_sub ..⟩
theorem l2_bias_fresh : (l2_bias : List (HloOp τ sig (Elt F))).Forall fun op => op.fresh = ∅ :=
  ⟨rfl, rfl, rfl⟩

/-- Layer 2: the sum scrubbed. -/
abbrev l2_scrubA : List (HloOp τ sig (Elt F)) :=
  [
    StableHlo.nullary main_cst_44 (constant S_ .f32 0x00000000#32),
    StableHlo.nullary main_cst_45 (constant S_ .f32 0x00000000#32),
    StableHlo.nullary main_cst_46 (constant S_ .f32 0x00000000#32),
    StableHlo.TRef.binary (.of main_v149 : StableHlo.TRef sig ⟨S10000x256, .f32⟩) (.of main_v149 : StableHlo.TRef sig ⟨S10000x256, .f32⟩) main_call8.v0 (cmpf .une),
    StableHlo.TRef.unary (.of main_cst_44 : StableHlo.TRef sig ⟨S_, .f32⟩) main_call8.v1 id,
    StableHlo.TRef.unary main_call8.v1 main_call8.call0.v0 (broadcastInDim S10000x256 ![] bcast_S_S10000x256),
    StableHlo.TRef.ternary main_call8.v0 main_call8.call0.v0 (.of main_v149 : StableHlo.TRef sig ⟨S10000x256, .f32⟩) main_call8.call0.v1 select,
    StableHlo.TRef.nullary main_call8.cst (constant S_ .f32 0x7F800000#32),
    StableHlo.TRef.unary main_call8.cst main_call8.v3 (broadcastInDim S10000x256 ![] bcast_S_S10000x256),
    StableHlo.TRef.binary main_call8.call0.v1 main_call8.v3 main_call8.v4 (cmpf .oeq),
    StableHlo.TRef.unary (.of main_cst_46 : StableHlo.TRef sig ⟨S_, .f32⟩) main_call8.v5 id,
    StableHlo.TRef.unary main_call8.v5 main_call8.call1.v0 (broadcastInDim S10000x256 ![] bcast_S_S10000x256),
    StableHlo.TRef.ternary main_call8.v4 main_call8.call1.v0 main_call8.call0.v1 main_call8.call1.v1 select,
    StableHlo.TRef.nullary main_call8.cst_0 (constant S_ .f32 0xFF800000#32),
    StableHlo.TRef.unary main_call8.cst_0 main_call8.v7 (broadcastInDim S10000x256 ![] bcast_S_S10000x256),
    StableHlo.TRef.binary main_call8.call1.v1 main_call8.v7 main_call8.v8 (cmpf .oeq),
    StableHlo.TRef.unary (.of main_cst_45 : StableHlo.TRef sig ⟨S_, .f32⟩) main_call8.v9 id,
    StableHlo.TRef.unary main_call8.v9 main_call8.call2.v0 (broadcastInDim S10000x256 ![] bcast_S_S10000x256),
    StableHlo.TRef.ternary main_call8.v8 main_call8.call2.v0 main_call8.call1.v1 main_call8.call2.v1 select ]
theorem l2_scrubA_sub : (l2_scrubA : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l2_scrubA_fresh : (l2_scrubA : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 2, normalisation over each row with scale and shift. -/
abbrev l2_norm : List (HloOp τ sig (Elt F)) :=
  [
    StableHlo.nullary main_cst_47 (constant S_ .f32 0x00000000#32),
    StableHlo.binary main_v150 main_cst_47 main_v151 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    StableHlo.unary main_v151 main_v152 (broadcastInDim S10000x1 ![0] bcast_S10000_S10000x1_0 : (⟨S10000, .f32⟩ : BufTy).Contents (Elt F) → (⟨S10000x1, .f32⟩ : BufTy).Contents (Elt F)),
    StableHlo.nullary main_cst_48 (constant S_ .f32 0x43800000#32),
    StableHlo.unary main_cst_48 main_v153 (broadcastInDim S10000x1 ![] bcast_S_S10000x1 : (⟨S_, .f32⟩ : BufTy).Contents (Elt F) → (⟨S10000x1, .f32⟩ : BufTy).Contents (Elt F)),
    StableHlo.binary main_v152 main_v153 main_v154 (Host.divf : (⟨S10000x1, .f32⟩ : BufTy).Contents (Elt F) → (⟨S10000x1, .f32⟩ : BufTy).Contents (Elt F) → (⟨S10000x1, .f32⟩ : BufTy).Contents (Elt F)),
    StableHlo.unary main_v154 main_v155 (broadcastInDim S10000x256 ![0, 1] bcast_S10000x1_S10000x256_0_1 : (⟨S10000x1, .f32⟩ : BufTy).Contents (Elt F) → (⟨S10000x256, .f32⟩ : BufTy).Contents (Elt F)),
    StableHlo.binary main_v150 main_v155 main_v156 (subf : (⟨S10000x256, .f32⟩ : BufTy).Contents (Elt F) → (⟨S10000x256, .f32⟩ : BufTy).Contents (Elt F) → (⟨S10000x256, .f32⟩ : BufTy).Contents (Elt F)),
    StableHlo.binary main_v156 main_v156 main_v157 (mulf : (⟨S10000x256, .f32⟩ : BufTy).Contents (Elt F) → (⟨S10000x256, .f32⟩ : BufTy).Contents (Elt F) → (⟨S10000x256, .f32⟩ : BufTy).Contents (Elt F)),
    StableHlo.nullary main_cst_49 (constant S_ .f32 0x00000000#32),
    StableHlo.binary main_v157 main_cst_49 main_v158 ((fun x v => Host.reduceAdd x v reducesTo_S10000x256_S10000_d1 h_S_) : (⟨S10000x256, .f32⟩ : BufTy).Contents (Elt F) → (⟨S_, .f32⟩ : BufTy).Contents (Elt F) → (⟨S10000, .f32⟩ : BufTy).Contents (Elt F)),
    StableHlo.unary main_v158 main_v159 (broadcastInDim S10000x1 ![0] bcast_S10000_S10000x1_0 : (⟨S10000, .f32⟩ : BufTy).Contents (Elt F) → (⟨S10000x1, .f32⟩ : BufTy).Contents (Elt F)),
    StableHlo.nullary main_cst_50 (constant S_ .f32 0x43800000#32),
    StableHlo.unary main_cst_50 main_v160 (broadcastInDim S10000x1 ![] bcast_S_S10000x1 : (⟨S_, .f32⟩ : BufTy).Contents (Elt F) → (⟨S10000x1, .f32⟩ : BufTy).Contents (Elt F)),
    StableHlo.binary main_v159 main_v160 main_v161 (Host.divf : (⟨S10000x1, .f32⟩ : BufTy).Contents (Elt F) → (⟨S10000x1, .f32⟩ : BufTy).Contents (Elt F) → (⟨S10000x1, .f32⟩ : BufTy).Contents (Elt F)),
    StableHlo.unary main_v154 main_v162 (broadcastInDim S10000x256 ![0, 1] bcast_S10000x1_S10000x256_0_1 : (⟨S10000x1, .f32⟩ : BufTy).Contents (Elt F) → (⟨S10000x256, .f32⟩ : BufTy).Contents (Elt F)),
    StableHlo.binary main_v150 main_v162 main_v163 (subf : (⟨S10000x256, .f32⟩ : BufTy).Contents (Elt F) → (⟨S10000x256, .f32⟩ : BufTy).Contents (Elt F) → (⟨S10000x256, .f32⟩ : BufTy).Contents (Elt F)),
    StableHlo.nullary main_cst_51 (constant S_ .f32 0x3727C5AC#32),
    StableHlo.unary main_cst_51 main_v164 (broadcastInDim S10000x1 ![] bcast_S_S10000x1 : (⟨S_, .f32⟩ : BufTy).Contents (Elt F) → (⟨S10000x1, .f32⟩ : BufTy).Contents (Elt F)),
    StableHlo.binary main_v161 main_v164 main_v165 (addf : (⟨S10000x1, .f32⟩ : BufTy).Contents (Elt F) → (⟨S10000x1, .f32⟩ : BufTy).Contents (Elt F) → (⟨S10000x1, .f32⟩ : BufTy).Contents (Elt F)),
    StableHlo.unary main_v165 main_v166 (Host.rsqrt : (⟨S10000x1, .f32⟩ : BufTy).Contents (Elt F) → (⟨S10000x1, .f32⟩ : BufTy).Contents (Elt F)),
    StableHlo.unary main_v166 main_v167 (broadcastInDim S10000x256 ![0, 1] bcast_S10000x1_S10000x256_0_1 : (⟨S10000x1, .f32⟩ : BufTy).Contents (Elt F) → (⟨S10000x256, .f32⟩ : BufTy).Contents (Elt F)),
    StableHlo.binary main_v163 main_v167 main_v168 (mulf : (⟨S10000x256, .f32⟩ : BufTy).Contents (Elt F) → (⟨S10000x256, .f32⟩ : BufTy).Contents (Elt F) → (⟨S10000x256, .f32⟩ : BufTy).Contents (Elt F)),
    StableHlo.unary main_arg9 main_v169 (broadcastInDim S1x256 ![1] bcast_S256_S1x256_1 : (⟨S256, .f32⟩ : BufTy).Contents (Elt F) → (⟨S1x256, .f32⟩ : BufTy).Contents (Elt F)),
    StableHlo.unary main_v169 main_v170 (broadcastInDim S10000x256 ![0, 1] bcast_S1x256_S10000x256_0_1 : (⟨S1x256, .f32⟩ : BufTy).Contents (Elt F) → (⟨S10000x256, .f32⟩ : BufTy).Contents (Elt F)),
    StableHlo.binary main_v168 main_v170 main_v171 (mulf : (⟨S10000x256, .f32⟩ : BufTy).Contents (Elt F) → (⟨S10000x256, .f32⟩ : BufTy).Contents (Elt F) → (⟨S10000x256, .f32⟩ : BufTy).Contents (Elt F)),
    StableHlo.unary main_arg10 main_v172 (broadcastInDim S1x256 ![1] bcast_S256_S1x256_1 : (⟨S256, .f32⟩ : BufTy).Contents (Elt F) → (⟨S1x256, .f32⟩ : BufTy).Contents (Elt F)),
    StableHlo.unary main_v172 main_v173 (broadcastInDim S10000x256 ![0, 1] bcast_S1x256_S10000x256_0_1 : (⟨S1x256, .f32⟩ : BufTy).Contents (Elt F) → (⟨S10000x256, .f32⟩ : BufTy).Contents (Elt F)),
    StableHlo.binary main_v171 main_v173 main_v174 (addf : (⟨S10000x256, .f32⟩ : BufTy).Contents (Elt F) → (⟨S10000x256, .f32⟩ : BufTy).Contents (Elt F) → (⟨S10000x256, .f32⟩ : BufTy).Contents (Elt F)) ]
theorem l2_norm_sub : (l2_norm : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
theorem l2_norm_fresh : (l2_norm : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 2: the normalised rows scrubbed. -/
abbrev l2_scrubB : List (HloOp τ sig (Elt F)) :=
  [
    StableHlo.nullary main_cst_52 (constant S_ .f32 0x00000000#32),
    StableHlo.nullary main_cst_53 (constant S_ .f32 0x00000000#32),
    StableHlo.nullary main_cst_54 (constant S_ .f32 0x00000000#32),
    StableHlo.TRef.binary (.of main_v174 : StableHlo.TRef sig ⟨S10000x256, .f32⟩) (.of main_v174 : StableHlo.TRef sig ⟨S10000x256, .f32⟩) main_call9.v0 (cmpf .une),
    StableHlo.TRef.unary (.of main_cst_52 : StableHlo.TRef sig ⟨S_, .f32⟩) main_call9.v1 id,
    StableHlo.TRef.unary main_call9.v1 main_call9.call0.v0 (broadcastInDim S10000x256 ![] bcast_S_S10000x256),
    StableHlo.TRef.ternary main_call9.v0 main_call9.call0.v0 (.of main_v174 : StableHlo.TRef sig ⟨S10000x256, .f32⟩) main_call9.call0.v1 select,
    StableHlo.TRef.nullary main_call9.cst (constant S_ .f32 0x7F800000#32),
    StableHlo.TRef.unary main_call9.cst main_call9.v3 (broadcastInDim S10000x256 ![] bcast_S_S10000x256),
    StableHlo.TRef.binary main_call9.call0.v1 main_call9.v3 main_call9.v4 (cmpf .oeq),
    StableHlo.TRef.unary (.of main_cst_54 : StableHlo.TRef sig ⟨S_, .f32⟩) main_call9.v5 id,
    StableHlo.TRef.unary main_call9.v5 main_call9.call1.v0 (broadcastInDim S10000x256 ![] bcast_S_S10000x256),
    StableHlo.TRef.ternary main_call9.v4 main_call9.call1.v0 main_call9.call0.v1 main_call9.call1.v1 select,
    StableHlo.TRef.nullary main_call9.cst_0 (constant S_ .f32 0xFF800000#32),
    StableHlo.TRef.unary main_call9.cst_0 main_call9.v7 (broadcastInDim S10000x256 ![] bcast_S_S10000x256),
    StableHlo.TRef.binary main_call9.call1.v1 main_call9.v7 main_call9.v8 (cmpf .oeq),
    StableHlo.TRef.unary (.of main_cst_53 : StableHlo.TRef sig ⟨S_, .f32⟩) main_call9.v9 id,
    StableHlo.TRef.unary main_call9.v9 main_call9.call2.v0 (broadcastInDim S10000x256 ![] bcast_S_S10000x256),
    StableHlo.TRef.ternary main_call9.v8 main_call9.call2.v0 main_call9.call1.v1 main_call9.call2.v1 select ]
theorem l2_scrubB_sub : (l2_scrubB : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l2_scrubB_fresh : (l2_scrubB : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 2: max with 0. -/
abbrev l2_relu : List (HloOp τ sig (Elt F)) :=
  [
    StableHlo.TRef.nullary main_call10.cst (constant S_ .f32 0x00000000#32),
    StableHlo.TRef.unary main_call10.cst main_call10.v0 (broadcastInDim S10000x256 ![] bcast_S_S10000x256),
    StableHlo.TRef.binary (.of main_v175 : StableHlo.TRef sig ⟨S10000x256, .f32⟩) main_call10.v0 main_call10.v1 maximumf ]
theorem l2_relu_sub : (l2_relu : List (HloOp τ sig (Elt F))).Forall fun op => op.bufs ⊆ StableHlo.tcRefs τ sig :=
  ⟨StableHlo.nullary_bufs_sub .., StableHlo.unary_bufs_sub .., StableHlo.binary_bufs_sub ..⟩
theorem l2_relu_fresh : (l2_relu : List (HloOp τ sig (Elt F))).Forall fun op => op.fresh = ∅ :=
  ⟨rfl, rfl, rfl⟩

/-- Layer 2: the rectified rows scrubbed. -/
abbrev l2_scrubC : List (HloOp τ sig (Elt F)) :=
  [
    StableHlo.nullary main_cst_55 (constant S_ .f32 0x00000000#32),
    StableHlo.nullary main_cst_56 (constant S_ .f32 0x00000000#32),
    StableHlo.nullary main_cst_57 (constant S_ .f32 0x00000000#32),
    StableHlo.TRef.binary (.of main_v176 : StableHlo.TRef sig ⟨S10000x256, .f32⟩) (.of main_v176 : StableHlo.TRef sig ⟨S10000x256, .f32⟩) main_call11.v0 (cmpf .une),
    StableHlo.TRef.unary (.of main_cst_55 : StableHlo.TRef sig ⟨S_, .f32⟩) main_call11.v1 id,
    StableHlo.TRef.unary main_call11.v1 main_call11.call0.v0 (broadcastInDim S10000x256 ![] bcast_S_S10000x256),
    StableHlo.TRef.ternary main_call11.v0 main_call11.call0.v0 (.of main_v176 : StableHlo.TRef sig ⟨S10000x256, .f32⟩) main_call11.call0.v1 select,
    StableHlo.TRef.nullary main_call11.cst (constant S_ .f32 0x7F800000#32),
    StableHlo.TRef.unary main_call11.cst main_call11.v3 (broadcastInDim S10000x256 ![] bcast_S_S10000x256),
    StableHlo.TRef.binary main_call11.call0.v1 main_call11.v3 main_call11.v4 (cmpf .oeq),
    StableHlo.TRef.unary (.of main_cst_57 : StableHlo.TRef sig ⟨S_, .f32⟩) main_call11.v5 id,
    StableHlo.TRef.unary main_call11.v5 main_call11.call1.v0 (broadcastInDim S10000x256 ![] bcast_S_S10000x256),
    StableHlo.TRef.ternary main_call11.v4 main_call11.call1.v0 main_call11.call0.v1 main_call11.call1.v1 select,
    StableHlo.TRef.nullary main_call11.cst_0 (constant S_ .f32 0xFF800000#32),
    StableHlo.TRef.unary main_call11.cst_0 main_call11.v7 (broadcastInDim S10000x256 ![] bcast_S_S10000x256),
    StableHlo.TRef.binary main_call11.call1.v1 main_call11.v7 main_call11.v8 (cmpf .oeq),
    StableHlo.TRef.unary (.of main_cst_56 : StableHlo.TRef sig ⟨S_, .f32⟩) main_call11.v9 id,
    StableHlo.TRef.unary main_call11.v9 main_call11.call2.v0 (broadcastInDim S10000x256 ![] bcast_S_S10000x256),
    StableHlo.TRef.ternary main_call11.v8 main_call11.call2.v0 main_call11.call1.v1 main_call11.call2.v1 select ]
theorem l2_scrubC_sub : (l2_scrubC : List (HloOp τ sig (Elt F))).Forall fun op => op.bufs ⊆ StableHlo.tcRefs τ sig :=
  ⟨StableHlo.nullary_bufs_sub .., StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l2_scrubC_fresh : (l2_scrubC : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- Layer 2: the layer's input added. -/
abbrev l2_resid : List (HloOp τ sig (Elt F)) :=
  [
    StableHlo.binary main_v177 main_v106 main_v178 (addf : (⟨S10000x256, .f32⟩ : BufTy).Contents (Elt F) → (⟨S10000x256, .f32⟩ : BufTy).Contents (Elt F) → (⟨S10000x256, .f32⟩ : BufTy).Contents (Elt F)) ]
theorem l2_resid_sub : (l2_resid : List (HloOp τ sig (Elt F))).Forall fun op => op.bufs ⊆ StableHlo.tcRefs τ sig :=
  StableHlo.binary_bufs_sub ..
theorem l2_resid_fresh : (l2_resid : List (HloOp τ sig (Elt F))).Forall fun op => op.fresh = ∅ :=
  rfl

/-- Layer 2: the first of the three zero constants of the last scrub. -/
abbrev l2_zero : List (HloOp τ sig (Elt F)) :=
  [
    StableHlo.nullary main_cst_58 (constant S_ .f32 0x00000000#32) ]
theorem l2_zero_sub : (l2_zero : List (HloOp τ sig (Elt F))).Forall fun op => op.bufs ⊆ StableHlo.tcRefs τ sig :=
  StableHlo.nullary_bufs_sub ..
theorem l2_zero_fresh : (l2_zero : List (HloOp τ sig (Elt F))).Forall fun op => op.fresh = ∅ :=
  rfl

/-- Statements 181 to 240 as one line. -/
abbrev win3 : List (HloOp τ sig (Elt F)) := l2_prop2b ++ (l2_cheb ++ (l2_term2 ++ (l2_bias ++ (l2_scrubA ++ (l2_norm ++ (l2_scrubB ++ (l2_relu ++ (l2_scrubC ++ (l2_resid ++ (l2_zero))))))))))

theorem win3_sub : (win3 : List (HloOp τ sig (Elt F))).Forall fun op => op.bufs ⊆ StableHlo.tcRefs τ sig :=
  forall_append l2_prop2b_sub (forall_append l2_cheb_sub (forall_append l2_term2_sub (forall_append l2_bias_sub (forall_append l2_scrubA_sub (forall_append l2_norm_sub (forall_append l2_scrubB_sub (forall_append l2_relu_sub (forall_append l2_scrubC_sub (forall_append l2_resid_sub (l2_zero_sub))))))))))
theorem win3_fresh : (win3 : List (HloOp τ sig (Elt F))).Forall fun op => op.fresh = ∅ :=
  forall_append l2_prop2b_fresh (forall_append l2_cheb_fresh (forall_append l2_term2_fresh (forall_append l2_bias_fresh (forall_append l2_scrubA_fresh (forall_append l2_norm_fresh (forall_append l2_scrubB_fresh (forall_append l2_relu_fresh (forall_append l2_scrubC_fresh (forall_append l2_resid_fresh (l2_zero_fresh))))))))))

set_option maxRecDepth 8192 in
set_option maxHeartbeats 4000000 in
/-- The window is that line: each callee's definition unfolded at its call, both sides are one chain of steps once
    sequencing is reassociated. -/
theorem main_part3_eq (c : Dev nD) : main_part3 (F := F) c = StableHlo.seq win3 := by
  simp only [main_part3, fn_nan_to_num.body, fn_where.body, fn_where_0.body, fn_where_1.body, fn_nan_to_num_2.body, fn_where_3.body, fn_where_4.body, fn_nan_to_num_5.body, fn_relu.body, StableHlo.seq_append, StableHlo.seq, bind_assoc, pure_bind] <;> rfl

end Cert.ReferenceIdeal.RefRun

end
-- ==== Proof.RefOps4.lean ====
/-
  Statements 241 to 243 of the reference program's @main as lists of host operations, every call of an outlined
  function replaced by the callee's operations over that call's buffers, in the order they run. The lists are cut where
  a stage of the computation ends; the window is their concatenation, and running the window is running that line.
-/
import proofs.«134588_j19095424598406_1_alg».proof.ReferenceIdeal
import proofs.«134588_j19095424598406_1_alg».proof.Proof.Gen.ReferenceIdeal
import proofs.«134588_j19095424598406_1_alg».proof.Proof.RefRunLib
import Idealize.ShloMosaic.Lib.StableHlo.Run

noncomputable section

namespace Cert.ReferenceIdeal.RefRun

open Idealize.ShloMosaic Idealize.SL.Sem Cert.ReferenceIdeal Cert.ReferenceIdeal.Facts₀

variable {F : FTy → Type} [FloatOps F]

/-- Layer 2: the sum scrubbed, the network's result. -/
abbrev l2_scrubD : List (HloOp τ sig (Elt F)) :=
  [
    StableHlo.nullary main_cst_59 (constant S_ .f32 0x00000000#32),
    StableHlo.nullary main_cst_60 (constant S_ .f32 0x00000000#32),
    StableHlo.TRef.binary (.of main_v178 : StableHlo.TRef sig ⟨S10000x256, .f32⟩) (.of main_v178 : StableHlo.TRef sig ⟨S10000x256, .f32⟩) main_call12.v0 (cmpf .une),
    StableHlo.TRef.unary (.of main_cst_58 : StableHlo.TRef sig ⟨S_, .f32⟩) main_call12.v1 id,
    StableHlo.TRef.unary main_call12.v1 main_call12.call0.v0 (broadcastInDim S10000x256 ![] bcast_S_S10000x256),
    StableHlo.TRef.ternary main_call12.v0 main_call12.call0.v0 (.of main_v178 : StableHlo.TRef sig ⟨S10000x256, .f32⟩) main_call12.call0.v1 select,
    StableHlo.TRef.nullary main_call12.cst (constant S_ .f32 0x7F800000#32),
    StableHlo.TRef.unary main_call12.cst main_call12.v3 (broadcastInDim S10000x256 ![] bcast_S_S10000x256),
    StableHlo.TRef.binary main_call12.call0.v1 main_call12.v3 main_call12.v4 (cmpf .oeq),
    StableHlo.TRef.unary (.of main_cst_60 : StableHlo.TRef sig ⟨S_, .f32⟩) main_call12.v5 id,
    StableHlo.TRef.unary main_call12.v5 main_call12.call1.v0 (broadcastInDim S10000x256 ![] bcast_S_S10000x256),
    StableHlo.TRef.ternary main_call12.v4 main_call12.call1.v0 main_call12.call0.v1 main_call12.call1.v1 select,
    StableHlo.TRef.nullary main_call12.cst_0 (constant S_ .f32 0xFF800000#32),
    StableHlo.TRef.unary main_call12.cst_0 main_call12.v7 (broadcastInDim S10000x256 ![] bcast_S_S10000x256),
    StableHlo.TRef.binary main_call12.call1.v1 main_call12.v7 main_call12.v8 (cmpf .oeq),
    StableHlo.TRef.unary (.of main_cst_59 : StableHlo.TRef sig ⟨S_, .f32⟩) main_call12.v9 id,
    StableHlo.TRef.unary main_call12.v9 main_call12.call2.v0 (broadcastInDim S10000x256 ![] bcast_S_S10000x256),
    StableHlo.TRef.ternary main_call12.v8 main_call12.call2.v0 main_call12.call1.v1 main_call12.call2.v1 select ]
theorem l2_scrubD_sub : (l2_scrubD : List (HloOp τ sig (Elt F))).Forall fun op => op.bufs ⊆ StableHlo.tcRefs τ sig :=
  ⟨StableHlo.nullary_bufs_sub .., StableHlo.nullary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.unary_bufs_sub .., StableHlo.ternary_bufs_sub ..⟩
theorem l2_scrubD_fresh : (l2_scrubD : List (HloOp τ sig (Elt F))).Forall fun op => op.fresh = ∅ :=
  ⟨rfl, rfl, rfl, rfl, rfl, rfl, rfl, rfl, rfl, rfl, rfl, rfl, rfl, rfl, rfl, rfl, rfl, rfl⟩

/-- Statements 241 to 243 as one line. -/
abbrev win4 : List (HloOp τ sig (Elt F)) := l2_scrubD

theorem win4_sub : (win4 : List (HloOp τ sig (Elt F))).Forall fun op => op.bufs ⊆ StableHlo.tcRefs τ sig :=
  l2_scrubD_sub
theorem win4_fresh : (win4 : List (HloOp τ sig (Elt F))).Forall fun op => op.fresh = ∅ :=
  l2_scrubD_fresh

set_option maxRecDepth 8192 in
set_option maxHeartbeats 4000000 in
/-- The window is that line: each callee's definition unfolded at its call, both sides are one chain of steps once
    sequencing is reassociated. -/
theorem main_part4_eq (c : Dev nD) : main_part4 (F := F) c = StableHlo.seq win4 := by
  simp only [main_part4, fn_nan_to_num.body, fn_where.body, fn_where_0.body, fn_where_1.body, fn_nan_to_num_2.body, fn_where_3.body, fn_where_4.body, fn_nan_to_num_5.body, fn_relu.body, StableHlo.seq_append, StableHlo.seq, bind_assoc, pure_bind] <;> rfl

end Cert.ReferenceIdeal.RefRun

end
-- ==== Proof.RefRun.lean ====
/-
  The reference program's run. Its @main is five windows run in order, each a straight line of host operations
  (the preceding modules); so @main is the line `ops`, their concatenation, and every weakly fair execution
  terminates with each buffer at the fold of the operations' results over the launch contents.
-/
import proofs.«134588_j19095424598406_1_alg».proof.Proof.RefOps0
import proofs.«134588_j19095424598406_1_alg».proof.Proof.RefOps1
import proofs.«134588_j19095424598406_1_alg».proof.Proof.RefOps2
import proofs.«134588_j19095424598406_1_alg».proof.Proof.RefOps3
import proofs.«134588_j19095424598406_1_alg».proof.Proof.RefOps4

noncomputable section

namespace Cert.ReferenceIdeal.RefRun

open Idealize.ShloMosaic Idealize.SL.Sem Cert.ReferenceIdeal Cert.ReferenceIdeal.Facts₀

variable {F : FTy → Type} [FloatOps F]

/-- @main's operations in order, every call replaced by the callee's operations. -/
abbrev ops : List (HloOp τ sig (Elt F)) := win0 ++ (win1 ++ (win2 ++ (win3 ++ win4)))

theorem ops_sub : (ops : List (HloOp τ sig (Elt F))).Forall fun op => op.bufs ⊆ StableHlo.tcRefs τ sig :=
  forall_append win0_sub (forall_append win1_sub (forall_append win2_sub (forall_append win3_sub win4_sub)))

theorem ops_fresh : (ops : List (HloOp τ sig (Elt F))).Forall fun op => op.fresh = ∅ :=
  forall_append win0_fresh (forall_append win1_fresh (forall_append win2_fresh (forall_append win3_fresh win4_fresh)))

/-- @main is that line: the windows in order are the concatenation run as one. -/
theorem main_eq (c : Dev nD) : main (F := F) c = StableHlo.seq ops := by
  simp only [StableHlo.seq_append, ← main_part0_eq c, ← main_part1_eq c, ← main_part2_eq c, ← main_part3_eq c,
    ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ op hop => List.forall_iff_forall_mem.mp ops_fresh op hop)

end Cert.ReferenceIdeal.RefRun

end
-- ==== Proof.RefDense.lean ====
/-
  The dense half of one layer as one pure function of its nine arrays, written with the host operations in the order
  and grouping in which the reference program applies them:

    convRef  = ((t0·w0 + t1·w1) + t2·w2) + b[None, :]          three matrix products summed left to right, plus the bias
    meanRef c = (Σ_q c[·, q])[:, None] / 256                    a row mean, kept as a column
    devRef c  = c − meanRef c  (the column spread over the row)
    varRef c  = (Σ_q (devRef c)²[·, q])[:, None] / 256
    lnRef c   = devRef c · rsqrt (varRef c + ε) · g[None, :] + be[None, :]
    denseRef  = scrub (scrub (max (scrub (lnRef (scrub convRef))) 0) + t0)

  where scrub is `safeOf` (a NaN, +∞ or −∞ becomes 0).
-/
import proofs.«134588_j19095424598406_1_alg».proof.Proof.Net

noncomputable section

namespace Cert.Stages

open Idealize.ShloMosaic Cert.ReferenceIdeal Cert.ReferenceIdeal.Facts₀

variable {F : FTy → Type} [FloatOps F]

/-- A `[256]` vector spread over the rows of a `[10000, 256]` array. -/
def rowVecRef (v : FVec F S256 .f32) : FVec F S10000x256 .f32 :=
  broadcastInDim S10000x256 ![0, 1] bcast_S1x256_S10000x256_0_1 (broadcastInDim S1x256 ![1] bcast_S256_S1x256_1 v)

/-- A `[10000, 1]` column spread over the columns of a `[10000, 256]` array. -/
def colSpreadRef (c : FVec F S10000x1 .f32) : FVec F S10000x256 .f32 :=
  broadcastInDim S10000x256 ![0, 1] bcast_S10000x1_S10000x256_0_1 c

/-- The three matrix products summed left to right, plus the bias. -/
def convRef (t0 t1 t2 : FVec F S10000x256 .f32) (w0 w1 w2 : FVec F S256x256 .f32) (b : FVec F S256 .f32) :
    FVec F S10000x256 .f32 :=
  addf
    (addf
      (addf (Host.dotGeneral dot_S10000x256_S256x256_S10000x256_1_0_0_1_n_n none t0 w0)
        (Host.dotGeneral dot_S10000x256_S256x256_S10000x256_1_0_0_1_n_n none t1 w1))
      (Host.dotGeneral dot_S10000x256_S256x256_S10000x256_1_0_0_1_n_n none t2 w2))
    (rowVecRef b)

/-- The sum over each row divided by 256, as a column. -/
def rowAvgRef (c : FVec F S10000x256 .f32) : FVec F S10000x1 .f32 :=
  Host.divf
    (broadcastInDim S10000x1 ![0] bcast_S10000_S10000x1_0
      (Host.reduceAdd c (constant S_ .f32 0x00000000#32) reducesTo_S10000x256_S10000_d1 h_S_))
    (broadcastInDim S10000x1 ![] bcast_S_S10000x1 (constant S_ .f32 0x43800000#32))

/-- The deviation of each entry from its row's mean. -/
def devRef (c : FVec F S10000x256 .f32) : FVec F S10000x256 .f32 :=
  subf c (colSpreadRef (rowAvgRef c))

/-- The row variance: the mean of the squared deviations, as a column. -/
def varRef (c : FVec F S10000x256 .f32) : FVec F S10000x1 .f32 :=
  rowAvgRef (mulf (devRef c) (devRef c))

/-- Layer normalisation over each row, with scale `g` and shift `be`. -/
def lnRef (c : FVec F S10000x256 .f32) (g be : FVec F S256 .f32) : FVec F S10000x256 .f32 :=
  addf
    (mulf
      (mulf (devRef c)
        (colSpreadRef (Host.rsqrt
          (addf (varRef c) (broadcastInDim S10000x1 ![] bcast_S_S10000x1 (constant S_ .f32 0x3727C5AC#32))))))
      (rowVecRef g))
    (rowVecRef be)

/-- `max x 0`. -/
def reluRef (x : FVec F S10000x256 .f32) : FVec F S10000x256 .f32 :=
  maximumf x (broadcastInDim S10000x256 ![] bcast_S_S10000x256 (constant S_ .f32 0x00000000#32))

/-- The dense layer of the reference program. -/
def denseRef : Dense F := fun t0 t1 t2 w0 w1 w2 b g be =>
  safeOf (addf (safeOf (reluRef (safeOf (lnRef (safeOf (convRef t0 t1 t2 w0 w1 w2 b)) g be)))) t0)

end Cert.Stages

end
-- ==== Proof.RefFrameLib.lean ====
/-
  Which buffers a line of host operations writes, read off a list of references: an operation whose one result buffer
  is among the references of a list writes inside that list's buffers. With the library's fact that a buffer outside
  every operation's writes keeps its contents, this gives each stretch of a long line its frame.
-/
import Idealize.ShloMosaic.Lib.StableHlo.Run

namespace Cert.ReferenceIdeal.RefRun

open Idealize.ShloMosaic

/-- The one buffer of a reference of the list lies among the list's buffers. -/
theorem writes_sub_of_mem {τ : Topo} {sig : RefSig} {y : Ref sig .tc} {l : List (Ref sig .tc)} (h : y ∈ l) :
    ({Proc.devRef (τ := τ) .tc y} : Finset (DevRef τ sig)) ⊆ (l.map (Proc.devRef (τ := τ) .tc)).toFinset :=
  Finset.singleton_subset_iff.mpr (List.mem_toFinset.mpr (List.mem_map.mpr ⟨y, h, rfl⟩))

end Cert.ReferenceIdeal.RefRun
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.RefValueNorm.lean ====
/-
  The normalisation of the edge weights read back: from arbitrary contents, what each stretch of the reference program's line leaves in the
  buffers later stretches read, as the staged functions of what it read; every other buffer keeps its contents.
-/
import proofs.«134588_j19095424598406_1_alg».proof.Proof.RefOps0
import proofs.«134588_j19095424598406_1_alg».proof.Proof.RefDense
import proofs.«134588_j19095424598406_1_alg».proof.Proof.RefFrameLib
import proofs.«134588_j19095424598406_1_alg».proof.Proof.LibAfterAppend

noncomputable section

namespace Cert.ReferenceIdeal.RefRun

open Idealize.ShloMosaic Idealize.ShloMosaic.StableHlo Idealize.SL.Sem Cert.ReferenceIdeal Cert.ReferenceIdeal.Facts₀

variable {F : FTy → Type} [FloatOps F]

/-! ### The edge weights normalised, and the two rows of the edge list -/
theorem norm_ofBuf_main_arg2 {Val : EltTy → Type} (h1 : (main_arg2 : Ref sig .tc).ty = (⟨S320000, .f32⟩ : BufTy)) (h2 : (main_arg2 : Ref sig .tc).space ≠ .host) (h3 : (main_arg2 : Ref sig .tc).isScoped = false) (v : (main_arg2 : Ref sig .tc).ty.Contents Val) :
    (StableHlo.TRef.of (T := ⟨S320000, .f32⟩) main_arg2 h1 h2 h3).ofBuf v = v := rfl
theorem norm_toBuf_main_arg2 {Val : EltTy → Type} (h1 : (main_arg2 : Ref sig .tc).ty = (⟨S320000, .f32⟩ : BufTy)) (h2 : (main_arg2 : Ref sig .tc).space ≠ .host) (h3 : (main_arg2 : Ref sig .tc).isScoped = false) (v : (⟨S320000, .f32⟩ : BufTy).Contents Val) :
    (StableHlo.TRef.of (T := ⟨S320000, .f32⟩) main_arg2 h1 h2 h3).toBuf v = v := rfl
theorem norm_ofBuf_main_call0_v0 {Val : EltTy → Type} (h1 : (main_call0_v0 : Ref sig .tc).ty = (⟨S320000, .i1⟩ : BufTy)) (h2 : (main_call0_v0 : Ref sig .tc).space ≠ .host) (h3 : (main_call0_v0 : Ref sig .tc).isScoped = false) (v : (main_call0_v0 : Ref sig .tc).ty.Contents Val) :
    (StableHlo.TRef.of (T := ⟨S320000, .i1⟩) main_call0_v0 h1 h2 h3).ofBuf v = v := rfl
theorem norm_toBuf_main_call0_v0 {Val : EltTy → Type} (h1 : (main_call0_v0 : Ref sig .tc).ty = (⟨S320000, .i1⟩ : BufTy)) (h2 : (main_call0_v0 : Ref sig .tc).space ≠ .host) (h3 : (main_call0_v0 : Ref sig .tc).isScoped = false) (v : (⟨S320000, .i1⟩ : BufTy).Contents Val) :
    (StableHlo.TRef.of (T := ⟨S320000, .i1⟩) main_call0_v0 h1 h2 h3).toBuf v = v := rfl
theorem norm_ofBuf_main_cst {Val : EltTy → Type} (h1 : (main_cst : Ref sig .tc).ty = (⟨S_, .f32⟩ : BufTy)) (h2 : (main_cst : Ref sig .tc).space ≠ .host) (h3 : (main_cst : Ref sig .tc).isScoped = false) (v : (main_cst : Ref sig .tc).ty.Contents Val) :
    (StableHlo.TRef.of (T := ⟨S_, .f32⟩) main_cst h1 h2 h3).ofBuf v = v := rfl
theorem norm_toBuf_main_cst {Val : EltTy → Type} (h1 : (main_cst : Ref sig .tc).ty = (⟨S_, .f32⟩ : BufTy)) (h2 : (main_cst : Ref sig .tc).space ≠ .host) (h3 : (main_cst : Ref sig .tc).isScoped = false) (v : (⟨S_, .f32⟩ : BufTy).Contents Val) :
    (StableHlo.TRef.of (T := ⟨S_, .f32⟩) main_cst h1 h2 h3).toBuf v = v := rfl
theorem norm_ofBuf_main_call0_v1 {Val : EltTy → Type} (h1 : (main_call0_v1 : Ref sig .tc).ty = (⟨S_, .f32⟩ : BufTy)) (h2 : (main_call0_v1 : Ref sig .tc).space ≠ .host) (h3 : (main_call0_v1 : Ref sig .tc).isScoped = false) (v : (main_call0_v1 : Ref sig .tc).ty.Contents Val) :
    (StableHlo.TRef.of (T := ⟨S_, .f32⟩) main_call0_v1 h1 h2 h3).ofBuf v = v := rfl
theorem norm_toBuf_main_call0_v1 {Val : EltTy → Type} (h1 : (main_call0_v1 : Ref sig .tc).ty = (⟨S_, .f32⟩ : BufTy)) (h2 : (main_call0_v1 : Ref sig .tc).space ≠ .host) (h3 : (main_call0_v1 : Ref sig .tc).isScoped = false) (v : (⟨S_, .f32⟩ : BufTy).Contents Val) :
    (StableHlo.TRef.of (T := ⟨S_, .f32⟩) main_call0_v1 h1 h2 h3).toBuf v = v := rfl
theorem norm_ofBuf_main_call0_call0_v0 {Val : EltTy → Type} (h1 : (main_call0_call0_v0 : Ref sig .tc).ty = (⟨S320000, .f32⟩ : BufTy)) (h2 : (main_call0_call0_v0 : Ref sig .tc).space ≠ .host) (h3 : (main_call0_call0_v0 : Ref sig .tc).isScoped = false) (v : (main_call0_call0_v0 : Ref sig .tc).ty.Contents Val) :
    (StableHlo.TRef.of (T := ⟨S320000, .f32⟩) main_call0_call0_v0 h1 h2 h3).ofBuf v = v := rfl
theorem norm_toBuf_main_call0_call0_v0 {Val : EltTy → Type} (h1 : (main_call0_call0_v0 : Ref sig .tc).ty = (⟨S320000, .f32⟩ : BufTy)) (h2 : (main_call0_call0_v0 : Ref sig .tc).space ≠ .host) (h3 : (main_call0_call0_v0 : Ref sig .tc).isScoped = false) (v : (⟨S320000, .f32⟩ : BufTy).Contents Val) :
    (StableHlo.TRef.of (T := ⟨S320000, .f32⟩) main_call0_call0_v0 h1 h2 h3).toBuf v = v := rfl
theorem norm_ofBuf_main_call0_v2 {Val : EltTy → Type} (h1 : (main_call0_v2 : Ref sig .tc).ty = (⟨S320000, .f32⟩ : BufTy)) (h2 : (main_call0_v2 : Ref sig .tc).space ≠ .host) (h3 : (main_call0_v2 : Ref sig .tc).isScoped = false) (v : (main_call0_v2 : Ref sig .tc).ty.Contents Val) :
    (StableHlo.TRef.of (T := ⟨S320000, .f32⟩) main_call0_v2 h1 h2 h3).ofBuf v = v := rfl
theorem norm_toBuf_main_call0_v2 {Val : EltTy → Type} (h1 : (main_call0_v2 : Ref sig .tc).ty = (⟨S320000, .f32⟩ : BufTy)) (h2 : (main_call0_v2 : Ref sig .tc).space ≠ .host) (h3 : (main_call0_v2 : Ref sig .tc).isScoped = false) (v : (⟨S320000, .f32⟩ : BufTy).Contents Val) :
    (StableHlo.TRef.of (T := ⟨S320000, .f32⟩) main_call0_v2 h1 h2 h3).toBuf v = v := rfl
theorem norm_ofBuf_main_call0_cst {Val : EltTy → Type} (h1 : (main_call0_cst : Ref sig .tc).ty = (⟨S_, .f32⟩ : BufTy)) (h2 : (main_call0_cst : Ref sig .tc).space ≠ .host) (h3 : (main_call0_cst : Ref sig .tc).isScoped = false) (v : (main_call0_cst : Ref sig .tc).ty.Contents Val) :
    (StableHlo.TRef.of (T := ⟨S_, .f32⟩) main_call0_cst h1 h2 h3).ofBuf v = v := rfl
theorem norm_toBuf_main_call0_cst {Val : EltTy → Type} (h1 : (main_call0_cst : Ref sig .tc).ty = (⟨S_, .f32⟩ : BufTy)) (h2 : (main_call0_cst : Ref sig .tc).space ≠ .host) (h3 : (main_call0_cst : Ref sig .tc).isScoped = false) (v : (⟨S_, .f32⟩ : BufTy).Contents Val) :
    (StableHlo.TRef.of (T := ⟨S_, .f32⟩) main_call0_cst h1 h2 h3).toBuf v = v := rfl
theorem norm_ofBuf_main_call0_v3 {Val : EltTy → Type} (h1 : (main_call0_v3 : Ref sig .tc).ty = (⟨S320000, .f32⟩ : BufTy)) (h2 : (main_call0_v3 : Ref sig .tc).space ≠ .host) (h3 : (main_call0_v3 : Ref sig .tc).isScoped = false) (v : (main_call0_v3 : Ref sig .tc).ty.Contents Val) :
    (StableHlo.TRef.of (T := ⟨S320000, .f32⟩) main_call0_v3 h1 h2 h3).ofBuf v = v := rfl
theorem norm_toBuf_main_call0_v3 {Val : EltTy → Type} (h1 : (main_call0_v3 : Ref sig .tc).ty = (⟨S320000, .f32⟩ : BufTy)) (h2 : (main_call0_v3 : Ref sig .tc).space ≠ .host) (h3 : (main_call0_v3 : Ref sig .tc).isScoped = false) (v : (⟨S320000, .f32⟩ : BufTy).Contents Val) :
    (StableHlo.TRef.of (T := ⟨S320000, .f32⟩) main_call0_v3 h1 h2 h3).toBuf v = v := rfl
theorem norm_ofBuf_main_call0_v4 {Val : EltTy → Type} (h1 : (main_call0_v4 : Ref sig .tc).ty = (⟨S320000, .i1⟩ : BufTy)) (h2 : (main_call0_v4 : Ref sig .tc).space ≠ .host) (h3 : (main_call0_v4 : Ref sig .tc).isScoped = false) (v : (main_call0_v4 : Ref sig .tc).ty.Contents Val) :
    (StableHlo.TRef.of (T := ⟨S320000, .i1⟩) main_call0_v4 h1 h2 h3).ofBuf v = v := rfl
theorem norm_toBuf_main_call0_v4 {Val : EltTy → Type} (h1 : (main_call0_v4 : Ref sig .tc).ty = (⟨S320000, .i1⟩ : BufTy)) (h2 : (main_call0_v4 : Ref sig .tc).space ≠ .host) (h3 : (main_call0_v4 : Ref sig .tc).isScoped = false) (v : (⟨S320000, .i1⟩ : BufTy).Contents Val) :
    (StableHlo.TRef.of (T := ⟨S320000, .i1⟩) main_call0_v4 h1 h2 h3).toBuf v = v := rfl
theorem norm_ofBuf_main_cst_1 {Val : EltTy → Type} (h1 : (main_cst_1 : Ref sig .tc).ty = (⟨S_, .f32⟩ : BufTy)) (h2 : (main_cst_1 : Ref sig .tc).space ≠ .host) (h3 : (main_cst_1 : Ref sig .tc).isScoped = false) (v : (main_cst_1 : Ref sig .tc).ty.Contents Val) :
    (StableHlo.TRef.of (T := ⟨S_, .f32⟩) main_cst_1 h1 h2 h3).ofBuf v = v := rfl
theorem norm_toBuf_main_cst_1 {Val : EltTy → Type} (h1 : (main_cst_1 : Ref sig .tc).ty = (⟨S_, .f32⟩ : BufTy)) (h2 : (main_cst_1 : Ref sig .tc).space ≠ .host) (h3 : (main_cst_1 : Ref sig .tc).isScoped = false) (v : (⟨S_, .f32⟩ : BufTy).Contents Val) :
    (StableHlo.TRef.of (T := ⟨S_, .f32⟩) main_cst_1 h1 h2 h3).toBuf v = v := rfl
theorem norm_ofBuf_main_call0_v5 {Val : EltTy → Type} (h1 : (main_call0_v5 : Ref sig .tc).ty = (⟨S_, .f32⟩ : BufTy)) (h2 : (main_call0_v5 : Ref sig .tc).space ≠ .host) (h3 : (main_call0_v5 : Ref sig .tc).isScoped = false) (v : (main_call0_v5 : Ref sig .tc).ty.Contents Val) :
    (StableHlo.TRef.of (T := ⟨S_, .f32⟩) main_call0_v5 h1 h2 h3).ofBuf v = v := rfl
theorem norm_toBuf_main_call0_v5 {Val : EltTy → Type} (h1 : (main_call0_v5 : Ref sig .tc).ty = (⟨S_, .f32⟩ : BufTy)) (h2 : (main_call0_v5 : Ref sig .tc).space ≠ .host) (h3 : (main_call0_v5 : Ref sig .tc).isScoped = false) (v : (⟨S_, .f32⟩ : BufTy).Contents Val) :
    (StableHlo.TRef.of (T := ⟨S_, .f32⟩) main_call0_v5 h1 h2 h3).toBuf v = v := rfl
theorem norm_ofBuf_main_call0_call1_v0 {Val : EltTy → Type} (h1 : (main_call0_call1_v0 : Ref sig .tc).ty = (⟨S320000, .f32⟩ : BufTy)) (h2 : (main_call0_call1_v0 : Ref sig .tc).space ≠ .host) (h3 : (main_call0_call1_v0 : Ref sig .tc).isScoped = false) (v : (main_call0_call1_v0 : Ref sig .tc).ty.Contents Val) :
    (StableHlo.TRef.of (T := ⟨S320000, .f32⟩) main_call0_call1_v0 h1 h2 h3).ofBuf v = v := rfl
theorem norm_toBuf_main_call0_call1_v0 {Val : EltTy → Type} (h1 : (main_call0_call1_v0 : Ref sig .tc).ty = (⟨S320000, .f32⟩ : BufTy)) (h2 : (main_call0_call1_v0 : Ref sig .tc).space ≠ .host) (h3 : (main_call0_call1_v0 : Ref sig .tc).isScoped = false) (v : (⟨S320000, .f32⟩ : BufTy).Contents Val) :
    (StableHlo.TRef.of (T := ⟨S320000, .f32⟩) main_call0_call1_v0 h1 h2 h3).toBuf v = v := rfl
theorem norm_ofBuf_main_call0_v6 {Val : EltTy → Type} (h1 : (main_call0_v6 : Ref sig .tc).ty = (⟨S320000, .f32⟩ : BufTy)) (h2 : (main_call0_v6 : Ref sig .tc).space ≠ .host) (h3 : (main_call0_v6 : Ref sig .tc).isScoped = false) (v : (main_call0_v6 : Ref sig .tc).ty.Contents Val) :
    (StableHlo.TRef.of (T := ⟨S320000, .f32⟩) main_call0_v6 h1 h2 h3).ofBuf v = v := rfl
theorem norm_toBuf_main_call0_v6 {Val : EltTy → Type} (h1 : (main_call0_v6 : Ref sig .tc).ty = (⟨S320000, .f32⟩ : BufTy)) (h2 : (main_call0_v6 : Ref sig .tc).space ≠ .host) (h3 : (main_call0_v6 : Ref sig .tc).isScoped = false) (v : (⟨S320000, .f32⟩ : BufTy).Contents Val) :
    (StableHlo.TRef.of (T := ⟨S320000, .f32⟩) main_call0_v6 h1 h2 h3).toBuf v = v := rfl
theorem norm_ofBuf_main_call0_cst_0 {Val : EltTy → Type} (h1 : (main_call0_cst_0 : Ref sig .tc).ty = (⟨S_, .f32⟩ : BufTy)) (h2 : (main_call0_cst_0 : Ref sig .tc).space ≠ .host) (h3 : (main_call0_cst_0 : Ref sig .tc).isScoped = false) (v : (main_call0_cst_0 : Ref sig .tc).ty.Contents Val) :
    (StableHlo.TRef.of (T := ⟨S_, .f32⟩) main_call0_cst_0 h1 h2 h3).ofBuf v = v := rfl
theorem norm_toBuf_main_call0_cst_0 {Val : EltTy → Type} (h1 : (main_call0_cst_0 : Ref sig .tc).ty = (⟨S_, .f32⟩ : BufTy)) (h2 : (main_call0_cst_0 : Ref sig .tc).space ≠ .host) (h3 : (main_call0_cst_0 : Ref sig .tc).isScoped = false) (v : (⟨S_, .f32⟩ : BufTy).Contents Val) :
    (StableHlo.TRef.of (T := ⟨S_, .f32⟩) main_call0_cst_0 h1 h2 h3).toBuf v = v := rfl
theorem norm_ofBuf_main_call0_v7 {Val : EltTy → Type} (h1 : (main_call0_v7 : Ref sig .tc).ty = (⟨S320000, .f32⟩ : BufTy)) (h2 : (main_call0_v7 : Ref sig .tc).space ≠ .host) (h3 : (main_call0_v7 : Ref sig .tc).isScoped = false) (v : (main_call0_v7 : Ref sig .tc).ty.Contents Val) :
    (StableHlo.TRef.of (T := ⟨S320000, .f32⟩) main_call0_v7 h1 h2 h3).ofBuf v = v := rfl
theorem norm_toBuf_main_call0_v7 {Val : EltTy → Type} (h1 : (main_call0_v7 : Ref sig .tc).ty = (⟨S320000, .f32⟩ : BufTy)) (h2 : (main_call0_v7 : Ref sig .tc).space ≠ .host) (h3 : (main_call0_v7 : Ref sig .tc).isScoped = false) (v : (⟨S320000, .f32⟩ : BufTy).Contents Val) :
    (StableHlo.TRef.of (T := ⟨S320000, .f32⟩) main_call0_v7 h1 h2 h3).toBuf v = v := rfl
theorem norm_ofBuf_main_call0_v8 {Val : EltTy → Type} (h1 : (main_call0_v8 : Ref sig .tc).ty = (⟨S320000, .i1⟩ : BufTy)) (h2 : (main_call0_v8 : Ref sig .tc).space ≠ .host) (h3 : (main_call0_v8 : Ref sig .tc).isScoped = false) (v : (main_call0_v8 : Ref sig .tc).ty.Contents Val) :
    (StableHlo.TRef.of (T := ⟨S320000, .i1⟩) main_call0_v8 h1 h2 h3).ofBuf v = v := rfl
theorem norm_toBuf_main_call0_v8 {Val : EltTy → Type} (h1 : (main_call0_v8 : Ref sig .tc).ty = (⟨S320000, .i1⟩ : BufTy)) (h2 : (main_call0_v8 : Ref sig .tc).space ≠ .host) (h3 : (main_call0_v8 : Ref sig .tc).isScoped = false) (v : (⟨S320000, .i1⟩ : BufTy).Contents Val) :
    (StableHlo.TRef.of (T := ⟨S320000, .i1⟩) main_call0_v8 h1 h2 h3).toBuf v = v := rfl
theorem norm_ofBuf_main_cst_0 {Val : EltTy → Type} (h1 : (main_cst_0 : Ref sig .tc).ty = (⟨S_, .f32⟩ : BufTy)) (h2 : (main_cst_0 : Ref sig .tc).space ≠ .host) (h3 : (main_cst_0 : Ref sig .tc).isScoped = false) (v : (main_cst_0 : Ref sig .tc).ty.Contents Val) :
    (StableHlo.TRef.of (T := ⟨S_, .f32⟩) main_cst_0 h1 h2 h3).ofBuf v = v := rfl
theorem norm_toBuf_main_cst_0 {Val : EltTy → Type} (h1 : (main_cst_0 : Ref sig .tc).ty = (⟨S_, .f32⟩ : BufTy)) (h2 : (main_cst_0 : Ref sig .tc).space ≠ .host) (h3 : (main_cst_0 : Ref sig .tc).isScoped = false) (v : (⟨S_, .f32⟩ : BufTy).Contents Val) :
    (StableHlo.TRef.of (T := ⟨S_, .f32⟩) main_cst_0 h1 h2 h3).toBuf v = v := rfl
theorem norm_ofBuf_main_call0_v9 {Val : EltTy → Type} (h1 : (main_call0_v9 : Ref sig .tc).ty = (⟨S_, .f32⟩ : BufTy)) (h2 : (main_call0_v9 : Ref sig .tc).space ≠ .host) (h3 : (main_call0_v9 : Ref sig .tc).isScoped = false) (v : (main_call0_v9 : Ref sig .tc).ty.Contents Val) :
    (StableHlo.TRef.of (T := ⟨S_, .f32⟩) main_call0_v9 h1 h2 h3).ofBuf v = v := rfl
theorem norm_toBuf_main_call0_v9 {Val : EltTy → Type} (h1 : (main_call0_v9 : Ref sig .tc).ty = (⟨S_, .f32⟩ : BufTy)) (h2 : (main_call0_v9 : Ref sig .tc).space ≠ .host) (h3 : (main_call0_v9 : Ref sig .tc).isScoped = false) (v : (⟨S_, .f32⟩ : BufTy).Contents Val) :
    (StableHlo.TRef.of (T := ⟨S_, .f32⟩) main_call0_v9 h1 h2 h3).toBuf v = v := rfl
theorem norm_ofBuf_main_call0_call2_v0 {Val : EltTy → Type} (h1 : (main_call0_call2_v0 : Ref sig .tc).ty = (⟨S320000, .f32⟩ : BufTy)) (h2 : (main_call0_call2_v0 : Ref sig .tc).space ≠ .host) (h3 : (main_call0_call2_v0 : Ref sig .tc).isScoped = false) (v : (main_call0_call2_v0 : Ref sig .tc).ty.Contents Val) :
    (StableHlo.TRef.of (T := ⟨S320000, .f32⟩) main_call0_call2_v0 h1 h2 h3).ofBuf v = v := rfl
theorem norm_toBuf_main_call0_call2_v0 {Val : EltTy → Type} (h1 : (main_call0_call2_v0 : Ref sig .tc).ty = (⟨S320000, .f32⟩ : BufTy)) (h2 : (main_call0_call2_v0 : Ref sig .tc).space ≠ .host) (h3 : (main_call0_call2_v0 : Ref sig .tc).isScoped = false) (v : (⟨S320000, .f32⟩ : BufTy).Contents Val) :
    (StableHlo.TRef.of (T := ⟨S320000, .f32⟩) main_call0_call2_v0 h1 h2 h3).toBuf v = v := rfl
theorem norm_ofBuf_main_v0 {Val : EltTy → Type} (h1 : (main_v0 : Ref sig .tc).ty = (⟨S320000, .f32⟩ : BufTy)) (h2 : (main_v0 : Ref sig .tc).space ≠ .host) (h3 : (main_v0 : Ref sig .tc).isScoped = false) (v : (main_v0 : Ref sig .tc).ty.Contents Val) :
    (StableHlo.TRef.of (T := ⟨S320000, .f32⟩) main_v0 h1 h2 h3).ofBuf v = v := rfl
theorem norm_toBuf_main_v0 {Val : EltTy → Type} (h1 : (main_v0 : Ref sig .tc).ty = (⟨S320000, .f32⟩ : BufTy)) (h2 : (main_v0 : Ref sig .tc).space ≠ .host) (h3 : (main_v0 : Ref sig .tc).isScoped = false) (v : (⟨S320000, .f32⟩ : BufTy).Contents Val) :
    (StableHlo.TRef.of (T := ⟨S320000, .f32⟩) main_v0 h1 h2 h3).toBuf v = v := rfl
theorem norm_ofBuf_main_cst_6 {Val : EltTy → Type} (h1 : (main_cst_6 : Ref sig .tc).ty = (⟨S_, .f32⟩ : BufTy)) (h2 : (main_cst_6 : Ref sig .tc).space ≠ .host) (h3 : (main_cst_6 : Ref sig .tc).isScoped = false) (v : (main_cst_6 : Ref sig .tc).ty.Contents Val) :
    (StableHlo.TRef.of (T := ⟨S_, .f32⟩) main_cst_6 h1 h2 h3).ofBuf v = v := rfl
theorem norm_toBuf_main_cst_6 {Val : EltTy → Type} (h1 : (main_cst_6 : Ref sig .tc).ty = (⟨S_, .f32⟩ : BufTy)) (h2 : (main_cst_6 : Ref sig .tc).space ≠ .host) (h3 : (main_cst_6 : Ref sig .tc).isScoped = false) (v : (⟨S_, .f32⟩ : BufTy).Contents Val) :
    (StableHlo.TRef.of (T := ⟨S_, .f32⟩) main_cst_6 h1 h2 h3).toBuf v = v := rfl
theorem norm_ofBuf_main_call1_v0 {Val : EltTy → Type} (h1 : (main_call1_v0 : Ref sig .tc).ty = (⟨S_, .f32⟩ : BufTy)) (h2 : (main_call1_v0 : Ref sig .tc).space ≠ .host) (h3 : (main_call1_v0 : Ref sig .tc).isScoped = false) (v : (main_call1_v0 : Ref sig .tc).ty.Contents Val) :
    (StableHlo.TRef.of (T := ⟨S_, .f32⟩) main_call1_v0 h1 h2 h3).ofBuf v = v := rfl
theorem norm_toBuf_main_call1_v0 {Val : EltTy → Type} (h1 : (main_call1_v0 : Ref sig .tc).ty = (⟨S_, .f32⟩ : BufTy)) (h2 : (main_call1_v0 : Ref sig .tc).space ≠ .host) (h3 : (main_call1_v0 : Ref sig .tc).isScoped = false) (v : (⟨S_, .f32⟩ : BufTy).Contents Val) :
    (StableHlo.TRef.of (T := ⟨S_, .f32⟩) main_call1_v0 h1 h2 h3).toBuf v = v := rfl
theorem norm_ofBuf_main_call1_v1 {Val : EltTy → Type} (h1 : (main_call1_v1 : Ref sig .tc).ty = (⟨S10000, .f32⟩ : BufTy)) (h2 : (main_call1_v1 : Ref sig .tc).space ≠ .host) (h3 : (main_call1_v1 : Ref sig .tc).isScoped = false) (v : (main_call1_v1 : Ref sig .tc).ty.Contents Val) :
    (StableHlo.TRef.of (T := ⟨S10000, .f32⟩) main_call1_v1 h1 h2 h3).ofBuf v = v := rfl
theorem norm_toBuf_main_call1_v1 {Val : EltTy → Type} (h1 : (main_call1_v1 : Ref sig .tc).ty = (⟨S10000, .f32⟩ : BufTy)) (h2 : (main_call1_v1 : Ref sig .tc).space ≠ .host) (h3 : (main_call1_v1 : Ref sig .tc).isScoped = false) (v : (⟨S10000, .f32⟩ : BufTy).Contents Val) :
    (StableHlo.TRef.of (T := ⟨S10000, .f32⟩) main_call1_v1 h1 h2 h3).toBuf v = v := rfl
theorem norm_ofBuf_main_v12 {Val : EltTy → Type} (h1 : (main_v12 : Ref sig .tc).ty = (⟨S10000, .i1⟩ : BufTy)) (h2 : (main_v12 : Ref sig .tc).space ≠ .host) (h3 : (main_v12 : Ref sig .tc).isScoped = false) (v : (main_v12 : Ref sig .tc).ty.Contents Val) :
    (StableHlo.TRef.of (T := ⟨S10000, .i1⟩) main_v12 h1 h2 h3).ofBuf v = v := rfl
theorem norm_toBuf_main_v12 {Val : EltTy → Type} (h1 : (main_v12 : Ref sig .tc).ty = (⟨S10000, .i1⟩ : BufTy)) (h2 : (main_v12 : Ref sig .tc).space ≠ .host) (h3 : (main_v12 : Ref sig .tc).isScoped = false) (v : (⟨S10000, .i1⟩ : BufTy).Contents Val) :
    (StableHlo.TRef.of (T := ⟨S10000, .i1⟩) main_v12 h1 h2 h3).toBuf v = v := rfl
theorem norm_ofBuf_main_v14 {Val : EltTy → Type} (h1 : (main_v14 : Ref sig .tc).ty = (⟨S10000, .f32⟩ : BufTy)) (h2 : (main_v14 : Ref sig .tc).space ≠ .host) (h3 : (main_v14 : Ref sig .tc).isScoped = false) (v : (main_v14 : Ref sig .tc).ty.Contents Val) :
    (StableHlo.TRef.of (T := ⟨S10000, .f32⟩) main_v14 h1 h2 h3).ofBuf v = v := rfl
theorem norm_toBuf_main_v14 {Val : EltTy → Type} (h1 : (main_v14 : Ref sig .tc).ty = (⟨S10000, .f32⟩ : BufTy)) (h2 : (main_v14 : Ref sig .tc).space ≠ .host) (h3 : (main_v14 : Ref sig .tc).isScoped = false) (v : (⟨S10000, .f32⟩ : BufTy).Contents Val) :
    (StableHlo.TRef.of (T := ⟨S10000, .f32⟩) main_v14 h1 h2 h3).toBuf v = v := rfl
theorem norm_ofBuf_main_v15 {Val : EltTy → Type} (h1 : (main_v15 : Ref sig .tc).ty = (⟨S10000, .f32⟩ : BufTy)) (h2 : (main_v15 : Ref sig .tc).space ≠ .host) (h3 : (main_v15 : Ref sig .tc).isScoped = false) (v : (main_v15 : Ref sig .tc).ty.Contents Val) :
    (StableHlo.TRef.of (T := ⟨S10000, .f32⟩) main_v15 h1 h2 h3).ofBuf v = v := rfl
theorem norm_toBuf_main_v15 {Val : EltTy → Type} (h1 : (main_v15 : Ref sig .tc).ty = (⟨S10000, .f32⟩ : BufTy)) (h2 : (main_v15 : Ref sig .tc).space ≠ .host) (h3 : (main_v15 : Ref sig .tc).isScoped = false) (v : (⟨S10000, .f32⟩ : BufTy).Contents Val) :
    (StableHlo.TRef.of (T := ⟨S10000, .f32⟩) main_v15 h1 h2 h3).toBuf v = v := rfl

/-- The buffers this stretch writes. -/
abbrev norm_written : List (Ref sig .tc) :=
  [main_cst, main_cst_0, main_cst_1, main_call0_v0, main_call0_v1, main_call0_call0_v0, main_call0_v2, main_call0_cst, main_call0_v3, main_call0_v4, main_call0_v5, main_call0_call1_v0, main_call0_v6, main_call0_cst_0, main_call0_v7, main_call0_v8, main_call0_v9, main_call0_call2_v0, main_v0, main_v1, main_cst_2, main_v2, main_v3, main_v4, main_v5, main_v6, main_v7, main_cst_3, main_v8, main_v9, main_v10, main_cst_4, main_v11, main_v12, main_cst_5, main_v13, main_v14, main_cst_6, main_call1_v0, main_call1_v1, main_v15, main_c, main_v16, main_v17, main_c_7, main_v18, main_v19, main_v20, main_v21, main_v22, main_v23, main_v24, main_c_8, main_v25, main_v26, main_c_9, main_v27, main_v28, main_v29, main_v30, main_v31, main_v32]
theorem scrubW_writes : (scrubW : List (HloOp τ sig (Elt F))).Forall fun op => op.writes ⊆ ((norm_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem degree_writes : (degree : List (HloOp τ sig (Elt F))).Forall fun op => op.writes ⊆ ((norm_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem invSqrtDeg_writes : (invSqrtDeg : List (HloOp τ sig (Elt F))).Forall fun op => op.writes ⊆ ((norm_written).map (Proc.devRef (τ := τ) .tc)).toFinset :=
  ⟨writes_sub_of_mem (by decide), writes_sub_of_mem (by decide), writes_sub_of_mem (by decide)⟩
theorem normW_writes : (normW : List (HloOp τ sig (Elt F))).Forall fun op => op.writes ⊆ ((norm_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def norm_run (W : Valuation τ sig (Elt F)) : Valuation τ sig (Elt F) :=
  StableHlo.after normW (StableHlo.after invSqrtDeg (StableHlo.after degree (StableHlo.after scrubW W)))

/-- A buffer the stretch does not write keeps its contents. -/
theorem norm_frame (W : Valuation τ sig (Elt F)) {r : Ref sig .tc} (hr : r ∉ norm_written) :
    norm_run W (no_index (Proc.devRef .tc r)) = W (Proc.devRef .tc r) := by
  have h := StableHlo.after_of_writes_sub (τ := τ) (scrubW ++ (degree ++ (invSqrtDeg ++ (normW)))) W (forall_append scrubW_writes (forall_append degree_writes (forall_append invSqrtDeg_writes (normW_writes)))) hr
  simp only [StableHlo.after_append] at h
  exact h

theorem norm_v32 (W : Valuation τ sig (Elt F)) :
    norm_run W (Proc.devRef .tc main_v32) = Cert.Stages.normOf (W (Proc.devRef .tc main_arg1)) (W (Proc.devRef .tc main_arg2)) := by
  unfold norm_run
  after_results_simp
  simp only [norm_ofBuf_main_v15, norm_toBuf_main_v15, norm_ofBuf_main_v12, norm_toBuf_main_v12, norm_ofBuf_main_v14, norm_toBuf_main_v14, norm_ofBuf_main_call1_v1, norm_toBuf_main_call1_v1, norm_ofBuf_main_call1_v0, norm_toBuf_main_call1_v0, norm_ofBuf_main_cst_6, norm_toBuf_main_cst_6, norm_ofBuf_main_v0, norm_toBuf_main_v0, norm_ofBuf_main_call0_v8, norm_toBuf_main_call0_v8, norm_ofBuf_main_call0_call2_v0, norm_toBuf_main_call0_call2_v0, norm_ofBuf_main_call0_v6, norm_toBuf_main_call0_v6, norm_ofBuf_main_call0_v4, norm_toBuf_main_call0_v4, norm_ofBuf_main_call0_call1_v0, norm_toBuf_main_call0_call1_v0, norm_ofBuf_main_call0_v2, norm_toBuf_main_call0_v2, norm_ofBuf_main_call0_v0, norm_toBuf_main_call0_v0, norm_ofBuf_main_call0_call0_v0, norm_toBuf_main_call0_call0_v0, norm_ofBuf_main_arg2, norm_toBuf_main_arg2, norm_ofBuf_main_call0_v1, norm_toBuf_main_call0_v1, norm_ofBuf_main_cst, norm_toBuf_main_cst, norm_ofBuf_main_call0_v5, norm_toBuf_main_call0_v5, norm_ofBuf_main_cst_1, norm_toBuf_main_cst_1, norm_ofBuf_main_call0_v3, norm_toBuf_main_call0_v3, norm_ofBuf_main_call0_cst, norm_toBuf_main_call0_cst, norm_ofBuf_main_call0_v9, norm_toBuf_main_call0_v9, norm_ofBuf_main_cst_0, norm_toBuf_main_cst_0, norm_ofBuf_main_call0_v7, norm_toBuf_main_call0_v7, norm_ofBuf_main_call0_cst_0, norm_toBuf_main_call0_cst_0]
  first | done | rfl

theorem norm_v5 (W : Valuation τ sig (Elt F)) :
    norm_run W (Proc.devRef .tc main_v5) = Cert.Stages.rowOf (W (Proc.devRef .tc main_arg1)) := by
  unfold norm_run
  after_results_simp
  first | done | rfl

theorem norm_v7 (W : Valuation τ sig (Elt F)) :
    norm_run W (Proc.devRef .tc main_v7) = Cert.Stages.colOf (W (Proc.devRef .tc main_arg1)) := by
  unfold norm_run
  after_results_simp
  first | done | rfl

end Cert.ReferenceIdeal.RefRun

end
-- ==== Proof.RefValueL1a.lean ====
/-
  The scrubbed features and the first layer's three Chebyshev terms and their products read back: from arbitrary contents, what each stretch of the reference program's line leaves in the
  buffers later stretches read, as the staged functions of what it read; every other buffer keeps its contents.
-/
import proofs.«134588_j19095424598406_1_alg».proof.Proof.RefOps0
import proofs.«134588_j19095424598406_1_alg».proof.Proof.RefOps1
import proofs.«134588_j19095424598406_1_alg».proof.Proof.RefDense
import proofs.«134588_j19095424598406_1_alg».proof.Proof.RefFrameLib
import proofs.«134588_j19095424598406_1_alg».proof.Proof.LibAfterAppend

noncomputable section

namespace Cert.ReferenceIdeal.RefRun

open Idealize.ShloMosaic Idealize.ShloMosaic.StableHlo Idealize.SL.Sem Cert.ReferenceIdeal Cert.ReferenceIdeal.Facts₀

variable {F : FTy → Type} [FloatOps F]

/-! ### The node features scrubbed -/
theorem scrubX_ofBuf_main_arg0 {Val : EltTy → Type} (h1 : (main_arg0 : Ref sig .tc).ty = (⟨S10000x256, .f32⟩ : BufTy)) (h2 : (main_arg0 : Ref sig .tc).space ≠ .host) (h3 : (main_arg0 : Ref sig .tc).isScoped = false) (v : (main_arg0 : Ref sig .tc).ty.Contents Val) :
    (StableHlo.TRef.of (T := ⟨S10000x256, .f32⟩) main_arg0 h1 h2 h3).ofBuf v = v := rfl
theorem scrubX_toBuf_main_arg0 {Val : EltTy → Type} (h1 : (main_arg0 : Ref sig .tc).ty = (⟨S10000x256, .f32⟩ : BufTy)) (h2 : (main_arg0 : Ref sig .tc).space ≠ .host) (h3 : (main_arg0 : Ref sig .tc).isScoped = false) (v : (⟨S10000x256, .f32⟩ : BufTy).Contents Val) :
    (StableHlo.TRef.of (T := ⟨S10000x256, .f32⟩) main_arg0 h1 h2 h3).toBuf v = v := rfl
theorem scrubX_ofBuf_main_call2_v0 {Val : EltTy → Type} (h1 : (main_call2_v0 : Ref sig .tc).ty = (⟨S10000x256, .i1⟩ : BufTy)) (h2 : (main_call2_v0 : Ref sig .tc).space ≠ .host) (h3 : (main_call2_v0 : Ref sig .tc).isScoped = false) (v : (main_call2_v0 : Ref sig .tc).ty.Contents Val) :
    (StableHlo.TRef.of (T := ⟨S10000x256, .i1⟩) main_call2_v0 h1 h2 h3).ofBuf v = v := rfl
theorem scrubX_toBuf_main_call2_v0 {Val : EltTy → Type} (h1 : (main_call2_v0 : Ref sig .tc).ty = (⟨S10000x256, .i1⟩ : BufTy)) (h2 : (main_call2_v0 : Ref sig .tc).space ≠ .host) (h3 : (main_call2_v0 : Ref sig .tc).isScoped = false) (v : (⟨S10000x256, .i1⟩ : BufTy).Contents Val) :
    (StableHlo.TRef.of (T := ⟨S10000x256, .i1⟩) main_call2_v0 h1 h2 h3).toBuf v = v := rfl
theorem scrubX_ofBuf_main_cst_10 {Val : EltTy → Type} (h1 : (main_cst_10 : Ref sig .tc).ty = (⟨S_, .f32⟩ : BufTy)) (h2 : (main_cst_10 : Ref sig .tc).space ≠ .host) (h3 : (main_cst_10 : Ref sig .tc).isScoped = false) (v : (main_cst_10 : Ref sig .tc).ty.Contents Val) :
    (StableHlo.TRef.of (T := ⟨S_, .f32⟩) main_cst_10 h1 h2 h3).ofBuf v = v := rfl
theorem scrubX_toBuf_main_cst_10 {Val : EltTy → Type} (h1 : (main_cst_10 : Ref sig .tc).ty = (⟨S_, .f32⟩ : BufTy)) (h2 : (main_cst_10 : Ref sig .tc).space ≠ .host) (h3 : (main_cst_10 : Ref sig .tc).isScoped = false) (v : (⟨S_, .f32⟩ : BufTy).Contents Val) :
    (StableHlo.TRef.of (T := ⟨S_, .f32⟩) main_cst_10 h1 h2 h3).toBuf v = v := rfl
theorem scrubX_ofBuf_main_call2_v1 {Val : EltTy → Type} (h1 : (main_call2_v1 : Ref sig .tc).ty = (⟨S_, .f32⟩ : BufTy)) (h2 : (main_call2_v1 : Ref sig .tc).space ≠ .host) (h3 : (main_call2_v1 : Ref sig .tc).isScoped = false) (v : (main_call2_v1 : Ref sig .tc).ty.Contents Val) :
    (StableHlo.TRef.of (T := ⟨S_, .f32⟩) main_call2_v1 h1 h2 h3).ofBuf v = v := rfl
theorem scrubX_toBuf_main_call2_v1 {Val : EltTy → Type} (h1 : (main_call2_v1 : Ref sig .tc).ty = (⟨S_, .f32⟩ : BufTy)) (h2 : (main_call2_v1 : Ref sig .tc).space ≠ .host) (h3 : (main_call2_v1 : Ref sig .tc).isScoped = false) (v : (⟨S_, .f32⟩ : BufTy).Contents Val) :
    (StableHlo.TRef.of (T := ⟨S_, .f32⟩) main_call2_v1 h1 h2 h3).toBuf v = v := rfl
theorem scrubX_ofBuf_main_call2_call0_v0 {Val : EltTy → Type} (h1 : (main_call2_call0_v0 : Ref sig .tc).ty = (⟨S10000x256, .f32⟩ : BufTy)) (h2 : (main_call2_call0_v0 : Ref sig .tc).space ≠ .host) (h3 : (main_call2_call0_v0 : Ref sig .tc).isScoped = false) (v : (main_call2_call0_v0 : Ref sig .tc).ty.Contents Val) :
    (StableHlo.TRef.of (T := ⟨S10000x256, .f32⟩) main_call2_call0_v0 h1 h2 h3).ofBuf v = v := rfl
theorem scrubX_toBuf_main_call2_call0_v0 {Val : EltTy → Type} (h1 : (main_call2_call0_v0 : Ref sig .tc).ty = (⟨S10000x256, .f32⟩ : BufTy)) (h2 : (main_call2_call0_v0 : Ref sig .tc).space ≠ .host) (h3 : (main_call2_call0_v0 : Ref sig .tc).isScoped = false) (v : (⟨S10000x256, .f32⟩ : BufTy).Contents Val) :
    (StableHlo.TRef.of (T := ⟨S10000x256, .f32⟩) main_call2_call0_v0 h1 h2 h3).toBuf v = v := rfl
theorem scrubX_ofBuf_main_call2_v2 {Val : EltTy → Type} (h1 : (main_call2_v2 : Ref sig .tc).ty = (⟨S10000x256, .f32⟩ : BufTy)) (h2 : (main_call2_v2 : Ref sig .tc).space ≠ .host) (h3 : (main_call2_v2 : Ref sig .tc).isScoped = false) (v : (main_call2_v2 : Ref sig .tc).ty.Contents Val) :
    (StableHlo.TRef.of (T := ⟨S10000x256, .f32⟩) main_call2_v2 h1 h2 h3).ofBuf v = v := rfl
theorem scrubX_toBuf_main_call2_v2 {Val : EltTy → Type} (h1 : (main_call2_v2 : Ref sig .tc).ty = (⟨S10000x256, .f32⟩ : BufTy)) (h2 : (main_call2_v2 : Ref sig .tc).space ≠ .host) (h3 : (main_call2_v2 : Ref sig .tc).isScoped = false) (v : (⟨S10000x256, .f32⟩ : BufTy).Contents Val) :
    (StableHlo.TRef.of (T := ⟨S10000x256, .f32⟩) main_call2_v2 h1 h2 h3).toBuf v = v := rfl
theorem scrubX_ofBuf_main_call2_cst {Val : EltTy → Type} (h1 : (main_call2_cst : Ref sig .tc).ty = (⟨S_, .f32⟩ : BufTy)) (h2 : (main_call2_cst : Ref sig .tc).space ≠ .host) (h3 : (main_call2_cst : Ref sig .tc).isScoped = false) (v : (main_call2_cst : Ref sig .tc).ty.Contents Val) :
    (StableHlo.TRef.of (T := ⟨S_, .f32⟩) main_call2_cst h1 h2 h3).ofBuf v = v := rfl
theorem scrubX_toBuf_main_call2_cst {Val : EltTy → Type} (h1 : (main_call2_cst : Ref sig .tc).ty = (⟨S_, .f32⟩ : BufTy)) (h2 : (main_call2_cst : Ref sig .tc).space ≠ .host) (h3 : (main_call2_cst : Ref sig .tc).isScoped = false) (v : (⟨S_, .f32⟩ : BufTy).Contents Val) :
    (StableHlo.TRef.of (T := ⟨S_, .f32⟩) main_call2_cst h1 h2 h3).toBuf v = v := rfl
theorem scrubX_ofBuf_main_call2_v3 {Val : EltTy → Type} (h1 : (main_call2_v3 : Ref sig .tc).ty = (⟨S10000x256, .f32⟩ : BufTy)) (h2 : (main_call2_v3 : Ref sig .tc).space ≠ .host) (h3 : (main_call2_v3 : Ref sig .tc).isScoped = false) (v : (main_call2_v3 : Ref sig .tc).ty.Contents Val) :
    (StableHlo.TRef.of (T := ⟨S10000x256, .f32⟩) main_call2_v3 h1 h2 h3).ofBuf v = v := rfl
theorem scrubX_toBuf_main_call2_v3 {Val : EltTy → Type} (h1 : (main_call2_v3 : Ref sig .tc).ty = (⟨S10000x256, .f32⟩ : BufTy)) (h2 : (main_call2_v3 : Ref sig .tc).space ≠ .host) (h3 : (main_call2_v3 : Ref sig .tc).isScoped = false) (v : (⟨S10000x256, .f32⟩ : BufTy).Contents Val) :
    (StableHlo.TRef.of (T := ⟨S10000x256, .f32⟩) main_call2_v3 h1 h2 h3).toBuf v = v := rfl
theorem scrubX_ofBuf_main_call2_v4 {Val : EltTy → Type} (h1 : (main_call2_v4 : Ref sig .tc).ty = (⟨S10000x256, .i1⟩ : BufTy)) (h2 : (main_call2_v4 : Ref sig .tc).space ≠ .host) (h3 : (main_call2_v4 : Ref sig .tc).isScoped = false) (v : (main_call2_v4 : Ref sig .tc).ty.Contents Val) :
    (StableHlo.TRef.of (T := ⟨S10000x256, .i1⟩) main_call2_v4 h1 h2 h3).ofBuf v = v := rfl
theorem scrubX_toBuf_main_call2_v4 {Val : EltTy → Type} (h1 : (main_call2_v4 : Ref sig .tc).ty = (⟨S10000x256, .i1⟩ : BufTy)) (h2 : (main_call2_v4 : Ref sig .tc).space ≠ .host) (h3 : (main_call2_v4 : Ref sig .tc).isScoped = false) (v : (⟨S10000x256, .i1⟩ : BufTy).Contents Val) :
    (StableHlo.TRef.of (T := ⟨S10000x256, .i1⟩) main_call2_v4 h1 h2 h3).toBuf v = v := rfl
theorem scrubX_ofBuf_main_cst_12 {Val : EltTy → Type} (h1 : (main_cst_12 : Ref sig .tc).ty = (⟨S_, .f32⟩ : BufTy)) (h2 : (main_cst_12 : Ref sig .tc).space ≠ .host) (h3 : (main_cst_12 : Ref sig .tc).isScoped = false) (v : (main_cst_12 : Ref sig .tc).ty.Contents Val) :
    (StableHlo.TRef.of (T := ⟨S_, .f32⟩) main_cst_12 h1 h2 h3).ofBuf v = v := rfl
theorem scrubX_toBuf_main_cst_12 {Val : EltTy → Type} (h1 : (main_cst_12 : Ref sig .tc).ty = (⟨S_, .f32⟩ : BufTy)) (h2 : (main_cst_12 : Ref sig .tc).space ≠ .host) (h3 : (main_cst_12 : Ref sig .tc).isScoped = false) (v : (⟨S_, .f32⟩ : BufTy).Contents Val) :
    (StableHlo.TRef.of (T := ⟨S_, .f32⟩) main_cst_12 h1 h2 h3).toBuf v = v := rfl
theorem scrubX_ofBuf_main_call2_v5 {Val : EltTy → Type} (h1 : (main_call2_v5 : Ref sig .tc).ty = (⟨S_, .f32⟩ : BufTy)) (h2 : (main_call2_v5 : Ref sig .tc).space ≠ .host) (h3 : (main_call2_v5 : Ref sig .tc).isScoped = false) (v : (main_call2_v5 : Ref sig .tc).ty.Contents Val) :
    (StableHlo.TRef.of (T := ⟨S_, .f32⟩) main_call2_v5 h1 h2 h3).ofBuf v = v := rfl
theorem scrubX_toBuf_main_call2_v5 {Val : EltTy → Type} (h1 : (main_call2_v5 : Ref sig .tc).ty = (⟨S_, .f32⟩ : BufTy)) (h2 : (main_call2_v5 : Ref sig .tc).space ≠ .host) (h3 : (main_call2_v5 : Ref sig .tc).isScoped = false) (v : (⟨S_, .f32⟩ : BufTy).Contents Val) :
    (StableHlo.TRef.of (T := ⟨S_, .f32⟩) main_call2_v5 h1 h2 h3).toBuf v = v := rfl
theorem scrubX_ofBuf_main_call2_call1_v0 {Val : EltTy → Type} (h1 : (main_call2_call1_v0 : Ref sig .tc).ty = (⟨S10000x256, .f32⟩ : BufTy)) (h2 : (main_call2_call1_v0 : Ref sig .tc).space ≠ .host) (h3 : (main_call2_call1_v0 : Ref sig .tc).isScoped = false) (v : (main_call2_call1_v0 : Ref sig .tc).ty.Contents Val) :
    (StableHlo.TRef.of (T := ⟨S10000x256, .f32⟩) main_call2_call1_v0 h1 h2 h3).ofBuf v = v := rfl
theorem scrubX_toBuf_main_call2_call1_v0 {Val : EltTy → Type} (h1 : (main_call2_call1_v0 : Ref sig .tc).ty = (⟨S10000x256, .f32⟩ : BufTy)) (h2 : (main_call2_call1_v0 : Ref sig .tc).space ≠ .host) (h3 : (main_call2_call1_v0 : Ref sig .tc).isScoped = false) (v : (⟨S10000x256, .f32⟩ : BufTy).Contents Val) :
    (StableHlo.TRef.of (T := ⟨S10000x256, .f32⟩) main_call2_call1_v0 h1 h2 h3).toBuf v = v := rfl
theorem scrubX_ofBuf_main_call2_v6 {Val : EltTy → Type} (h1 : (main_call2_v6 : Ref sig .tc).ty = (⟨S10000x256, .f32⟩ : BufTy)) (h2 : (main_call2_v6 : Ref sig .tc).space ≠ .host) (h3 : (main_call2_v6 : Ref sig .tc).isScoped = false) (v : (main_call2_v6 : Ref sig .tc).ty.Contents Val) :
    (StableHlo.TRef.of (T := ⟨S10000x256, .f32⟩) main_call2_v6 h1 h2 h3).ofBuf v = v := rfl
theorem scrubX_toBuf_main_call2_v6 {Val : EltTy → Type} (h1 : (main_call2_v6 : Ref sig .tc).ty = (⟨S10000x256, .f32⟩ : BufTy)) (h2 : (main_call2_v6 : Ref sig .tc).space ≠ .host) (h3 : (main_call2_v6 : Ref sig .tc).isScoped = false) (v : (⟨S10000x256, .f32⟩ : BufTy).Contents Val) :
    (StableHlo.TRef.of (T := ⟨S10000x256, .f32⟩) main_call2_v6 h1 h2 h3).toBuf v = v := rfl
theorem scrubX_ofBuf_main_call2_cst_0 {Val : EltTy → Type} (h1 : (main_call2_cst_0 : Ref sig .tc).ty = (⟨S_, .f32⟩ : BufTy)) (h2 : (main_call2_cst_0 : Ref sig .tc).space ≠ .host) (h3 : (main_call2_cst_0 : Ref sig .tc).isScoped = false) (v : (main_call2_cst_0 : Ref sig .tc).ty.Contents Val) :
    (StableHlo.TRef.of (T := ⟨S_, .f32⟩) main_call2_cst_0 h1 h2 h3).ofBuf v = v := rfl
theorem scrubX_toBuf_main_call2_cst_0 {Val : EltTy → Type} (h1 : (main_call2_cst_0 : Ref sig .tc).ty = (⟨S_, .f32⟩ : BufTy)) (h2 : (main_call2_cst_0 : Ref sig .tc).space ≠ .host) (h3 : (main_call2_cst_0 : Ref sig .tc).isScoped = false) (v : (⟨S_, .f32⟩ : BufTy).Contents Val) :
    (StableHlo.TRef.of (T := ⟨S_, .f32⟩) main_call2_cst_0 h1 h2 h3).toBuf v = v := rfl
theorem scrubX_ofBuf_main_call2_v7 {Val : EltTy → Type} (h1 : (main_call2_v7 : Ref sig .tc).ty = (⟨S10000x256, .f32⟩ : BufTy)) (h2 : (main_call2_v7 : Ref sig .tc).space ≠ .host) (h3 : (main_call2_v7 : Ref sig .tc).isScoped = false) (v : (main_call2_v7 : Ref sig .tc).ty.Contents Val) :
    (StableHlo.TRef.of (T := ⟨S10000x256, .f32⟩) main_call2_v7 h1 h2 h3).ofBuf v = v := rfl
theorem scrubX_toBuf_main_call2_v7 {Val : EltTy → Type} (h1 : (main_call2_v7 : Ref sig .tc).ty = (⟨S10000x256, .f32⟩ : BufTy)) (h2 : (main_call2_v7 : Ref sig .tc).space ≠ .host) (h3 : (main_call2_v7 : Ref sig .tc).isScoped = false) (v : (⟨S10000x256, .f32⟩ : BufTy).Contents Val) :
    (StableHlo.TRef.of (T := ⟨S10000x256, .f32⟩) main_call2_v7 h1 h2 h3).toBuf v = v := rfl
theorem scrubX_ofBuf_main_call2_v8 {Val : EltTy → Type} (h1 : (main_call2_v8 : Ref sig .tc).ty = (⟨S10000x256, .i1⟩ : BufTy)) (h2 : (main_call2_v8 : Ref sig .tc).space ≠ .host) (h3 : (main_call2_v8 : Ref sig .tc).isScoped = false) (v : (main_call2_v8 : Ref sig .tc).ty.Contents Val) :
    (StableHlo.TRef.of (T := ⟨S10000x256, .i1⟩) main_call2_v8 h1 h2 h3).ofBuf v = v := rfl
theorem scrubX_toBuf_main_call2_v8 {Val : EltTy → Type} (h1 : (main_call2_v8 : Ref sig .tc).ty = (⟨S10000x256, .i1⟩ : BufTy)) (h2 : (main_call2_v8 : Ref sig .tc).space ≠ .host) (h3 : (main_call2_v8 : Ref sig .tc).isScoped = false) (v : (⟨S10000x256, .i1⟩ : BufTy).Contents Val) :
    (StableHlo.TRef.of (T := ⟨S10000x256, .i1⟩) main_call2_v8 h1 h2 h3).toBuf v = v := rfl
theorem scrubX_ofBuf_main_cst_11 {Val : EltTy → Type} (h1 : (main_cst_11 : Ref sig .tc).ty = (⟨S_, .f32⟩ : BufTy)) (h2 : (main_cst_11 : Ref sig .tc).space ≠ .host) (h3 : (main_cst_11 : Ref sig .tc).isScoped = false) (v : (main_cst_11 : Ref sig .tc).ty.Contents Val) :
    (StableHlo.TRef.of (T := ⟨S_, .f32⟩) main_cst_11 h1 h2 h3).ofBuf v = v := rfl
theorem scrubX_toBuf_main_cst_11 {Val : EltTy → Type} (h1 : (main_cst_11 : Ref sig .tc).ty = (⟨S_, .f32⟩ : BufTy)) (h2 : (main_cst_11 : Ref sig .tc).space ≠ .host) (h3 : (main_cst_11 : Ref sig .tc).isScoped = false) (v : (⟨S_, .f32⟩ : BufTy).Contents Val) :
    (StableHlo.TRef.of (T := ⟨S_, .f32⟩) main_cst_11 h1 h2 h3).toBuf v = v := rfl
theorem scrubX_ofBuf_main_call2_v9 {Val : EltTy → Type} (h1 : (main_call2_v9 : Ref sig .tc).ty = (⟨S_, .f32⟩ : BufTy)) (h2 : (main_call2_v9 : Ref sig .tc).space ≠ .host) (h3 : (main_call2_v9 : Ref sig .tc).isScoped = false) (v : (main_call2_v9 : Ref sig .tc).ty.Contents Val) :
    (StableHlo.TRef.of (T := ⟨S_, .f32⟩) main_call2_v9 h1 h2 h3).ofBuf v = v := rfl
theorem scrubX_toBuf_main_call2_v9 {Val : EltTy → Type} (h1 : (main_call2_v9 : Ref sig .tc).ty = (⟨S_, .f32⟩ : BufTy)) (h2 : (main_call2_v9 : Ref sig .tc).space ≠ .host) (h3 : (main_call2_v9 : Ref sig .tc).isScoped = false) (v : (⟨S_, .f32⟩ : BufTy).Contents Val) :
    (StableHlo.TRef.of (T := ⟨S_, .f32⟩) main_call2_v9 h1 h2 h3).toBuf v = v := rfl
theorem scrubX_ofBuf_main_call2_call2_v0 {Val : EltTy → Type} (h1 : (main_call2_call2_v0 : Ref sig .tc).ty = (⟨S10000x256, .f32⟩ : BufTy)) (h2 : (main_call2_call2_v0 : Ref sig .tc).space ≠ .host) (h3 : (main_call2_call2_v0 : Ref sig .tc).isScoped = false) (v : (main_call2_call2_v0 : Ref sig .tc).ty.Contents Val) :
    (StableHlo.TRef.of (T := ⟨S10000x256, .f32⟩) main_call2_call2_v0 h1 h2 h3).ofBuf v = v := rfl
theorem scrubX_toBuf_main_call2_call2_v0 {Val : EltTy → Type} (h1 : (main_call2_call2_v0 : Ref sig .tc).ty = (⟨S10000x256, .f32⟩ : BufTy)) (h2 : (main_call2_call2_v0 : Ref sig .tc).space ≠ .host) (h3 : (main_call2_call2_v0 : Ref sig .tc).isScoped = false) (v : (⟨S10000x256, .f32⟩ : BufTy).Contents Val) :
    (StableHlo.TRef.of (T := ⟨S10000x256, .f32⟩) main_call2_call2_v0 h1 h2 h3).toBuf v = v := rfl
theorem scrubX_ofBuf_main_v33 {Val : EltTy → Type} (h1 : (main_v33 : Ref sig .tc).ty = (⟨S10000x256, .f32⟩ : BufTy)) (h2 : (main_v33 : Ref sig .tc).space ≠ .host) (h3 : (main_v33 : Ref sig .tc).isScoped = false) (v : (main_v33 : Ref sig .tc).ty.Contents Val) :
    (StableHlo.TRef.of (T := ⟨S10000x256, .f32⟩) main_v33 h1 h2 h3).ofBuf v = v := rfl
theorem scrubX_toBuf_main_v33 {Val : EltTy → Type} (h1 : (main_v33 : Ref sig .tc).ty = (⟨S10000x256, .f32⟩ : BufTy)) (h2 : (main_v33 : Ref sig .tc).space ≠ .host) (h3 : (main_v33 : Ref sig .tc).isScoped = false) (v : (⟨S10000x256, .f32⟩ : BufTy).Contents Val) :
    (StableHlo.TRef.of (T := ⟨S10000x256, .f32⟩) main_v33 h1 h2 h3).toBuf v = v := rfl

/-- The buffers this stretch writes. -/
abbrev scrubX_written : List (Ref sig .tc) :=
  [main_cst_10, main_cst_11, main_cst_12, main_call2_v0, main_call2_v1, main_call2_call0_v0, main_call2_v2, main_call2_cst, main_call2_v3, main_call2_v4, main_call2_v5, main_call2_call1_v0, main_call2_v6, main_call2_cst_0, main_call2_v7, main_call2_v8, main_call2_v9, main_call2_call2_v0, main_v33]
theorem scrubX_writes : (scrubX : List (HloOp τ sig (Elt F))).Forall fun op => op.writes ⊆ ((scrubX_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def scrubX_run (W : Valuation τ sig (Elt F)) : Valuation τ sig (Elt F) :=
  StableHlo.after scrubX W

/-- A buffer the stretch does not write keeps its contents. -/
theorem scrubX_frame (W : Valuation τ sig (Elt F)) {r : Ref sig .tc} (hr : r ∉ scrubX_written) :
    scrubX_run W (no_index (Proc.devRef .tc r)) = W (Proc.devRef .tc r) := by
  have h := StableHlo.after_of_writes_sub (τ := τ) (scrubX) W (scrubX_writes) hr
  exact h

theorem scrubX_v33 (W : Valuation τ sig (Elt F)) :
    scrubX_run W (Proc.devRef .tc main_v33) = Cert.Stages.safeOf (W (Proc.devRef .tc main_arg0)) := by
  unfold scrubX_run
  after_results_simp
  simp only [scrubX_ofBuf_main_v33, scrubX_toBuf_main_v33, scrubX_ofBuf_main_call2_v8, scrubX_toBuf_main_call2_v8, scrubX_ofBuf_main_call2_call2_v0, scrubX_toBuf_main_call2_call2_v0, scrubX_ofBuf_main_call2_v6, scrubX_toBuf_main_call2_v6, scrubX_ofBuf_main_call2_v4, scrubX_toBuf_main_call2_v4, scrubX_ofBuf_main_call2_call1_v0, scrubX_toBuf_main_call2_call1_v0, scrubX_ofBuf_main_call2_v2, scrubX_toBuf_main_call2_v2, scrubX_ofBuf_main_call2_v0, scrubX_toBuf_main_call2_v0, scrubX_ofBuf_main_call2_call0_v0, scrubX_toBuf_main_call2_call0_v0, scrubX_ofBuf_main_arg0, scrubX_toBuf_main_arg0, scrubX_ofBuf_main_call2_v1, scrubX_toBuf_main_call2_v1, scrubX_ofBuf_main_cst_10, scrubX_toBuf_main_cst_10, scrubX_ofBuf_main_call2_v5, scrubX_toBuf_main_call2_v5, scrubX_ofBuf_main_cst_12, scrubX_toBuf_main_cst_12, scrubX_ofBuf_main_call2_v3, scrubX_toBuf_main_call2_v3, scrubX_ofBuf_main_call2_cst, scrubX_toBuf_main_call2_cst, scrubX_ofBuf_main_call2_v9, scrubX_toBuf_main_call2_v9, scrubX_ofBuf_main_cst_11, scrubX_toBuf_main_cst_11, scrubX_ofBuf_main_call2_v7, scrubX_toBuf_main_call2_v7, scrubX_ofBuf_main_call2_cst_0, scrubX_toBuf_main_call2_cst_0]
  first | done | rfl

/-! ### Layer 1: the first product -/

/-- The buffers this stretch writes. -/
abbrev l1_term0_written : List (Ref sig .tc) :=
  [main_v34, main_v35, main_v36]
theorem l1_term0_writes : (l1_term0 : List (HloOp τ sig (Elt F))).Forall fun op => op.writes ⊆ ((l1_term0_written).map (Proc.devRef (τ := τ) .tc)).toFinset :=
  ⟨writes_sub_of_mem (by decide), writes_sub_of_mem (by decide), writes_sub_of_mem (by decide)⟩

/-- The contents after this stretch, from contents `W`. -/
def l1_term0_run (W : Valuation τ sig (Elt F)) : Valuation τ sig (Elt F) :=
  StableHlo.after l1_term0 W

/-- A buffer the stretch does not write keeps its contents. -/
theorem l1_term0_frame (W : Valuation τ sig (Elt F)) {r : Ref sig .tc} (hr : r ∉ l1_term0_written) :
    l1_term0_run W (no_index (Proc.devRef .tc r)) = W (Proc.devRef .tc r) := by
  have h := StableHlo.after_of_writes_sub (τ := τ) (l1_term0) W (l1_term0_writes) hr
  exact h

theorem l1_term0_v36 (W : Valuation τ sig (Elt F)) :
    l1_term0_run W (Proc.devRef .tc main_v36) = Host.dotGeneral dot_S10000x256_S256x256_S10000x256_1_0_0_1_n_n none (W (Proc.devRef .tc main_v33)) (Cert.Stages.w0Of (W (Proc.devRef .tc main_arg3))) := by
  unfold l1_term0_run
  after_results_simp
  first | done | rfl

/-! ### Layer 1: the first sparse product -/

/-- The buffers this stretch writes. -/
abbrev l1_prop1_written : List (Ref sig .tc) :=
  [main_v37, main_c_13, main_v38, main_v39, main_c_14, main_v40, main_v41, main_v42, main_v43, main_v44, main_v45, main_v46, main_cst_15, main_v47, main_v48, main_v49]
theorem l1_prop1a_writes : (l1_prop1a : List (HloOp τ sig (Elt F))).Forall fun op => op.writes ⊆ ((l1_prop1_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem l1_prop1b_writes : (l1_prop1b : List (HloOp τ sig (Elt F))).Forall fun op => op.writes ⊆ ((l1_prop1_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_prop1_run (W : Valuation τ sig (Elt F)) : Valuation τ sig (Elt F) :=
  StableHlo.after l1_prop1b (StableHlo.after l1_prop1a W)

/-- A buffer the stretch does not write keeps its contents. -/
theorem l1_prop1_frame (W : Valuation τ sig (Elt F)) {r : Ref sig .tc} (hr : r ∉ l1_prop1_written) :
    l1_prop1_run W (no_index (Proc.devRef .tc r)) = W (Proc.devRef .tc r) := by
  have h := StableHlo.after_of_writes_sub (τ := τ) (l1_prop1a ++ (l1_prop1b)) W (forall_append l1_prop1a_writes (l1_prop1b_writes)) hr
  simp only [StableHlo.after_append] at h
  exact h

theorem l1_prop1_v49 (W : Valuation τ sig (Elt F)) :
    l1_prop1_run W (Proc.devRef .tc main_v49) = Cert.Stages.propOf (W (Proc.devRef .tc main_v32)) (W (Proc.devRef .tc main_v5)) (W (Proc.devRef .tc main_v7)) (W (Proc.devRef .tc main_v33)) := by
  unfold l1_prop1_run
  after_results_simp
  first | done | rfl

/-! ### Layer 1: the second product added -/

/-- The buffers this stretch writes. -/
abbrev l1_term1_written : List (Ref sig .tc) :=
  [main_v50, main_v51, main_v52, main_v53]
theorem l1_term1_writes : (l1_term1 : List (HloOp τ sig (Elt F))).Forall fun op => op.writes ⊆ ((l1_term1_written).map (Proc.devRef (τ := τ) .tc)).toFinset :=
  ⟨writes_sub_of_mem (by decide), writes_sub_of_mem (by decide), writes_sub_of_mem (by decide), writes_sub_of_mem (by decide)⟩

/-- The contents after this stretch, from contents `W`. -/
def l1_term1_run (W : Valuation τ sig (Elt F)) : Valuation τ sig (Elt F) :=
  StableHlo.after l1_term1 W

/-- A buffer the stretch does not write keeps its contents. -/
theorem l1_term1_frame (W : Valuation τ sig (Elt F)) {r : Ref sig .tc} (hr : r ∉ l1_term1_written) :
    l1_term1_run W (no_index (Proc.devRef .tc r)) = W (Proc.devRef .tc r) := by
  have h := StableHlo.after_of_writes_sub (τ := τ) (l1_term1) W (l1_term1_writes) hr
  exact h

theorem l1_term1_v53 (W : Valuation τ sig (Elt F)) :
    l1_term1_run W (Proc.devRef .tc main_v53) = addf (W (Proc.devRef .tc main_v36)) (Host.dotGeneral dot_S10000x256_S256x256_S10000x256_1_0_0_1_n_n none (W (Proc.devRef .tc main_v49)) (Cert.Stages.w1Of (W (Proc.devRef .tc main_arg3)))) := by
  unfold l1_term1_run
  after_results_simp
  first | done | rfl

/-! ### Layer 1: the second sparse product -/

/-- The buffers this stretch writes. -/
abbrev l1_prop2_written : List (Ref sig .tc) :=
  [main_v54, main_c_16, main_v55, main_v56, main_c_17, main_v57, main_v58, main_v59, main_v60, main_v61, main_v62, main_v63, main_cst_18, main_v64, main_v65, main_v66]
theorem l1_prop2_writes : (l1_prop2 : List (HloOp τ sig (Elt F))).Forall fun op => op.writes ⊆ ((l1_prop2_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_prop2_run (W : Valuation τ sig (Elt F)) : Valuation τ sig (Elt F) :=
  StableHlo.after l1_prop2 W

/-- A buffer the stretch does not write keeps its contents. -/
theorem l1_prop2_frame (W : Valuation τ sig (Elt F)) {r : Ref sig .tc} (hr : r ∉ l1_prop2_written) :
    l1_prop2_run W (no_index (Proc.devRef .tc r)) = W (Proc.devRef .tc r) := by
  have h := StableHlo.after_of_writes_sub (τ := τ) (l1_prop2) W (l1_prop2_writes) hr
  exact h

theorem l1_prop2_v66 (W : Valuation τ sig (Elt F)) :
    l1_prop2_run W (Proc.devRef .tc main_v66) = Cert.Stages.propOf (W (Proc.devRef .tc main_v32)) (W (Proc.devRef .tc main_v5)) (W (Proc.devRef .tc main_v7)) (W (Proc.devRef .tc main_v49)) := by
  unfold l1_prop2_run
  after_results_simp
  first | done | rfl

/-! ### Layer 1: the recurrence -/

/-- The buffers this stretch writes. -/
abbrev l1_cheb_written : List (Ref sig .tc) :=
  [main_cst_19, main_v67, main_v68, main_v69]
theorem l1_cheb_writes : (l1_cheb : List (HloOp τ sig (Elt F))).Forall fun op => op.writes ⊆ ((l1_cheb_written).map (Proc.devRef (τ := τ) .tc)).toFinset :=
  ⟨writes_sub_of_mem (by decide), writes_sub_of_mem (by decide), writes_sub_of_mem (by decide), writes_sub_of_mem (by decide)⟩

/-- The contents after this stretch, from contents `W`. -/
def l1_cheb_run (W : Valuation τ sig (Elt F)) : Valuation τ sig (Elt F) :=
  StableHlo.after l1_cheb W

/-- A buffer the stretch does not write keeps its contents. -/
theorem l1_cheb_frame (W : Valuation τ sig (Elt F)) {r : Ref sig .tc} (hr : r ∉ l1_cheb_written) :
    l1_cheb_run W (no_index (Proc.devRef .tc r)) = W (Proc.devRef .tc r) := by
  have h := StableHlo.after_of_writes_sub (τ := τ) (l1_cheb) W (l1_cheb_writes) hr
  exact h

theorem l1_cheb_v69 (W : Valuation τ sig (Elt F)) :
    l1_cheb_run W (Proc.devRef .tc main_v69) = Cert.Stages.tx2Of (W (Proc.devRef .tc main_v66)) (W (Proc.devRef .tc main_v33)) := by
  unfold l1_cheb_run
  after_results_simp
  first | done | rfl

/-! ### Layer 1: the third product added -/

/-- The buffers this stretch writes. -/
abbrev l1_term2_written : List (Ref sig .tc) :=
  [main_v70, main_v71, main_v72, main_v73]
theorem l1_term2_writes : (l1_term2 : List (HloOp τ sig (Elt F))).Forall fun op => op.writes ⊆ ((l1_term2_written).map (Proc.devRef (τ := τ) .tc)).toFinset :=
  ⟨writes_sub_of_mem (by decide), writes_sub_of_mem (by decide), writes_sub_of_mem (by decide), writes_sub_of_mem (by decide)⟩

/-- The contents after this stretch, from contents `W`. -/
def l1_term2_run (W : Valuation τ sig (Elt F)) : Valuation τ sig (Elt F) :=
  StableHlo.after l1_term2 W

/-- A buffer the stretch does not write keeps its contents. -/
theorem l1_term2_frame (W : Valuation τ sig (Elt F)) {r : Ref sig .tc} (hr : r ∉ l1_term2_written) :
    l1_term2_run W (no_index (Proc.devRef .tc r)) = W (Proc.devRef .tc r) := by
  have h := StableHlo.after_of_writes_sub (τ := τ) (l1_term2) W (l1_term2_writes) hr
  exact h

theorem l1_term2_v73 (W : Valuation τ sig (Elt F)) :
    l1_term2_run W (Proc.devRef .tc main_v73) = addf (W (Proc.devRef .tc main_v53)) (Host.dotGeneral dot_S10000x256_S256x256_S10000x256_1_0_0_1_n_n none (W (Proc.devRef .tc main_v69)) (Cert.Stages.w2Of (W (Proc.devRef .tc main_arg3)))) := by
  unfold l1_term2_run
  after_results_simp
  first | done | rfl

/-! ### Layer 1: the bias added -/

/-- The buffers this stretch writes. -/
abbrev l1_bias_written : List (Ref sig .tc) :=
  [main_v74, main_v75, main_v76]
theorem l1_bias_writes : (l1_bias : List (HloOp τ sig (Elt F))).Forall fun op => op.writes ⊆ ((l1_bias_written).map (Proc.devRef (τ := τ) .tc)).toFinset :=
  ⟨writes_sub_of_mem (by decide), writes_sub_of_mem (by decide), writes_sub_of_mem (by decide)⟩

/-- The contents after this stretch, from contents `W`. -/
def l1_bias_run (W : Valuation τ sig (Elt F)) : Valuation τ sig (Elt F) :=
  StableHlo.after l1_bias W

/-- A buffer the stretch does not write keeps its contents. -/
theorem l1_bias_frame (W : Valuation τ sig (Elt F)) {r : Ref sig .tc} (hr : r ∉ l1_bias_written) :
    l1_bias_run W (no_index (Proc.devRef .tc r)) = W (Proc.devRef .tc r) := by
  have h := StableHlo.after_of_writes_sub (τ := τ) (l1_bias) W (l1_bias_writes) hr
  exact h

theorem l1_bias_v76 (W : Valuation τ sig (Elt F)) :
    l1_bias_run W (Proc.devRef .tc main_v76) = addf (W (Proc.devRef .tc main_v73)) (Cert.Stages.rowVecRef (W (Proc.devRef .tc main_arg4))) := by
  unfold l1_bias_run
  after_results_simp
  first | done | rfl

end Cert.ReferenceIdeal.RefRun

end
-- ==== Proof.RefValueL1b.lean ====
/-
  The first layer's normalisation, rectification and residual read back: from arbitrary contents, what each stretch of the reference program's line leaves in the
  buffers later stretches read, as the staged functions of what it read; every other buffer keeps its contents.
-/
import proofs.«134588_j19095424598406_1_alg».proof.Proof.RefOps1
import proofs.«134588_j19095424598406_1_alg».proof.Proof.RefOps2
import proofs.«134588_j19095424598406_1_alg».proof.Proof.RefDense
import proofs.«134588_j19095424598406_1_alg».proof.Proof.RefFrameLib
import proofs.«134588_j19095424598406_1_alg».proof.Proof.LibAfterAppend

noncomputable section

namespace Cert.ReferenceIdeal.RefRun

open Idealize.ShloMosaic Idealize.ShloMosaic.StableHlo Idealize.SL.Sem Cert.ReferenceIdeal Cert.ReferenceIdeal.Facts₀

variable {F : FTy → Type} [FloatOps F]

/-! ### Layer 1: the sum scrubbed -/
theorem l1_scrubA_ofBuf_main_v76 {Val : EltTy → Type} (h1 : (main_v76 : Ref sig .tc).ty = (⟨S10000x256, .f32⟩ : BufTy)) (h2 : (main_v76 : Ref sig .tc).space ≠ .host) (h3 : (main_v76 : Ref sig .tc).isScoped = false) (v : (main_v76 : Ref sig .tc).ty.Contents Val) :
    (StableHlo.TRef.of (T := ⟨S10000x256, .f32⟩) main_v76 h1 h2 h3).ofBuf v = v := rfl
theorem l1_scrubA_toBuf_main_v76 {Val : EltTy → Type} (h1 : (main_v76 : Ref sig .tc).ty = (⟨S10000x256, .f32⟩ : BufTy)) (h2 : (main_v76 : Ref sig .tc).space ≠ .host) (h3 : (main_v76 : Ref sig .tc).isScoped = false) (v : (⟨S10000x256, .f32⟩ : BufTy).Contents Val) :
    (StableHlo.TRef.of (T := ⟨S10000x256, .f32⟩) main_v76 h1 h2 h3).toBuf v = v := rfl
theorem l1_scrubA_ofBuf_main_call3_v0 {Val : EltTy → Type} (h1 : (main_call3_v0 : Ref sig .tc).ty = (⟨S10000x256, .i1⟩ : BufTy)) (h2 : (main_call3_v0 : Ref sig .tc).space ≠ .host) (h3 : (main_call3_v0 : Ref sig .tc).isScoped = false) (v : (main_call3_v0 : Ref sig .tc).ty.Contents Val) :
    (StableHlo.TRef.of (T := ⟨S10000x256, .i1⟩) main_call3_v0 h1 h2 h3).ofBuf v = v := rfl
theorem l1_scrubA_toBuf_main_call3_v0 {Val : EltTy → Type} (h1 : (main_call3_v0 : Ref sig .tc).ty = (⟨S10000x256, .i1⟩ : BufTy)) (h2 : (main_call3_v0 : Ref sig .tc).space ≠ .host) (h3 : (main_call3_v0 : Ref sig .tc).isScoped = false) (v : (⟨S10000x256, .i1⟩ : BufTy).Contents Val) :
    (StableHlo.TRef.of (T := ⟨S10000x256, .i1⟩) main_call3_v0 h1 h2 h3).toBuf v = v := rfl
theorem l1_scrubA_ofBuf_main_cst_20 {Val : EltTy → Type} (h1 : (main_cst_20 : Ref sig .tc).ty = (⟨S_, .f32⟩ : BufTy)) (h2 : (main_cst_20 : Ref sig .tc).space ≠ .host) (h3 : (main_cst_20 : Ref sig .tc).isScoped = false) (v : (main_cst_20 : Ref sig .tc).ty.Contents Val) :
    (StableHlo.TRef.of (T := ⟨S_, .f32⟩) main_cst_20 h1 h2 h3).ofBuf v = v := rfl
theorem l1_scrubA_toBuf_main_cst_20 {Val : EltTy → Type} (h1 : (main_cst_20 : Ref sig .tc).ty = (⟨S_, .f32⟩ : BufTy)) (h2 : (main_cst_20 : Ref sig .tc).space ≠ .host) (h3 : (main_cst_20 : Ref sig .tc).isScoped = false) (v : (⟨S_, .f32⟩ : BufTy).Contents Val) :
    (StableHlo.TRef.of (T := ⟨S_, .f32⟩) main_cst_20 h1 h2 h3).toBuf v = v := rfl
theorem l1_scrubA_ofBuf_main_call3_v1 {Val : EltTy → Type} (h1 : (main_call3_v1 : Ref sig .tc).ty = (⟨S_, .f32⟩ : BufTy)) (h2 : (main_call3_v1 : Ref sig .tc).space ≠ .host) (h3 : (main_call3_v1 : Ref sig .tc).isScoped = false) (v : (main_call3_v1 : Ref sig .tc).ty.Contents Val) :
    (StableHlo.TRef.of (T := ⟨S_, .f32⟩) main_call3_v1 h1 h2 h3).ofBuf v = v := rfl
theorem l1_scrubA_toBuf_main_call3_v1 {Val : EltTy → Type} (h1 : (main_call3_v1 : Ref sig .tc).ty = (⟨S_, .f32⟩ : BufTy)) (h2 : (main_call3_v1 : Ref sig .tc).space ≠ .host) (h3 : (main_call3_v1 : Ref sig .tc).isScoped = false) (v : (⟨S_, .f32⟩ : BufTy).Contents Val) :
    (StableHlo.TRef.of (T := ⟨S_, .f32⟩) main_call3_v1 h1 h2 h3).toBuf v = v := rfl
theorem l1_scrubA_ofBuf_main_call3_call0_v0 {Val : EltTy → Type} (h1 : (main_call3_call0_v0 : Ref sig .tc).ty = (⟨S10000x256, .f32⟩ : BufTy)) (h2 : (main_call3_call0_v0 : Ref sig .tc).space ≠ .host) (h3 : (main_call3_call0_v0 : Ref sig .tc).isScoped = false) (v : (main_call3_call0_v0 : Ref sig .tc).ty.Contents Val) :
    (StableHlo.TRef.of (T := ⟨S10000x256, .f32⟩) main_call3_call0_v0 h1 h2 h3).ofBuf v = v := rfl
theorem l1_scrubA_toBuf_main_call3_call0_v0 {Val : EltTy → Type} (h1 : (main_call3_call0_v0 : Ref sig .tc).ty = (⟨S10000x256, .f32⟩ : BufTy)) (h2 : (main_call3_call0_v0 : Ref sig .tc).space ≠ .host) (h3 : (main_call3_call0_v0 : Ref sig .tc).isScoped = false) (v : (⟨S10000x256, .f32⟩ : BufTy).Contents Val) :
    (StableHlo.TRef.of (T := ⟨S10000x256, .f32⟩) main_call3_call0_v0 h1 h2 h3).toBuf v = v := rfl
theorem l1_scrubA_ofBuf_main_call3_v2 {Val : EltTy → Type} (h1 : (main_call3_v2 : Ref sig .tc).ty = (⟨S10000x256, .f32⟩ : BufTy)) (h2 : (main_call3_v2 : Ref sig .tc).space ≠ .host) (h3 : (main_call3_v2 : Ref sig .tc).isScoped = false) (v : (main_call3_v2 : Ref sig .tc).ty.Contents Val) :
    (StableHlo.TRef.of (T := ⟨S10000x256, .f32⟩) main_call3_v2 h1 h2 h3).ofBuf v = v := rfl
theorem l1_scrubA_toBuf_main_call3_v2 {Val : EltTy → Type} (h1 : (main_call3_v2 : Ref sig .tc).ty = (⟨S10000x256, .f32⟩ : BufTy)) (h2 : (main_call3_v2 : Ref sig .tc).space ≠ .host) (h3 : (main_call3_v2 : Ref sig .tc).isScoped = false) (v : (⟨S10000x256, .f32⟩ : BufTy).Contents Val) :
    (StableHlo.TRef.of (T := ⟨S10000x256, .f32⟩) main_call3_v2 h1 h2 h3).toBuf v = v := rfl
theorem l1_scrubA_ofBuf_main_call3_cst {Val : EltTy → Type} (h1 : (main_call3_cst : Ref sig .tc).ty = (⟨S_, .f32⟩ : BufTy)) (h2 : (main_call3_cst : Ref sig .tc).space ≠ .host) (h3 : (main_call3_cst : Ref sig .tc).isScoped = false) (v : (main_call3_cst : Ref sig .tc).ty.Contents Val) :
    (StableHlo.TRef.of (T := ⟨S_, .f32⟩) main_call3_cst h1 h2 h3).ofBuf v = v := rfl
theorem l1_scrubA_toBuf_main_call3_cst {Val : EltTy → Type} (h1 : (main_call3_cst : Ref sig .tc).ty = (⟨S_, .f32⟩ : BufTy)) (h2 : (main_call3_cst : Ref sig .tc).space ≠ .host) (h3 : (main_call3_cst : Ref sig .tc).isScoped = false) (v : (⟨S_, .f32⟩ : BufTy).Contents Val) :
    (StableHlo.TRef.of (T := ⟨S_, .f32⟩) main_call3_cst h1 h2 h3).toBuf v = v := rfl
theorem l1_scrubA_ofBuf_main_call3_v3 {Val : EltTy → Type} (h1 : (main_call3_v3 : Ref sig .tc).ty = (⟨S10000x256, .f32⟩ : BufTy)) (h2 : (main_call3_v3 : Ref sig .tc).space ≠ .host) (h3 : (main_call3_v3 : Ref sig .tc).isScoped = false) (v : (main_call3_v3 : Ref sig .tc).ty.Contents Val) :
    (StableHlo.TRef.of (T := ⟨S10000x256, .f32⟩) main_call3_v3 h1 h2 h3).ofBuf v = v := rfl
theorem l1_scrubA_toBuf_main_call3_v3 {Val : EltTy → Type} (h1 : (main_call3_v3 : Ref sig .tc).ty = (⟨S10000x256, .f32⟩ : BufTy)) (h2 : (main_call3_v3 : Ref sig .tc).space ≠ .host) (h3 : (main_call3_v3 : Ref sig .tc).isScoped = false) (v : (⟨S10000x256, .f32⟩ : BufTy).Contents Val) :
    (StableHlo.TRef.of (T := ⟨S10000x256, .f32⟩) main_call3_v3 h1 h2 h3).toBuf v = v := rfl
theorem l1_scrubA_ofBuf_main_call3_v4 {Val : EltTy → Type} (h1 : (main_call3_v4 : Ref sig .tc).ty = (⟨S10000x256, .i1⟩ : BufTy)) (h2 : (main_call3_v4 : Ref sig .tc).space ≠ .host) (h3 : (main_call3_v4 : Ref sig .tc).isScoped = false) (v : (main_call3_v4 : Ref sig .tc).ty.Contents Val) :
    (StableHlo.TRef.of (T := ⟨S10000x256, .i1⟩) main_call3_v4 h1 h2 h3).ofBuf v = v := rfl
theorem l1_scrubA_toBuf_main_call3_v4 {Val : EltTy → Type} (h1 : (main_call3_v4 : Ref sig .tc).ty = (⟨S10000x256, .i1⟩ : BufTy)) (h2 : (main_call3_v4 : Ref sig .tc).space ≠ .host) (h3 : (main_call3_v4 : Ref sig .tc).isScoped = false) (v : (⟨S10000x256, .i1⟩ : BufTy).Contents Val) :
    (StableHlo.TRef.of (T := ⟨S10000x256, .i1⟩) main_call3_v4 h1 h2 h3).toBuf v = v := rfl
theorem l1_scrubA_ofBuf_main_cst_22 {Val : EltTy → Type} (h1 : (main_cst_22 : Ref sig .tc).ty = (⟨S_, .f32⟩ : BufTy)) (h2 : (main_cst_22 : Ref sig .tc).space ≠ .host) (h3 : (main_cst_22 : Ref sig .tc).isScoped = false) (v : (main_cst_22 : Ref sig .tc).ty.Contents Val) :
    (StableHlo.TRef.of (T := ⟨S_, .f32⟩) main_cst_22 h1 h2 h3).ofBuf v = v := rfl
theorem l1_scrubA_toBuf_main_cst_22 {Val : EltTy → Type} (h1 : (main_cst_22 : Ref sig .tc).ty = (⟨S_, .f32⟩ : BufTy)) (h2 : (main_cst_22 : Ref sig .tc).space ≠ .host) (h3 : (main_cst_22 : Ref sig .tc).isScoped = false) (v : (⟨S_, .f32⟩ : BufTy).Contents Val) :
    (StableHlo.TRef.of (T := ⟨S_, .f32⟩) main_cst_22 h1 h2 h3).toBuf v = v := rfl
theorem l1_scrubA_ofBuf_main_call3_v5 {Val : EltTy → Type} (h1 : (main_call3_v5 : Ref sig .tc).ty = (⟨S_, .f32⟩ : BufTy)) (h2 : (main_call3_v5 : Ref sig .tc).space ≠ .host) (h3 : (main_call3_v5 : Ref sig .tc).isScoped = false) (v : (main_call3_v5 : Ref sig .tc).ty.Contents Val) :
    (StableHlo.TRef.of (T := ⟨S_, .f32⟩) main_call3_v5 h1 h2 h3).ofBuf v = v := rfl
theorem l1_scrubA_toBuf_main_call3_v5 {Val : EltTy → Type} (h1 : (main_call3_v5 : Ref sig .tc).ty = (⟨S_, .f32⟩ : BufTy)) (h2 : (main_call3_v5 : Ref sig .tc).space ≠ .host) (h3 : (main_call3_v5 : Ref sig .tc).isScoped = false) (v : (⟨S_, .f32⟩ : BufTy).Contents Val) :
    (StableHlo.TRef.of (T := ⟨S_, .f32⟩) main_call3_v5 h1 h2 h3).toBuf v = v := rfl
theorem l1_scrubA_ofBuf_main_call3_call1_v0 {Val : EltTy → Type} (h1 : (main_call3_call1_v0 : Ref sig .tc).ty = (⟨S10000x256, .f32⟩ : BufTy)) (h2 : (main_call3_call1_v0 : Ref sig .tc).space ≠ .host) (h3 : (main_call3_call1_v0 : Ref sig .tc).isScoped = false) (v : (main_call3_call1_v0 : Ref sig .tc).ty.Contents Val) :
    (StableHlo.TRef.of (T := ⟨S10000x256, .f32⟩) main_call3_call1_v0 h1 h2 h3).ofBuf v = v := rfl
theorem l1_scrubA_toBuf_main_call3_call1_v0 {Val : EltTy → Type} (h1 : (main_call3_call1_v0 : Ref sig .tc).ty = (⟨S10000x256, .f32⟩ : BufTy)) (h2 : (main_call3_call1_v0 : Ref sig .tc).space ≠ .host) (h3 : (main_call3_call1_v0 : Ref sig .tc).isScoped = false) (v : (⟨S10000x256, .f32⟩ : BufTy).Contents Val) :
    (StableHlo.TRef.of (T := ⟨S10000x256, .f32⟩) main_call3_call1_v0 h1 h2 h3).toBuf v = v := rfl
theorem l1_scrubA_ofBuf_main_call3_v6 {Val : EltTy → Type} (h1 : (main_call3_v6 : Ref sig .tc).ty = (⟨S10000x256, .f32⟩ : BufTy)) (h2 : (main_call3_v6 : Ref sig .tc).space ≠ .host) (h3 : (main_call3_v6 : Ref sig .tc).isScoped = false) (v : (main_call3_v6 : Ref sig .tc).ty.Contents Val) :
    (StableHlo.TRef.of (T := ⟨S10000x256, .f32⟩) main_call3_v6 h1 h2 h3).ofBuf v = v := rfl
theorem l1_scrubA_toBuf_main_call3_v6 {Val : EltTy → Type} (h1 : (main_call3_v6 : Ref sig .tc).ty = (⟨S10000x256, .f32⟩ : BufTy)) (h2 : (main_call3_v6 : Ref sig .tc).space ≠ .host) (h3 : (main_call3_v6 : Ref sig .tc).isScoped = false) (v : (⟨S10000x256, .f32⟩ : BufTy).Contents Val) :
    (StableHlo.TRef.of (T := ⟨S10000x256, .f32⟩) main_call3_v6 h1 h2 h3).toBuf v = v := rfl
theorem l1_scrubA_ofBuf_main_call3_cst_0 {Val : EltTy → Type} (h1 : (main_call3_cst_0 : Ref sig .tc).ty = (⟨S_, .f32⟩ : BufTy)) (h2 : (main_call3_cst_0 : Ref sig .tc).space ≠ .host) (h3 : (main_call3_cst_0 : Ref sig .tc).isScoped = false) (v : (main_call3_cst_0 : Ref sig .tc).ty.Contents Val) :
    (StableHlo.TRef.of (T := ⟨S_, .f32⟩) main_call3_cst_0 h1 h2 h3).ofBuf v = v := rfl
theorem l1_scrubA_toBuf_main_call3_cst_0 {Val : EltTy → Type} (h1 : (main_call3_cst_0 : Ref sig .tc).ty = (⟨S_, .f32⟩ : BufTy)) (h2 : (main_call3_cst_0 : Ref sig .tc).space ≠ .host) (h3 : (main_call3_cst_0 : Ref sig .tc).isScoped = false) (v : (⟨S_, .f32⟩ : BufTy).Contents Val) :
    (StableHlo.TRef.of (T := ⟨S_, .f32⟩) main_call3_cst_0 h1 h2 h3).toBuf v = v := rfl
theorem l1_scrubA_ofBuf_main_call3_v7 {Val : EltTy → Type} (h1 : (main_call3_v7 : Ref sig .tc).ty = (⟨S10000x256, .f32⟩ : BufTy)) (h2 : (main_call3_v7 : Ref sig .tc).space ≠ .host) (h3 : (main_call3_v7 : Ref sig .tc).isScoped = false) (v : (main_call3_v7 : Ref sig .tc).ty.Contents Val) :
    (StableHlo.TRef.of (T := ⟨S10000x256, .f32⟩) main_call3_v7 h1 h2 h3).ofBuf v = v := rfl
theorem l1_scrubA_toBuf_main_call3_v7 {Val : EltTy → Type} (h1 : (main_call3_v7 : Ref sig .tc).ty = (⟨S10000x256, .f32⟩ : BufTy)) (h2 : (main_call3_v7 : Ref sig .tc).space ≠ .host) (h3 : (main_call3_v7 : Ref sig .tc).isScoped = false) (v : (⟨S10000x256, .f32⟩ : BufTy).Contents Val) :
    (StableHlo.TRef.of (T := ⟨S10000x256, .f32⟩) main_call3_v7 h1 h2 h3).toBuf v = v := rfl
theorem l1_scrubA_ofBuf_main_call3_v8 {Val : EltTy → Type} (h1 : (main_call3_v8 : Ref sig .tc).ty = (⟨S10000x256, .i1⟩ : BufTy)) (h2 : (main_call3_v8 : Ref sig .tc).space ≠ .host) (h3 : (main_call3_v8 : Ref sig .tc).isScoped = false) (v : (main_call3_v8 : Ref sig .tc).ty.Contents Val) :
    (StableHlo.TRef.of (T := ⟨S10000x256, .i1⟩) main_call3_v8 h1 h2 h3).ofBuf v = v := rfl
theorem l1_scrubA_toBuf_main_call3_v8 {Val : EltTy → Type} (h1 : (main_call3_v8 : Ref sig .tc).ty = (⟨S10000x256, .i1⟩ : BufTy)) (h2 : (main_call3_v8 : Ref sig .tc).space ≠ .host) (h3 : (main_call3_v8 : Ref sig .tc).isScoped = false) (v : (⟨S10000x256, .i1⟩ : BufTy).Contents Val) :
    (StableHlo.TRef.of (T := ⟨S10000x256, .i1⟩) main_call3_v8 h1 h2 h3).toBuf v = v := rfl
theorem l1_scrubA_ofBuf_main_cst_21 {Val : EltTy → Type} (h1 : (main_cst_21 : Ref sig .tc).ty = (⟨S_, .f32⟩ : BufTy)) (h2 : (main_cst_21 : Ref sig .tc).space ≠ .host) (h3 : (main_cst_21 : Ref sig .tc).isScoped = false) (v : (main_cst_21 : Ref sig .tc).ty.Contents Val) :
    (StableHlo.TRef.of (T := ⟨S_, .f32⟩) main_cst_21 h1 h2 h3).ofBuf v = v := rfl
theorem l1_scrubA_toBuf_main_cst_21 {Val : EltTy → Type} (h1 : (main_cst_21 : Ref sig .tc).ty = (⟨S_, .f32⟩ : BufTy)) (h2 : (main_cst_21 : Ref sig .tc).space ≠ .host) (h3 : (main_cst_21 : Ref sig .tc).isScoped = false) (v : (⟨S_, .f32⟩ : BufTy).Contents Val) :
    (StableHlo.TRef.of (T := ⟨S_, .f32⟩) main_cst_21 h1 h2 h3).toBuf v = v := rfl
theorem l1_scrubA_ofBuf_main_call3_v9 {Val : EltTy → Type} (h1 : (main_call3_v9 : Ref sig .tc).ty = (⟨S_, .f32⟩ : BufTy)) (h2 : (main_call3_v9 : Ref sig .tc).space ≠ .host) (h3 : (main_call3_v9 : Ref sig .tc).isScoped = false) (v : (main_call3_v9 : Ref sig .tc).ty.Contents Val) :
    (StableHlo.TRef.of (T := ⟨S_, .f32⟩) main_call3_v9 h1 h2 h3).ofBuf v = v := rfl
theorem l1_scrubA_toBuf_main_call3_v9 {Val : EltTy → Type} (h1 : (main_call3_v9 : Ref sig .tc).ty = (⟨S_, .f32⟩ : BufTy)) (h2 : (main_call3_v9 : Ref sig .tc).space ≠ .host) (h3 : (main_call3_v9 : Ref sig .tc).isScoped = false) (v : (⟨S_, .f32⟩ : BufTy).Contents Val) :
    (StableHlo.TRef.of (T := ⟨S_, .f32⟩) main_call3_v9 h1 h2 h3).toBuf v = v := rfl
theorem l1_scrubA_ofBuf_main_call3_call2_v0 {Val : EltTy → Type} (h1 : (main_call3_call2_v0 : Ref sig .tc).ty = (⟨S10000x256, .f32⟩ : BufTy)) (h2 : (main_call3_call2_v0 : Ref sig .tc).space ≠ .host) (h3 : (main_call3_call2_v0 : Ref sig .tc).isScoped = false) (v : (main_call3_call2_v0 : Ref sig .tc).ty.Contents Val) :
    (StableHlo.TRef.of (T := ⟨S10000x256, .f32⟩) main_call3_call2_v0 h1 h2 h3).ofBuf v = v := rfl
theorem l1_scrubA_toBuf_main_call3_call2_v0 {Val : EltTy → Type} (h1 : (main_call3_call2_v0 : Ref sig .tc).ty = (⟨S10000x256, .f32⟩ : BufTy)) (h2 : (main_call3_call2_v0 : Ref sig .tc).space ≠ .host) (h3 : (main_call3_call2_v0 : Ref sig .tc).isScoped = false) (v : (⟨S10000x256, .f32⟩ : BufTy).Contents Val) :
    (StableHlo.TRef.of (T := ⟨S10000x256, .f32⟩) main_call3_call2_v0 h1 h2 h3).toBuf v = v := rfl
theorem l1_scrubA_ofBuf_main_v77 {Val : EltTy → Type} (h1 : (main_v77 : Ref sig .tc).ty = (⟨S10000x256, .f32⟩ : BufTy)) (h2 : (main_v77 : Ref sig .tc).space ≠ .host) (h3 : (main_v77 : Ref sig .tc).isScoped = false) (v : (main_v77 : Ref sig .tc).ty.Contents Val) :
    (StableHlo.TRef.of (T := ⟨S10000x256, .f32⟩) main_v77 h1 h2 h3).ofBuf v = v := rfl
theorem l1_scrubA_toBuf_main_v77 {Val : EltTy → Type} (h1 : (main_v77 : Ref sig .tc).ty = (⟨S10000x256, .f32⟩ : BufTy)) (h2 : (main_v77 : Ref sig .tc).space ≠ .host) (h3 : (main_v77 : Ref sig .tc).isScoped = false) (v : (⟨S10000x256, .f32⟩ : BufTy).Contents Val) :
    (StableHlo.TRef.of (T := ⟨S10000x256, .f32⟩) main_v77 h1 h2 h3).toBuf v = v := rfl

/-- The buffers this stretch writes. -/
abbrev l1_scrubA_written : List (Ref sig .tc) :=
  [main_cst_20, main_cst_21, main_cst_22, main_call3_v0, main_call3_v1, main_call3_call0_v0, main_call3_v2, main_call3_cst, main_call3_v3, main_call3_v4, main_call3_v5, main_call3_call1_v0, main_call3_v6, main_call3_cst_0, main_call3_v7, main_call3_v8, main_call3_v9, main_call3_call2_v0, main_v77]
theorem l1_scrubA_writes : (l1_scrubA : List (HloOp τ sig (Elt F))).Forall fun op => op.writes ⊆ ((l1_scrubA_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_scrubA_run (W : Valuation τ sig (Elt F)) : Valuation τ sig (Elt F) :=
  StableHlo.after l1_scrubA W

/-- A buffer the stretch does not write keeps its contents. -/
theorem l1_scrubA_frame (W : Valuation τ sig (Elt F)) {r : Ref sig .tc} (hr : r ∉ l1_scrubA_written) :
    l1_scrubA_run W (no_index (Proc.devRef .tc r)) = W (Proc.devRef .tc r) := by
  have h := StableHlo.after_of_writes_sub (τ := τ) (l1_scrubA) W (l1_scrubA_writes) hr
  exact h

theorem l1_scrubA_v77 (W : Valuation τ sig (Elt F)) :
    l1_scrubA_run W (Proc.devRef .tc main_v77) = Cert.Stages.safeOf (W (Proc.devRef .tc main_v76)) := by
  unfold l1_scrubA_run
  after_results_simp
  simp only [l1_scrubA_ofBuf_main_v77, l1_scrubA_toBuf_main_v77, l1_scrubA_ofBuf_main_call3_v8, l1_scrubA_toBuf_main_call3_v8, l1_scrubA_ofBuf_main_call3_call2_v0, l1_scrubA_toBuf_main_call3_call2_v0, l1_scrubA_ofBuf_main_call3_v6, l1_scrubA_toBuf_main_call3_v6, l1_scrubA_ofBuf_main_call3_v4, l1_scrubA_toBuf_main_call3_v4, l1_scrubA_ofBuf_main_call3_call1_v0, l1_scrubA_toBuf_main_call3_call1_v0, l1_scrubA_ofBuf_main_call3_v2, l1_scrubA_toBuf_main_call3_v2, l1_scrubA_ofBuf_main_call3_v0, l1_scrubA_toBuf_main_call3_v0, l1_scrubA_ofBuf_main_call3_call0_v0, l1_scrubA_toBuf_main_call3_call0_v0, l1_scrubA_ofBuf_main_v76, l1_scrubA_toBuf_main_v76, l1_scrubA_ofBuf_main_call3_v1, l1_scrubA_toBuf_main_call3_v1, l1_scrubA_ofBuf_main_cst_20, l1_scrubA_toBuf_main_cst_20, l1_scrubA_ofBuf_main_call3_v5, l1_scrubA_toBuf_main_call3_v5, l1_scrubA_ofBuf_main_cst_22, l1_scrubA_toBuf_main_cst_22, l1_scrubA_ofBuf_main_call3_v3, l1_scrubA_toBuf_main_call3_v3, l1_scrubA_ofBuf_main_call3_cst, l1_scrubA_toBuf_main_call3_cst, l1_scrubA_ofBuf_main_call3_v9, l1_scrubA_toBuf_main_call3_v9, l1_scrubA_ofBuf_main_cst_21, l1_scrubA_toBuf_main_cst_21, l1_scrubA_ofBuf_main_call3_v7, l1_scrubA_toBuf_main_call3_v7, l1_scrubA_ofBuf_main_call3_cst_0, l1_scrubA_toBuf_main_call3_cst_0]
  first | done | rfl

/-! ### Layer 1: normalisation over each row -/

/-- The buffers this stretch writes. -/
abbrev l1_norm_written : List (Ref sig .tc) :=
  [main_cst_23, main_v78, main_v79, main_cst_24, main_v80, main_v81, main_v82, main_v83, main_v84, main_cst_25, main_v85, main_v86, main_cst_26, main_v87, main_v88, main_v89, main_v90, main_cst_27, main_v91, main_v92, main_v93, main_v94, main_v95, main_v96, main_v97, main_v98, main_v99, main_v100, main_v101]
theorem l1_normA_writes : (l1_normA : List (HloOp τ sig (Elt F))).Forall fun op => op.writes ⊆ ((l1_norm_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem l1_normB_writes : (l1_normB : List (HloOp τ sig (Elt F))).Forall fun op => op.writes ⊆ ((l1_norm_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_norm_run (W : Valuation τ sig (Elt F)) : Valuation τ sig (Elt F) :=
  StableHlo.after l1_normB (StableHlo.after l1_normA W)

/-- A buffer the stretch does not write keeps its contents. -/
theorem l1_norm_frame (W : Valuation τ sig (Elt F)) {r : Ref sig .tc} (hr : r ∉ l1_norm_written) :
    l1_norm_run W (no_index (Proc.devRef .tc r)) = W (Proc.devRef .tc r) := by
  have h := StableHlo.after_of_writes_sub (τ := τ) (l1_normA ++ (l1_normB)) W (forall_append l1_normA_writes (l1_normB_writes)) hr
  simp only [StableHlo.after_append] at h
  exact h

theorem l1_norm_v101 (W : Valuation τ sig (Elt F)) :
    l1_norm_run W (Proc.devRef .tc main_v101) = Cert.Stages.lnRef (W (Proc.devRef .tc main_v77)) (W (Proc.devRef .tc main_arg5)) (W (Proc.devRef .tc main_arg6)) := by
  unfold l1_norm_run
  after_results_simp
  first | done | rfl

/-! ### Layer 1: the normalised rows scrubbed -/
theorem l1_scrubB_ofBuf_main_v101 {Val : EltTy → Type} (h1 : (main_v101 : Ref sig .tc).ty = (⟨S10000x256, .f32⟩ : BufTy)) (h2 : (main_v101 : Ref sig .tc).space ≠ .host) (h3 : (main_v101 : Ref sig .tc).isScoped = false) (v : (main_v101 : Ref sig .tc).ty.Contents Val) :
    (StableHlo.TRef.of (T := ⟨S10000x256, .f32⟩) main_v101 h1 h2 h3).ofBuf v = v := rfl
theorem l1_scrubB_toBuf_main_v101 {Val : EltTy → Type} (h1 : (main_v101 : Ref sig .tc).ty = (⟨S10000x256, .f32⟩ : BufTy)) (h2 : (main_v101 : Ref sig .tc).space ≠ .host) (h3 : (main_v101 : Ref sig .tc).isScoped = false) (v : (⟨S10000x256, .f32⟩ : BufTy).Contents Val) :
    (StableHlo.TRef.of (T := ⟨S10000x256, .f32⟩) main_v101 h1 h2 h3).toBuf v = v := rfl
theorem l1_scrubB_ofBuf_main_call4_v0 {Val : EltTy → Type} (h1 : (main_call4_v0 : Ref sig .tc).ty = (⟨S10000x256, .i1⟩ : BufTy)) (h2 : (main_call4_v0 : Ref sig .tc).space ≠ .host) (h3 : (main_call4_v0 : Ref sig .tc).isScoped = false) (v : (main_call4_v0 : Ref sig .tc).ty.Contents Val) :
    (StableHlo.TRef.of (T := ⟨S10000x256, .i1⟩) main_call4_v0 h1 h2 h3).ofBuf v = v := rfl
theorem l1_scrubB_toBuf_main_call4_v0 {Val : EltTy → Type} (h1 : (main_call4_v0 : Ref sig .tc).ty = (⟨S10000x256, .i1⟩ : BufTy)) (h2 : (main_call4_v0 : Ref sig .tc).space ≠ .host) (h3 : (main_call4_v0 : Ref sig .tc).isScoped = false) (v : (⟨S10000x256, .i1⟩ : BufTy).Contents Val) :
    (StableHlo.TRef.of (T := ⟨S10000x256, .i1⟩) main_call4_v0 h1 h2 h3).toBuf v = v := rfl
theorem l1_scrubB_ofBuf_main_cst_28 {Val : EltTy → Type} (h1 : (main_cst_28 : Ref sig .tc).ty = (⟨S_, .f32⟩ : BufTy)) (h2 : (main_cst_28 : Ref sig .tc).space ≠ .host) (h3 : (main_cst_28 : Ref sig .tc).isScoped = false) (v : (main_cst_28 : Ref sig .tc).ty.Contents Val) :
    (StableHlo.TRef.of (T := ⟨S_, .f32⟩) main_cst_28 h1 h2 h3).ofBuf v = v := rfl
theorem l1_scrubB_toBuf_main_cst_28 {Val : EltTy → Type} (h1 : (main_cst_28 : Ref sig .tc).ty = (⟨S_, .f32⟩ : BufTy)) (h2 : (main_cst_28 : Ref sig .tc).space ≠ .host) (h3 : (main_cst_28 : Ref sig .tc).isScoped = false) (v : (⟨S_, .f32⟩ : BufTy).Contents Val) :
    (StableHlo.TRef.of (T := ⟨S_, .f32⟩) main_cst_28 h1 h2 h3).toBuf v = v := rfl
theorem l1_scrubB_ofBuf_main_call4_v1 {Val : EltTy → Type} (h1 : (main_call4_v1 : Ref sig .tc).ty = (⟨S_, .f32⟩ : BufTy)) (h2 : (main_call4_v1 : Ref sig .tc).space ≠ .host) (h3 : (main_call4_v1 : Ref sig .tc).isScoped = false) (v : (main_call4_v1 : Ref sig .tc).ty.Contents Val) :
    (StableHlo.TRef.of (T := ⟨S_, .f32⟩) main_call4_v1 h1 h2 h3).ofBuf v = v := rfl
theorem l1_scrubB_toBuf_main_call4_v1 {Val : EltTy → Type} (h1 : (main_call4_v1 : Ref sig .tc).ty = (⟨S_, .f32⟩ : BufTy)) (h2 : (main_call4_v1 : Ref sig .tc).space ≠ .host) (h3 : (main_call4_v1 : Ref sig .tc).isScoped = false) (v : (⟨S_, .f32⟩ : BufTy).Contents Val) :
    (StableHlo.TRef.of (T := ⟨S_, .f32⟩) main_call4_v1 h1 h2 h3).toBuf v = v := rfl
theorem l1_scrubB_ofBuf_main_call4_call0_v0 {Val : EltTy → Type} (h1 : (main_call4_call0_v0 : Ref sig .tc).ty = (⟨S10000x256, .f32⟩ : BufTy)) (h2 : (main_call4_call0_v0 : Ref sig .tc).space ≠ .host) (h3 : (main_call4_call0_v0 : Ref sig .tc).isScoped = false) (v : (main_call4_call0_v0 : Ref sig .tc).ty.Contents Val) :
    (StableHlo.TRef.of (T := ⟨S10000x256, .f32⟩) main_call4_call0_v0 h1 h2 h3).ofBuf v = v := rfl
theorem l1_scrubB_toBuf_main_call4_call0_v0 {Val : EltTy → Type} (h1 : (main_call4_call0_v0 : Ref sig .tc).ty = (⟨S10000x256, .f32⟩ : BufTy)) (h2 : (main_call4_call0_v0 : Ref sig .tc).space ≠ .host) (h3 : (main_call4_call0_v0 : Ref sig .tc).isScoped = false) (v : (⟨S10000x256, .f32⟩ : BufTy).Contents Val) :
    (StableHlo.TRef.of (T := ⟨S10000x256, .f32⟩) main_call4_call0_v0 h1 h2 h3).toBuf v = v := rfl
theorem l1_scrubB_ofBuf_main_call4_v2 {Val : EltTy → Type} (h1 : (main_call4_v2 : Ref sig .tc).ty = (⟨S10000x256, .f32⟩ : BufTy)) (h2 : (main_call4_v2 : Ref sig .tc).space ≠ .host) (h3 : (main_call4_v2 : Ref sig .tc).isScoped = false) (v : (main_call4_v2 : Ref sig .tc).ty.Contents Val) :
    (StableHlo.TRef.of (T := ⟨S10000x256, .f32⟩) main_call4_v2 h1 h2 h3).ofBuf v = v := rfl
theorem l1_scrubB_toBuf_main_call4_v2 {Val : EltTy → Type} (h1 : (main_call4_v2 : Ref sig .tc).ty = (⟨S10000x256, .f32⟩ : BufTy)) (h2 : (main_call4_v2 : Ref sig .tc).space ≠ .host) (h3 : (main_call4_v2 : Ref sig .tc).isScoped = false) (v : (⟨S10000x256, .f32⟩ : BufTy).Contents Val) :
    (StableHlo.TRef.of (T := ⟨S10000x256, .f32⟩) main_call4_v2 h1 h2 h3).toBuf v = v := rfl
theorem l1_scrubB_ofBuf_main_call4_cst {Val : EltTy → Type} (h1 : (main_call4_cst : Ref sig .tc).ty = (⟨S_, .f32⟩ : BufTy)) (h2 : (main_call4_cst : Ref sig .tc).space ≠ .host) (h3 : (main_call4_cst : Ref sig .tc).isScoped = false) (v : (main_call4_cst : Ref sig .tc).ty.Contents Val) :
    (StableHlo.TRef.of (T := ⟨S_, .f32⟩) main_call4_cst h1 h2 h3).ofBuf v = v := rfl
theorem l1_scrubB_toBuf_main_call4_cst {Val : EltTy → Type} (h1 : (main_call4_cst : Ref sig .tc).ty = (⟨S_, .f32⟩ : BufTy)) (h2 : (main_call4_cst : Ref sig .tc).space ≠ .host) (h3 : (main_call4_cst : Ref sig .tc).isScoped = false) (v : (⟨S_, .f32⟩ : BufTy).Contents Val) :
    (StableHlo.TRef.of (T := ⟨S_, .f32⟩) main_call4_cst h1 h2 h3).toBuf v = v := rfl
theorem l1_scrubB_ofBuf_main_call4_v3 {Val : EltTy → Type} (h1 : (main_call4_v3 : Ref sig .tc).ty = (⟨S10000x256, .f32⟩ : BufTy)) (h2 : (main_call4_v3 : Ref sig .tc).space ≠ .host) (h3 : (main_call4_v3 : Ref sig .tc).isScoped = false) (v : (main_call4_v3 : Ref sig .tc).ty.Contents Val) :
    (StableHlo.TRef.of (T := ⟨S10000x256, .f32⟩) main_call4_v3 h1 h2 h3).ofBuf v = v := rfl
theorem l1_scrubB_toBuf_main_call4_v3 {Val : EltTy → Type} (h1 : (main_call4_v3 : Ref sig .tc).ty = (⟨S10000x256, .f32⟩ : BufTy)) (h2 : (main_call4_v3 : Ref sig .tc).space ≠ .host) (h3 : (main_call4_v3 : Ref sig .tc).isScoped = false) (v : (⟨S10000x256, .f32⟩ : BufTy).Contents Val) :
    (StableHlo.TRef.of (T := ⟨S10000x256, .f32⟩) main_call4_v3 h1 h2 h3).toBuf v = v := rfl
theorem l1_scrubB_ofBuf_main_call4_v4 {Val : EltTy → Type} (h1 : (main_call4_v4 : Ref sig .tc).ty = (⟨S10000x256, .i1⟩ : BufTy)) (h2 : (main_call4_v4 : Ref sig .tc).space ≠ .host) (h3 : (main_call4_v4 : Ref sig .tc).isScoped = false) (v : (main_call4_v4 : Ref sig .tc).ty.Contents Val) :
    (StableHlo.TRef.of (T := ⟨S10000x256, .i1⟩) main_call4_v4 h1 h2 h3).ofBuf v = v := rfl
theorem l1_scrubB_toBuf_main_call4_v4 {Val : EltTy → Type} (h1 : (main_call4_v4 : Ref sig .tc).ty = (⟨S10000x256, .i1⟩ : BufTy)) (h2 : (main_call4_v4 : Ref sig .tc).space ≠ .host) (h3 : (main_call4_v4 : Ref sig .tc).isScoped = false) (v : (⟨S10000x256, .i1⟩ : BufTy).Contents Val) :
    (StableHlo.TRef.of (T := ⟨S10000x256, .i1⟩) main_call4_v4 h1 h2 h3).toBuf v = v := rfl
theorem l1_scrubB_ofBuf_main_cst_30 {Val : EltTy → Type} (h1 : (main_cst_30 : Ref sig .tc).ty = (⟨S_, .f32⟩ : BufTy)) (h2 : (main_cst_30 : Ref sig .tc).space ≠ .host) (h3 : (main_cst_30 : Ref sig .tc).isScoped = false) (v : (main_cst_30 : Ref sig .tc).ty.Contents Val) :
    (StableHlo.TRef.of (T := ⟨S_, .f32⟩) main_cst_30 h1 h2 h3).ofBuf v = v := rfl
theorem l1_scrubB_toBuf_main_cst_30 {Val : EltTy → Type} (h1 : (main_cst_30 : Ref sig .tc).ty = (⟨S_, .f32⟩ : BufTy)) (h2 : (main_cst_30 : Ref sig .tc).space ≠ .host) (h3 : (main_cst_30 : Ref sig .tc).isScoped = false) (v : (⟨S_, .f32⟩ : BufTy).Contents Val) :
    (StableHlo.TRef.of (T := ⟨S_, .f32⟩) main_cst_30 h1 h2 h3).toBuf v = v := rfl
theorem l1_scrubB_ofBuf_main_call4_v5 {Val : EltTy → Type} (h1 : (main_call4_v5 : Ref sig .tc).ty = (⟨S_, .f32⟩ : BufTy)) (h2 : (main_call4_v5 : Ref sig .tc).space ≠ .host) (h3 : (main_call4_v5 : Ref sig .tc).isScoped = false) (v : (main_call4_v5 : Ref sig .tc).ty.Contents Val) :
    (StableHlo.TRef.of (T := ⟨S_, .f32⟩) main_call4_v5 h1 h2 h3).ofBuf v = v := rfl
theorem l1_scrubB_toBuf_main_call4_v5 {Val : EltTy → Type} (h1 : (main_call4_v5 : Ref sig .tc).ty = (⟨S_, .f32⟩ : BufTy)) (h2 : (main_call4_v5 : Ref sig .tc).space ≠ .host) (h3 : (main_call4_v5 : Ref sig .tc).isScoped = false) (v : (⟨S_, .f32⟩ : BufTy).Contents Val) :
    (StableHlo.TRef.of (T := ⟨S_, .f32⟩) main_call4_v5 h1 h2 h3).toBuf v = v := rfl
theorem l1_scrubB_ofBuf_main_call4_call1_v0 {Val : EltTy → Type} (h1 : (main_call4_call1_v0 : Ref sig .tc).ty = (⟨S10000x256, .f32⟩ : BufTy)) (h2 : (main_call4_call1_v0 : Ref sig .tc).space ≠ .host) (h3 : (main_call4_call1_v0 : Ref sig .tc).isScoped = false) (v : (main_call4_call1_v0 : Ref sig .tc).ty.Contents Val) :
    (StableHlo.TRef.of (T := ⟨S10000x256, .f32⟩) main_call4_call1_v0 h1 h2 h3).ofBuf v = v := rfl
theorem l1_scrubB_toBuf_main_call4_call1_v0 {Val : EltTy → Type} (h1 : (main_call4_call1_v0 : Ref sig .tc).ty = (⟨S10000x256, .f32⟩ : BufTy)) (h2 : (main_call4_call1_v0 : Ref sig .tc).space ≠ .host) (h3 : (main_call4_call1_v0 : Ref sig .tc).isScoped = false) (v : (⟨S10000x256, .f32⟩ : BufTy).Contents Val) :
    (StableHlo.TRef.of (T := ⟨S10000x256, .f32⟩) main_call4_call1_v0 h1 h2 h3).toBuf v = v := rfl
theorem l1_scrubB_ofBuf_main_call4_v6 {Val : EltTy → Type} (h1 : (main_call4_v6 : Ref sig .tc).ty = (⟨S10000x256, .f32⟩ : BufTy)) (h2 : (main_call4_v6 : Ref sig .tc).space ≠ .host) (h3 : (main_call4_v6 : Ref sig .tc).isScoped = false) (v : (main_call4_v6 : Ref sig .tc).ty.Contents Val) :
    (StableHlo.TRef.of (T := ⟨S10000x256, .f32⟩) main_call4_v6 h1 h2 h3).ofBuf v = v := rfl
theorem l1_scrubB_toBuf_main_call4_v6 {Val : EltTy → Type} (h1 : (main_call4_v6 : Ref sig .tc).ty = (⟨S10000x256, .f32⟩ : BufTy)) (h2 : (main_call4_v6 : Ref sig .tc).space ≠ .host) (h3 : (main_call4_v6 : Ref sig .tc).isScoped = false) (v : (⟨S10000x256, .f32⟩ : BufTy).Contents Val) :
    (StableHlo.TRef.of (T := ⟨S10000x256, .f32⟩) main_call4_v6 h1 h2 h3).toBuf v = v := rfl
theorem l1_scrubB_ofBuf_main_call4_cst_0 {Val : EltTy → Type} (h1 : (main_call4_cst_0 : Ref sig .tc).ty = (⟨S_, .f32⟩ : BufTy)) (h2 : (main_call4_cst_0 : Ref sig .tc).space ≠ .host) (h3 : (main_call4_cst_0 : Ref sig .tc).isScoped = false) (v : (main_call4_cst_0 : Ref sig .tc).ty.Contents Val) :
    (StableHlo.TRef.of (T := ⟨S_, .f32⟩) main_call4_cst_0 h1 h2 h3).ofBuf v = v := rfl
theorem l1_scrubB_toBuf_main_call4_cst_0 {Val : EltTy → Type} (h1 : (main_call4_cst_0 : Ref sig .tc).ty = (⟨S_, .f32⟩ : BufTy)) (h2 : (main_call4_cst_0 : Ref sig .tc).space ≠ .host) (h3 : (main_call4_cst_0 : Ref sig .tc).isScoped = false) (v : (⟨S_, .f32⟩ : BufTy).Contents Val) :
    (StableHlo.TRef.of (T := ⟨S_, .f32⟩) main_call4_cst_0 h1 h2 h3).toBuf v = v := rfl
theorem l1_scrubB_ofBuf_main_call4_v7 {Val : EltTy → Type} (h1 : (main_call4_v7 : Ref sig .tc).ty = (⟨S10000x256, .f32⟩ : BufTy)) (h2 : (main_call4_v7 : Ref sig .tc).space ≠ .host) (h3 : (main_call4_v7 : Ref sig .tc).isScoped = false) (v : (main_call4_v7 : Ref sig .tc).ty.Contents Val) :
    (StableHlo.TRef.of (T := ⟨S10000x256, .f32⟩) main_call4_v7 h1 h2 h3).ofBuf v = v := rfl
theorem l1_scrubB_toBuf_main_call4_v7 {Val : EltTy → Type} (h1 : (main_call4_v7 : Ref sig .tc).ty = (⟨S10000x256, .f32⟩ : BufTy)) (h2 : (main_call4_v7 : Ref sig .tc).space ≠ .host) (h3 : (main_call4_v7 : Ref sig .tc).isScoped = false) (v : (⟨S10000x256, .f32⟩ : BufTy).Contents Val) :
    (StableHlo.TRef.of (T := ⟨S10000x256, .f32⟩) main_call4_v7 h1 h2 h3).toBuf v = v := rfl
theorem l1_scrubB_ofBuf_main_call4_v8 {Val : EltTy → Type} (h1 : (main_call4_v8 : Ref sig .tc).ty = (⟨S10000x256, .i1⟩ : BufTy)) (h2 : (main_call4_v8 : Ref sig .tc).space ≠ .host) (h3 : (main_call4_v8 : Ref sig .tc).isScoped = false) (v : (main_call4_v8 : Ref sig .tc).ty.Contents Val) :
    (StableHlo.TRef.of (T := ⟨S10000x256, .i1⟩) main_call4_v8 h1 h2 h3).ofBuf v = v := rfl
theorem l1_scrubB_toBuf_main_call4_v8 {Val : EltTy → Type} (h1 : (main_call4_v8 : Ref sig .tc).ty = (⟨S10000x256, .i1⟩ : BufTy)) (h2 : (main_call4_v8 : Ref sig .tc).space ≠ .host) (h3 : (main_call4_v8 : Ref sig .tc).isScoped = false) (v : (⟨S10000x256, .i1⟩ : BufTy).Contents Val) :
    (StableHlo.TRef.of (T := ⟨S10000x256, .i1⟩) main_call4_v8 h1 h2 h3).toBuf v = v := rfl
theorem l1_scrubB_ofBuf_main_cst_29 {Val : EltTy → Type} (h1 : (main_cst_29 : Ref sig .tc).ty = (⟨S_, .f32⟩ : BufTy)) (h2 : (main_cst_29 : Ref sig .tc).space ≠ .host) (h3 : (main_cst_29 : Ref sig .tc).isScoped = false) (v : (main_cst_29 : Ref sig .tc).ty.Contents Val) :
    (StableHlo.TRef.of (T := ⟨S_, .f32⟩) main_cst_29 h1 h2 h3).ofBuf v = v := rfl
theorem l1_scrubB_toBuf_main_cst_29 {Val : EltTy → Type} (h1 : (main_cst_29 : Ref sig .tc).ty = (⟨S_, .f32⟩ : BufTy)) (h2 : (main_cst_29 : Ref sig .tc).space ≠ .host) (h3 : (main_cst_29 : Ref sig .tc).isScoped = false) (v : (⟨S_, .f32⟩ : BufTy).Contents Val) :
    (StableHlo.TRef.of (T := ⟨S_, .f32⟩) main_cst_29 h1 h2 h3).toBuf v = v := rfl
theorem l1_scrubB_ofBuf_main_call4_v9 {Val : EltTy → Type} (h1 : (main_call4_v9 : Ref sig .tc).ty = (⟨S_, .f32⟩ : BufTy)) (h2 : (main_call4_v9 : Ref sig .tc).space ≠ .host) (h3 : (main_call4_v9 : Ref sig .tc).isScoped = false) (v : (main_call4_v9 : Ref sig .tc).ty.Contents Val) :
    (StableHlo.TRef.of (T := ⟨S_, .f32⟩) main_call4_v9 h1 h2 h3).ofBuf v = v := rfl
theorem l1_scrubB_toBuf_main_call4_v9 {Val : EltTy → Type} (h1 : (main_call4_v9 : Ref sig .tc).ty = (⟨S_, .f32⟩ : BufTy)) (h2 : (main_call4_v9 : Ref sig .tc).space ≠ .host) (h3 : (main_call4_v9 : Ref sig .tc).isScoped = false) (v : (⟨S_, .f32⟩ : BufTy).Contents Val) :
    (StableHlo.TRef.of (T := ⟨S_, .f32⟩) main_call4_v9 h1 h2 h3).toBuf v = v := rfl
theorem l1_scrubB_ofBuf_main_call4_call2_v0 {Val : EltTy → Type} (h1 : (main_call4_call2_v0 : Ref sig .tc).ty = (⟨S10000x256, .f32⟩ : BufTy)) (h2 : (main_call4_call2_v0 : Ref sig .tc).space ≠ .host) (h3 : (main_call4_call2_v0 : Ref sig .tc).isScoped = false) (v : (main_call4_call2_v0 : Ref sig .tc).ty.Contents Val) :
    (StableHlo.TRef.of (T := ⟨S10000x256, .f32⟩) main_call4_call2_v0 h1 h2 h3).ofBuf v = v := rfl
theorem l1_scrubB_toBuf_main_call4_call2_v0 {Val : EltTy → Type} (h1 : (main_call4_call2_v0 : Ref sig .tc).ty = (⟨S10000x256, .f32⟩ : BufTy)) (h2 : (main_call4_call2_v0 : Ref sig .tc).space ≠ .host) (h3 : (main_call4_call2_v0 : Ref sig .tc).isScoped = false) (v : (⟨S10000x256, .f32⟩ : BufTy).Contents Val) :
    (StableHlo.TRef.of (T := ⟨S10000x256, .f32⟩) main_call4_call2_v0 h1 h2 h3).toBuf v = v := rfl
theorem l1_scrubB_ofBuf_main_v102 {Val : EltTy → Type} (h1 : (main_v102 : Ref sig .tc).ty = (⟨S10000x256, .f32⟩ : BufTy)) (h2 : (main_v102 : Ref sig .tc).space ≠ .host) (h3 : (main_v102 : Ref sig .tc).isScoped = false) (v : (main_v102 : Ref sig .tc).ty.Contents Val) :
    (StableHlo.TRef.of (T := ⟨S10000x256, .f32⟩) main_v102 h1 h2 h3).ofBuf v = v := rfl
theorem l1_scrubB_toBuf_main_v102 {Val : EltTy → Type} (h1 : (main_v102 : Ref sig .tc).ty = (⟨S10000x256, .f32⟩ : BufTy)) (h2 : (main_v102 : Ref sig .tc).space ≠ .host) (h3 : (main_v102 : Ref sig .tc).isScoped = false) (v : (⟨S10000x256, .f32⟩ : BufTy).Contents Val) :
    (StableHlo.TRef.of (T := ⟨S10000x256, .f32⟩) main_v102 h1 h2 h3).toBuf v = v := rfl

/-- The buffers this stretch writes. -/
abbrev l1_scrubB_written : List (Ref sig .tc) :=
  [main_cst_28, main_cst_29, main_cst_30, main_call4_v0, main_call4_v1, main_call4_call0_v0, main_call4_v2, main_call4_cst, main_call4_v3, main_call4_v4, main_call4_v5, main_call4_call1_v0, main_call4_v6, main_call4_cst_0, main_call4_v7, main_call4_v8, main_call4_v9, main_call4_call2_v0, main_v102]
theorem l1_scrubB_writes : (l1_scrubB : List (HloOp τ sig (Elt F))).Forall fun op => op.writes ⊆ ((l1_scrubB_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_scrubB_run (W : Valuation τ sig (Elt F)) : Valuation τ sig (Elt F) :=
  StableHlo.after l1_scrubB W

/-- A buffer the stretch does not write keeps its contents. -/
theorem l1_scrubB_frame (W : Valuation τ sig (Elt F)) {r : Ref sig .tc} (hr : r ∉ l1_scrubB_written) :
    l1_scrubB_run W (no_index (Proc.devRef .tc r)) = W (Proc.devRef .tc r) := by
  have h := StableHlo.after_of_writes_sub (τ := τ) (l1_scrubB) W (l1_scrubB_writes) hr
  exact h

theorem l1_scrubB_v102 (W : Valuation τ sig (Elt F)) :
    l1_scrubB_run W (Proc.devRef .tc main_v102) = Cert.Stages.safeOf (W (Proc.devRef .tc main_v101)) := by
  unfold l1_scrubB_run
  after_results_simp
  simp only [l1_scrubB_ofBuf_main_v102, l1_scrubB_toBuf_main_v102, l1_scrubB_ofBuf_main_call4_v8, l1_scrubB_toBuf_main_call4_v8, l1_scrubB_ofBuf_main_call4_call2_v0, l1_scrubB_toBuf_main_call4_call2_v0, l1_scrubB_ofBuf_main_call4_v6, l1_scrubB_toBuf_main_call4_v6, l1_scrubB_ofBuf_main_call4_v4, l1_scrubB_toBuf_main_call4_v4, l1_scrubB_ofBuf_main_call4_call1_v0, l1_scrubB_toBuf_main_call4_call1_v0, l1_scrubB_ofBuf_main_call4_v2, l1_scrubB_toBuf_main_call4_v2, l1_scrubB_ofBuf_main_call4_v0, l1_scrubB_toBuf_main_call4_v0, l1_scrubB_ofBuf_main_call4_call0_v0, l1_scrubB_toBuf_main_call4_call0_v0, l1_scrubB_ofBuf_main_v101, l1_scrubB_toBuf_main_v101, l1_scrubB_ofBuf_main_call4_v1, l1_scrubB_toBuf_main_call4_v1, l1_scrubB_ofBuf_main_cst_28, l1_scrubB_toBuf_main_cst_28, l1_scrubB_ofBuf_main_call4_v5, l1_scrubB_toBuf_main_call4_v5, l1_scrubB_ofBuf_main_cst_30, l1_scrubB_toBuf_main_cst_30, l1_scrubB_ofBuf_main_call4_v3, l1_scrubB_toBuf_main_call4_v3, l1_scrubB_ofBuf_main_call4_cst, l1_scrubB_toBuf_main_call4_cst, l1_scrubB_ofBuf_main_call4_v9, l1_scrubB_toBuf_main_call4_v9, l1_scrubB_ofBuf_main_cst_29, l1_scrubB_toBuf_main_cst_29, l1_scrubB_ofBuf_main_call4_v7, l1_scrubB_toBuf_main_call4_v7, l1_scrubB_ofBuf_main_call4_cst_0, l1_scrubB_toBuf_main_call4_cst_0]
  first | done | rfl

/-! ### Layer 1: max with 0 -/
theorem l1_relu_ofBuf_main_call5_cst {Val : EltTy → Type} (h1 : (main_call5_cst : Ref sig .tc).ty = (⟨S_, .f32⟩ : BufTy)) (h2 : (main_call5_cst : Ref sig .tc).space ≠ .host) (h3 : (main_call5_cst : Ref sig .tc).isScoped = false) (v : (main_call5_cst : Ref sig .tc).ty.Contents Val) :
    (StableHlo.TRef.of (T := ⟨S_, .f32⟩) main_call5_cst h1 h2 h3).ofBuf v = v := rfl
theorem l1_relu_toBuf_main_call5_cst {Val : EltTy → Type} (h1 : (main_call5_cst : Ref sig .tc).ty = (⟨S_, .f32⟩ : BufTy)) (h2 : (main_call5_cst : Ref sig .tc).space ≠ .host) (h3 : (main_call5_cst : Ref sig .tc).isScoped = false) (v : (⟨S_, .f32⟩ : BufTy).Contents Val) :
    (StableHlo.TRef.of (T := ⟨S_, .f32⟩) main_call5_cst h1 h2 h3).toBuf v = v := rfl
theorem l1_relu_ofBuf_main_call5_v0 {Val : EltTy → Type} (h1 : (main_call5_v0 : Ref sig .tc).ty = (⟨S10000x256, .f32⟩ : BufTy)) (h2 : (main_call5_v0 : Ref sig .tc).space ≠ .host) (h3 : (main_call5_v0 : Ref sig .tc).isScoped = false) (v : (main_call5_v0 : Ref sig .tc).ty.Contents Val) :
    (StableHlo.TRef.of (T := ⟨S10000x256, .f32⟩) main_call5_v0 h1 h2 h3).ofBuf v = v := rfl
theorem l1_relu_toBuf_main_call5_v0 {Val : EltTy → Type} (h1 : (main_call5_v0 : Ref sig .tc).ty = (⟨S10000x256, .f32⟩ : BufTy)) (h2 : (main_call5_v0 : Ref sig .tc).space ≠ .host) (h3 : (main_call5_v0 : Ref sig .tc).isScoped = false) (v : (⟨S10000x256, .f32⟩ : BufTy).Contents Val) :
    (StableHlo.TRef.of (T := ⟨S10000x256, .f32⟩) main_call5_v0 h1 h2 h3).toBuf v = v := rfl
theorem l1_relu_ofBuf_main_v102 {Val : EltTy → Type} (h1 : (main_v102 : Ref sig .tc).ty = (⟨S10000x256, .f32⟩ : BufTy)) (h2 : (main_v102 : Ref sig .tc).space ≠ .host) (h3 : (main_v102 : Ref sig .tc).isScoped = false) (v : (main_v102 : Ref sig .tc).ty.Contents Val) :
    (StableHlo.TRef.of (T := ⟨S10000x256, .f32⟩) main_v102 h1 h2 h3).ofBuf v = v := rfl
theorem l1_relu_toBuf_main_v102 {Val : EltTy → Type} (h1 : (main_v102 : Ref sig .tc).ty = (⟨S10000x256, .f32⟩ : BufTy)) (h2 : (main_v102 : Ref sig .tc).space ≠ .host) (h3 : (main_v102 : Ref sig .tc).isScoped = false) (v : (⟨S10000x256, .f32⟩ : BufTy).Contents Val) :
    (StableHlo.TRef.of (T := ⟨S10000x256, .f32⟩) main_v102 h1 h2 h3).toBuf v = v := rfl
theorem l1_relu_ofBuf_main_v103 {Val : EltTy → Type} (h1 : (main_v103 : Ref sig .tc).ty = (⟨S10000x256, .f32⟩ : BufTy)) (h2 : (main_v103 : Ref sig .tc).space ≠ .host) (h3 : (main_v103 : Ref sig .tc).isScoped = false) (v : (main_v103 : Ref sig .tc).ty.Contents Val) :
    (StableHlo.TRef.of (T := ⟨S10000x256, .f32⟩) main_v103 h1 h2 h3).ofBuf v = v := rfl
theorem l1_relu_toBuf_main_v103 {Val : EltTy → Type} (h1 : (main_v103 : Ref sig .tc).ty = (⟨S10000x256, .f32⟩ : BufTy)) (h2 : (main_v103 : Ref sig .tc).space ≠ .host) (h3 : (main_v103 : Ref sig .tc).isScoped = false) (v : (⟨S10000x256, .f32⟩ : BufTy).Contents Val) :
    (StableHlo.TRef.of (T := ⟨S10000x256, .f32⟩) main_v103 h1 h2 h3).toBuf v = v := rfl

/-- The buffers this stretch writes. -/
abbrev l1_relu_written : List (Ref sig .tc) :=
  [main_call5_cst, main_call5_v0, main_v103]
theorem l1_relu_writes : (l1_relu : List (HloOp τ sig (Elt F))).Forall fun op => op.writes ⊆ ((l1_relu_written).map (Proc.devRef (τ := τ) .tc)).toFinset :=
  ⟨writes_sub_of_mem (by decide), writes_sub_of_mem (by decide), writes_sub_of_mem (by decide)⟩

/-- The contents after this stretch, from contents `W`. -/
def l1_relu_run (W : Valuation τ sig (Elt F)) : Valuation τ sig (Elt F) :=
  StableHlo.after l1_relu W

/-- A buffer the stretch does not write keeps its contents. -/
theorem l1_relu_frame (W : Valuation τ sig (Elt F)) {r : Ref sig .tc} (hr : r ∉ l1_relu_written) :
    l1_relu_run W (no_index (Proc.devRef .tc r)) = W (Proc.devRef .tc r) := by
  have h := StableHlo.after_of_writes_sub (τ := τ) (l1_relu) W (l1_relu_writes) hr
  exact h

theorem l1_relu_v103 (W : Valuation τ sig (Elt F)) :
    l1_relu_run W (Proc.devRef .tc main_v103) = Cert.Stages.reluRef (W (Proc.devRef .tc main_v102)) := by
  unfold l1_relu_run
  after_results_simp
  simp only [l1_relu_ofBuf_main_v103, l1_relu_toBuf_main_v103, l1_relu_ofBuf_main_v102, l1_relu_toBuf_main_v102, l1_relu_ofBuf_main_call5_v0, l1_relu_toBuf_main_call5_v0, l1_relu_ofBuf_main_call5_cst, l1_relu_toBuf_main_call5_cst]
  first | done | rfl

/-! ### Layer 1: the rectified rows scrubbed -/
theorem l1_scrubC_ofBuf_main_v103 {Val : EltTy → Type} (h1 : (main_v103 : Ref sig .tc).ty = (⟨S10000x256, .f32⟩ : BufTy)) (h2 : (main_v103 : Ref sig .tc).space ≠ .host) (h3 : (main_v103 : Ref sig .tc).isScoped = false) (v : (main_v103 : Ref sig .tc).ty.Contents Val) :
    (StableHlo.TRef.of (T := ⟨S10000x256, .f32⟩) main_v103 h1 h2 h3).ofBuf v = v := rfl
theorem l1_scrubC_toBuf_main_v103 {Val : EltTy → Type} (h1 : (main_v103 : Ref sig .tc).ty = (⟨S10000x256, .f32⟩ : BufTy)) (h2 : (main_v103 : Ref sig .tc).space ≠ .host) (h3 : (main_v103 : Ref sig .tc).isScoped = false) (v : (⟨S10000x256, .f32⟩ : BufTy).Contents Val) :
    (StableHlo.TRef.of (T := ⟨S10000x256, .f32⟩) main_v103 h1 h2 h3).toBuf v = v := rfl
theorem l1_scrubC_ofBuf_main_call6_v0 {Val : EltTy → Type} (h1 : (main_call6_v0 : Ref sig .tc).ty = (⟨S10000x256, .i1⟩ : BufTy)) (h2 : (main_call6_v0 : Ref sig .tc).space ≠ .host) (h3 : (main_call6_v0 : Ref sig .tc).isScoped = false) (v : (main_call6_v0 : Ref sig .tc).ty.Contents Val) :
    (StableHlo.TRef.of (T := ⟨S10000x256, .i1⟩) main_call6_v0 h1 h2 h3).ofBuf v = v := rfl
theorem l1_scrubC_toBuf_main_call6_v0 {Val : EltTy → Type} (h1 : (main_call6_v0 : Ref sig .tc).ty = (⟨S10000x256, .i1⟩ : BufTy)) (h2 : (main_call6_v0 : Ref sig .tc).space ≠ .host) (h3 : (main_call6_v0 : Ref sig .tc).isScoped = false) (v : (⟨S10000x256, .i1⟩ : BufTy).Contents Val) :
    (StableHlo.TRef.of (T := ⟨S10000x256, .i1⟩) main_call6_v0 h1 h2 h3).toBuf v = v := rfl
theorem l1_scrubC_ofBuf_main_cst_31 {Val : EltTy → Type} (h1 : (main_cst_31 : Ref sig .tc).ty = (⟨S_, .f32⟩ : BufTy)) (h2 : (main_cst_31 : Ref sig .tc).space ≠ .host) (h3 : (main_cst_31 : Ref sig .tc).isScoped = false) (v : (main_cst_31 : Ref sig .tc).ty.Contents Val) :
    (StableHlo.TRef.of (T := ⟨S_, .f32⟩) main_cst_31 h1 h2 h3).ofBuf v = v := rfl
theorem l1_scrubC_toBuf_main_cst_31 {Val : EltTy → Type} (h1 : (main_cst_31 : Ref sig .tc).ty = (⟨S_, .f32⟩ : BufTy)) (h2 : (main_cst_31 : Ref sig .tc).space ≠ .host) (h3 : (main_cst_31 : Ref sig .tc).isScoped = false) (v : (⟨S_, .f32⟩ : BufTy).Contents Val) :
    (StableHlo.TRef.of (T := ⟨S_, .f32⟩) main_cst_31 h1 h2 h3).toBuf v = v := rfl
theorem l1_scrubC_ofBuf_main_call6_v1 {Val : EltTy → Type} (h1 : (main_call6_v1 : Ref sig .tc).ty = (⟨S_, .f32⟩ : BufTy)) (h2 : (main_call6_v1 : Ref sig .tc).space ≠ .host) (h3 : (main_call6_v1 : Ref sig .tc).isScoped = false) (v : (main_call6_v1 : Ref sig .tc).ty.Contents Val) :
    (StableHlo.TRef.of (T := ⟨S_, .f32⟩) main_call6_v1 h1 h2 h3).ofBuf v = v := rfl
theorem l1_scrubC_toBuf_main_call6_v1 {Val : EltTy → Type} (h1 : (main_call6_v1 : Ref sig .tc).ty = (⟨S_, .f32⟩ : BufTy)) (h2 : (main_call6_v1 : Ref sig .tc).space ≠ .host) (h3 : (main_call6_v1 : Ref sig .tc).isScoped = false) (v : (⟨S_, .f32⟩ : BufTy).Contents Val) :
    (StableHlo.TRef.of (T := ⟨S_, .f32⟩) main_call6_v1 h1 h2 h3).toBuf v = v := rfl
theorem l1_scrubC_ofBuf_main_call6_call0_v0 {Val : EltTy → Type} (h1 : (main_call6_call0_v0 : Ref sig .tc).ty = (⟨S10000x256, .f32⟩ : BufTy)) (h2 : (main_call6_call0_v0 : Ref sig .tc).space ≠ .host) (h3 : (main_call6_call0_v0 : Ref sig .tc).isScoped = false) (v : (main_call6_call0_v0 : Ref sig .tc).ty.Contents Val) :
    (StableHlo.TRef.of (T := ⟨S10000x256, .f32⟩) main_call6_call0_v0 h1 h2 h3).ofBuf v = v := rfl
theorem l1_scrubC_toBuf_main_call6_call0_v0 {Val : EltTy → Type} (h1 : (main_call6_call0_v0 : Ref sig .tc).ty = (⟨S10000x256, .f32⟩ : BufTy)) (h2 : (main_call6_call0_v0 : Ref sig .tc).space ≠ .host) (h3 : (main_call6_call0_v0 : Ref sig .tc).isScoped = false) (v : (⟨S10000x256, .f32⟩ : BufTy).Contents Val) :
    (StableHlo.TRef.of (T := ⟨S10000x256, .f32⟩) main_call6_call0_v0 h1 h2 h3).toBuf v = v := rfl
theorem l1_scrubC_ofBuf_main_call6_v2 {Val : EltTy → Type} (h1 : (main_call6_v2 : Ref sig .tc).ty = (⟨S10000x256, .f32⟩ : BufTy)) (h2 : (main_call6_v2 : Ref sig .tc).space ≠ .host) (h3 : (main_call6_v2 : Ref sig .tc).isScoped = false) (v : (main_call6_v2 : Ref sig .tc).ty.Contents Val) :
    (StableHlo.TRef.of (T := ⟨S10000x256, .f32⟩) main_call6_v2 h1 h2 h3).ofBuf v = v := rfl
theorem l1_scrubC_toBuf_main_call6_v2 {Val : EltTy → Type} (h1 : (main_call6_v2 : Ref sig .tc).ty = (⟨S10000x256, .f32⟩ : BufTy)) (h2 : (main_call6_v2 : Ref sig .tc).space ≠ .host) (h3 : (main_call6_v2 : Ref sig .tc).isScoped = false) (v : (⟨S10000x256, .f32⟩ : BufTy).Contents Val) :
    (StableHlo.TRef.of (T := ⟨S10000x256, .f32⟩) main_call6_v2 h1 h2 h3).toBuf v = v := rfl
theorem l1_scrubC_ofBuf_main_call6_cst {Val : EltTy → Type} (h1 : (main_call6_cst : Ref sig .tc).ty = (⟨S_, .f32⟩ : BufTy)) (h2 : (main_call6_cst : Ref sig .tc).space ≠ .host) (h3 : (main_call6_cst : Ref sig .tc).isScoped = false) (v : (main_call6_cst : Ref sig .tc).ty.Contents Val) :
    (StableHlo.TRef.of (T := ⟨S_, .f32⟩) main_call6_cst h1 h2 h3).ofBuf v = v := rfl
theorem l1_scrubC_toBuf_main_call6_cst {Val : EltTy → Type} (h1 : (main_call6_cst : Ref sig .tc).ty = (⟨S_, .f32⟩ : BufTy)) (h2 : (main_call6_cst : Ref sig .tc).space ≠ .host) (h3 : (main_call6_cst : Ref sig .tc).isScoped = false) (v : (⟨S_, .f32⟩ : BufTy).Contents Val) :
    (StableHlo.TRef.of (T := ⟨S_, .f32⟩) main_call6_cst h1 h2 h3).toBuf v = v := rfl
theorem l1_scrubC_ofBuf_main_call6_v3 {Val : EltTy → Type} (h1 : (main_call6_v3 : Ref sig .tc).ty = (⟨S10000x256, .f32⟩ : BufTy)) (h2 : (main_call6_v3 : Ref sig .tc).space ≠ .host) (h3 : (main_call6_v3 : Ref sig .tc).isScoped = false) (v : (main_call6_v3 : Ref sig .tc).ty.Contents Val) :
    (StableHlo.TRef.of (T := ⟨S10000x256, .f32⟩) main_call6_v3 h1 h2 h3).ofBuf v = v := rfl
theorem l1_scrubC_toBuf_main_call6_v3 {Val : EltTy → Type} (h1 : (main_call6_v3 : Ref sig .tc).ty = (⟨S10000x256, .f32⟩ : BufTy)) (h2 : (main_call6_v3 : Ref sig .tc).space ≠ .host) (h3 : (main_call6_v3 : Ref sig .tc).isScoped = false) (v : (⟨S10000x256, .f32⟩ : BufTy).Contents Val) :
    (StableHlo.TRef.of (T := ⟨S10000x256, .f32⟩) main_call6_v3 h1 h2 h3).toBuf v = v := rfl
theorem l1_scrubC_ofBuf_main_call6_v4 {Val : EltTy → Type} (h1 : (main_call6_v4 : Ref sig .tc).ty = (⟨S10000x256, .i1⟩ : BufTy)) (h2 : (main_call6_v4 : Ref sig .tc).space ≠ .host) (h3 : (main_call6_v4 : Ref sig .tc).isScoped = false) (v : (main_call6_v4 : Ref sig .tc).ty.Contents Val) :
    (StableHlo.TRef.of (T := ⟨S10000x256, .i1⟩) main_call6_v4 h1 h2 h3).ofBuf v = v := rfl
theorem l1_scrubC_toBuf_main_call6_v4 {Val : EltTy → Type} (h1 : (main_call6_v4 : Ref sig .tc).ty = (⟨S10000x256, .i1⟩ : BufTy)) (h2 : (main_call6_v4 : Ref sig .tc).space ≠ .host) (h3 : (main_call6_v4 : Ref sig .tc).isScoped = false) (v : (⟨S10000x256, .i1⟩ : BufTy).Contents Val) :
    (StableHlo.TRef.of (T := ⟨S10000x256, .i1⟩) main_call6_v4 h1 h2 h3).toBuf v = v := rfl
theorem l1_scrubC_ofBuf_main_cst_33 {Val : EltTy → Type} (h1 : (main_cst_33 : Ref sig .tc).ty = (⟨S_, .f32⟩ : BufTy)) (h2 : (main_cst_33 : Ref sig .tc).space ≠ .host) (h3 : (main_cst_33 : Ref sig .tc).isScoped = false) (v : (main_cst_33 : Ref sig .tc).ty.Contents Val) :
    (StableHlo.TRef.of (T := ⟨S_, .f32⟩) main_cst_33 h1 h2 h3).ofBuf v = v := rfl
theorem l1_scrubC_toBuf_main_cst_33 {Val : EltTy → Type} (h1 : (main_cst_33 : Ref sig .tc).ty = (⟨S_, .f32⟩ : BufTy)) (h2 : (main_cst_33 : Ref sig .tc).space ≠ .host) (h3 : (main_cst_33 : Ref sig .tc).isScoped = false) (v : (⟨S_, .f32⟩ : BufTy).Contents Val) :
    (StableHlo.TRef.of (T := ⟨S_, .f32⟩) main_cst_33 h1 h2 h3).toBuf v = v := rfl
theorem l1_scrubC_ofBuf_main_call6_v5 {Val : EltTy → Type} (h1 : (main_call6_v5 : Ref sig .tc).ty = (⟨S_, .f32⟩ : BufTy)) (h2 : (main_call6_v5 : Ref sig .tc).space ≠ .host) (h3 : (main_call6_v5 : Ref sig .tc).isScoped = false) (v : (main_call6_v5 : Ref sig .tc).ty.Contents Val) :
    (StableHlo.TRef.of (T := ⟨S_, .f32⟩) main_call6_v5 h1 h2 h3).ofBuf v = v := rfl
theorem l1_scrubC_toBuf_main_call6_v5 {Val : EltTy → Type} (h1 : (main_call6_v5 : Ref sig .tc).ty = (⟨S_, .f32⟩ : BufTy)) (h2 : (main_call6_v5 : Ref sig .tc).space ≠ .host) (h3 : (main_call6_v5 : Ref sig .tc).isScoped = false) (v : (⟨S_, .f32⟩ : BufTy).Contents Val) :
    (StableHlo.TRef.of (T := ⟨S_, .f32⟩) main_call6_v5 h1 h2 h3).toBuf v = v := rfl
theorem l1_scrubC_ofBuf_main_call6_call1_v0 {Val : EltTy → Type} (h1 : (main_call6_call1_v0 : Ref sig .tc).ty = (⟨S10000x256, .f32⟩ : BufTy)) (h2 : (main_call6_call1_v0 : Ref sig .tc).space ≠ .host) (h3 : (main_call6_call1_v0 : Ref sig .tc).isScoped = false) (v : (main_call6_call1_v0 : Ref sig .tc).ty.Contents Val) :
    (StableHlo.TRef.of (T := ⟨S10000x256, .f32⟩) main_call6_call1_v0 h1 h2 h3).ofBuf v = v := rfl
theorem l1_scrubC_toBuf_main_call6_call1_v0 {Val : EltTy → Type} (h1 : (main_call6_call1_v0 : Ref sig .tc).ty = (⟨S10000x256, .f32⟩ : BufTy)) (h2 : (main_call6_call1_v0 : Ref sig .tc).space ≠ .host) (h3 : (main_call6_call1_v0 : Ref sig .tc).isScoped = false) (v : (⟨S10000x256, .f32⟩ : BufTy).Contents Val) :
    (StableHlo.TRef.of (T := ⟨S10000x256, .f32⟩) main_call6_call1_v0 h1 h2 h3).toBuf v = v := rfl
theorem l1_scrubC_ofBuf_main_call6_v6 {Val : EltTy → Type} (h1 : (main_call6_v6 : Ref sig .tc).ty = (⟨S10000x256, .f32⟩ : BufTy)) (h2 : (main_call6_v6 : Ref sig .tc).space ≠ .host) (h3 : (main_call6_v6 : Ref sig .tc).isScoped = false) (v : (main_call6_v6 : Ref sig .tc).ty.Contents Val) :
    (StableHlo.TRef.of (T := ⟨S10000x256, .f32⟩) main_call6_v6 h1 h2 h3).ofBuf v = v := rfl
theorem l1_scrubC_toBuf_main_call6_v6 {Val : EltTy → Type} (h1 : (main_call6_v6 : Ref sig .tc).ty = (⟨S10000x256, .f32⟩ : BufTy)) (h2 : (main_call6_v6 : Ref sig .tc).space ≠ .host) (h3 : (main_call6_v6 : Ref sig .tc).isScoped = false) (v : (⟨S10000x256, .f32⟩ : BufTy).Contents Val) :
    (StableHlo.TRef.of (T := ⟨S10000x256, .f32⟩) main_call6_v6 h1 h2 h3).toBuf v = v := rfl
theorem l1_scrubC_ofBuf_main_call6_cst_0 {Val : EltTy → Type} (h1 : (main_call6_cst_0 : Ref sig .tc).ty = (⟨S_, .f32⟩ : BufTy)) (h2 : (main_call6_cst_0 : Ref sig .tc).space ≠ .host) (h3 : (main_call6_cst_0 : Ref sig .tc).isScoped = false) (v : (main_call6_cst_0 : Ref sig .tc).ty.Contents Val) :
    (StableHlo.TRef.of (T := ⟨S_, .f32⟩) main_call6_cst_0 h1 h2 h3).ofBuf v = v := rfl
theorem l1_scrubC_toBuf_main_call6_cst_0 {Val : EltTy → Type} (h1 : (main_call6_cst_0 : Ref sig .tc).ty = (⟨S_, .f32⟩ : BufTy)) (h2 : (main_call6_cst_0 : Ref sig .tc).space ≠ .host) (h3 : (main_call6_cst_0 : Ref sig .tc).isScoped = false) (v : (⟨S_, .f32⟩ : BufTy).Contents Val) :
    (StableHlo.TRef.of (T := ⟨S_, .f32⟩) main_call6_cst_0 h1 h2 h3).toBuf v = v := rfl
theorem l1_scrubC_ofBuf_main_call6_v7 {Val : EltTy → Type} (h1 : (main_call6_v7 : Ref sig .tc).ty = (⟨S10000x256, .f32⟩ : BufTy)) (h2 : (main_call6_v7 : Ref sig .tc).space ≠ .host) (h3 : (main_call6_v7 : Ref sig .tc).isScoped = false) (v : (main_call6_v7 : Ref sig .tc).ty.Contents Val) :
    (StableHlo.TRef.of (T := ⟨S10000x256, .f32⟩) main_call6_v7 h1 h2 h3).ofBuf v = v := rfl
theorem l1_scrubC_toBuf_main_call6_v7 {Val : EltTy → Type} (h1 : (main_call6_v7 : Ref sig .tc).ty = (⟨S10000x256, .f32⟩ : BufTy)) (h2 : (main_call6_v7 : Ref sig .tc).space ≠ .host) (h3 : (main_call6_v7 : Ref sig .tc).isScoped = false) (v : (⟨S10000x256, .f32⟩ : BufTy).Contents Val) :
    (StableHlo.TRef.of (T := ⟨S10000x256, .f32⟩) main_call6_v7 h1 h2 h3).toBuf v = v := rfl
theorem l1_scrubC_ofBuf_main_call6_v8 {Val : EltTy → Type} (h1 : (main_call6_v8 : Ref sig .tc).ty = (⟨S10000x256, .i1⟩ : BufTy)) (h2 : (main_call6_v8 : Ref sig .tc).space ≠ .host) (h3 : (main_call6_v8 : Ref sig .tc).isScoped = false) (v : (main_call6_v8 : Ref sig .tc).ty.Contents Val) :
    (StableHlo.TRef.of (T := ⟨S10000x256, .i1⟩) main_call6_v8 h1 h2 h3).ofBuf v = v := rfl
theorem l1_scrubC_toBuf_main_call6_v8 {Val : EltTy → Type} (h1 : (main_call6_v8 : Ref sig .tc).ty = (⟨S10000x256, .i1⟩ : BufTy)) (h2 : (main_call6_v8 : Ref sig .tc).space ≠ .host) (h3 : (main_call6_v8 : Ref sig .tc).isScoped = false) (v : (⟨S10000x256, .i1⟩ : BufTy).Contents Val) :
    (StableHlo.TRef.of (T := ⟨S10000x256, .i1⟩) main_call6_v8 h1 h2 h3).toBuf v = v := rfl
theorem l1_scrubC_ofBuf_main_cst_32 {Val : EltTy → Type} (h1 : (main_cst_32 : Ref sig .tc).ty = (⟨S_, .f32⟩ : BufTy)) (h2 : (main_cst_32 : Ref sig .tc).space ≠ .host) (h3 : (main_cst_32 : Ref sig .tc).isScoped = false) (v : (main_cst_32 : Ref sig .tc).ty.Contents Val) :
    (StableHlo.TRef.of (T := ⟨S_, .f32⟩) main_cst_32 h1 h2 h3).ofBuf v = v := rfl
theorem l1_scrubC_toBuf_main_cst_32 {Val : EltTy → Type} (h1 : (main_cst_32 : Ref sig .tc).ty = (⟨S_, .f32⟩ : BufTy)) (h2 : (main_cst_32 : Ref sig .tc).space ≠ .host) (h3 : (main_cst_32 : Ref sig .tc).isScoped = false) (v : (⟨S_, .f32⟩ : BufTy).Contents Val) :
    (StableHlo.TRef.of (T := ⟨S_, .f32⟩) main_cst_32 h1 h2 h3).toBuf v = v := rfl
theorem l1_scrubC_ofBuf_main_call6_v9 {Val : EltTy → Type} (h1 : (main_call6_v9 : Ref sig .tc).ty = (⟨S_, .f32⟩ : BufTy)) (h2 : (main_call6_v9 : Ref sig .tc).space ≠ .host) (h3 : (main_call6_v9 : Ref sig .tc).isScoped = false) (v : (main_call6_v9 : Ref sig .tc).ty.Contents Val) :
    (StableHlo.TRef.of (T := ⟨S_, .f32⟩) main_call6_v9 h1 h2 h3).ofBuf v = v := rfl
theorem l1_scrubC_toBuf_main_call6_v9 {Val : EltTy → Type} (h1 : (main_call6_v9 : Ref sig .tc).ty = (⟨S_, .f32⟩ : BufTy)) (h2 : (main_call6_v9 : Ref sig .tc).space ≠ .host) (h3 : (main_call6_v9 : Ref sig .tc).isScoped = false) (v : (⟨S_, .f32⟩ : BufTy).Contents Val) :
    (StableHlo.TRef.of (T := ⟨S_, .f32⟩) main_call6_v9 h1 h2 h3).toBuf v = v := rfl
theorem l1_scrubC_ofBuf_main_call6_call2_v0 {Val : EltTy → Type} (h1 : (main_call6_call2_v0 : Ref sig .tc).ty = (⟨S10000x256, .f32⟩ : BufTy)) (h2 : (main_call6_call2_v0 : Ref sig .tc).space ≠ .host) (h3 : (main_call6_call2_v0 : Ref sig .tc).isScoped = false) (v : (main_call6_call2_v0 : Ref sig .tc).ty.Contents Val) :
    (StableHlo.TRef.of (T := ⟨S10000x256, .f32⟩) main_call6_call2_v0 h1 h2 h3).ofBuf v = v := rfl
theorem l1_scrubC_toBuf_main_call6_call2_v0 {Val : EltTy → Type} (h1 : (main_call6_call2_v0 : Ref sig .tc).ty = (⟨S10000x256, .f32⟩ : BufTy)) (h2 : (main_call6_call2_v0 : Ref sig .tc).space ≠ .host) (h3 : (main_call6_call2_v0 : Ref sig .tc).isScoped = false) (v : (⟨S10000x256, .f32⟩ : BufTy).Contents Val) :
    (StableHlo.TRef.of (T := ⟨S10000x256, .f32⟩) main_call6_call2_v0 h1 h2 h3).toBuf v = v := rfl
theorem l1_scrubC_ofBuf_main_v104 {Val : EltTy → Type} (h1 : (main_v104 : Ref sig .tc).ty = (⟨S10000x256, .f32⟩ : BufTy)) (h2 : (main_v104 : Ref sig .tc).space ≠ .host) (h3 : (main_v104 : Ref sig .tc).isScoped = false) (v : (main_v104 : Ref sig .tc).ty.Contents Val) :
    (StableHlo.TRef.of (T := ⟨S10000x256, .f32⟩) main_v104 h1 h2 h3).ofBuf v = v := rfl
theorem l1_scrubC_toBuf_main_v104 {Val : EltTy → Type} (h1 : (main_v104 : Ref sig .tc).ty = (⟨S10000x256, .f32⟩ : BufTy)) (h2 : (main_v104 : Ref sig .tc).space ≠ .host) (h3 : (main_v104 : Ref sig .tc).isScoped = false) (v : (⟨S10000x256, .f32⟩ : BufTy).Contents Val) :
    (StableHlo.TRef.of (T := ⟨S10000x256, .f32⟩) main_v104 h1 h2 h3).toBuf v = v := rfl

/-- The buffers this stretch writes. -/
abbrev l1_scrubC_written : List (Ref sig .tc) :=
  [main_cst_31, main_cst_32, main_cst_33, main_call6_v0, main_call6_v1, main_call6_call0_v0, main_call6_v2, main_call6_cst, main_call6_v3, main_call6_v4, main_call6_v5, main_call6_call1_v0, main_call6_v6, main_call6_cst_0, main_call6_v7, main_call6_v8, main_call6_v9, main_call6_call2_v0, main_v104]
theorem l1_scrubC_writes : (l1_scrubC : List (HloOp τ sig (Elt F))).Forall fun op => op.writes ⊆ ((l1_scrubC_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_scrubC_run (W : Valuation τ sig (Elt F)) : Valuation τ sig (Elt F) :=
  StableHlo.after l1_scrubC W

/-- A buffer the stretch does not write keeps its contents. -/
theorem l1_scrubC_frame (W : Valuation τ sig (Elt F)) {r : Ref sig .tc} (hr : r ∉ l1_scrubC_written) :
    l1_scrubC_run W (no_index (Proc.devRef .tc r)) = W (Proc.devRef .tc r) := by
  have h := StableHlo.after_of_writes_sub (τ := τ) (l1_scrubC) W (l1_scrubC_writes) hr
  exact h

theorem l1_scrubC_v104 (W : Valuation τ sig (Elt F)) :
    l1_scrubC_run W (Proc.devRef .tc main_v104) = Cert.Stages.safeOf (W (Proc.devRef .tc main_v103)) := by
  unfold l1_scrubC_run
  after_results_simp
  simp only [l1_scrubC_ofBuf_main_v104, l1_scrubC_toBuf_main_v104, l1_scrubC_ofBuf_main_call6_v8, l1_scrubC_toBuf_main_call6_v8, l1_scrubC_ofBuf_main_call6_call2_v0, l1_scrubC_toBuf_main_call6_call2_v0, l1_scrubC_ofBuf_main_call6_v6, l1_scrubC_toBuf_main_call6_v6, l1_scrubC_ofBuf_main_call6_v4, l1_scrubC_toBuf_main_call6_v4, l1_scrubC_ofBuf_main_call6_call1_v0, l1_scrubC_toBuf_main_call6_call1_v0, l1_scrubC_ofBuf_main_call6_v2, l1_scrubC_toBuf_main_call6_v2, l1_scrubC_ofBuf_main_call6_v0, l1_scrubC_toBuf_main_call6_v0, l1_scrubC_ofBuf_main_call6_call0_v0, l1_scrubC_toBuf_main_call6_call0_v0, l1_scrubC_ofBuf_main_v103, l1_scrubC_toBuf_main_v103, l1_scrubC_ofBuf_main_call6_v1, l1_scrubC_toBuf_main_call6_v1, l1_scrubC_ofBuf_main_cst_31, l1_scrubC_toBuf_main_cst_31, l1_scrubC_ofBuf_main_call6_v5, l1_scrubC_toBuf_main_call6_v5, l1_scrubC_ofBuf_main_cst_33, l1_scrubC_toBuf_main_cst_33, l1_scrubC_ofBuf_main_call6_v3, l1_scrubC_toBuf_main_call6_v3, l1_scrubC_ofBuf_main_call6_cst, l1_scrubC_toBuf_main_call6_cst, l1_scrubC_ofBuf_main_call6_v9, l1_scrubC_toBuf_main_call6_v9, l1_scrubC_ofBuf_main_cst_32, l1_scrubC_toBuf_main_cst_32, l1_scrubC_ofBuf_main_call6_v7, l1_scrubC_toBuf_main_call6_v7, l1_scrubC_ofBuf_main_call6_cst_0, l1_scrubC_toBuf_main_call6_cst_0]
  first | done | rfl

/-! ### Layer 1: the layer's input added -/

/-- The buffers this stretch writes. -/
abbrev l1_resid_written : List (Ref sig .tc) :=
  [main_v105]
theorem l1_resid_writes : (l1_resid : List (HloOp τ sig (Elt F))).Forall fun op => op.writes ⊆ ((l1_resid_written).map (Proc.devRef (τ := τ) .tc)).toFinset :=
  writes_sub_of_mem (by decide)

/-- The contents after this stretch, from contents `W`. -/
def l1_resid_run (W : Valuation τ sig (Elt F)) : Valuation τ sig (Elt F) :=
  StableHlo.after l1_resid W

/-- A buffer the stretch does not write keeps its contents. -/
theorem l1_resid_frame (W : Valuation τ sig (Elt F)) {r : Ref sig .tc} (hr : r ∉ l1_resid_written) :
    l1_resid_run W (no_index (Proc.devRef .tc r)) = W (Proc.devRef .tc r) := by
  have h := StableHlo.after_of_writes_sub (τ := τ) (l1_resid) W (l1_resid_writes) hr
  exact h

theorem l1_resid_v105 (W : Valuation τ sig (Elt F)) :
    l1_resid_run W (Proc.devRef .tc main_v105) = addf (W (Proc.devRef .tc main_v104)) (W (Proc.devRef .tc main_v33)) := by
  unfold l1_resid_run
  after_results_simp
  first | done | rfl

/-! ### Layer 1: the sum scrubbed, the layer's result -/
theorem l1_scrubD_ofBuf_main_v105 {Val : EltTy → Type} (h1 : (main_v105 : Ref sig .tc).ty = (⟨S10000x256, .f32⟩ : BufTy)) (h2 : (main_v105 : Ref sig .tc).space ≠ .host) (h3 : (main_v105 : Ref sig .tc).isScoped = false) (v : (main_v105 : Ref sig .tc).ty.Contents Val) :
    (StableHlo.TRef.of (T := ⟨S10000x256, .f32⟩) main_v105 h1 h2 h3).ofBuf v = v := rfl
theorem l1_scrubD_toBuf_main_v105 {Val : EltTy → Type} (h1 : (main_v105 : Ref sig .tc).ty = (⟨S10000x256, .f32⟩ : BufTy)) (h2 : (main_v105 : Ref sig .tc).space ≠ .host) (h3 : (main_v105 : Ref sig .tc).isScoped = false) (v : (⟨S10000x256, .f32⟩ : BufTy).Contents Val) :
    (StableHlo.TRef.of (T := ⟨S10000x256, .f32⟩) main_v105 h1 h2 h3).toBuf v = v := rfl
theorem l1_scrubD_ofBuf_main_call7_v0 {Val : EltTy → Type} (h1 : (main_call7_v0 : Ref sig .tc).ty = (⟨S10000x256, .i1⟩ : BufTy)) (h2 : (main_call7_v0 : Ref sig .tc).space ≠ .host) (h3 : (main_call7_v0 : Ref sig .tc).isScoped = false) (v : (main_call7_v0 : Ref sig .tc).ty.Contents Val) :
    (StableHlo.TRef.of (T := ⟨S10000x256, .i1⟩) main_call7_v0 h1 h2 h3).ofBuf v = v := rfl
theorem l1_scrubD_toBuf_main_call7_v0 {Val : EltTy → Type} (h1 : (main_call7_v0 : Ref sig .tc).ty = (⟨S10000x256, .i1⟩ : BufTy)) (h2 : (main_call7_v0 : Ref sig .tc).space ≠ .host) (h3 : (main_call7_v0 : Ref sig .tc).isScoped = false) (v : (⟨S10000x256, .i1⟩ : BufTy).Contents Val) :
    (StableHlo.TRef.of (T := ⟨S10000x256, .i1⟩) main_call7_v0 h1 h2 h3).toBuf v = v := rfl
theorem l1_scrubD_ofBuf_main_cst_34 {Val : EltTy → Type} (h1 : (main_cst_34 : Ref sig .tc).ty = (⟨S_, .f32⟩ : BufTy)) (h2 : (main_cst_34 : Ref sig .tc).space ≠ .host) (h3 : (main_cst_34 : Ref sig .tc).isScoped = false) (v : (main_cst_34 : Ref sig .tc).ty.Contents Val) :
    (StableHlo.TRef.of (T := ⟨S_, .f32⟩) main_cst_34 h1 h2 h3).ofBuf v = v := rfl
theorem l1_scrubD_toBuf_main_cst_34 {Val : EltTy → Type} (h1 : (main_cst_34 : Ref sig .tc).ty = (⟨S_, .f32⟩ : BufTy)) (h2 : (main_cst_34 : Ref sig .tc).space ≠ .host) (h3 : (main_cst_34 : Ref sig .tc).isScoped = false) (v : (⟨S_, .f32⟩ : BufTy).Contents Val) :
    (StableHlo.TRef.of (T := ⟨S_, .f32⟩) main_cst_34 h1 h2 h3).toBuf v = v := rfl
theorem l1_scrubD_ofBuf_main_call7_v1 {Val : EltTy → Type} (h1 : (main_call7_v1 : Ref sig .tc).ty = (⟨S_, .f32⟩ : BufTy)) (h2 : (main_call7_v1 : Ref sig .tc).space ≠ .host) (h3 : (main_call7_v1 : Ref sig .tc).isScoped = false) (v : (main_call7_v1 : Ref sig .tc).ty.Contents Val) :
    (StableHlo.TRef.of (T := ⟨S_, .f32⟩) main_call7_v1 h1 h2 h3).ofBuf v = v := rfl
theorem l1_scrubD_toBuf_main_call7_v1 {Val : EltTy → Type} (h1 : (main_call7_v1 : Ref sig .tc).ty = (⟨S_, .f32⟩ : BufTy)) (h2 : (main_call7_v1 : Ref sig .tc).space ≠ .host) (h3 : (main_call7_v1 : Ref sig .tc).isScoped = false) (v : (⟨S_, .f32⟩ : BufTy).Contents Val) :
    (StableHlo.TRef.of (T := ⟨S_, .f32⟩) main_call7_v1 h1 h2 h3).toBuf v = v := rfl
theorem l1_scrubD_ofBuf_main_call7_call0_v0 {Val : EltTy → Type} (h1 : (main_call7_call0_v0 : Ref sig .tc).ty = (⟨S10000x256, .f32⟩ : BufTy)) (h2 : (main_call7_call0_v0 : Ref sig .tc).space ≠ .host) (h3 : (main_call7_call0_v0 : Ref sig .tc).isScoped = false) (v : (main_call7_call0_v0 : Ref sig .tc).ty.Contents Val) :
    (StableHlo.TRef.of (T := ⟨S10000x256, .f32⟩) main_call7_call0_v0 h1 h2 h3).ofBuf v = v := rfl
theorem l1_scrubD_toBuf_main_call7_call0_v0 {Val : EltTy → Type} (h1 : (main_call7_call0_v0 : Ref sig .tc).ty = (⟨S10000x256, .f32⟩ : BufTy)) (h2 : (main_call7_call0_v0 : Ref sig .tc).space ≠ .host) (h3 : (main_call7_call0_v0 : Ref sig .tc).isScoped = false) (v : (⟨S10000x256, .f32⟩ : BufTy).Contents Val) :
    (StableHlo.TRef.of (T := ⟨S10000x256, .f32⟩) main_call7_call0_v0 h1 h2 h3).toBuf v = v := rfl
theorem l1_scrubD_ofBuf_main_call7_v2 {Val : EltTy → Type} (h1 : (main_call7_v2 : Ref sig .tc).ty = (⟨S10000x256, .f32⟩ : BufTy)) (h2 : (main_call7_v2 : Ref sig .tc).space ≠ .host) (h3 : (main_call7_v2 : Ref sig .tc).isScoped = false) (v : (main_call7_v2 : Ref sig .tc).ty.Contents Val) :
    (StableHlo.TRef.of (T := ⟨S10000x256, .f32⟩) main_call7_v2 h1 h2 h3).ofBuf v = v := rfl
theorem l1_scrubD_toBuf_main_call7_v2 {Val : EltTy → Type} (h1 : (main_call7_v2 : Ref sig .tc).ty = (⟨S10000x256, .f32⟩ : BufTy)) (h2 : (main_call7_v2 : Ref sig .tc).space ≠ .host) (h3 : (main_call7_v2 : Ref sig .tc).isScoped = false) (v : (⟨S10000x256, .f32⟩ : BufTy).Contents Val) :
    (StableHlo.TRef.of (T := ⟨S10000x256, .f32⟩) main_call7_v2 h1 h2 h3).toBuf v = v := rfl
theorem l1_scrubD_ofBuf_main_call7_cst {Val : EltTy → Type} (h1 : (main_call7_cst : Ref sig .tc).ty = (⟨S_, .f32⟩ : BufTy)) (h2 : (main_call7_cst : Ref sig .tc).space ≠ .host) (h3 : (main_call7_cst : Ref sig .tc).isScoped = false) (v : (main_call7_cst : Ref sig .tc).ty.Contents Val) :
    (StableHlo.TRef.of (T := ⟨S_, .f32⟩) main_call7_cst h1 h2 h3).ofBuf v = v := rfl
theorem l1_scrubD_toBuf_main_call7_cst {Val : EltTy → Type} (h1 : (main_call7_cst : Ref sig .tc).ty = (⟨S_, .f32⟩ : BufTy)) (h2 : (main_call7_cst : Ref sig .tc).space ≠ .host) (h3 : (main_call7_cst : Ref sig .tc).isScoped = false) (v : (⟨S_, .f32⟩ : BufTy).Contents Val) :
    (StableHlo.TRef.of (T := ⟨S_, .f32⟩) main_call7_cst h1 h2 h3).toBuf v = v := rfl
theorem l1_scrubD_ofBuf_main_call7_v3 {Val : EltTy → Type} (h1 : (main_call7_v3 : Ref sig .tc).ty = (⟨S10000x256, .f32⟩ : BufTy)) (h2 : (main_call7_v3 : Ref sig .tc).space ≠ .host) (h3 : (main_call7_v3 : Ref sig .tc).isScoped = false) (v : (main_call7_v3 : Ref sig .tc).ty.Contents Val) :
    (StableHlo.TRef.of (T := ⟨S10000x256, .f32⟩) main_call7_v3 h1 h2 h3).ofBuf v = v := rfl
theorem l1_scrubD_toBuf_main_call7_v3 {Val : EltTy → Type} (h1 : (main_call7_v3 : Ref sig .tc).ty = (⟨S10000x256, .f32⟩ : BufTy)) (h2 : (main_call7_v3 : Ref sig .tc).space ≠ .host) (h3 : (main_call7_v3 : Ref sig .tc).isScoped = false) (v : (⟨S10000x256, .f32⟩ : BufTy).Contents Val) :
    (StableHlo.TRef.of (T := ⟨S10000x256, .f32⟩) main_call7_v3 h1 h2 h3).toBuf v = v := rfl
theorem l1_scrubD_ofBuf_main_call7_v4 {Val : EltTy → Type} (h1 : (main_call7_v4 : Ref sig .tc).ty = (⟨S10000x256, .i1⟩ : BufTy)) (h2 : (main_call7_v4 : Ref sig .tc).space ≠ .host) (h3 : (main_call7_v4 : Ref sig .tc).isScoped = false) (v : (main_call7_v4 : Ref sig .tc).ty.Contents Val) :
    (StableHlo.TRef.of (T := ⟨S10000x256, .i1⟩) main_call7_v4 h1 h2 h3).ofBuf v = v := rfl
theorem l1_scrubD_toBuf_main_call7_v4 {Val : EltTy → Type} (h1 : (main_call7_v4 : Ref sig .tc).ty = (⟨S10000x256, .i1⟩ : BufTy)) (h2 : (main_call7_v4 : Ref sig .tc).space ≠ .host) (h3 : (main_call7_v4 : Ref sig .tc).isScoped = false) (v : (⟨S10000x256, .i1⟩ : BufTy).Contents Val) :
    (StableHlo.TRef.of (T := ⟨S10000x256, .i1⟩) main_call7_v4 h1 h2 h3).toBuf v = v := rfl
theorem l1_scrubD_ofBuf_main_cst_36 {Val : EltTy → Type} (h1 : (main_cst_36 : Ref sig .tc).ty = (⟨S_, .f32⟩ : BufTy)) (h2 : (main_cst_36 : Ref sig .tc).space ≠ .host) (h3 : (main_cst_36 : Ref sig .tc).isScoped = false) (v : (main_cst_36 : Ref sig .tc).ty.Contents Val) :
    (StableHlo.TRef.of (T := ⟨S_, .f32⟩) main_cst_36 h1 h2 h3).ofBuf v = v := rfl
theorem l1_scrubD_toBuf_main_cst_36 {Val : EltTy → Type} (h1 : (main_cst_36 : Ref sig .tc).ty = (⟨S_, .f32⟩ : BufTy)) (h2 : (main_cst_36 : Ref sig .tc).space ≠ .host) (h3 : (main_cst_36 : Ref sig .tc).isScoped = false) (v : (⟨S_, .f32⟩ : BufTy).Contents Val) :
    (StableHlo.TRef.of (T := ⟨S_, .f32⟩) main_cst_36 h1 h2 h3).toBuf v = v := rfl
theorem l1_scrubD_ofBuf_main_call7_v5 {Val : EltTy → Type} (h1 : (main_call7_v5 : Ref sig .tc).ty = (⟨S_, .f32⟩ : BufTy)) (h2 : (main_call7_v5 : Ref sig .tc).space ≠ .host) (h3 : (main_call7_v5 : Ref sig .tc).isScoped = false) (v : (main_call7_v5 : Ref sig .tc).ty.Contents Val) :
    (StableHlo.TRef.of (T := ⟨S_, .f32⟩) main_call7_v5 h1 h2 h3).ofBuf v = v := rfl
theorem l1_scrubD_toBuf_main_call7_v5 {Val : EltTy → Type} (h1 : (main_call7_v5 : Ref sig .tc).ty = (⟨S_, .f32⟩ : BufTy)) (h2 : (main_call7_v5 : Ref sig .tc).space ≠ .host) (h3 : (main_call7_v5 : Ref sig .tc).isScoped = false) (v : (⟨S_, .f32⟩ : BufTy).Contents Val) :
    (StableHlo.TRef.of (T := ⟨S_, .f32⟩) main_call7_v5 h1 h2 h3).toBuf v = v := rfl
theorem l1_scrubD_ofBuf_main_call7_call1_v0 {Val : EltTy → Type} (h1 : (main_call7_call1_v0 : Ref sig .tc).ty = (⟨S10000x256, .f32⟩ : BufTy)) (h2 : (main_call7_call1_v0 : Ref sig .tc).space ≠ .host) (h3 : (main_call7_call1_v0 : Ref sig .tc).isScoped = false) (v : (main_call7_call1_v0 : Ref sig .tc).ty.Contents Val) :
    (StableHlo.TRef.of (T := ⟨S10000x256, .f32⟩) main_call7_call1_v0 h1 h2 h3).ofBuf v = v := rfl
theorem l1_scrubD_toBuf_main_call7_call1_v0 {Val : EltTy → Type} (h1 : (main_call7_call1_v0 : Ref sig .tc).ty = (⟨S10000x256, .f32⟩ : BufTy)) (h2 : (main_call7_call1_v0 : Ref sig .tc).space ≠ .host) (h3 : (main_call7_call1_v0 : Ref sig .tc).isScoped = false) (v : (⟨S10000x256, .f32⟩ : BufTy).Contents Val) :
    (StableHlo.TRef.of (T := ⟨S10000x256, .f32⟩) main_call7_call1_v0 h1 h2 h3).toBuf v = v := rfl
theorem l1_scrubD_ofBuf_main_call7_v6 {Val : EltTy → Type} (h1 : (main_call7_v6 : Ref sig .tc).ty = (⟨S10000x256, .f32⟩ : BufTy)) (h2 : (main_call7_v6 : Ref sig .tc).space ≠ .host) (h3 : (main_call7_v6 : Ref sig .tc).isScoped = false) (v : (main_call7_v6 : Ref sig .tc).ty.Contents Val) :
    (StableHlo.TRef.of (T := ⟨S10000x256, .f32⟩) main_call7_v6 h1 h2 h3).ofBuf v = v := rfl
theorem l1_scrubD_toBuf_main_call7_v6 {Val : EltTy → Type} (h1 : (main_call7_v6 : Ref sig .tc).ty = (⟨S10000x256, .f32⟩ : BufTy)) (h2 : (main_call7_v6 : Ref sig .tc).space ≠ .host) (h3 : (main_call7_v6 : Ref sig .tc).isScoped = false) (v : (⟨S10000x256, .f32⟩ : BufTy).Contents Val) :
    (StableHlo.TRef.of (T := ⟨S10000x256, .f32⟩) main_call7_v6 h1 h2 h3).toBuf v = v := rfl
theorem l1_scrubD_ofBuf_main_call7_cst_0 {Val : EltTy → Type} (h1 : (main_call7_cst_0 : Ref sig .tc).ty = (⟨S_, .f32⟩ : BufTy)) (h2 : (main_call7_cst_0 : Ref sig .tc).space ≠ .host) (h3 : (main_call7_cst_0 : Ref sig .tc).isScoped = false) (v : (main_call7_cst_0 : Ref sig .tc).ty.Contents Val) :
    (StableHlo.TRef.of (T := ⟨S_, .f32⟩) main_call7_cst_0 h1 h2 h3).ofBuf v = v := rfl
theorem l1_scrubD_toBuf_main_call7_cst_0 {Val : EltTy → Type} (h1 : (main_call7_cst_0 : Ref sig .tc).ty = (⟨S_, .f32⟩ : BufTy)) (h2 : (main_call7_cst_0 : Ref sig .tc).space ≠ .host) (h3 : (main_call7_cst_0 : Ref sig .tc).isScoped = false) (v : (⟨S_, .f32⟩ : BufTy).Contents Val) :
    (StableHlo.TRef.of (T := ⟨S_, .f32⟩) main_call7_cst_0 h1 h2 h3).toBuf v = v := rfl
theorem l1_scrubD_ofBuf_main_call7_v7 {Val : EltTy → Type} (h1 : (main_call7_v7 : Ref sig .tc).ty = (⟨S10000x256, .f32⟩ : BufTy)) (h2 : (main_call7_v7 : Ref sig .tc).space ≠ .host) (h3 : (main_call7_v7 : Ref sig .tc).isScoped = false) (v : (main_call7_v7 : Ref sig .tc).ty.Contents Val) :
    (StableHlo.TRef.of (T := ⟨S10000x256, .f32⟩) main_call7_v7 h1 h2 h3).ofBuf v = v := rfl
theorem l1_scrubD_toBuf_main_call7_v7 {Val : EltTy → Type} (h1 : (main_call7_v7 : Ref sig .tc).ty = (⟨S10000x256, .f32⟩ : BufTy)) (h2 : (main_call7_v7 : Ref sig .tc).space ≠ .host) (h3 : (main_call7_v7 : Ref sig .tc).isScoped = false) (v : (⟨S10000x256, .f32⟩ : BufTy).Contents Val) :
    (StableHlo.TRef.of (T := ⟨S10000x256, .f32⟩) main_call7_v7 h1 h2 h3).toBuf v = v := rfl
theorem l1_scrubD_ofBuf_main_call7_v8 {Val : EltTy → Type} (h1 : (main_call7_v8 : Ref sig .tc).ty = (⟨S10000x256, .i1⟩ : BufTy)) (h2 : (main_call7_v8 : Ref sig .tc).space ≠ .host) (h3 : (main_call7_v8 : Ref sig .tc).isScoped = false) (v : (main_call7_v8 : Ref sig .tc).ty.Contents Val) :
    (StableHlo.TRef.of (T := ⟨S10000x256, .i1⟩) main_call7_v8 h1 h2 h3).ofBuf v = v := rfl
theorem l1_scrubD_toBuf_main_call7_v8 {Val : EltTy → Type} (h1 : (main_call7_v8 : Ref sig .tc).ty = (⟨S10000x256, .i1⟩ : BufTy)) (h2 : (main_call7_v8 : Ref sig .tc).space ≠ .host) (h3 : (main_call7_v8 : Ref sig .tc).isScoped = false) (v : (⟨S10000x256, .i1⟩ : BufTy).Contents Val) :
    (StableHlo.TRef.of (T := ⟨S10000x256, .i1⟩) main_call7_v8 h1 h2 h3).toBuf v = v := rfl
theorem l1_scrubD_ofBuf_main_cst_35 {Val : EltTy → Type} (h1 : (main_cst_35 : Ref sig .tc).ty = (⟨S_, .f32⟩ : BufTy)) (h2 : (main_cst_35 : Ref sig .tc).space ≠ .host) (h3 : (main_cst_35 : Ref sig .tc).isScoped = false) (v : (main_cst_35 : Ref sig .tc).ty.Contents Val) :
    (StableHlo.TRef.of (T := ⟨S_, .f32⟩) main_cst_35 h1 h2 h3).ofBuf v = v := rfl
theorem l1_scrubD_toBuf_main_cst_35 {Val : EltTy → Type} (h1 : (main_cst_35 : Ref sig .tc).ty = (⟨S_, .f32⟩ : BufTy)) (h2 : (main_cst_35 : Ref sig .tc).space ≠ .host) (h3 : (main_cst_35 : Ref sig .tc).isScoped = false) (v : (⟨S_, .f32⟩ : BufTy).Contents Val) :
    (StableHlo.TRef.of (T := ⟨S_, .f32⟩) main_cst_35 h1 h2 h3).toBuf v = v := rfl
theorem l1_scrubD_ofBuf_main_call7_v9 {Val : EltTy → Type} (h1 : (main_call7_v9 : Ref sig .tc).ty = (⟨S_, .f32⟩ : BufTy)) (h2 : (main_call7_v9 : Ref sig .tc).space ≠ .host) (h3 : (main_call7_v9 : Ref sig .tc).isScoped = false) (v : (main_call7_v9 : Ref sig .tc).ty.Contents Val) :
    (StableHlo.TRef.of (T := ⟨S_, .f32⟩) main_call7_v9 h1 h2 h3).ofBuf v = v := rfl
theorem l1_scrubD_toBuf_main_call7_v9 {Val : EltTy → Type} (h1 : (main_call7_v9 : Ref sig .tc).ty = (⟨S_, .f32⟩ : BufTy)) (h2 : (main_call7_v9 : Ref sig .tc).space ≠ .host) (h3 : (main_call7_v9 : Ref sig .tc).isScoped = false) (v : (⟨S_, .f32⟩ : BufTy).Contents Val) :
    (StableHlo.TRef.of (T := ⟨S_, .f32⟩) main_call7_v9 h1 h2 h3).toBuf v = v := rfl
theorem l1_scrubD_ofBuf_main_call7_call2_v0 {Val : EltTy → Type} (h1 : (main_call7_call2_v0 : Ref sig .tc).ty = (⟨S10000x256, .f32⟩ : BufTy)) (h2 : (main_call7_call2_v0 : Ref sig .tc).space ≠ .host) (h3 : (main_call7_call2_v0 : Ref sig .tc).isScoped = false) (v : (main_call7_call2_v0 : Ref sig .tc).ty.Contents Val) :
    (StableHlo.TRef.of (T := ⟨S10000x256, .f32⟩) main_call7_call2_v0 h1 h2 h3).ofBuf v = v := rfl
theorem l1_scrubD_toBuf_main_call7_call2_v0 {Val : EltTy → Type} (h1 : (main_call7_call2_v0 : Ref sig .tc).ty = (⟨S10000x256, .f32⟩ : BufTy)) (h2 : (main_call7_call2_v0 : Ref sig .tc).space ≠ .host) (h3 : (main_call7_call2_v0 : Ref sig .tc).isScoped = false) (v : (⟨S10000x256, .f32⟩ : BufTy).Contents Val) :
    (StableHlo.TRef.of (T := ⟨S10000x256, .f32⟩) main_call7_call2_v0 h1 h2 h3).toBuf v = v := rfl
theorem l1_scrubD_ofBuf_main_v106 {Val : EltTy → Type} (h1 : (main_v106 : Ref sig .tc).ty = (⟨S10000x256, .f32⟩ : BufTy)) (h2 : (main_v106 : Ref sig .tc).space ≠ .host) (h3 : (main_v106 : Ref sig .tc).isScoped = false) (v : (main_v106 : Ref sig .tc).ty.Contents Val) :
    (StableHlo.TRef.of (T := ⟨S10000x256, .f32⟩) main_v106 h1 h2 h3).ofBuf v = v := rfl
theorem l1_scrubD_toBuf_main_v106 {Val : EltTy → Type} (h1 : (main_v106 : Ref sig .tc).ty = (⟨S10000x256, .f32⟩ : BufTy)) (h2 : (main_v106 : Ref sig .tc).space ≠ .host) (h3 : (main_v106 : Ref sig .tc).isScoped = false) (v : (⟨S10000x256, .f32⟩ : BufTy).Contents Val) :
    (StableHlo.TRef.of (T := ⟨S10000x256, .f32⟩) main_v106 h1 h2 h3).toBuf v = v := rfl

/-- The buffers this stretch writes. -/
abbrev l1_scrubD_written : List (Ref sig .tc) :=
  [main_cst_34, main_cst_35, main_cst_36, main_call7_v0, main_call7_v1, main_call7_call0_v0, main_call7_v2, main_call7_cst, main_call7_v3, main_call7_v4, main_call7_v5, main_call7_call1_v0, main_call7_v6, main_call7_cst_0, main_call7_v7, main_call7_v8, main_call7_v9, main_call7_call2_v0, main_v106]
theorem l1_scrubD_writes : (l1_scrubD : List (HloOp τ sig (Elt F))).Forall fun op => op.writes ⊆ ((l1_scrubD_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l1_scrubD_run (W : Valuation τ sig (Elt F)) : Valuation τ sig (Elt F) :=
  StableHlo.after l1_scrubD W

/-- A buffer the stretch does not write keeps its contents. -/
theorem l1_scrubD_frame (W : Valuation τ sig (Elt F)) {r : Ref sig .tc} (hr : r ∉ l1_scrubD_written) :
    l1_scrubD_run W (no_index (Proc.devRef .tc r)) = W (Proc.devRef .tc r) := by
  have h := StableHlo.after_of_writes_sub (τ := τ) (l1_scrubD) W (l1_scrubD_writes) hr
  exact h

theorem l1_scrubD_v106 (W : Valuation τ sig (Elt F)) :
    l1_scrubD_run W (Proc.devRef .tc main_v106) = Cert.Stages.safeOf (W (Proc.devRef .tc main_v105)) := by
  unfold l1_scrubD_run
  after_results_simp
  simp only [l1_scrubD_ofBuf_main_v106, l1_scrubD_toBuf_main_v106, l1_scrubD_ofBuf_main_call7_v8, l1_scrubD_toBuf_main_call7_v8, l1_scrubD_ofBuf_main_call7_call2_v0, l1_scrubD_toBuf_main_call7_call2_v0, l1_scrubD_ofBuf_main_call7_v6, l1_scrubD_toBuf_main_call7_v6, l1_scrubD_ofBuf_main_call7_v4, l1_scrubD_toBuf_main_call7_v4, l1_scrubD_ofBuf_main_call7_call1_v0, l1_scrubD_toBuf_main_call7_call1_v0, l1_scrubD_ofBuf_main_call7_v2, l1_scrubD_toBuf_main_call7_v2, l1_scrubD_ofBuf_main_call7_v0, l1_scrubD_toBuf_main_call7_v0, l1_scrubD_ofBuf_main_call7_call0_v0, l1_scrubD_toBuf_main_call7_call0_v0, l1_scrubD_ofBuf_main_v105, l1_scrubD_toBuf_main_v105, l1_scrubD_ofBuf_main_call7_v1, l1_scrubD_toBuf_main_call7_v1, l1_scrubD_ofBuf_main_cst_34, l1_scrubD_toBuf_main_cst_34, l1_scrubD_ofBuf_main_call7_v5, l1_scrubD_toBuf_main_call7_v5, l1_scrubD_ofBuf_main_cst_36, l1_scrubD_toBuf_main_cst_36, l1_scrubD_ofBuf_main_call7_v3, l1_scrubD_toBuf_main_call7_v3, l1_scrubD_ofBuf_main_call7_cst, l1_scrubD_toBuf_main_call7_cst, l1_scrubD_ofBuf_main_call7_v9, l1_scrubD_toBuf_main_call7_v9, l1_scrubD_ofBuf_main_cst_35, l1_scrubD_toBuf_main_cst_35, l1_scrubD_ofBuf_main_call7_v7, l1_scrubD_toBuf_main_call7_v7, l1_scrubD_ofBuf_main_call7_cst_0, l1_scrubD_toBuf_main_call7_cst_0]
  first | done | rfl

end Cert.ReferenceIdeal.RefRun

end
-- ==== Proof.RefValueL2a.lean ====
/-
  The second layer's three Chebyshev terms and their products read back: from arbitrary contents, what each stretch of the reference program's line leaves in the
  buffers later stretches read, as the staged functions of what it read; every other buffer keeps its contents.
-/
import proofs.«134588_j19095424598406_1_alg».proof.Proof.RefOps2
import proofs.«134588_j19095424598406_1_alg».proof.Proof.RefOps3
import proofs.«134588_j19095424598406_1_alg».proof.Proof.RefDense
import proofs.«134588_j19095424598406_1_alg».proof.Proof.RefFrameLib
import proofs.«134588_j19095424598406_1_alg».proof.Proof.LibAfterAppend

noncomputable section

namespace Cert.ReferenceIdeal.RefRun

open Idealize.ShloMosaic Idealize.ShloMosaic.StableHlo Idealize.SL.Sem Cert.ReferenceIdeal Cert.ReferenceIdeal.Facts₀

variable {F : FTy → Type} [FloatOps F]

/-! ### Layer 2: the first product -/

/-- The buffers this stretch writes. -/
abbrev l2_term0_written : List (Ref sig .tc) :=
  [main_v107, main_v108, main_v109]
theorem l2_term0_writes : (l2_term0 : List (HloOp τ sig (Elt F))).Forall fun op => op.writes ⊆ ((l2_term0_written).map (Proc.devRef (τ := τ) .tc)).toFinset :=
  ⟨writes_sub_of_mem (by decide), writes_sub_of_mem (by decide), writes_sub_of_mem (by decide)⟩

/-- The contents after this stretch, from contents `W`. -/
def l2_term0_run (W : Valuation τ sig (Elt F)) : Valuation τ sig (Elt F) :=
  StableHlo.after l2_term0 W

/-- A buffer the stretch does not write keeps its contents. -/
theorem l2_term0_frame (W : Valuation τ sig (Elt F)) {r : Ref sig .tc} (hr : r ∉ l2_term0_written) :
    l2_term0_run W (no_index (Proc.devRef .tc r)) = W (Proc.devRef .tc r) := by
  have h := StableHlo.after_of_writes_sub (τ := τ) (l2_term0) W (l2_term0_writes) hr
  exact h

theorem l2_term0_v109 (W : Valuation τ sig (Elt F)) :
    l2_term0_run W (Proc.devRef .tc main_v109) = Host.dotGeneral dot_S10000x256_S256x256_S10000x256_1_0_0_1_n_n none (W (Proc.devRef .tc main_v106)) (Cert.Stages.w0Of (W (Proc.devRef .tc main_arg7))) := by
  unfold l2_term0_run
  after_results_simp
  first | done | rfl

/-! ### Layer 2: the first sparse product -/

/-- The buffers this stretch writes. -/
abbrev l2_prop1_written : List (Ref sig .tc) :=
  [main_v110, main_c_37, main_v111, main_v112, main_c_38, main_v113, main_v114, main_v115, main_v116, main_v117, main_v118, main_v119, main_cst_39, main_v120, main_v121, main_v122]
theorem l2_prop1_writes : (l2_prop1 : List (HloOp τ sig (Elt F))).Forall fun op => op.writes ⊆ ((l2_prop1_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l2_prop1_run (W : Valuation τ sig (Elt F)) : Valuation τ sig (Elt F) :=
  StableHlo.after l2_prop1 W

/-- A buffer the stretch does not write keeps its contents. -/
theorem l2_prop1_frame (W : Valuation τ sig (Elt F)) {r : Ref sig .tc} (hr : r ∉ l2_prop1_written) :
    l2_prop1_run W (no_index (Proc.devRef .tc r)) = W (Proc.devRef .tc r) := by
  have h := StableHlo.after_of_writes_sub (τ := τ) (l2_prop1) W (l2_prop1_writes) hr
  exact h

theorem l2_prop1_v122 (W : Valuation τ sig (Elt F)) :
    l2_prop1_run W (Proc.devRef .tc main_v122) = Cert.Stages.propOf (W (Proc.devRef .tc main_v32)) (W (Proc.devRef .tc main_v5)) (W (Proc.devRef .tc main_v7)) (W (Proc.devRef .tc main_v106)) := by
  unfold l2_prop1_run
  after_results_simp
  first | done | rfl

/-! ### Layer 2: the second product added -/

/-- The buffers this stretch writes. -/
abbrev l2_term1_written : List (Ref sig .tc) :=
  [main_v123, main_v124, main_v125, main_v126]
theorem l2_term1_writes : (l2_term1 : List (HloOp τ sig (Elt F))).Forall fun op => op.writes ⊆ ((l2_term1_written).map (Proc.devRef (τ := τ) .tc)).toFinset :=
  ⟨writes_sub_of_mem (by decide), writes_sub_of_mem (by decide), writes_sub_of_mem (by decide), writes_sub_of_mem (by decide)⟩

/-- The contents after this stretch, from contents `W`. -/
def l2_term1_run (W : Valuation τ sig (Elt F)) : Valuation τ sig (Elt F) :=
  StableHlo.after l2_term1 W

/-- A buffer the stretch does not write keeps its contents. -/
theorem l2_term1_frame (W : Valuation τ sig (Elt F)) {r : Ref sig .tc} (hr : r ∉ l2_term1_written) :
    l2_term1_run W (no_index (Proc.devRef .tc r)) = W (Proc.devRef .tc r) := by
  have h := StableHlo.after_of_writes_sub (τ := τ) (l2_term1) W (l2_term1_writes) hr
  exact h

theorem l2_term1_v126 (W : Valuation τ sig (Elt F)) :
    l2_term1_run W (Proc.devRef .tc main_v126) = addf (W (Proc.devRef .tc main_v109)) (Host.dotGeneral dot_S10000x256_S256x256_S10000x256_1_0_0_1_n_n none (W (Proc.devRef .tc main_v122)) (Cert.Stages.w1Of (W (Proc.devRef .tc main_arg7)))) := by
  unfold l2_term1_run
  after_results_simp
  first | done | rfl

/-! ### Layer 2: the second sparse product -/

/-- The buffers this stretch writes. -/
abbrev l2_prop2_written : List (Ref sig .tc) :=
  [main_v127, main_c_40, main_v128, main_v129, main_c_41, main_v130, main_v131, main_v132, main_v133, main_v134, main_v135, main_v136, main_cst_42, main_v137, main_v138, main_v139]
theorem l2_prop2a_writes : (l2_prop2a : List (HloOp τ sig (Elt F))).Forall fun op => op.writes ⊆ ((l2_prop2_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩
theorem l2_prop2b_writes : (l2_prop2b : List (HloOp τ sig (Elt F))).Forall fun op => op.writes ⊆ ((l2_prop2_written).map (Proc.devRef (τ := τ) .tc)).toFinset :=
  ⟨writes_sub_of_mem (by decide), writes_sub_of_mem (by decide), writes_sub_of_mem (by decide), writes_sub_of_mem (by decide), writes_sub_of_mem (by decide)⟩

/-- The contents after this stretch, from contents `W`. -/
def l2_prop2_run (W : Valuation τ sig (Elt F)) : Valuation τ sig (Elt F) :=
  StableHlo.after l2_prop2b (StableHlo.after l2_prop2a W)

/-- A buffer the stretch does not write keeps its contents. -/
theorem l2_prop2_frame (W : Valuation τ sig (Elt F)) {r : Ref sig .tc} (hr : r ∉ l2_prop2_written) :
    l2_prop2_run W (no_index (Proc.devRef .tc r)) = W (Proc.devRef .tc r) := by
  have h := StableHlo.after_of_writes_sub (τ := τ) (l2_prop2a ++ (l2_prop2b)) W (forall_append l2_prop2a_writes (l2_prop2b_writes)) hr
  simp only [StableHlo.after_append] at h
  exact h

theorem l2_prop2_v139 (W : Valuation τ sig (Elt F)) :
    l2_prop2_run W (Proc.devRef .tc main_v139) = Cert.Stages.propOf (W (Proc.devRef .tc main_v32)) (W (Proc.devRef .tc main_v5)) (W (Proc.devRef .tc main_v7)) (W (Proc.devRef .tc main_v122)) := by
  unfold l2_prop2_run
  after_results_simp
  first | done | rfl

/-! ### Layer 2: the recurrence -/

/-- The buffers this stretch writes. -/
abbrev l2_cheb_written : List (Ref sig .tc) :=
  [main_cst_43, main_v140, main_v141, main_v142]
theorem l2_cheb_writes : (l2_cheb : List (HloOp τ sig (Elt F))).Forall fun op => op.writes ⊆ ((l2_cheb_written).map (Proc.devRef (τ := τ) .tc)).toFinset :=
  ⟨writes_sub_of_mem (by decide), writes_sub_of_mem (by decide), writes_sub_of_mem (by decide), writes_sub_of_mem (by decide)⟩

/-- The contents after this stretch, from contents `W`. -/
def l2_cheb_run (W : Valuation τ sig (Elt F)) : Valuation τ sig (Elt F) :=
  StableHlo.after l2_cheb W

/-- A buffer the stretch does not write keeps its contents. -/
theorem l2_cheb_frame (W : Valuation τ sig (Elt F)) {r : Ref sig .tc} (hr : r ∉ l2_cheb_written) :
    l2_cheb_run W (no_index (Proc.devRef .tc r)) = W (Proc.devRef .tc r) := by
  have h := StableHlo.after_of_writes_sub (τ := τ) (l2_cheb) W (l2_cheb_writes) hr
  exact h

theorem l2_cheb_v142 (W : Valuation τ sig (Elt F)) :
    l2_cheb_run W (Proc.devRef .tc main_v142) = Cert.Stages.tx2Of (W (Proc.devRef .tc main_v139)) (W (Proc.devRef .tc main_v106)) := by
  unfold l2_cheb_run
  after_results_simp
  first | done | rfl

/-! ### Layer 2: the third product added -/

/-- The buffers this stretch writes. -/
abbrev l2_term2_written : List (Ref sig .tc) :=
  [main_v143, main_v144, main_v145, main_v146]
theorem l2_term2_writes : (l2_term2 : List (HloOp τ sig (Elt F))).Forall fun op => op.writes ⊆ ((l2_term2_written).map (Proc.devRef (τ := τ) .tc)).toFinset :=
  ⟨writes_sub_of_mem (by decide), writes_sub_of_mem (by decide), writes_sub_of_mem (by decide), writes_sub_of_mem (by decide)⟩

/-- The contents after this stretch, from contents `W`. -/
def l2_term2_run (W : Valuation τ sig (Elt F)) : Valuation τ sig (Elt F) :=
  StableHlo.after l2_term2 W

/-- A buffer the stretch does not write keeps its contents. -/
theorem l2_term2_frame (W : Valuation τ sig (Elt F)) {r : Ref sig .tc} (hr : r ∉ l2_term2_written) :
    l2_term2_run W (no_index (Proc.devRef .tc r)) = W (Proc.devRef .tc r) := by
  have h := StableHlo.after_of_writes_sub (τ := τ) (l2_term2) W (l2_term2_writes) hr
  exact h

theorem l2_term2_v146 (W : Valuation τ sig (Elt F)) :
    l2_term2_run W (Proc.devRef .tc main_v146) = addf (W (Proc.devRef .tc main_v126)) (Host.dotGeneral dot_S10000x256_S256x256_S10000x256_1_0_0_1_n_n none (W (Proc.devRef .tc main_v142)) (Cert.Stages.w2Of (W (Proc.devRef .tc main_arg7)))) := by
  unfold l2_term2_run
  after_results_simp
  first | done | rfl

/-! ### Layer 2: the bias added -/

/-- The buffers this stretch writes. -/
abbrev l2_bias_written : List (Ref sig .tc) :=
  [main_v147, main_v148, main_v149]
theorem l2_bias_writes : (l2_bias : List (HloOp τ sig (Elt F))).Forall fun op => op.writes ⊆ ((l2_bias_written).map (Proc.devRef (τ := τ) .tc)).toFinset :=
  ⟨writes_sub_of_mem (by decide), writes_sub_of_mem (by decide), writes_sub_of_mem (by decide)⟩

/-- The contents after this stretch, from contents `W`. -/
def l2_bias_run (W : Valuation τ sig (Elt F)) : Valuation τ sig (Elt F) :=
  StableHlo.after l2_bias W

/-- A buffer the stretch does not write keeps its contents. -/
theorem l2_bias_frame (W : Valuation τ sig (Elt F)) {r : Ref sig .tc} (hr : r ∉ l2_bias_written) :
    l2_bias_run W (no_index (Proc.devRef .tc r)) = W (Proc.devRef .tc r) := by
  have h := StableHlo.after_of_writes_sub (τ := τ) (l2_bias) W (l2_bias_writes) hr
  exact h

theorem l2_bias_v149 (W : Valuation τ sig (Elt F)) :
    l2_bias_run W (Proc.devRef .tc main_v149) = addf (W (Proc.devRef .tc main_v146)) (Cert.Stages.rowVecRef (W (Proc.devRef .tc main_arg8))) := by
  unfold l2_bias_run
  after_results_simp
  first | done | rfl

end Cert.ReferenceIdeal.RefRun

end
-- ==== Proof.RefValueL2b.lean ====
/-
  The second layer's normalisation, rectification and residual read back: from arbitrary contents, what each stretch of the reference program's line leaves in the
  buffers later stretches read, as the staged functions of what it read; every other buffer keeps its contents.
-/
import proofs.«134588_j19095424598406_1_alg».proof.Proof.RefOps3
import proofs.«134588_j19095424598406_1_alg».proof.Proof.RefOps4
import proofs.«134588_j19095424598406_1_alg».proof.Proof.RefDense
import proofs.«134588_j19095424598406_1_alg».proof.Proof.RefFrameLib
import proofs.«134588_j19095424598406_1_alg».proof.Proof.LibAfterAppend

noncomputable section

namespace Cert.ReferenceIdeal.RefRun

open Idealize.ShloMosaic Idealize.ShloMosaic.StableHlo Idealize.SL.Sem Cert.ReferenceIdeal Cert.ReferenceIdeal.Facts₀

variable {F : FTy → Type} [FloatOps F]

/-! ### Layer 2: the sum scrubbed -/
theorem l2_scrubA_ofBuf_main_v149 {Val : EltTy → Type} (h1 : (main_v149 : Ref sig .tc).ty = (⟨S10000x256, .f32⟩ : BufTy)) (h2 : (main_v149 : Ref sig .tc).space ≠ .host) (h3 : (main_v149 : Ref sig .tc).isScoped = false) (v : (main_v149 : Ref sig .tc).ty.Contents Val) :
    (StableHlo.TRef.of (T := ⟨S10000x256, .f32⟩) main_v149 h1 h2 h3).ofBuf v = v := rfl
theorem l2_scrubA_toBuf_main_v149 {Val : EltTy → Type} (h1 : (main_v149 : Ref sig .tc).ty = (⟨S10000x256, .f32⟩ : BufTy)) (h2 : (main_v149 : Ref sig .tc).space ≠ .host) (h3 : (main_v149 : Ref sig .tc).isScoped = false) (v : (⟨S10000x256, .f32⟩ : BufTy).Contents Val) :
    (StableHlo.TRef.of (T := ⟨S10000x256, .f32⟩) main_v149 h1 h2 h3).toBuf v = v := rfl
theorem l2_scrubA_ofBuf_main_call8_v0 {Val : EltTy → Type} (h1 : (main_call8_v0 : Ref sig .tc).ty = (⟨S10000x256, .i1⟩ : BufTy)) (h2 : (main_call8_v0 : Ref sig .tc).space ≠ .host) (h3 : (main_call8_v0 : Ref sig .tc).isScoped = false) (v : (main_call8_v0 : Ref sig .tc).ty.Contents Val) :
    (StableHlo.TRef.of (T := ⟨S10000x256, .i1⟩) main_call8_v0 h1 h2 h3).ofBuf v = v := rfl
theorem l2_scrubA_toBuf_main_call8_v0 {Val : EltTy → Type} (h1 : (main_call8_v0 : Ref sig .tc).ty = (⟨S10000x256, .i1⟩ : BufTy)) (h2 : (main_call8_v0 : Ref sig .tc).space ≠ .host) (h3 : (main_call8_v0 : Ref sig .tc).isScoped = false) (v : (⟨S10000x256, .i1⟩ : BufTy).Contents Val) :
    (StableHlo.TRef.of (T := ⟨S10000x256, .i1⟩) main_call8_v0 h1 h2 h3).toBuf v = v := rfl
theorem l2_scrubA_ofBuf_main_cst_44 {Val : EltTy → Type} (h1 : (main_cst_44 : Ref sig .tc).ty = (⟨S_, .f32⟩ : BufTy)) (h2 : (main_cst_44 : Ref sig .tc).space ≠ .host) (h3 : (main_cst_44 : Ref sig .tc).isScoped = false) (v : (main_cst_44 : Ref sig .tc).ty.Contents Val) :
    (StableHlo.TRef.of (T := ⟨S_, .f32⟩) main_cst_44 h1 h2 h3).ofBuf v = v := rfl
theorem l2_scrubA_toBuf_main_cst_44 {Val : EltTy → Type} (h1 : (main_cst_44 : Ref sig .tc).ty = (⟨S_, .f32⟩ : BufTy)) (h2 : (main_cst_44 : Ref sig .tc).space ≠ .host) (h3 : (main_cst_44 : Ref sig .tc).isScoped = false) (v : (⟨S_, .f32⟩ : BufTy).Contents Val) :
    (StableHlo.TRef.of (T := ⟨S_, .f32⟩) main_cst_44 h1 h2 h3).toBuf v = v := rfl
theorem l2_scrubA_ofBuf_main_call8_v1 {Val : EltTy → Type} (h1 : (main_call8_v1 : Ref sig .tc).ty = (⟨S_, .f32⟩ : BufTy)) (h2 : (main_call8_v1 : Ref sig .tc).space ≠ .host) (h3 : (main_call8_v1 : Ref sig .tc).isScoped = false) (v : (main_call8_v1 : Ref sig .tc).ty.Contents Val) :
    (StableHlo.TRef.of (T := ⟨S_, .f32⟩) main_call8_v1 h1 h2 h3).ofBuf v = v := rfl
theorem l2_scrubA_toBuf_main_call8_v1 {Val : EltTy → Type} (h1 : (main_call8_v1 : Ref sig .tc).ty = (⟨S_, .f32⟩ : BufTy)) (h2 : (main_call8_v1 : Ref sig .tc).space ≠ .host) (h3 : (main_call8_v1 : Ref sig .tc).isScoped = false) (v : (⟨S_, .f32⟩ : BufTy).Contents Val) :
    (StableHlo.TRef.of (T := ⟨S_, .f32⟩) main_call8_v1 h1 h2 h3).toBuf v = v := rfl
theorem l2_scrubA_ofBuf_main_call8_call0_v0 {Val : EltTy → Type} (h1 : (main_call8_call0_v0 : Ref sig .tc).ty = (⟨S10000x256, .f32⟩ : BufTy)) (h2 : (main_call8_call0_v0 : Ref sig .tc).space ≠ .host) (h3 : (main_call8_call0_v0 : Ref sig .tc).isScoped = false) (v : (main_call8_call0_v0 : Ref sig .tc).ty.Contents Val) :
    (StableHlo.TRef.of (T := ⟨S10000x256, .f32⟩) main_call8_call0_v0 h1 h2 h3).ofBuf v = v := rfl
theorem l2_scrubA_toBuf_main_call8_call0_v0 {Val : EltTy → Type} (h1 : (main_call8_call0_v0 : Ref sig .tc).ty = (⟨S10000x256, .f32⟩ : BufTy)) (h2 : (main_call8_call0_v0 : Ref sig .tc).space ≠ .host) (h3 : (main_call8_call0_v0 : Ref sig .tc).isScoped = false) (v : (⟨S10000x256, .f32⟩ : BufTy).Contents Val) :
    (StableHlo.TRef.of (T := ⟨S10000x256, .f32⟩) main_call8_call0_v0 h1 h2 h3).toBuf v = v := rfl
theorem l2_scrubA_ofBuf_main_call8_v2 {Val : EltTy → Type} (h1 : (main_call8_v2 : Ref sig .tc).ty = (⟨S10000x256, .f32⟩ : BufTy)) (h2 : (main_call8_v2 : Ref sig .tc).space ≠ .host) (h3 : (main_call8_v2 : Ref sig .tc).isScoped = false) (v : (main_call8_v2 : Ref sig .tc).ty.Contents Val) :
    (StableHlo.TRef.of (T := ⟨S10000x256, .f32⟩) main_call8_v2 h1 h2 h3).ofBuf v = v := rfl
theorem l2_scrubA_toBuf_main_call8_v2 {Val : EltTy → Type} (h1 : (main_call8_v2 : Ref sig .tc).ty = (⟨S10000x256, .f32⟩ : BufTy)) (h2 : (main_call8_v2 : Ref sig .tc).space ≠ .host) (h3 : (main_call8_v2 : Ref sig .tc).isScoped = false) (v : (⟨S10000x256, .f32⟩ : BufTy).Contents Val) :
    (StableHlo.TRef.of (T := ⟨S10000x256, .f32⟩) main_call8_v2 h1 h2 h3).toBuf v = v := rfl
theorem l2_scrubA_ofBuf_main_call8_cst {Val : EltTy → Type} (h1 : (main_call8_cst : Ref sig .tc).ty = (⟨S_, .f32⟩ : BufTy)) (h2 : (main_call8_cst : Ref sig .tc).space ≠ .host) (h3 : (main_call8_cst : Ref sig .tc).isScoped = false) (v : (main_call8_cst : Ref sig .tc).ty.Contents Val) :
    (StableHlo.TRef.of (T := ⟨S_, .f32⟩) main_call8_cst h1 h2 h3).ofBuf v = v := rfl
theorem l2_scrubA_toBuf_main_call8_cst {Val : EltTy → Type} (h1 : (main_call8_cst : Ref sig .tc).ty = (⟨S_, .f32⟩ : BufTy)) (h2 : (main_call8_cst : Ref sig .tc).space ≠ .host) (h3 : (main_call8_cst : Ref sig .tc).isScoped = false) (v : (⟨S_, .f32⟩ : BufTy).Contents Val) :
    (StableHlo.TRef.of (T := ⟨S_, .f32⟩) main_call8_cst h1 h2 h3).toBuf v = v := rfl
theorem l2_scrubA_ofBuf_main_call8_v3 {Val : EltTy → Type} (h1 : (main_call8_v3 : Ref sig .tc).ty = (⟨S10000x256, .f32⟩ : BufTy)) (h2 : (main_call8_v3 : Ref sig .tc).space ≠ .host) (h3 : (main_call8_v3 : Ref sig .tc).isScoped = false) (v : (main_call8_v3 : Ref sig .tc).ty.Contents Val) :
    (StableHlo.TRef.of (T := ⟨S10000x256, .f32⟩) main_call8_v3 h1 h2 h3).ofBuf v = v := rfl
theorem l2_scrubA_toBuf_main_call8_v3 {Val : EltTy → Type} (h1 : (main_call8_v3 : Ref sig .tc).ty = (⟨S10000x256, .f32⟩ : BufTy)) (h2 : (main_call8_v3 : Ref sig .tc).space ≠ .host) (h3 : (main_call8_v3 : Ref sig .tc).isScoped = false) (v : (⟨S10000x256, .f32⟩ : BufTy).Contents Val) :
    (StableHlo.TRef.of (T := ⟨S10000x256, .f32⟩) main_call8_v3 h1 h2 h3).toBuf v = v := rfl
theorem l2_scrubA_ofBuf_main_call8_v4 {Val : EltTy → Type} (h1 : (main_call8_v4 : Ref sig .tc).ty = (⟨S10000x256, .i1⟩ : BufTy)) (h2 : (main_call8_v4 : Ref sig .tc).space ≠ .host) (h3 : (main_call8_v4 : Ref sig .tc).isScoped = false) (v : (main_call8_v4 : Ref sig .tc).ty.Contents Val) :
    (StableHlo.TRef.of (T := ⟨S10000x256, .i1⟩) main_call8_v4 h1 h2 h3).ofBuf v = v := rfl
theorem l2_scrubA_toBuf_main_call8_v4 {Val : EltTy → Type} (h1 : (main_call8_v4 : Ref sig .tc).ty = (⟨S10000x256, .i1⟩ : BufTy)) (h2 : (main_call8_v4 : Ref sig .tc).space ≠ .host) (h3 : (main_call8_v4 : Ref sig .tc).isScoped = false) (v : (⟨S10000x256, .i1⟩ : BufTy).Contents Val) :
    (StableHlo.TRef.of (T := ⟨S10000x256, .i1⟩) main_call8_v4 h1 h2 h3).toBuf v = v := rfl
theorem l2_scrubA_ofBuf_main_cst_46 {Val : EltTy → Type} (h1 : (main_cst_46 : Ref sig .tc).ty = (⟨S_, .f32⟩ : BufTy)) (h2 : (main_cst_46 : Ref sig .tc).space ≠ .host) (h3 : (main_cst_46 : Ref sig .tc).isScoped = false) (v : (main_cst_46 : Ref sig .tc).ty.Contents Val) :
    (StableHlo.TRef.of (T := ⟨S_, .f32⟩) main_cst_46 h1 h2 h3).ofBuf v = v := rfl
theorem l2_scrubA_toBuf_main_cst_46 {Val : EltTy → Type} (h1 : (main_cst_46 : Ref sig .tc).ty = (⟨S_, .f32⟩ : BufTy)) (h2 : (main_cst_46 : Ref sig .tc).space ≠ .host) (h3 : (main_cst_46 : Ref sig .tc).isScoped = false) (v : (⟨S_, .f32⟩ : BufTy).Contents Val) :
    (StableHlo.TRef.of (T := ⟨S_, .f32⟩) main_cst_46 h1 h2 h3).toBuf v = v := rfl
theorem l2_scrubA_ofBuf_main_call8_v5 {Val : EltTy → Type} (h1 : (main_call8_v5 : Ref sig .tc).ty = (⟨S_, .f32⟩ : BufTy)) (h2 : (main_call8_v5 : Ref sig .tc).space ≠ .host) (h3 : (main_call8_v5 : Ref sig .tc).isScoped = false) (v : (main_call8_v5 : Ref sig .tc).ty.Contents Val) :
    (StableHlo.TRef.of (T := ⟨S_, .f32⟩) main_call8_v5 h1 h2 h3).ofBuf v = v := rfl
theorem l2_scrubA_toBuf_main_call8_v5 {Val : EltTy → Type} (h1 : (main_call8_v5 : Ref sig .tc).ty = (⟨S_, .f32⟩ : BufTy)) (h2 : (main_call8_v5 : Ref sig .tc).space ≠ .host) (h3 : (main_call8_v5 : Ref sig .tc).isScoped = false) (v : (⟨S_, .f32⟩ : BufTy).Contents Val) :
    (StableHlo.TRef.of (T := ⟨S_, .f32⟩) main_call8_v5 h1 h2 h3).toBuf v = v := rfl
theorem l2_scrubA_ofBuf_main_call8_call1_v0 {Val : EltTy → Type} (h1 : (main_call8_call1_v0 : Ref sig .tc).ty = (⟨S10000x256, .f32⟩ : BufTy)) (h2 : (main_call8_call1_v0 : Ref sig .tc).space ≠ .host) (h3 : (main_call8_call1_v0 : Ref sig .tc).isScoped = false) (v : (main_call8_call1_v0 : Ref sig .tc).ty.Contents Val) :
    (StableHlo.TRef.of (T := ⟨S10000x256, .f32⟩) main_call8_call1_v0 h1 h2 h3).ofBuf v = v := rfl
theorem l2_scrubA_toBuf_main_call8_call1_v0 {Val : EltTy → Type} (h1 : (main_call8_call1_v0 : Ref sig .tc).ty = (⟨S10000x256, .f32⟩ : BufTy)) (h2 : (main_call8_call1_v0 : Ref sig .tc).space ≠ .host) (h3 : (main_call8_call1_v0 : Ref sig .tc).isScoped = false) (v : (⟨S10000x256, .f32⟩ : BufTy).Contents Val) :
    (StableHlo.TRef.of (T := ⟨S10000x256, .f32⟩) main_call8_call1_v0 h1 h2 h3).toBuf v = v := rfl
theorem l2_scrubA_ofBuf_main_call8_v6 {Val : EltTy → Type} (h1 : (main_call8_v6 : Ref sig .tc).ty = (⟨S10000x256, .f32⟩ : BufTy)) (h2 : (main_call8_v6 : Ref sig .tc).space ≠ .host) (h3 : (main_call8_v6 : Ref sig .tc).isScoped = false) (v : (main_call8_v6 : Ref sig .tc).ty.Contents Val) :
    (StableHlo.TRef.of (T := ⟨S10000x256, .f32⟩) main_call8_v6 h1 h2 h3).ofBuf v = v := rfl
theorem l2_scrubA_toBuf_main_call8_v6 {Val : EltTy → Type} (h1 : (main_call8_v6 : Ref sig .tc).ty = (⟨S10000x256, .f32⟩ : BufTy)) (h2 : (main_call8_v6 : Ref sig .tc).space ≠ .host) (h3 : (main_call8_v6 : Ref sig .tc).isScoped = false) (v : (⟨S10000x256, .f32⟩ : BufTy).Contents Val) :
    (StableHlo.TRef.of (T := ⟨S10000x256, .f32⟩) main_call8_v6 h1 h2 h3).toBuf v = v := rfl
theorem l2_scrubA_ofBuf_main_call8_cst_0 {Val : EltTy → Type} (h1 : (main_call8_cst_0 : Ref sig .tc).ty = (⟨S_, .f32⟩ : BufTy)) (h2 : (main_call8_cst_0 : Ref sig .tc).space ≠ .host) (h3 : (main_call8_cst_0 : Ref sig .tc).isScoped = false) (v : (main_call8_cst_0 : Ref sig .tc).ty.Contents Val) :
    (StableHlo.TRef.of (T := ⟨S_, .f32⟩) main_call8_cst_0 h1 h2 h3).ofBuf v = v := rfl
theorem l2_scrubA_toBuf_main_call8_cst_0 {Val : EltTy → Type} (h1 : (main_call8_cst_0 : Ref sig .tc).ty = (⟨S_, .f32⟩ : BufTy)) (h2 : (main_call8_cst_0 : Ref sig .tc).space ≠ .host) (h3 : (main_call8_cst_0 : Ref sig .tc).isScoped = false) (v : (⟨S_, .f32⟩ : BufTy).Contents Val) :
    (StableHlo.TRef.of (T := ⟨S_, .f32⟩) main_call8_cst_0 h1 h2 h3).toBuf v = v := rfl
theorem l2_scrubA_ofBuf_main_call8_v7 {Val : EltTy → Type} (h1 : (main_call8_v7 : Ref sig .tc).ty = (⟨S10000x256, .f32⟩ : BufTy)) (h2 : (main_call8_v7 : Ref sig .tc).space ≠ .host) (h3 : (main_call8_v7 : Ref sig .tc).isScoped = false) (v : (main_call8_v7 : Ref sig .tc).ty.Contents Val) :
    (StableHlo.TRef.of (T := ⟨S10000x256, .f32⟩) main_call8_v7 h1 h2 h3).ofBuf v = v := rfl
theorem l2_scrubA_toBuf_main_call8_v7 {Val : EltTy → Type} (h1 : (main_call8_v7 : Ref sig .tc).ty = (⟨S10000x256, .f32⟩ : BufTy)) (h2 : (main_call8_v7 : Ref sig .tc).space ≠ .host) (h3 : (main_call8_v7 : Ref sig .tc).isScoped = false) (v : (⟨S10000x256, .f32⟩ : BufTy).Contents Val) :
    (StableHlo.TRef.of (T := ⟨S10000x256, .f32⟩) main_call8_v7 h1 h2 h3).toBuf v = v := rfl
theorem l2_scrubA_ofBuf_main_call8_v8 {Val : EltTy → Type} (h1 : (main_call8_v8 : Ref sig .tc).ty = (⟨S10000x256, .i1⟩ : BufTy)) (h2 : (main_call8_v8 : Ref sig .tc).space ≠ .host) (h3 : (main_call8_v8 : Ref sig .tc).isScoped = false) (v : (main_call8_v8 : Ref sig .tc).ty.Contents Val) :
    (StableHlo.TRef.of (T := ⟨S10000x256, .i1⟩) main_call8_v8 h1 h2 h3).ofBuf v = v := rfl
theorem l2_scrubA_toBuf_main_call8_v8 {Val : EltTy → Type} (h1 : (main_call8_v8 : Ref sig .tc).ty = (⟨S10000x256, .i1⟩ : BufTy)) (h2 : (main_call8_v8 : Ref sig .tc).space ≠ .host) (h3 : (main_call8_v8 : Ref sig .tc).isScoped = false) (v : (⟨S10000x256, .i1⟩ : BufTy).Contents Val) :
    (StableHlo.TRef.of (T := ⟨S10000x256, .i1⟩) main_call8_v8 h1 h2 h3).toBuf v = v := rfl
theorem l2_scrubA_ofBuf_main_cst_45 {Val : EltTy → Type} (h1 : (main_cst_45 : Ref sig .tc).ty = (⟨S_, .f32⟩ : BufTy)) (h2 : (main_cst_45 : Ref sig .tc).space ≠ .host) (h3 : (main_cst_45 : Ref sig .tc).isScoped = false) (v : (main_cst_45 : Ref sig .tc).ty.Contents Val) :
    (StableHlo.TRef.of (T := ⟨S_, .f32⟩) main_cst_45 h1 h2 h3).ofBuf v = v := rfl
theorem l2_scrubA_toBuf_main_cst_45 {Val : EltTy → Type} (h1 : (main_cst_45 : Ref sig .tc).ty = (⟨S_, .f32⟩ : BufTy)) (h2 : (main_cst_45 : Ref sig .tc).space ≠ .host) (h3 : (main_cst_45 : Ref sig .tc).isScoped = false) (v : (⟨S_, .f32⟩ : BufTy).Contents Val) :
    (StableHlo.TRef.of (T := ⟨S_, .f32⟩) main_cst_45 h1 h2 h3).toBuf v = v := rfl
theorem l2_scrubA_ofBuf_main_call8_v9 {Val : EltTy → Type} (h1 : (main_call8_v9 : Ref sig .tc).ty = (⟨S_, .f32⟩ : BufTy)) (h2 : (main_call8_v9 : Ref sig .tc).space ≠ .host) (h3 : (main_call8_v9 : Ref sig .tc).isScoped = false) (v : (main_call8_v9 : Ref sig .tc).ty.Contents Val) :
    (StableHlo.TRef.of (T := ⟨S_, .f32⟩) main_call8_v9 h1 h2 h3).ofBuf v = v := rfl
theorem l2_scrubA_toBuf_main_call8_v9 {Val : EltTy → Type} (h1 : (main_call8_v9 : Ref sig .tc).ty = (⟨S_, .f32⟩ : BufTy)) (h2 : (main_call8_v9 : Ref sig .tc).space ≠ .host) (h3 : (main_call8_v9 : Ref sig .tc).isScoped = false) (v : (⟨S_, .f32⟩ : BufTy).Contents Val) :
    (StableHlo.TRef.of (T := ⟨S_, .f32⟩) main_call8_v9 h1 h2 h3).toBuf v = v := rfl
theorem l2_scrubA_ofBuf_main_call8_call2_v0 {Val : EltTy → Type} (h1 : (main_call8_call2_v0 : Ref sig .tc).ty = (⟨S10000x256, .f32⟩ : BufTy)) (h2 : (main_call8_call2_v0 : Ref sig .tc).space ≠ .host) (h3 : (main_call8_call2_v0 : Ref sig .tc).isScoped = false) (v : (main_call8_call2_v0 : Ref sig .tc).ty.Contents Val) :
    (StableHlo.TRef.of (T := ⟨S10000x256, .f32⟩) main_call8_call2_v0 h1 h2 h3).ofBuf v = v := rfl
theorem l2_scrubA_toBuf_main_call8_call2_v0 {Val : EltTy → Type} (h1 : (main_call8_call2_v0 : Ref sig .tc).ty = (⟨S10000x256, .f32⟩ : BufTy)) (h2 : (main_call8_call2_v0 : Ref sig .tc).space ≠ .host) (h3 : (main_call8_call2_v0 : Ref sig .tc).isScoped = false) (v : (⟨S10000x256, .f32⟩ : BufTy).Contents Val) :
    (StableHlo.TRef.of (T := ⟨S10000x256, .f32⟩) main_call8_call2_v0 h1 h2 h3).toBuf v = v := rfl
theorem l2_scrubA_ofBuf_main_v150 {Val : EltTy → Type} (h1 : (main_v150 : Ref sig .tc).ty = (⟨S10000x256, .f32⟩ : BufTy)) (h2 : (main_v150 : Ref sig .tc).space ≠ .host) (h3 : (main_v150 : Ref sig .tc).isScoped = false) (v : (main_v150 : Ref sig .tc).ty.Contents Val) :
    (StableHlo.TRef.of (T := ⟨S10000x256, .f32⟩) main_v150 h1 h2 h3).ofBuf v = v := rfl
theorem l2_scrubA_toBuf_main_v150 {Val : EltTy → Type} (h1 : (main_v150 : Ref sig .tc).ty = (⟨S10000x256, .f32⟩ : BufTy)) (h2 : (main_v150 : Ref sig .tc).space ≠ .host) (h3 : (main_v150 : Ref sig .tc).isScoped = false) (v : (⟨S10000x256, .f32⟩ : BufTy).Contents Val) :
    (StableHlo.TRef.of (T := ⟨S10000x256, .f32⟩) main_v150 h1 h2 h3).toBuf v = v := rfl

/-- The buffers this stretch writes. -/
abbrev l2_scrubA_written : List (Ref sig .tc) :=
  [main_cst_44, main_cst_45, main_cst_46, main_call8_v0, main_call8_v1, main_call8_call0_v0, main_call8_v2, main_call8_cst, main_call8_v3, main_call8_v4, main_call8_v5, main_call8_call1_v0, main_call8_v6, main_call8_cst_0, main_call8_v7, main_call8_v8, main_call8_v9, main_call8_call2_v0, main_v150]
theorem l2_scrubA_writes : (l2_scrubA : List (HloOp τ sig (Elt F))).Forall fun op => op.writes ⊆ ((l2_scrubA_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l2_scrubA_run (W : Valuation τ sig (Elt F)) : Valuation τ sig (Elt F) :=
  StableHlo.after l2_scrubA W

/-- A buffer the stretch does not write keeps its contents. -/
theorem l2_scrubA_frame (W : Valuation τ sig (Elt F)) {r : Ref sig .tc} (hr : r ∉ l2_scrubA_written) :
    l2_scrubA_run W (no_index (Proc.devRef .tc r)) = W (Proc.devRef .tc r) := by
  have h := StableHlo.after_of_writes_sub (τ := τ) (l2_scrubA) W (l2_scrubA_writes) hr
  exact h

theorem l2_scrubA_v150 (W : Valuation τ sig (Elt F)) :
    l2_scrubA_run W (Proc.devRef .tc main_v150) = Cert.Stages.safeOf (W (Proc.devRef .tc main_v149)) := by
  unfold l2_scrubA_run
  after_results_simp
  simp only [l2_scrubA_ofBuf_main_v150, l2_scrubA_toBuf_main_v150, l2_scrubA_ofBuf_main_call8_v8, l2_scrubA_toBuf_main_call8_v8, l2_scrubA_ofBuf_main_call8_call2_v0, l2_scrubA_toBuf_main_call8_call2_v0, l2_scrubA_ofBuf_main_call8_v6, l2_scrubA_toBuf_main_call8_v6, l2_scrubA_ofBuf_main_call8_v4, l2_scrubA_toBuf_main_call8_v4, l2_scrubA_ofBuf_main_call8_call1_v0, l2_scrubA_toBuf_main_call8_call1_v0, l2_scrubA_ofBuf_main_call8_v2, l2_scrubA_toBuf_main_call8_v2, l2_scrubA_ofBuf_main_call8_v0, l2_scrubA_toBuf_main_call8_v0, l2_scrubA_ofBuf_main_call8_call0_v0, l2_scrubA_toBuf_main_call8_call0_v0, l2_scrubA_ofBuf_main_v149, l2_scrubA_toBuf_main_v149, l2_scrubA_ofBuf_main_call8_v1, l2_scrubA_toBuf_main_call8_v1, l2_scrubA_ofBuf_main_cst_44, l2_scrubA_toBuf_main_cst_44, l2_scrubA_ofBuf_main_call8_v5, l2_scrubA_toBuf_main_call8_v5, l2_scrubA_ofBuf_main_cst_46, l2_scrubA_toBuf_main_cst_46, l2_scrubA_ofBuf_main_call8_v3, l2_scrubA_toBuf_main_call8_v3, l2_scrubA_ofBuf_main_call8_cst, l2_scrubA_toBuf_main_call8_cst, l2_scrubA_ofBuf_main_call8_v9, l2_scrubA_toBuf_main_call8_v9, l2_scrubA_ofBuf_main_cst_45, l2_scrubA_toBuf_main_cst_45, l2_scrubA_ofBuf_main_call8_v7, l2_scrubA_toBuf_main_call8_v7, l2_scrubA_ofBuf_main_call8_cst_0, l2_scrubA_toBuf_main_call8_cst_0]
  first | done | rfl

/-! ### Layer 2: normalisation over each row -/

/-- The buffers this stretch writes. -/
abbrev l2_norm_written : List (Ref sig .tc) :=
  [main_cst_47, main_v151, main_v152, main_cst_48, main_v153, main_v154, main_v155, main_v156, main_v157, main_cst_49, main_v158, main_v159, main_cst_50, main_v160, main_v161, main_v162, main_v163, main_cst_51, main_v164, main_v165, main_v166, main_v167, main_v168, main_v169, main_v170, main_v171, main_v172, main_v173, main_v174]
theorem l2_norm_writes : (l2_norm : List (HloOp τ sig (Elt F))).Forall fun op => op.writes ⊆ ((l2_norm_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l2_norm_run (W : Valuation τ sig (Elt F)) : Valuation τ sig (Elt F) :=
  StableHlo.after l2_norm W

/-- A buffer the stretch does not write keeps its contents. -/
theorem l2_norm_frame (W : Valuation τ sig (Elt F)) {r : Ref sig .tc} (hr : r ∉ l2_norm_written) :
    l2_norm_run W (no_index (Proc.devRef .tc r)) = W (Proc.devRef .tc r) := by
  have h := StableHlo.after_of_writes_sub (τ := τ) (l2_norm) W (l2_norm_writes) hr
  exact h

theorem l2_norm_v174 (W : Valuation τ sig (Elt F)) :
    l2_norm_run W (Proc.devRef .tc main_v174) = Cert.Stages.lnRef (W (Proc.devRef .tc main_v150)) (W (Proc.devRef .tc main_arg9)) (W (Proc.devRef .tc main_arg10)) := by
  unfold l2_norm_run
  after_results_simp
  first | done | rfl

/-! ### Layer 2: the normalised rows scrubbed -/
theorem l2_scrubB_ofBuf_main_v174 {Val : EltTy → Type} (h1 : (main_v174 : Ref sig .tc).ty = (⟨S10000x256, .f32⟩ : BufTy)) (h2 : (main_v174 : Ref sig .tc).space ≠ .host) (h3 : (main_v174 : Ref sig .tc).isScoped = false) (v : (main_v174 : Ref sig .tc).ty.Contents Val) :
    (StableHlo.TRef.of (T := ⟨S10000x256, .f32⟩) main_v174 h1 h2 h3).ofBuf v = v := rfl
theorem l2_scrubB_toBuf_main_v174 {Val : EltTy → Type} (h1 : (main_v174 : Ref sig .tc).ty = (⟨S10000x256, .f32⟩ : BufTy)) (h2 : (main_v174 : Ref sig .tc).space ≠ .host) (h3 : (main_v174 : Ref sig .tc).isScoped = false) (v : (⟨S10000x256, .f32⟩ : BufTy).Contents Val) :
    (StableHlo.TRef.of (T := ⟨S10000x256, .f32⟩) main_v174 h1 h2 h3).toBuf v = v := rfl
theorem l2_scrubB_ofBuf_main_call9_v0 {Val : EltTy → Type} (h1 : (main_call9_v0 : Ref sig .tc).ty = (⟨S10000x256, .i1⟩ : BufTy)) (h2 : (main_call9_v0 : Ref sig .tc).space ≠ .host) (h3 : (main_call9_v0 : Ref sig .tc).isScoped = false) (v : (main_call9_v0 : Ref sig .tc).ty.Contents Val) :
    (StableHlo.TRef.of (T := ⟨S10000x256, .i1⟩) main_call9_v0 h1 h2 h3).ofBuf v = v := rfl
theorem l2_scrubB_toBuf_main_call9_v0 {Val : EltTy → Type} (h1 : (main_call9_v0 : Ref sig .tc).ty = (⟨S10000x256, .i1⟩ : BufTy)) (h2 : (main_call9_v0 : Ref sig .tc).space ≠ .host) (h3 : (main_call9_v0 : Ref sig .tc).isScoped = false) (v : (⟨S10000x256, .i1⟩ : BufTy).Contents Val) :
    (StableHlo.TRef.of (T := ⟨S10000x256, .i1⟩) main_call9_v0 h1 h2 h3).toBuf v = v := rfl
theorem l2_scrubB_ofBuf_main_cst_52 {Val : EltTy → Type} (h1 : (main_cst_52 : Ref sig .tc).ty = (⟨S_, .f32⟩ : BufTy)) (h2 : (main_cst_52 : Ref sig .tc).space ≠ .host) (h3 : (main_cst_52 : Ref sig .tc).isScoped = false) (v : (main_cst_52 : Ref sig .tc).ty.Contents Val) :
    (StableHlo.TRef.of (T := ⟨S_, .f32⟩) main_cst_52 h1 h2 h3).ofBuf v = v := rfl
theorem l2_scrubB_toBuf_main_cst_52 {Val : EltTy → Type} (h1 : (main_cst_52 : Ref sig .tc).ty = (⟨S_, .f32⟩ : BufTy)) (h2 : (main_cst_52 : Ref sig .tc).space ≠ .host) (h3 : (main_cst_52 : Ref sig .tc).isScoped = false) (v : (⟨S_, .f32⟩ : BufTy).Contents Val) :
    (StableHlo.TRef.of (T := ⟨S_, .f32⟩) main_cst_52 h1 h2 h3).toBuf v = v := rfl
theorem l2_scrubB_ofBuf_main_call9_v1 {Val : EltTy → Type} (h1 : (main_call9_v1 : Ref sig .tc).ty = (⟨S_, .f32⟩ : BufTy)) (h2 : (main_call9_v1 : Ref sig .tc).space ≠ .host) (h3 : (main_call9_v1 : Ref sig .tc).isScoped = false) (v : (main_call9_v1 : Ref sig .tc).ty.Contents Val) :
    (StableHlo.TRef.of (T := ⟨S_, .f32⟩) main_call9_v1 h1 h2 h3).ofBuf v = v := rfl
theorem l2_scrubB_toBuf_main_call9_v1 {Val : EltTy → Type} (h1 : (main_call9_v1 : Ref sig .tc).ty = (⟨S_, .f32⟩ : BufTy)) (h2 : (main_call9_v1 : Ref sig .tc).space ≠ .host) (h3 : (main_call9_v1 : Ref sig .tc).isScoped = false) (v : (⟨S_, .f32⟩ : BufTy).Contents Val) :
    (StableHlo.TRef.of (T := ⟨S_, .f32⟩) main_call9_v1 h1 h2 h3).toBuf v = v := rfl
theorem l2_scrubB_ofBuf_main_call9_call0_v0 {Val : EltTy → Type} (h1 : (main_call9_call0_v0 : Ref sig .tc).ty = (⟨S10000x256, .f32⟩ : BufTy)) (h2 : (main_call9_call0_v0 : Ref sig .tc).space ≠ .host) (h3 : (main_call9_call0_v0 : Ref sig .tc).isScoped = false) (v : (main_call9_call0_v0 : Ref sig .tc).ty.Contents Val) :
    (StableHlo.TRef.of (T := ⟨S10000x256, .f32⟩) main_call9_call0_v0 h1 h2 h3).ofBuf v = v := rfl
theorem l2_scrubB_toBuf_main_call9_call0_v0 {Val : EltTy → Type} (h1 : (main_call9_call0_v0 : Ref sig .tc).ty = (⟨S10000x256, .f32⟩ : BufTy)) (h2 : (main_call9_call0_v0 : Ref sig .tc).space ≠ .host) (h3 : (main_call9_call0_v0 : Ref sig .tc).isScoped = false) (v : (⟨S10000x256, .f32⟩ : BufTy).Contents Val) :
    (StableHlo.TRef.of (T := ⟨S10000x256, .f32⟩) main_call9_call0_v0 h1 h2 h3).toBuf v = v := rfl
theorem l2_scrubB_ofBuf_main_call9_v2 {Val : EltTy → Type} (h1 : (main_call9_v2 : Ref sig .tc).ty = (⟨S10000x256, .f32⟩ : BufTy)) (h2 : (main_call9_v2 : Ref sig .tc).space ≠ .host) (h3 : (main_call9_v2 : Ref sig .tc).isScoped = false) (v : (main_call9_v2 : Ref sig .tc).ty.Contents Val) :
    (StableHlo.TRef.of (T := ⟨S10000x256, .f32⟩) main_call9_v2 h1 h2 h3).ofBuf v = v := rfl
theorem l2_scrubB_toBuf_main_call9_v2 {Val : EltTy → Type} (h1 : (main_call9_v2 : Ref sig .tc).ty = (⟨S10000x256, .f32⟩ : BufTy)) (h2 : (main_call9_v2 : Ref sig .tc).space ≠ .host) (h3 : (main_call9_v2 : Ref sig .tc).isScoped = false) (v : (⟨S10000x256, .f32⟩ : BufTy).Contents Val) :
    (StableHlo.TRef.of (T := ⟨S10000x256, .f32⟩) main_call9_v2 h1 h2 h3).toBuf v = v := rfl
theorem l2_scrubB_ofBuf_main_call9_cst {Val : EltTy → Type} (h1 : (main_call9_cst : Ref sig .tc).ty = (⟨S_, .f32⟩ : BufTy)) (h2 : (main_call9_cst : Ref sig .tc).space ≠ .host) (h3 : (main_call9_cst : Ref sig .tc).isScoped = false) (v : (main_call9_cst : Ref sig .tc).ty.Contents Val) :
    (StableHlo.TRef.of (T := ⟨S_, .f32⟩) main_call9_cst h1 h2 h3).ofBuf v = v := rfl
theorem l2_scrubB_toBuf_main_call9_cst {Val : EltTy → Type} (h1 : (main_call9_cst : Ref sig .tc).ty = (⟨S_, .f32⟩ : BufTy)) (h2 : (main_call9_cst : Ref sig .tc).space ≠ .host) (h3 : (main_call9_cst : Ref sig .tc).isScoped = false) (v : (⟨S_, .f32⟩ : BufTy).Contents Val) :
    (StableHlo.TRef.of (T := ⟨S_, .f32⟩) main_call9_cst h1 h2 h3).toBuf v = v := rfl
theorem l2_scrubB_ofBuf_main_call9_v3 {Val : EltTy → Type} (h1 : (main_call9_v3 : Ref sig .tc).ty = (⟨S10000x256, .f32⟩ : BufTy)) (h2 : (main_call9_v3 : Ref sig .tc).space ≠ .host) (h3 : (main_call9_v3 : Ref sig .tc).isScoped = false) (v : (main_call9_v3 : Ref sig .tc).ty.Contents Val) :
    (StableHlo.TRef.of (T := ⟨S10000x256, .f32⟩) main_call9_v3 h1 h2 h3).ofBuf v = v := rfl
theorem l2_scrubB_toBuf_main_call9_v3 {Val : EltTy → Type} (h1 : (main_call9_v3 : Ref sig .tc).ty = (⟨S10000x256, .f32⟩ : BufTy)) (h2 : (main_call9_v3 : Ref sig .tc).space ≠ .host) (h3 : (main_call9_v3 : Ref sig .tc).isScoped = false) (v : (⟨S10000x256, .f32⟩ : BufTy).Contents Val) :
    (StableHlo.TRef.of (T := ⟨S10000x256, .f32⟩) main_call9_v3 h1 h2 h3).toBuf v = v := rfl
theorem l2_scrubB_ofBuf_main_call9_v4 {Val : EltTy → Type} (h1 : (main_call9_v4 : Ref sig .tc).ty = (⟨S10000x256, .i1⟩ : BufTy)) (h2 : (main_call9_v4 : Ref sig .tc).space ≠ .host) (h3 : (main_call9_v4 : Ref sig .tc).isScoped = false) (v : (main_call9_v4 : Ref sig .tc).ty.Contents Val) :
    (StableHlo.TRef.of (T := ⟨S10000x256, .i1⟩) main_call9_v4 h1 h2 h3).ofBuf v = v := rfl
theorem l2_scrubB_toBuf_main_call9_v4 {Val : EltTy → Type} (h1 : (main_call9_v4 : Ref sig .tc).ty = (⟨S10000x256, .i1⟩ : BufTy)) (h2 : (main_call9_v4 : Ref sig .tc).space ≠ .host) (h3 : (main_call9_v4 : Ref sig .tc).isScoped = false) (v : (⟨S10000x256, .i1⟩ : BufTy).Contents Val) :
    (StableHlo.TRef.of (T := ⟨S10000x256, .i1⟩) main_call9_v4 h1 h2 h3).toBuf v = v := rfl
theorem l2_scrubB_ofBuf_main_cst_54 {Val : EltTy → Type} (h1 : (main_cst_54 : Ref sig .tc).ty = (⟨S_, .f32⟩ : BufTy)) (h2 : (main_cst_54 : Ref sig .tc).space ≠ .host) (h3 : (main_cst_54 : Ref sig .tc).isScoped = false) (v : (main_cst_54 : Ref sig .tc).ty.Contents Val) :
    (StableHlo.TRef.of (T := ⟨S_, .f32⟩) main_cst_54 h1 h2 h3).ofBuf v = v := rfl
theorem l2_scrubB_toBuf_main_cst_54 {Val : EltTy → Type} (h1 : (main_cst_54 : Ref sig .tc).ty = (⟨S_, .f32⟩ : BufTy)) (h2 : (main_cst_54 : Ref sig .tc).space ≠ .host) (h3 : (main_cst_54 : Ref sig .tc).isScoped = false) (v : (⟨S_, .f32⟩ : BufTy).Contents Val) :
    (StableHlo.TRef.of (T := ⟨S_, .f32⟩) main_cst_54 h1 h2 h3).toBuf v = v := rfl
theorem l2_scrubB_ofBuf_main_call9_v5 {Val : EltTy → Type} (h1 : (main_call9_v5 : Ref sig .tc).ty = (⟨S_, .f32⟩ : BufTy)) (h2 : (main_call9_v5 : Ref sig .tc).space ≠ .host) (h3 : (main_call9_v5 : Ref sig .tc).isScoped = false) (v : (main_call9_v5 : Ref sig .tc).ty.Contents Val) :
    (StableHlo.TRef.of (T := ⟨S_, .f32⟩) main_call9_v5 h1 h2 h3).ofBuf v = v := rfl
theorem l2_scrubB_toBuf_main_call9_v5 {Val : EltTy → Type} (h1 : (main_call9_v5 : Ref sig .tc).ty = (⟨S_, .f32⟩ : BufTy)) (h2 : (main_call9_v5 : Ref sig .tc).space ≠ .host) (h3 : (main_call9_v5 : Ref sig .tc).isScoped = false) (v : (⟨S_, .f32⟩ : BufTy).Contents Val) :
    (StableHlo.TRef.of (T := ⟨S_, .f32⟩) main_call9_v5 h1 h2 h3).toBuf v = v := rfl
theorem l2_scrubB_ofBuf_main_call9_call1_v0 {Val : EltTy → Type} (h1 : (main_call9_call1_v0 : Ref sig .tc).ty = (⟨S10000x256, .f32⟩ : BufTy)) (h2 : (main_call9_call1_v0 : Ref sig .tc).space ≠ .host) (h3 : (main_call9_call1_v0 : Ref sig .tc).isScoped = false) (v : (main_call9_call1_v0 : Ref sig .tc).ty.Contents Val) :
    (StableHlo.TRef.of (T := ⟨S10000x256, .f32⟩) main_call9_call1_v0 h1 h2 h3).ofBuf v = v := rfl
theorem l2_scrubB_toBuf_main_call9_call1_v0 {Val : EltTy → Type} (h1 : (main_call9_call1_v0 : Ref sig .tc).ty = (⟨S10000x256, .f32⟩ : BufTy)) (h2 : (main_call9_call1_v0 : Ref sig .tc).space ≠ .host) (h3 : (main_call9_call1_v0 : Ref sig .tc).isScoped = false) (v : (⟨S10000x256, .f32⟩ : BufTy).Contents Val) :
    (StableHlo.TRef.of (T := ⟨S10000x256, .f32⟩) main_call9_call1_v0 h1 h2 h3).toBuf v = v := rfl
theorem l2_scrubB_ofBuf_main_call9_v6 {Val : EltTy → Type} (h1 : (main_call9_v6 : Ref sig .tc).ty = (⟨S10000x256, .f32⟩ : BufTy)) (h2 : (main_call9_v6 : Ref sig .tc).space ≠ .host) (h3 : (main_call9_v6 : Ref sig .tc).isScoped = false) (v : (main_call9_v6 : Ref sig .tc).ty.Contents Val) :
    (StableHlo.TRef.of (T := ⟨S10000x256, .f32⟩) main_call9_v6 h1 h2 h3).ofBuf v = v := rfl
theorem l2_scrubB_toBuf_main_call9_v6 {Val : EltTy → Type} (h1 : (main_call9_v6 : Ref sig .tc).ty = (⟨S10000x256, .f32⟩ : BufTy)) (h2 : (main_call9_v6 : Ref sig .tc).space ≠ .host) (h3 : (main_call9_v6 : Ref sig .tc).isScoped = false) (v : (⟨S10000x256, .f32⟩ : BufTy).Contents Val) :
    (StableHlo.TRef.of (T := ⟨S10000x256, .f32⟩) main_call9_v6 h1 h2 h3).toBuf v = v := rfl
theorem l2_scrubB_ofBuf_main_call9_cst_0 {Val : EltTy → Type} (h1 : (main_call9_cst_0 : Ref sig .tc).ty = (⟨S_, .f32⟩ : BufTy)) (h2 : (main_call9_cst_0 : Ref sig .tc).space ≠ .host) (h3 : (main_call9_cst_0 : Ref sig .tc).isScoped = false) (v : (main_call9_cst_0 : Ref sig .tc).ty.Contents Val) :
    (StableHlo.TRef.of (T := ⟨S_, .f32⟩) main_call9_cst_0 h1 h2 h3).ofBuf v = v := rfl
theorem l2_scrubB_toBuf_main_call9_cst_0 {Val : EltTy → Type} (h1 : (main_call9_cst_0 : Ref sig .tc).ty = (⟨S_, .f32⟩ : BufTy)) (h2 : (main_call9_cst_0 : Ref sig .tc).space ≠ .host) (h3 : (main_call9_cst_0 : Ref sig .tc).isScoped = false) (v : (⟨S_, .f32⟩ : BufTy).Contents Val) :
    (StableHlo.TRef.of (T := ⟨S_, .f32⟩) main_call9_cst_0 h1 h2 h3).toBuf v = v := rfl
theorem l2_scrubB_ofBuf_main_call9_v7 {Val : EltTy → Type} (h1 : (main_call9_v7 : Ref sig .tc).ty = (⟨S10000x256, .f32⟩ : BufTy)) (h2 : (main_call9_v7 : Ref sig .tc).space ≠ .host) (h3 : (main_call9_v7 : Ref sig .tc).isScoped = false) (v : (main_call9_v7 : Ref sig .tc).ty.Contents Val) :
    (StableHlo.TRef.of (T := ⟨S10000x256, .f32⟩) main_call9_v7 h1 h2 h3).ofBuf v = v := rfl
theorem l2_scrubB_toBuf_main_call9_v7 {Val : EltTy → Type} (h1 : (main_call9_v7 : Ref sig .tc).ty = (⟨S10000x256, .f32⟩ : BufTy)) (h2 : (main_call9_v7 : Ref sig .tc).space ≠ .host) (h3 : (main_call9_v7 : Ref sig .tc).isScoped = false) (v : (⟨S10000x256, .f32⟩ : BufTy).Contents Val) :
    (StableHlo.TRef.of (T := ⟨S10000x256, .f32⟩) main_call9_v7 h1 h2 h3).toBuf v = v := rfl
theorem l2_scrubB_ofBuf_main_call9_v8 {Val : EltTy → Type} (h1 : (main_call9_v8 : Ref sig .tc).ty = (⟨S10000x256, .i1⟩ : BufTy)) (h2 : (main_call9_v8 : Ref sig .tc).space ≠ .host) (h3 : (main_call9_v8 : Ref sig .tc).isScoped = false) (v : (main_call9_v8 : Ref sig .tc).ty.Contents Val) :
    (StableHlo.TRef.of (T := ⟨S10000x256, .i1⟩) main_call9_v8 h1 h2 h3).ofBuf v = v := rfl
theorem l2_scrubB_toBuf_main_call9_v8 {Val : EltTy → Type} (h1 : (main_call9_v8 : Ref sig .tc).ty = (⟨S10000x256, .i1⟩ : BufTy)) (h2 : (main_call9_v8 : Ref sig .tc).space ≠ .host) (h3 : (main_call9_v8 : Ref sig .tc).isScoped = false) (v : (⟨S10000x256, .i1⟩ : BufTy).Contents Val) :
    (StableHlo.TRef.of (T := ⟨S10000x256, .i1⟩) main_call9_v8 h1 h2 h3).toBuf v = v := rfl
theorem l2_scrubB_ofBuf_main_cst_53 {Val : EltTy → Type} (h1 : (main_cst_53 : Ref sig .tc).ty = (⟨S_, .f32⟩ : BufTy)) (h2 : (main_cst_53 : Ref sig .tc).space ≠ .host) (h3 : (main_cst_53 : Ref sig .tc).isScoped = false) (v : (main_cst_53 : Ref sig .tc).ty.Contents Val) :
    (StableHlo.TRef.of (T := ⟨S_, .f32⟩) main_cst_53 h1 h2 h3).ofBuf v = v := rfl
theorem l2_scrubB_toBuf_main_cst_53 {Val : EltTy → Type} (h1 : (main_cst_53 : Ref sig .tc).ty = (⟨S_, .f32⟩ : BufTy)) (h2 : (main_cst_53 : Ref sig .tc).space ≠ .host) (h3 : (main_cst_53 : Ref sig .tc).isScoped = false) (v : (⟨S_, .f32⟩ : BufTy).Contents Val) :
    (StableHlo.TRef.of (T := ⟨S_, .f32⟩) main_cst_53 h1 h2 h3).toBuf v = v := rfl
theorem l2_scrubB_ofBuf_main_call9_v9 {Val : EltTy → Type} (h1 : (main_call9_v9 : Ref sig .tc).ty = (⟨S_, .f32⟩ : BufTy)) (h2 : (main_call9_v9 : Ref sig .tc).space ≠ .host) (h3 : (main_call9_v9 : Ref sig .tc).isScoped = false) (v : (main_call9_v9 : Ref sig .tc).ty.Contents Val) :
    (StableHlo.TRef.of (T := ⟨S_, .f32⟩) main_call9_v9 h1 h2 h3).ofBuf v = v := rfl
theorem l2_scrubB_toBuf_main_call9_v9 {Val : EltTy → Type} (h1 : (main_call9_v9 : Ref sig .tc).ty = (⟨S_, .f32⟩ : BufTy)) (h2 : (main_call9_v9 : Ref sig .tc).space ≠ .host) (h3 : (main_call9_v9 : Ref sig .tc).isScoped = false) (v : (⟨S_, .f32⟩ : BufTy).Contents Val) :
    (StableHlo.TRef.of (T := ⟨S_, .f32⟩) main_call9_v9 h1 h2 h3).toBuf v = v := rfl
theorem l2_scrubB_ofBuf_main_call9_call2_v0 {Val : EltTy → Type} (h1 : (main_call9_call2_v0 : Ref sig .tc).ty = (⟨S10000x256, .f32⟩ : BufTy)) (h2 : (main_call9_call2_v0 : Ref sig .tc).space ≠ .host) (h3 : (main_call9_call2_v0 : Ref sig .tc).isScoped = false) (v : (main_call9_call2_v0 : Ref sig .tc).ty.Contents Val) :
    (StableHlo.TRef.of (T := ⟨S10000x256, .f32⟩) main_call9_call2_v0 h1 h2 h3).ofBuf v = v := rfl
theorem l2_scrubB_toBuf_main_call9_call2_v0 {Val : EltTy → Type} (h1 : (main_call9_call2_v0 : Ref sig .tc).ty = (⟨S10000x256, .f32⟩ : BufTy)) (h2 : (main_call9_call2_v0 : Ref sig .tc).space ≠ .host) (h3 : (main_call9_call2_v0 : Ref sig .tc).isScoped = false) (v : (⟨S10000x256, .f32⟩ : BufTy).Contents Val) :
    (StableHlo.TRef.of (T := ⟨S10000x256, .f32⟩) main_call9_call2_v0 h1 h2 h3).toBuf v = v := rfl
theorem l2_scrubB_ofBuf_main_v175 {Val : EltTy → Type} (h1 : (main_v175 : Ref sig .tc).ty = (⟨S10000x256, .f32⟩ : BufTy)) (h2 : (main_v175 : Ref sig .tc).space ≠ .host) (h3 : (main_v175 : Ref sig .tc).isScoped = false) (v : (main_v175 : Ref sig .tc).ty.Contents Val) :
    (StableHlo.TRef.of (T := ⟨S10000x256, .f32⟩) main_v175 h1 h2 h3).ofBuf v = v := rfl
theorem l2_scrubB_toBuf_main_v175 {Val : EltTy → Type} (h1 : (main_v175 : Ref sig .tc).ty = (⟨S10000x256, .f32⟩ : BufTy)) (h2 : (main_v175 : Ref sig .tc).space ≠ .host) (h3 : (main_v175 : Ref sig .tc).isScoped = false) (v : (⟨S10000x256, .f32⟩ : BufTy).Contents Val) :
    (StableHlo.TRef.of (T := ⟨S10000x256, .f32⟩) main_v175 h1 h2 h3).toBuf v = v := rfl

/-- The buffers this stretch writes. -/
abbrev l2_scrubB_written : List (Ref sig .tc) :=
  [main_cst_52, main_cst_53, main_cst_54, main_call9_v0, main_call9_v1, main_call9_call0_v0, main_call9_v2, main_call9_cst, main_call9_v3, main_call9_v4, main_call9_v5, main_call9_call1_v0, main_call9_v6, main_call9_cst_0, main_call9_v7, main_call9_v8, main_call9_v9, main_call9_call2_v0, main_v175]
theorem l2_scrubB_writes : (l2_scrubB : List (HloOp τ sig (Elt F))).Forall fun op => op.writes ⊆ ((l2_scrubB_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l2_scrubB_run (W : Valuation τ sig (Elt F)) : Valuation τ sig (Elt F) :=
  StableHlo.after l2_scrubB W

/-- A buffer the stretch does not write keeps its contents. -/
theorem l2_scrubB_frame (W : Valuation τ sig (Elt F)) {r : Ref sig .tc} (hr : r ∉ l2_scrubB_written) :
    l2_scrubB_run W (no_index (Proc.devRef .tc r)) = W (Proc.devRef .tc r) := by
  have h := StableHlo.after_of_writes_sub (τ := τ) (l2_scrubB) W (l2_scrubB_writes) hr
  exact h

theorem l2_scrubB_v175 (W : Valuation τ sig (Elt F)) :
    l2_scrubB_run W (Proc.devRef .tc main_v175) = Cert.Stages.safeOf (W (Proc.devRef .tc main_v174)) := by
  unfold l2_scrubB_run
  after_results_simp
  simp only [l2_scrubB_ofBuf_main_v175, l2_scrubB_toBuf_main_v175, l2_scrubB_ofBuf_main_call9_v8, l2_scrubB_toBuf_main_call9_v8, l2_scrubB_ofBuf_main_call9_call2_v0, l2_scrubB_toBuf_main_call9_call2_v0, l2_scrubB_ofBuf_main_call9_v6, l2_scrubB_toBuf_main_call9_v6, l2_scrubB_ofBuf_main_call9_v4, l2_scrubB_toBuf_main_call9_v4, l2_scrubB_ofBuf_main_call9_call1_v0, l2_scrubB_toBuf_main_call9_call1_v0, l2_scrubB_ofBuf_main_call9_v2, l2_scrubB_toBuf_main_call9_v2, l2_scrubB_ofBuf_main_call9_v0, l2_scrubB_toBuf_main_call9_v0, l2_scrubB_ofBuf_main_call9_call0_v0, l2_scrubB_toBuf_main_call9_call0_v0, l2_scrubB_ofBuf_main_v174, l2_scrubB_toBuf_main_v174, l2_scrubB_ofBuf_main_call9_v1, l2_scrubB_toBuf_main_call9_v1, l2_scrubB_ofBuf_main_cst_52, l2_scrubB_toBuf_main_cst_52, l2_scrubB_ofBuf_main_call9_v5, l2_scrubB_toBuf_main_call9_v5, l2_scrubB_ofBuf_main_cst_54, l2_scrubB_toBuf_main_cst_54, l2_scrubB_ofBuf_main_call9_v3, l2_scrubB_toBuf_main_call9_v3, l2_scrubB_ofBuf_main_call9_cst, l2_scrubB_toBuf_main_call9_cst, l2_scrubB_ofBuf_main_call9_v9, l2_scrubB_toBuf_main_call9_v9, l2_scrubB_ofBuf_main_cst_53, l2_scrubB_toBuf_main_cst_53, l2_scrubB_ofBuf_main_call9_v7, l2_scrubB_toBuf_main_call9_v7, l2_scrubB_ofBuf_main_call9_cst_0, l2_scrubB_toBuf_main_call9_cst_0]
  first | done | rfl

/-! ### Layer 2: max with 0 -/
theorem l2_relu_ofBuf_main_call10_cst {Val : EltTy → Type} (h1 : (main_call10_cst : Ref sig .tc).ty = (⟨S_, .f32⟩ : BufTy)) (h2 : (main_call10_cst : Ref sig .tc).space ≠ .host) (h3 : (main_call10_cst : Ref sig .tc).isScoped = false) (v : (main_call10_cst : Ref sig .tc).ty.Contents Val) :
    (StableHlo.TRef.of (T := ⟨S_, .f32⟩) main_call10_cst h1 h2 h3).ofBuf v = v := rfl
theorem l2_relu_toBuf_main_call10_cst {Val : EltTy → Type} (h1 : (main_call10_cst : Ref sig .tc).ty = (⟨S_, .f32⟩ : BufTy)) (h2 : (main_call10_cst : Ref sig .tc).space ≠ .host) (h3 : (main_call10_cst : Ref sig .tc).isScoped = false) (v : (⟨S_, .f32⟩ : BufTy).Contents Val) :
    (StableHlo.TRef.of (T := ⟨S_, .f32⟩) main_call10_cst h1 h2 h3).toBuf v = v := rfl
theorem l2_relu_ofBuf_main_call10_v0 {Val : EltTy → Type} (h1 : (main_call10_v0 : Ref sig .tc).ty = (⟨S10000x256, .f32⟩ : BufTy)) (h2 : (main_call10_v0 : Ref sig .tc).space ≠ .host) (h3 : (main_call10_v0 : Ref sig .tc).isScoped = false) (v : (main_call10_v0 : Ref sig .tc).ty.Contents Val) :
    (StableHlo.TRef.of (T := ⟨S10000x256, .f32⟩) main_call10_v0 h1 h2 h3).ofBuf v = v := rfl
theorem l2_relu_toBuf_main_call10_v0 {Val : EltTy → Type} (h1 : (main_call10_v0 : Ref sig .tc).ty = (⟨S10000x256, .f32⟩ : BufTy)) (h2 : (main_call10_v0 : Ref sig .tc).space ≠ .host) (h3 : (main_call10_v0 : Ref sig .tc).isScoped = false) (v : (⟨S10000x256, .f32⟩ : BufTy).Contents Val) :
    (StableHlo.TRef.of (T := ⟨S10000x256, .f32⟩) main_call10_v0 h1 h2 h3).toBuf v = v := rfl
theorem l2_relu_ofBuf_main_v175 {Val : EltTy → Type} (h1 : (main_v175 : Ref sig .tc).ty = (⟨S10000x256, .f32⟩ : BufTy)) (h2 : (main_v175 : Ref sig .tc).space ≠ .host) (h3 : (main_v175 : Ref sig .tc).isScoped = false) (v : (main_v175 : Ref sig .tc).ty.Contents Val) :
    (StableHlo.TRef.of (T := ⟨S10000x256, .f32⟩) main_v175 h1 h2 h3).ofBuf v = v := rfl
theorem l2_relu_toBuf_main_v175 {Val : EltTy → Type} (h1 : (main_v175 : Ref sig .tc).ty = (⟨S10000x256, .f32⟩ : BufTy)) (h2 : (main_v175 : Ref sig .tc).space ≠ .host) (h3 : (main_v175 : Ref sig .tc).isScoped = false) (v : (⟨S10000x256, .f32⟩ : BufTy).Contents Val) :
    (StableHlo.TRef.of (T := ⟨S10000x256, .f32⟩) main_v175 h1 h2 h3).toBuf v = v := rfl
theorem l2_relu_ofBuf_main_v176 {Val : EltTy → Type} (h1 : (main_v176 : Ref sig .tc).ty = (⟨S10000x256, .f32⟩ : BufTy)) (h2 : (main_v176 : Ref sig .tc).space ≠ .host) (h3 : (main_v176 : Ref sig .tc).isScoped = false) (v : (main_v176 : Ref sig .tc).ty.Contents Val) :
    (StableHlo.TRef.of (T := ⟨S10000x256, .f32⟩) main_v176 h1 h2 h3).ofBuf v = v := rfl
theorem l2_relu_toBuf_main_v176 {Val : EltTy → Type} (h1 : (main_v176 : Ref sig .tc).ty = (⟨S10000x256, .f32⟩ : BufTy)) (h2 : (main_v176 : Ref sig .tc).space ≠ .host) (h3 : (main_v176 : Ref sig .tc).isScoped = false) (v : (⟨S10000x256, .f32⟩ : BufTy).Contents Val) :
    (StableHlo.TRef.of (T := ⟨S10000x256, .f32⟩) main_v176 h1 h2 h3).toBuf v = v := rfl

/-- The buffers this stretch writes. -/
abbrev l2_relu_written : List (Ref sig .tc) :=
  [main_call10_cst, main_call10_v0, main_v176]
theorem l2_relu_writes : (l2_relu : List (HloOp τ sig (Elt F))).Forall fun op => op.writes ⊆ ((l2_relu_written).map (Proc.devRef (τ := τ) .tc)).toFinset :=
  ⟨writes_sub_of_mem (by decide), writes_sub_of_mem (by decide), writes_sub_of_mem (by decide)⟩

/-- The contents after this stretch, from contents `W`. -/
def l2_relu_run (W : Valuation τ sig (Elt F)) : Valuation τ sig (Elt F) :=
  StableHlo.after l2_relu W

/-- A buffer the stretch does not write keeps its contents. -/
theorem l2_relu_frame (W : Valuation τ sig (Elt F)) {r : Ref sig .tc} (hr : r ∉ l2_relu_written) :
    l2_relu_run W (no_index (Proc.devRef .tc r)) = W (Proc.devRef .tc r) := by
  have h := StableHlo.after_of_writes_sub (τ := τ) (l2_relu) W (l2_relu_writes) hr
  exact h

theorem l2_relu_v176 (W : Valuation τ sig (Elt F)) :
    l2_relu_run W (Proc.devRef .tc main_v176) = Cert.Stages.reluRef (W (Proc.devRef .tc main_v175)) := by
  unfold l2_relu_run
  after_results_simp
  simp only [l2_relu_ofBuf_main_v176, l2_relu_toBuf_main_v176, l2_relu_ofBuf_main_v175, l2_relu_toBuf_main_v175, l2_relu_ofBuf_main_call10_v0, l2_relu_toBuf_main_call10_v0, l2_relu_ofBuf_main_call10_cst, l2_relu_toBuf_main_call10_cst]
  first | done | rfl

/-! ### Layer 2: the rectified rows scrubbed -/
theorem l2_scrubC_ofBuf_main_v176 {Val : EltTy → Type} (h1 : (main_v176 : Ref sig .tc).ty = (⟨S10000x256, .f32⟩ : BufTy)) (h2 : (main_v176 : Ref sig .tc).space ≠ .host) (h3 : (main_v176 : Ref sig .tc).isScoped = false) (v : (main_v176 : Ref sig .tc).ty.Contents Val) :
    (StableHlo.TRef.of (T := ⟨S10000x256, .f32⟩) main_v176 h1 h2 h3).ofBuf v = v := rfl
theorem l2_scrubC_toBuf_main_v176 {Val : EltTy → Type} (h1 : (main_v176 : Ref sig .tc).ty = (⟨S10000x256, .f32⟩ : BufTy)) (h2 : (main_v176 : Ref sig .tc).space ≠ .host) (h3 : (main_v176 : Ref sig .tc).isScoped = false) (v : (⟨S10000x256, .f32⟩ : BufTy).Contents Val) :
    (StableHlo.TRef.of (T := ⟨S10000x256, .f32⟩) main_v176 h1 h2 h3).toBuf v = v := rfl
theorem l2_scrubC_ofBuf_main_call11_v0 {Val : EltTy → Type} (h1 : (main_call11_v0 : Ref sig .tc).ty = (⟨S10000x256, .i1⟩ : BufTy)) (h2 : (main_call11_v0 : Ref sig .tc).space ≠ .host) (h3 : (main_call11_v0 : Ref sig .tc).isScoped = false) (v : (main_call11_v0 : Ref sig .tc).ty.Contents Val) :
    (StableHlo.TRef.of (T := ⟨S10000x256, .i1⟩) main_call11_v0 h1 h2 h3).ofBuf v = v := rfl
theorem l2_scrubC_toBuf_main_call11_v0 {Val : EltTy → Type} (h1 : (main_call11_v0 : Ref sig .tc).ty = (⟨S10000x256, .i1⟩ : BufTy)) (h2 : (main_call11_v0 : Ref sig .tc).space ≠ .host) (h3 : (main_call11_v0 : Ref sig .tc).isScoped = false) (v : (⟨S10000x256, .i1⟩ : BufTy).Contents Val) :
    (StableHlo.TRef.of (T := ⟨S10000x256, .i1⟩) main_call11_v0 h1 h2 h3).toBuf v = v := rfl
theorem l2_scrubC_ofBuf_main_cst_55 {Val : EltTy → Type} (h1 : (main_cst_55 : Ref sig .tc).ty = (⟨S_, .f32⟩ : BufTy)) (h2 : (main_cst_55 : Ref sig .tc).space ≠ .host) (h3 : (main_cst_55 : Ref sig .tc).isScoped = false) (v : (main_cst_55 : Ref sig .tc).ty.Contents Val) :
    (StableHlo.TRef.of (T := ⟨S_, .f32⟩) main_cst_55 h1 h2 h3).ofBuf v = v := rfl
theorem l2_scrubC_toBuf_main_cst_55 {Val : EltTy → Type} (h1 : (main_cst_55 : Ref sig .tc).ty = (⟨S_, .f32⟩ : BufTy)) (h2 : (main_cst_55 : Ref sig .tc).space ≠ .host) (h3 : (main_cst_55 : Ref sig .tc).isScoped = false) (v : (⟨S_, .f32⟩ : BufTy).Contents Val) :
    (StableHlo.TRef.of (T := ⟨S_, .f32⟩) main_cst_55 h1 h2 h3).toBuf v = v := rfl
theorem l2_scrubC_ofBuf_main_call11_v1 {Val : EltTy → Type} (h1 : (main_call11_v1 : Ref sig .tc).ty = (⟨S_, .f32⟩ : BufTy)) (h2 : (main_call11_v1 : Ref sig .tc).space ≠ .host) (h3 : (main_call11_v1 : Ref sig .tc).isScoped = false) (v : (main_call11_v1 : Ref sig .tc).ty.Contents Val) :
    (StableHlo.TRef.of (T := ⟨S_, .f32⟩) main_call11_v1 h1 h2 h3).ofBuf v = v := rfl
theorem l2_scrubC_toBuf_main_call11_v1 {Val : EltTy → Type} (h1 : (main_call11_v1 : Ref sig .tc).ty = (⟨S_, .f32⟩ : BufTy)) (h2 : (main_call11_v1 : Ref sig .tc).space ≠ .host) (h3 : (main_call11_v1 : Ref sig .tc).isScoped = false) (v : (⟨S_, .f32⟩ : BufTy).Contents Val) :
    (StableHlo.TRef.of (T := ⟨S_, .f32⟩) main_call11_v1 h1 h2 h3).toBuf v = v := rfl
theorem l2_scrubC_ofBuf_main_call11_call0_v0 {Val : EltTy → Type} (h1 : (main_call11_call0_v0 : Ref sig .tc).ty = (⟨S10000x256, .f32⟩ : BufTy)) (h2 : (main_call11_call0_v0 : Ref sig .tc).space ≠ .host) (h3 : (main_call11_call0_v0 : Ref sig .tc).isScoped = false) (v : (main_call11_call0_v0 : Ref sig .tc).ty.Contents Val) :
    (StableHlo.TRef.of (T := ⟨S10000x256, .f32⟩) main_call11_call0_v0 h1 h2 h3).ofBuf v = v := rfl
theorem l2_scrubC_toBuf_main_call11_call0_v0 {Val : EltTy → Type} (h1 : (main_call11_call0_v0 : Ref sig .tc).ty = (⟨S10000x256, .f32⟩ : BufTy)) (h2 : (main_call11_call0_v0 : Ref sig .tc).space ≠ .host) (h3 : (main_call11_call0_v0 : Ref sig .tc).isScoped = false) (v : (⟨S10000x256, .f32⟩ : BufTy).Contents Val) :
    (StableHlo.TRef.of (T := ⟨S10000x256, .f32⟩) main_call11_call0_v0 h1 h2 h3).toBuf v = v := rfl
theorem l2_scrubC_ofBuf_main_call11_v2 {Val : EltTy → Type} (h1 : (main_call11_v2 : Ref sig .tc).ty = (⟨S10000x256, .f32⟩ : BufTy)) (h2 : (main_call11_v2 : Ref sig .tc).space ≠ .host) (h3 : (main_call11_v2 : Ref sig .tc).isScoped = false) (v : (main_call11_v2 : Ref sig .tc).ty.Contents Val) :
    (StableHlo.TRef.of (T := ⟨S10000x256, .f32⟩) main_call11_v2 h1 h2 h3).ofBuf v = v := rfl
theorem l2_scrubC_toBuf_main_call11_v2 {Val : EltTy → Type} (h1 : (main_call11_v2 : Ref sig .tc).ty = (⟨S10000x256, .f32⟩ : BufTy)) (h2 : (main_call11_v2 : Ref sig .tc).space ≠ .host) (h3 : (main_call11_v2 : Ref sig .tc).isScoped = false) (v : (⟨S10000x256, .f32⟩ : BufTy).Contents Val) :
    (StableHlo.TRef.of (T := ⟨S10000x256, .f32⟩) main_call11_v2 h1 h2 h3).toBuf v = v := rfl
theorem l2_scrubC_ofBuf_main_call11_cst {Val : EltTy → Type} (h1 : (main_call11_cst : Ref sig .tc).ty = (⟨S_, .f32⟩ : BufTy)) (h2 : (main_call11_cst : Ref sig .tc).space ≠ .host) (h3 : (main_call11_cst : Ref sig .tc).isScoped = false) (v : (main_call11_cst : Ref sig .tc).ty.Contents Val) :
    (StableHlo.TRef.of (T := ⟨S_, .f32⟩) main_call11_cst h1 h2 h3).ofBuf v = v := rfl
theorem l2_scrubC_toBuf_main_call11_cst {Val : EltTy → Type} (h1 : (main_call11_cst : Ref sig .tc).ty = (⟨S_, .f32⟩ : BufTy)) (h2 : (main_call11_cst : Ref sig .tc).space ≠ .host) (h3 : (main_call11_cst : Ref sig .tc).isScoped = false) (v : (⟨S_, .f32⟩ : BufTy).Contents Val) :
    (StableHlo.TRef.of (T := ⟨S_, .f32⟩) main_call11_cst h1 h2 h3).toBuf v = v := rfl
theorem l2_scrubC_ofBuf_main_call11_v3 {Val : EltTy → Type} (h1 : (main_call11_v3 : Ref sig .tc).ty = (⟨S10000x256, .f32⟩ : BufTy)) (h2 : (main_call11_v3 : Ref sig .tc).space ≠ .host) (h3 : (main_call11_v3 : Ref sig .tc).isScoped = false) (v : (main_call11_v3 : Ref sig .tc).ty.Contents Val) :
    (StableHlo.TRef.of (T := ⟨S10000x256, .f32⟩) main_call11_v3 h1 h2 h3).ofBuf v = v := rfl
theorem l2_scrubC_toBuf_main_call11_v3 {Val : EltTy → Type} (h1 : (main_call11_v3 : Ref sig .tc).ty = (⟨S10000x256, .f32⟩ : BufTy)) (h2 : (main_call11_v3 : Ref sig .tc).space ≠ .host) (h3 : (main_call11_v3 : Ref sig .tc).isScoped = false) (v : (⟨S10000x256, .f32⟩ : BufTy).Contents Val) :
    (StableHlo.TRef.of (T := ⟨S10000x256, .f32⟩) main_call11_v3 h1 h2 h3).toBuf v = v := rfl
theorem l2_scrubC_ofBuf_main_call11_v4 {Val : EltTy → Type} (h1 : (main_call11_v4 : Ref sig .tc).ty = (⟨S10000x256, .i1⟩ : BufTy)) (h2 : (main_call11_v4 : Ref sig .tc).space ≠ .host) (h3 : (main_call11_v4 : Ref sig .tc).isScoped = false) (v : (main_call11_v4 : Ref sig .tc).ty.Contents Val) :
    (StableHlo.TRef.of (T := ⟨S10000x256, .i1⟩) main_call11_v4 h1 h2 h3).ofBuf v = v := rfl
theorem l2_scrubC_toBuf_main_call11_v4 {Val : EltTy → Type} (h1 : (main_call11_v4 : Ref sig .tc).ty = (⟨S10000x256, .i1⟩ : BufTy)) (h2 : (main_call11_v4 : Ref sig .tc).space ≠ .host) (h3 : (main_call11_v4 : Ref sig .tc).isScoped = false) (v : (⟨S10000x256, .i1⟩ : BufTy).Contents Val) :
    (StableHlo.TRef.of (T := ⟨S10000x256, .i1⟩) main_call11_v4 h1 h2 h3).toBuf v = v := rfl
theorem l2_scrubC_ofBuf_main_cst_57 {Val : EltTy → Type} (h1 : (main_cst_57 : Ref sig .tc).ty = (⟨S_, .f32⟩ : BufTy)) (h2 : (main_cst_57 : Ref sig .tc).space ≠ .host) (h3 : (main_cst_57 : Ref sig .tc).isScoped = false) (v : (main_cst_57 : Ref sig .tc).ty.Contents Val) :
    (StableHlo.TRef.of (T := ⟨S_, .f32⟩) main_cst_57 h1 h2 h3).ofBuf v = v := rfl
theorem l2_scrubC_toBuf_main_cst_57 {Val : EltTy → Type} (h1 : (main_cst_57 : Ref sig .tc).ty = (⟨S_, .f32⟩ : BufTy)) (h2 : (main_cst_57 : Ref sig .tc).space ≠ .host) (h3 : (main_cst_57 : Ref sig .tc).isScoped = false) (v : (⟨S_, .f32⟩ : BufTy).Contents Val) :
    (StableHlo.TRef.of (T := ⟨S_, .f32⟩) main_cst_57 h1 h2 h3).toBuf v = v := rfl
theorem l2_scrubC_ofBuf_main_call11_v5 {Val : EltTy → Type} (h1 : (main_call11_v5 : Ref sig .tc).ty = (⟨S_, .f32⟩ : BufTy)) (h2 : (main_call11_v5 : Ref sig .tc).space ≠ .host) (h3 : (main_call11_v5 : Ref sig .tc).isScoped = false) (v : (main_call11_v5 : Ref sig .tc).ty.Contents Val) :
    (StableHlo.TRef.of (T := ⟨S_, .f32⟩) main_call11_v5 h1 h2 h3).ofBuf v = v := rfl
theorem l2_scrubC_toBuf_main_call11_v5 {Val : EltTy → Type} (h1 : (main_call11_v5 : Ref sig .tc).ty = (⟨S_, .f32⟩ : BufTy)) (h2 : (main_call11_v5 : Ref sig .tc).space ≠ .host) (h3 : (main_call11_v5 : Ref sig .tc).isScoped = false) (v : (⟨S_, .f32⟩ : BufTy).Contents Val) :
    (StableHlo.TRef.of (T := ⟨S_, .f32⟩) main_call11_v5 h1 h2 h3).toBuf v = v := rfl
theorem l2_scrubC_ofBuf_main_call11_call1_v0 {Val : EltTy → Type} (h1 : (main_call11_call1_v0 : Ref sig .tc).ty = (⟨S10000x256, .f32⟩ : BufTy)) (h2 : (main_call11_call1_v0 : Ref sig .tc).space ≠ .host) (h3 : (main_call11_call1_v0 : Ref sig .tc).isScoped = false) (v : (main_call11_call1_v0 : Ref sig .tc).ty.Contents Val) :
    (StableHlo.TRef.of (T := ⟨S10000x256, .f32⟩) main_call11_call1_v0 h1 h2 h3).ofBuf v = v := rfl
theorem l2_scrubC_toBuf_main_call11_call1_v0 {Val : EltTy → Type} (h1 : (main_call11_call1_v0 : Ref sig .tc).ty = (⟨S10000x256, .f32⟩ : BufTy)) (h2 : (main_call11_call1_v0 : Ref sig .tc).space ≠ .host) (h3 : (main_call11_call1_v0 : Ref sig .tc).isScoped = false) (v : (⟨S10000x256, .f32⟩ : BufTy).Contents Val) :
    (StableHlo.TRef.of (T := ⟨S10000x256, .f32⟩) main_call11_call1_v0 h1 h2 h3).toBuf v = v := rfl
theorem l2_scrubC_ofBuf_main_call11_v6 {Val : EltTy → Type} (h1 : (main_call11_v6 : Ref sig .tc).ty = (⟨S10000x256, .f32⟩ : BufTy)) (h2 : (main_call11_v6 : Ref sig .tc).space ≠ .host) (h3 : (main_call11_v6 : Ref sig .tc).isScoped = false) (v : (main_call11_v6 : Ref sig .tc).ty.Contents Val) :
    (StableHlo.TRef.of (T := ⟨S10000x256, .f32⟩) main_call11_v6 h1 h2 h3).ofBuf v = v := rfl
theorem l2_scrubC_toBuf_main_call11_v6 {Val : EltTy → Type} (h1 : (main_call11_v6 : Ref sig .tc).ty = (⟨S10000x256, .f32⟩ : BufTy)) (h2 : (main_call11_v6 : Ref sig .tc).space ≠ .host) (h3 : (main_call11_v6 : Ref sig .tc).isScoped = false) (v : (⟨S10000x256, .f32⟩ : BufTy).Contents Val) :
    (StableHlo.TRef.of (T := ⟨S10000x256, .f32⟩) main_call11_v6 h1 h2 h3).toBuf v = v := rfl
theorem l2_scrubC_ofBuf_main_call11_cst_0 {Val : EltTy → Type} (h1 : (main_call11_cst_0 : Ref sig .tc).ty = (⟨S_, .f32⟩ : BufTy)) (h2 : (main_call11_cst_0 : Ref sig .tc).space ≠ .host) (h3 : (main_call11_cst_0 : Ref sig .tc).isScoped = false) (v : (main_call11_cst_0 : Ref sig .tc).ty.Contents Val) :
    (StableHlo.TRef.of (T := ⟨S_, .f32⟩) main_call11_cst_0 h1 h2 h3).ofBuf v = v := rfl
theorem l2_scrubC_toBuf_main_call11_cst_0 {Val : EltTy → Type} (h1 : (main_call11_cst_0 : Ref sig .tc).ty = (⟨S_, .f32⟩ : BufTy)) (h2 : (main_call11_cst_0 : Ref sig .tc).space ≠ .host) (h3 : (main_call11_cst_0 : Ref sig .tc).isScoped = false) (v : (⟨S_, .f32⟩ : BufTy).Contents Val) :
    (StableHlo.TRef.of (T := ⟨S_, .f32⟩) main_call11_cst_0 h1 h2 h3).toBuf v = v := rfl
theorem l2_scrubC_ofBuf_main_call11_v7 {Val : EltTy → Type} (h1 : (main_call11_v7 : Ref sig .tc).ty = (⟨S10000x256, .f32⟩ : BufTy)) (h2 : (main_call11_v7 : Ref sig .tc).space ≠ .host) (h3 : (main_call11_v7 : Ref sig .tc).isScoped = false) (v : (main_call11_v7 : Ref sig .tc).ty.Contents Val) :
    (StableHlo.TRef.of (T := ⟨S10000x256, .f32⟩) main_call11_v7 h1 h2 h3).ofBuf v = v := rfl
theorem l2_scrubC_toBuf_main_call11_v7 {Val : EltTy → Type} (h1 : (main_call11_v7 : Ref sig .tc).ty = (⟨S10000x256, .f32⟩ : BufTy)) (h2 : (main_call11_v7 : Ref sig .tc).space ≠ .host) (h3 : (main_call11_v7 : Ref sig .tc).isScoped = false) (v : (⟨S10000x256, .f32⟩ : BufTy).Contents Val) :
    (StableHlo.TRef.of (T := ⟨S10000x256, .f32⟩) main_call11_v7 h1 h2 h3).toBuf v = v := rfl
theorem l2_scrubC_ofBuf_main_call11_v8 {Val : EltTy → Type} (h1 : (main_call11_v8 : Ref sig .tc).ty = (⟨S10000x256, .i1⟩ : BufTy)) (h2 : (main_call11_v8 : Ref sig .tc).space ≠ .host) (h3 : (main_call11_v8 : Ref sig .tc).isScoped = false) (v : (main_call11_v8 : Ref sig .tc).ty.Contents Val) :
    (StableHlo.TRef.of (T := ⟨S10000x256, .i1⟩) main_call11_v8 h1 h2 h3).ofBuf v = v := rfl
theorem l2_scrubC_toBuf_main_call11_v8 {Val : EltTy → Type} (h1 : (main_call11_v8 : Ref sig .tc).ty = (⟨S10000x256, .i1⟩ : BufTy)) (h2 : (main_call11_v8 : Ref sig .tc).space ≠ .host) (h3 : (main_call11_v8 : Ref sig .tc).isScoped = false) (v : (⟨S10000x256, .i1⟩ : BufTy).Contents Val) :
    (StableHlo.TRef.of (T := ⟨S10000x256, .i1⟩) main_call11_v8 h1 h2 h3).toBuf v = v := rfl
theorem l2_scrubC_ofBuf_main_cst_56 {Val : EltTy → Type} (h1 : (main_cst_56 : Ref sig .tc).ty = (⟨S_, .f32⟩ : BufTy)) (h2 : (main_cst_56 : Ref sig .tc).space ≠ .host) (h3 : (main_cst_56 : Ref sig .tc).isScoped = false) (v : (main_cst_56 : Ref sig .tc).ty.Contents Val) :
    (StableHlo.TRef.of (T := ⟨S_, .f32⟩) main_cst_56 h1 h2 h3).ofBuf v = v := rfl
theorem l2_scrubC_toBuf_main_cst_56 {Val : EltTy → Type} (h1 : (main_cst_56 : Ref sig .tc).ty = (⟨S_, .f32⟩ : BufTy)) (h2 : (main_cst_56 : Ref sig .tc).space ≠ .host) (h3 : (main_cst_56 : Ref sig .tc).isScoped = false) (v : (⟨S_, .f32⟩ : BufTy).Contents Val) :
    (StableHlo.TRef.of (T := ⟨S_, .f32⟩) main_cst_56 h1 h2 h3).toBuf v = v := rfl
theorem l2_scrubC_ofBuf_main_call11_v9 {Val : EltTy → Type} (h1 : (main_call11_v9 : Ref sig .tc).ty = (⟨S_, .f32⟩ : BufTy)) (h2 : (main_call11_v9 : Ref sig .tc).space ≠ .host) (h3 : (main_call11_v9 : Ref sig .tc).isScoped = false) (v : (main_call11_v9 : Ref sig .tc).ty.Contents Val) :
    (StableHlo.TRef.of (T := ⟨S_, .f32⟩) main_call11_v9 h1 h2 h3).ofBuf v = v := rfl
theorem l2_scrubC_toBuf_main_call11_v9 {Val : EltTy → Type} (h1 : (main_call11_v9 : Ref sig .tc).ty = (⟨S_, .f32⟩ : BufTy)) (h2 : (main_call11_v9 : Ref sig .tc).space ≠ .host) (h3 : (main_call11_v9 : Ref sig .tc).isScoped = false) (v : (⟨S_, .f32⟩ : BufTy).Contents Val) :
    (StableHlo.TRef.of (T := ⟨S_, .f32⟩) main_call11_v9 h1 h2 h3).toBuf v = v := rfl
theorem l2_scrubC_ofBuf_main_call11_call2_v0 {Val : EltTy → Type} (h1 : (main_call11_call2_v0 : Ref sig .tc).ty = (⟨S10000x256, .f32⟩ : BufTy)) (h2 : (main_call11_call2_v0 : Ref sig .tc).space ≠ .host) (h3 : (main_call11_call2_v0 : Ref sig .tc).isScoped = false) (v : (main_call11_call2_v0 : Ref sig .tc).ty.Contents Val) :
    (StableHlo.TRef.of (T := ⟨S10000x256, .f32⟩) main_call11_call2_v0 h1 h2 h3).ofBuf v = v := rfl
theorem l2_scrubC_toBuf_main_call11_call2_v0 {Val : EltTy → Type} (h1 : (main_call11_call2_v0 : Ref sig .tc).ty = (⟨S10000x256, .f32⟩ : BufTy)) (h2 : (main_call11_call2_v0 : Ref sig .tc).space ≠ .host) (h3 : (main_call11_call2_v0 : Ref sig .tc).isScoped = false) (v : (⟨S10000x256, .f32⟩ : BufTy).Contents Val) :
    (StableHlo.TRef.of (T := ⟨S10000x256, .f32⟩) main_call11_call2_v0 h1 h2 h3).toBuf v = v := rfl
theorem l2_scrubC_ofBuf_main_v177 {Val : EltTy → Type} (h1 : (main_v177 : Ref sig .tc).ty = (⟨S10000x256, .f32⟩ : BufTy)) (h2 : (main_v177 : Ref sig .tc).space ≠ .host) (h3 : (main_v177 : Ref sig .tc).isScoped = false) (v : (main_v177 : Ref sig .tc).ty.Contents Val) :
    (StableHlo.TRef.of (T := ⟨S10000x256, .f32⟩) main_v177 h1 h2 h3).ofBuf v = v := rfl
theorem l2_scrubC_toBuf_main_v177 {Val : EltTy → Type} (h1 : (main_v177 : Ref sig .tc).ty = (⟨S10000x256, .f32⟩ : BufTy)) (h2 : (main_v177 : Ref sig .tc).space ≠ .host) (h3 : (main_v177 : Ref sig .tc).isScoped = false) (v : (⟨S10000x256, .f32⟩ : BufTy).Contents Val) :
    (StableHlo.TRef.of (T := ⟨S10000x256, .f32⟩) main_v177 h1 h2 h3).toBuf v = v := rfl

/-- The buffers this stretch writes. -/
abbrev l2_scrubC_written : List (Ref sig .tc) :=
  [main_cst_55, main_cst_56, main_cst_57, main_call11_v0, main_call11_v1, main_call11_call0_v0, main_call11_v2, main_call11_cst, main_call11_v3, main_call11_v4, main_call11_v5, main_call11_call1_v0, main_call11_v6, main_call11_cst_0, main_call11_v7, main_call11_v8, main_call11_v9, main_call11_call2_v0, main_v177]
theorem l2_scrubC_writes : (l2_scrubC : List (HloOp τ sig (Elt F))).Forall fun op => op.writes ⊆ ((l2_scrubC_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l2_scrubC_run (W : Valuation τ sig (Elt F)) : Valuation τ sig (Elt F) :=
  StableHlo.after l2_scrubC W

/-- A buffer the stretch does not write keeps its contents. -/
theorem l2_scrubC_frame (W : Valuation τ sig (Elt F)) {r : Ref sig .tc} (hr : r ∉ l2_scrubC_written) :
    l2_scrubC_run W (no_index (Proc.devRef .tc r)) = W (Proc.devRef .tc r) := by
  have h := StableHlo.after_of_writes_sub (τ := τ) (l2_scrubC) W (l2_scrubC_writes) hr
  exact h

theorem l2_scrubC_v177 (W : Valuation τ sig (Elt F)) :
    l2_scrubC_run W (Proc.devRef .tc main_v177) = Cert.Stages.safeOf (W (Proc.devRef .tc main_v176)) := by
  unfold l2_scrubC_run
  after_results_simp
  simp only [l2_scrubC_ofBuf_main_v177, l2_scrubC_toBuf_main_v177, l2_scrubC_ofBuf_main_call11_v8, l2_scrubC_toBuf_main_call11_v8, l2_scrubC_ofBuf_main_call11_call2_v0, l2_scrubC_toBuf_main_call11_call2_v0, l2_scrubC_ofBuf_main_call11_v6, l2_scrubC_toBuf_main_call11_v6, l2_scrubC_ofBuf_main_call11_v4, l2_scrubC_toBuf_main_call11_v4, l2_scrubC_ofBuf_main_call11_call1_v0, l2_scrubC_toBuf_main_call11_call1_v0, l2_scrubC_ofBuf_main_call11_v2, l2_scrubC_toBuf_main_call11_v2, l2_scrubC_ofBuf_main_call11_v0, l2_scrubC_toBuf_main_call11_v0, l2_scrubC_ofBuf_main_call11_call0_v0, l2_scrubC_toBuf_main_call11_call0_v0, l2_scrubC_ofBuf_main_v176, l2_scrubC_toBuf_main_v176, l2_scrubC_ofBuf_main_call11_v1, l2_scrubC_toBuf_main_call11_v1, l2_scrubC_ofBuf_main_cst_55, l2_scrubC_toBuf_main_cst_55, l2_scrubC_ofBuf_main_call11_v5, l2_scrubC_toBuf_main_call11_v5, l2_scrubC_ofBuf_main_cst_57, l2_scrubC_toBuf_main_cst_57, l2_scrubC_ofBuf_main_call11_v3, l2_scrubC_toBuf_main_call11_v3, l2_scrubC_ofBuf_main_call11_cst, l2_scrubC_toBuf_main_call11_cst, l2_scrubC_ofBuf_main_call11_v9, l2_scrubC_toBuf_main_call11_v9, l2_scrubC_ofBuf_main_cst_56, l2_scrubC_toBuf_main_cst_56, l2_scrubC_ofBuf_main_call11_v7, l2_scrubC_toBuf_main_call11_v7, l2_scrubC_ofBuf_main_call11_cst_0, l2_scrubC_toBuf_main_call11_cst_0]
  first | done | rfl

/-! ### Layer 2: the layer's input added -/

/-- The buffers this stretch writes. -/
abbrev l2_resid_written : List (Ref sig .tc) :=
  [main_v178]
theorem l2_resid_writes : (l2_resid : List (HloOp τ sig (Elt F))).Forall fun op => op.writes ⊆ ((l2_resid_written).map (Proc.devRef (τ := τ) .tc)).toFinset :=
  writes_sub_of_mem (by decide)

/-- The contents after this stretch, from contents `W`. -/
def l2_resid_run (W : Valuation τ sig (Elt F)) : Valuation τ sig (Elt F) :=
  StableHlo.after l2_resid W

/-- A buffer the stretch does not write keeps its contents. -/
theorem l2_resid_frame (W : Valuation τ sig (Elt F)) {r : Ref sig .tc} (hr : r ∉ l2_resid_written) :
    l2_resid_run W (no_index (Proc.devRef .tc r)) = W (Proc.devRef .tc r) := by
  have h := StableHlo.after_of_writes_sub (τ := τ) (l2_resid) W (l2_resid_writes) hr
  exact h

theorem l2_resid_v178 (W : Valuation τ sig (Elt F)) :
    l2_resid_run W (Proc.devRef .tc main_v178) = addf (W (Proc.devRef .tc main_v177)) (W (Proc.devRef .tc main_v106)) := by
  unfold l2_resid_run
  after_results_simp
  first | done | rfl

/-! ### Layer 2: the sum scrubbed, the layer's result -/
theorem l2_scrubD_ofBuf_main_v178 {Val : EltTy → Type} (h1 : (main_v178 : Ref sig .tc).ty = (⟨S10000x256, .f32⟩ : BufTy)) (h2 : (main_v178 : Ref sig .tc).space ≠ .host) (h3 : (main_v178 : Ref sig .tc).isScoped = false) (v : (main_v178 : Ref sig .tc).ty.Contents Val) :
    (StableHlo.TRef.of (T := ⟨S10000x256, .f32⟩) main_v178 h1 h2 h3).ofBuf v = v := rfl
theorem l2_scrubD_toBuf_main_v178 {Val : EltTy → Type} (h1 : (main_v178 : Ref sig .tc).ty = (⟨S10000x256, .f32⟩ : BufTy)) (h2 : (main_v178 : Ref sig .tc).space ≠ .host) (h3 : (main_v178 : Ref sig .tc).isScoped = false) (v : (⟨S10000x256, .f32⟩ : BufTy).Contents Val) :
    (StableHlo.TRef.of (T := ⟨S10000x256, .f32⟩) main_v178 h1 h2 h3).toBuf v = v := rfl
theorem l2_scrubD_ofBuf_main_call12_v0 {Val : EltTy → Type} (h1 : (main_call12_v0 : Ref sig .tc).ty = (⟨S10000x256, .i1⟩ : BufTy)) (h2 : (main_call12_v0 : Ref sig .tc).space ≠ .host) (h3 : (main_call12_v0 : Ref sig .tc).isScoped = false) (v : (main_call12_v0 : Ref sig .tc).ty.Contents Val) :
    (StableHlo.TRef.of (T := ⟨S10000x256, .i1⟩) main_call12_v0 h1 h2 h3).ofBuf v = v := rfl
theorem l2_scrubD_toBuf_main_call12_v0 {Val : EltTy → Type} (h1 : (main_call12_v0 : Ref sig .tc).ty = (⟨S10000x256, .i1⟩ : BufTy)) (h2 : (main_call12_v0 : Ref sig .tc).space ≠ .host) (h3 : (main_call12_v0 : Ref sig .tc).isScoped = false) (v : (⟨S10000x256, .i1⟩ : BufTy).Contents Val) :
    (StableHlo.TRef.of (T := ⟨S10000x256, .i1⟩) main_call12_v0 h1 h2 h3).toBuf v = v := rfl
theorem l2_scrubD_ofBuf_main_cst_58 {Val : EltTy → Type} (h1 : (main_cst_58 : Ref sig .tc).ty = (⟨S_, .f32⟩ : BufTy)) (h2 : (main_cst_58 : Ref sig .tc).space ≠ .host) (h3 : (main_cst_58 : Ref sig .tc).isScoped = false) (v : (main_cst_58 : Ref sig .tc).ty.Contents Val) :
    (StableHlo.TRef.of (T := ⟨S_, .f32⟩) main_cst_58 h1 h2 h3).ofBuf v = v := rfl
theorem l2_scrubD_toBuf_main_cst_58 {Val : EltTy → Type} (h1 : (main_cst_58 : Ref sig .tc).ty = (⟨S_, .f32⟩ : BufTy)) (h2 : (main_cst_58 : Ref sig .tc).space ≠ .host) (h3 : (main_cst_58 : Ref sig .tc).isScoped = false) (v : (⟨S_, .f32⟩ : BufTy).Contents Val) :
    (StableHlo.TRef.of (T := ⟨S_, .f32⟩) main_cst_58 h1 h2 h3).toBuf v = v := rfl
theorem l2_scrubD_ofBuf_main_call12_v1 {Val : EltTy → Type} (h1 : (main_call12_v1 : Ref sig .tc).ty = (⟨S_, .f32⟩ : BufTy)) (h2 : (main_call12_v1 : Ref sig .tc).space ≠ .host) (h3 : (main_call12_v1 : Ref sig .tc).isScoped = false) (v : (main_call12_v1 : Ref sig .tc).ty.Contents Val) :
    (StableHlo.TRef.of (T := ⟨S_, .f32⟩) main_call12_v1 h1 h2 h3).ofBuf v = v := rfl
theorem l2_scrubD_toBuf_main_call12_v1 {Val : EltTy → Type} (h1 : (main_call12_v1 : Ref sig .tc).ty = (⟨S_, .f32⟩ : BufTy)) (h2 : (main_call12_v1 : Ref sig .tc).space ≠ .host) (h3 : (main_call12_v1 : Ref sig .tc).isScoped = false) (v : (⟨S_, .f32⟩ : BufTy).Contents Val) :
    (StableHlo.TRef.of (T := ⟨S_, .f32⟩) main_call12_v1 h1 h2 h3).toBuf v = v := rfl
theorem l2_scrubD_ofBuf_main_call12_call0_v0 {Val : EltTy → Type} (h1 : (main_call12_call0_v0 : Ref sig .tc).ty = (⟨S10000x256, .f32⟩ : BufTy)) (h2 : (main_call12_call0_v0 : Ref sig .tc).space ≠ .host) (h3 : (main_call12_call0_v0 : Ref sig .tc).isScoped = false) (v : (main_call12_call0_v0 : Ref sig .tc).ty.Contents Val) :
    (StableHlo.TRef.of (T := ⟨S10000x256, .f32⟩) main_call12_call0_v0 h1 h2 h3).ofBuf v = v := rfl
theorem l2_scrubD_toBuf_main_call12_call0_v0 {Val : EltTy → Type} (h1 : (main_call12_call0_v0 : Ref sig .tc).ty = (⟨S10000x256, .f32⟩ : BufTy)) (h2 : (main_call12_call0_v0 : Ref sig .tc).space ≠ .host) (h3 : (main_call12_call0_v0 : Ref sig .tc).isScoped = false) (v : (⟨S10000x256, .f32⟩ : BufTy).Contents Val) :
    (StableHlo.TRef.of (T := ⟨S10000x256, .f32⟩) main_call12_call0_v0 h1 h2 h3).toBuf v = v := rfl
theorem l2_scrubD_ofBuf_main_call12_v2 {Val : EltTy → Type} (h1 : (main_call12_v2 : Ref sig .tc).ty = (⟨S10000x256, .f32⟩ : BufTy)) (h2 : (main_call12_v2 : Ref sig .tc).space ≠ .host) (h3 : (main_call12_v2 : Ref sig .tc).isScoped = false) (v : (main_call12_v2 : Ref sig .tc).ty.Contents Val) :
    (StableHlo.TRef.of (T := ⟨S10000x256, .f32⟩) main_call12_v2 h1 h2 h3).ofBuf v = v := rfl
theorem l2_scrubD_toBuf_main_call12_v2 {Val : EltTy → Type} (h1 : (main_call12_v2 : Ref sig .tc).ty = (⟨S10000x256, .f32⟩ : BufTy)) (h2 : (main_call12_v2 : Ref sig .tc).space ≠ .host) (h3 : (main_call12_v2 : Ref sig .tc).isScoped = false) (v : (⟨S10000x256, .f32⟩ : BufTy).Contents Val) :
    (StableHlo.TRef.of (T := ⟨S10000x256, .f32⟩) main_call12_v2 h1 h2 h3).toBuf v = v := rfl
theorem l2_scrubD_ofBuf_main_call12_cst {Val : EltTy → Type} (h1 : (main_call12_cst : Ref sig .tc).ty = (⟨S_, .f32⟩ : BufTy)) (h2 : (main_call12_cst : Ref sig .tc).space ≠ .host) (h3 : (main_call12_cst : Ref sig .tc).isScoped = false) (v : (main_call12_cst : Ref sig .tc).ty.Contents Val) :
    (StableHlo.TRef.of (T := ⟨S_, .f32⟩) main_call12_cst h1 h2 h3).ofBuf v = v := rfl
theorem l2_scrubD_toBuf_main_call12_cst {Val : EltTy → Type} (h1 : (main_call12_cst : Ref sig .tc).ty = (⟨S_, .f32⟩ : BufTy)) (h2 : (main_call12_cst : Ref sig .tc).space ≠ .host) (h3 : (main_call12_cst : Ref sig .tc).isScoped = false) (v : (⟨S_, .f32⟩ : BufTy).Contents Val) :
    (StableHlo.TRef.of (T := ⟨S_, .f32⟩) main_call12_cst h1 h2 h3).toBuf v = v := rfl
theorem l2_scrubD_ofBuf_main_call12_v3 {Val : EltTy → Type} (h1 : (main_call12_v3 : Ref sig .tc).ty = (⟨S10000x256, .f32⟩ : BufTy)) (h2 : (main_call12_v3 : Ref sig .tc).space ≠ .host) (h3 : (main_call12_v3 : Ref sig .tc).isScoped = false) (v : (main_call12_v3 : Ref sig .tc).ty.Contents Val) :
    (StableHlo.TRef.of (T := ⟨S10000x256, .f32⟩) main_call12_v3 h1 h2 h3).ofBuf v = v := rfl
theorem l2_scrubD_toBuf_main_call12_v3 {Val : EltTy → Type} (h1 : (main_call12_v3 : Ref sig .tc).ty = (⟨S10000x256, .f32⟩ : BufTy)) (h2 : (main_call12_v3 : Ref sig .tc).space ≠ .host) (h3 : (main_call12_v3 : Ref sig .tc).isScoped = false) (v : (⟨S10000x256, .f32⟩ : BufTy).Contents Val) :
    (StableHlo.TRef.of (T := ⟨S10000x256, .f32⟩) main_call12_v3 h1 h2 h3).toBuf v = v := rfl
theorem l2_scrubD_ofBuf_main_call12_v4 {Val : EltTy → Type} (h1 : (main_call12_v4 : Ref sig .tc).ty = (⟨S10000x256, .i1⟩ : BufTy)) (h2 : (main_call12_v4 : Ref sig .tc).space ≠ .host) (h3 : (main_call12_v4 : Ref sig .tc).isScoped = false) (v : (main_call12_v4 : Ref sig .tc).ty.Contents Val) :
    (StableHlo.TRef.of (T := ⟨S10000x256, .i1⟩) main_call12_v4 h1 h2 h3).ofBuf v = v := rfl
theorem l2_scrubD_toBuf_main_call12_v4 {Val : EltTy → Type} (h1 : (main_call12_v4 : Ref sig .tc).ty = (⟨S10000x256, .i1⟩ : BufTy)) (h2 : (main_call12_v4 : Ref sig .tc).space ≠ .host) (h3 : (main_call12_v4 : Ref sig .tc).isScoped = false) (v : (⟨S10000x256, .i1⟩ : BufTy).Contents Val) :
    (StableHlo.TRef.of (T := ⟨S10000x256, .i1⟩) main_call12_v4 h1 h2 h3).toBuf v = v := rfl
theorem l2_scrubD_ofBuf_main_cst_60 {Val : EltTy → Type} (h1 : (main_cst_60 : Ref sig .tc).ty = (⟨S_, .f32⟩ : BufTy)) (h2 : (main_cst_60 : Ref sig .tc).space ≠ .host) (h3 : (main_cst_60 : Ref sig .tc).isScoped = false) (v : (main_cst_60 : Ref sig .tc).ty.Contents Val) :
    (StableHlo.TRef.of (T := ⟨S_, .f32⟩) main_cst_60 h1 h2 h3).ofBuf v = v := rfl
theorem l2_scrubD_toBuf_main_cst_60 {Val : EltTy → Type} (h1 : (main_cst_60 : Ref sig .tc).ty = (⟨S_, .f32⟩ : BufTy)) (h2 : (main_cst_60 : Ref sig .tc).space ≠ .host) (h3 : (main_cst_60 : Ref sig .tc).isScoped = false) (v : (⟨S_, .f32⟩ : BufTy).Contents Val) :
    (StableHlo.TRef.of (T := ⟨S_, .f32⟩) main_cst_60 h1 h2 h3).toBuf v = v := rfl
theorem l2_scrubD_ofBuf_main_call12_v5 {Val : EltTy → Type} (h1 : (main_call12_v5 : Ref sig .tc).ty = (⟨S_, .f32⟩ : BufTy)) (h2 : (main_call12_v5 : Ref sig .tc).space ≠ .host) (h3 : (main_call12_v5 : Ref sig .tc).isScoped = false) (v : (main_call12_v5 : Ref sig .tc).ty.Contents Val) :
    (StableHlo.TRef.of (T := ⟨S_, .f32⟩) main_call12_v5 h1 h2 h3).ofBuf v = v := rfl
theorem l2_scrubD_toBuf_main_call12_v5 {Val : EltTy → Type} (h1 : (main_call12_v5 : Ref sig .tc).ty = (⟨S_, .f32⟩ : BufTy)) (h2 : (main_call12_v5 : Ref sig .tc).space ≠ .host) (h3 : (main_call12_v5 : Ref sig .tc).isScoped = false) (v : (⟨S_, .f32⟩ : BufTy).Contents Val) :
    (StableHlo.TRef.of (T := ⟨S_, .f32⟩) main_call12_v5 h1 h2 h3).toBuf v = v := rfl
theorem l2_scrubD_ofBuf_main_call12_call1_v0 {Val : EltTy → Type} (h1 : (main_call12_call1_v0 : Ref sig .tc).ty = (⟨S10000x256, .f32⟩ : BufTy)) (h2 : (main_call12_call1_v0 : Ref sig .tc).space ≠ .host) (h3 : (main_call12_call1_v0 : Ref sig .tc).isScoped = false) (v : (main_call12_call1_v0 : Ref sig .tc).ty.Contents Val) :
    (StableHlo.TRef.of (T := ⟨S10000x256, .f32⟩) main_call12_call1_v0 h1 h2 h3).ofBuf v = v := rfl
theorem l2_scrubD_toBuf_main_call12_call1_v0 {Val : EltTy → Type} (h1 : (main_call12_call1_v0 : Ref sig .tc).ty = (⟨S10000x256, .f32⟩ : BufTy)) (h2 : (main_call12_call1_v0 : Ref sig .tc).space ≠ .host) (h3 : (main_call12_call1_v0 : Ref sig .tc).isScoped = false) (v : (⟨S10000x256, .f32⟩ : BufTy).Contents Val) :
    (StableHlo.TRef.of (T := ⟨S10000x256, .f32⟩) main_call12_call1_v0 h1 h2 h3).toBuf v = v := rfl
theorem l2_scrubD_ofBuf_main_call12_v6 {Val : EltTy → Type} (h1 : (main_call12_v6 : Ref sig .tc).ty = (⟨S10000x256, .f32⟩ : BufTy)) (h2 : (main_call12_v6 : Ref sig .tc).space ≠ .host) (h3 : (main_call12_v6 : Ref sig .tc).isScoped = false) (v : (main_call12_v6 : Ref sig .tc).ty.Contents Val) :
    (StableHlo.TRef.of (T := ⟨S10000x256, .f32⟩) main_call12_v6 h1 h2 h3).ofBuf v = v := rfl
theorem l2_scrubD_toBuf_main_call12_v6 {Val : EltTy → Type} (h1 : (main_call12_v6 : Ref sig .tc).ty = (⟨S10000x256, .f32⟩ : BufTy)) (h2 : (main_call12_v6 : Ref sig .tc).space ≠ .host) (h3 : (main_call12_v6 : Ref sig .tc).isScoped = false) (v : (⟨S10000x256, .f32⟩ : BufTy).Contents Val) :
    (StableHlo.TRef.of (T := ⟨S10000x256, .f32⟩) main_call12_v6 h1 h2 h3).toBuf v = v := rfl
theorem l2_scrubD_ofBuf_main_call12_cst_0 {Val : EltTy → Type} (h1 : (main_call12_cst_0 : Ref sig .tc).ty = (⟨S_, .f32⟩ : BufTy)) (h2 : (main_call12_cst_0 : Ref sig .tc).space ≠ .host) (h3 : (main_call12_cst_0 : Ref sig .tc).isScoped = false) (v : (main_call12_cst_0 : Ref sig .tc).ty.Contents Val) :
    (StableHlo.TRef.of (T := ⟨S_, .f32⟩) main_call12_cst_0 h1 h2 h3).ofBuf v = v := rfl
theorem l2_scrubD_toBuf_main_call12_cst_0 {Val : EltTy → Type} (h1 : (main_call12_cst_0 : Ref sig .tc).ty = (⟨S_, .f32⟩ : BufTy)) (h2 : (main_call12_cst_0 : Ref sig .tc).space ≠ .host) (h3 : (main_call12_cst_0 : Ref sig .tc).isScoped = false) (v : (⟨S_, .f32⟩ : BufTy).Contents Val) :
    (StableHlo.TRef.of (T := ⟨S_, .f32⟩) main_call12_cst_0 h1 h2 h3).toBuf v = v := rfl
theorem l2_scrubD_ofBuf_main_call12_v7 {Val : EltTy → Type} (h1 : (main_call12_v7 : Ref sig .tc).ty = (⟨S10000x256, .f32⟩ : BufTy)) (h2 : (main_call12_v7 : Ref sig .tc).space ≠ .host) (h3 : (main_call12_v7 : Ref sig .tc).isScoped = false) (v : (main_call12_v7 : Ref sig .tc).ty.Contents Val) :
    (StableHlo.TRef.of (T := ⟨S10000x256, .f32⟩) main_call12_v7 h1 h2 h3).ofBuf v = v := rfl
theorem l2_scrubD_toBuf_main_call12_v7 {Val : EltTy → Type} (h1 : (main_call12_v7 : Ref sig .tc).ty = (⟨S10000x256, .f32⟩ : BufTy)) (h2 : (main_call12_v7 : Ref sig .tc).space ≠ .host) (h3 : (main_call12_v7 : Ref sig .tc).isScoped = false) (v : (⟨S10000x256, .f32⟩ : BufTy).Contents Val) :
    (StableHlo.TRef.of (T := ⟨S10000x256, .f32⟩) main_call12_v7 h1 h2 h3).toBuf v = v := rfl
theorem l2_scrubD_ofBuf_main_call12_v8 {Val : EltTy → Type} (h1 : (main_call12_v8 : Ref sig .tc).ty = (⟨S10000x256, .i1⟩ : BufTy)) (h2 : (main_call12_v8 : Ref sig .tc).space ≠ .host) (h3 : (main_call12_v8 : Ref sig .tc).isScoped = false) (v : (main_call12_v8 : Ref sig .tc).ty.Contents Val) :
    (StableHlo.TRef.of (T := ⟨S10000x256, .i1⟩) main_call12_v8 h1 h2 h3).ofBuf v = v := rfl
theorem l2_scrubD_toBuf_main_call12_v8 {Val : EltTy → Type} (h1 : (main_call12_v8 : Ref sig .tc).ty = (⟨S10000x256, .i1⟩ : BufTy)) (h2 : (main_call12_v8 : Ref sig .tc).space ≠ .host) (h3 : (main_call12_v8 : Ref sig .tc).isScoped = false) (v : (⟨S10000x256, .i1⟩ : BufTy).Contents Val) :
    (StableHlo.TRef.of (T := ⟨S10000x256, .i1⟩) main_call12_v8 h1 h2 h3).toBuf v = v := rfl
theorem l2_scrubD_ofBuf_main_cst_59 {Val : EltTy → Type} (h1 : (main_cst_59 : Ref sig .tc).ty = (⟨S_, .f32⟩ : BufTy)) (h2 : (main_cst_59 : Ref sig .tc).space ≠ .host) (h3 : (main_cst_59 : Ref sig .tc).isScoped = false) (v : (main_cst_59 : Ref sig .tc).ty.Contents Val) :
    (StableHlo.TRef.of (T := ⟨S_, .f32⟩) main_cst_59 h1 h2 h3).ofBuf v = v := rfl
theorem l2_scrubD_toBuf_main_cst_59 {Val : EltTy → Type} (h1 : (main_cst_59 : Ref sig .tc).ty = (⟨S_, .f32⟩ : BufTy)) (h2 : (main_cst_59 : Ref sig .tc).space ≠ .host) (h3 : (main_cst_59 : Ref sig .tc).isScoped = false) (v : (⟨S_, .f32⟩ : BufTy).Contents Val) :
    (StableHlo.TRef.of (T := ⟨S_, .f32⟩) main_cst_59 h1 h2 h3).toBuf v = v := rfl
theorem l2_scrubD_ofBuf_main_call12_v9 {Val : EltTy → Type} (h1 : (main_call12_v9 : Ref sig .tc).ty = (⟨S_, .f32⟩ : BufTy)) (h2 : (main_call12_v9 : Ref sig .tc).space ≠ .host) (h3 : (main_call12_v9 : Ref sig .tc).isScoped = false) (v : (main_call12_v9 : Ref sig .tc).ty.Contents Val) :
    (StableHlo.TRef.of (T := ⟨S_, .f32⟩) main_call12_v9 h1 h2 h3).ofBuf v = v := rfl
theorem l2_scrubD_toBuf_main_call12_v9 {Val : EltTy → Type} (h1 : (main_call12_v9 : Ref sig .tc).ty = (⟨S_, .f32⟩ : BufTy)) (h2 : (main_call12_v9 : Ref sig .tc).space ≠ .host) (h3 : (main_call12_v9 : Ref sig .tc).isScoped = false) (v : (⟨S_, .f32⟩ : BufTy).Contents Val) :
    (StableHlo.TRef.of (T := ⟨S_, .f32⟩) main_call12_v9 h1 h2 h3).toBuf v = v := rfl
theorem l2_scrubD_ofBuf_main_call12_call2_v0 {Val : EltTy → Type} (h1 : (main_call12_call2_v0 : Ref sig .tc).ty = (⟨S10000x256, .f32⟩ : BufTy)) (h2 : (main_call12_call2_v0 : Ref sig .tc).space ≠ .host) (h3 : (main_call12_call2_v0 : Ref sig .tc).isScoped = false) (v : (main_call12_call2_v0 : Ref sig .tc).ty.Contents Val) :
    (StableHlo.TRef.of (T := ⟨S10000x256, .f32⟩) main_call12_call2_v0 h1 h2 h3).ofBuf v = v := rfl
theorem l2_scrubD_toBuf_main_call12_call2_v0 {Val : EltTy → Type} (h1 : (main_call12_call2_v0 : Ref sig .tc).ty = (⟨S10000x256, .f32⟩ : BufTy)) (h2 : (main_call12_call2_v0 : Ref sig .tc).space ≠ .host) (h3 : (main_call12_call2_v0 : Ref sig .tc).isScoped = false) (v : (⟨S10000x256, .f32⟩ : BufTy).Contents Val) :
    (StableHlo.TRef.of (T := ⟨S10000x256, .f32⟩) main_call12_call2_v0 h1 h2 h3).toBuf v = v := rfl
theorem l2_scrubD_ofBuf_main_v179 {Val : EltTy → Type} (h1 : (main_v179 : Ref sig .tc).ty = (⟨S10000x256, .f32⟩ : BufTy)) (h2 : (main_v179 : Ref sig .tc).space ≠ .host) (h3 : (main_v179 : Ref sig .tc).isScoped = false) (v : (main_v179 : Ref sig .tc).ty.Contents Val) :
    (StableHlo.TRef.of (T := ⟨S10000x256, .f32⟩) main_v179 h1 h2 h3).ofBuf v = v := rfl
theorem l2_scrubD_toBuf_main_v179 {Val : EltTy → Type} (h1 : (main_v179 : Ref sig .tc).ty = (⟨S10000x256, .f32⟩ : BufTy)) (h2 : (main_v179 : Ref sig .tc).space ≠ .host) (h3 : (main_v179 : Ref sig .tc).isScoped = false) (v : (⟨S10000x256, .f32⟩ : BufTy).Contents Val) :
    (StableHlo.TRef.of (T := ⟨S10000x256, .f32⟩) main_v179 h1 h2 h3).toBuf v = v := rfl

/-- The buffers this stretch writes. -/
abbrev l2_scrubD_written : List (Ref sig .tc) :=
  [main_cst_58, main_cst_59, main_cst_60, main_call12_v0, main_call12_v1, main_call12_call0_v0, main_call12_v2, main_call12_cst, main_call12_v3, main_call12_v4, main_call12_v5, main_call12_call1_v0, main_call12_v6, main_call12_cst_0, main_call12_v7, main_call12_v8, main_call12_v9, main_call12_call2_v0, main_v179]
theorem l2_zero_writes : (l2_zero : List (HloOp τ sig (Elt F))).Forall fun op => op.writes ⊆ ((l2_scrubD_written).map (Proc.devRef (τ := τ) .tc)).toFinset :=
  writes_sub_of_mem (by decide)
theorem l2_scrubD_writes : (l2_scrubD : List (HloOp τ sig (Elt F))).Forall fun op => op.writes ⊆ ((l2_scrubD_written).map (Proc.devRef (τ := τ) .tc)).toFinset :=
  ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩

/-- The contents after this stretch, from contents `W`. -/
def l2_scrubD_run (W : Valuation τ sig (Elt F)) : Valuation τ sig (Elt F) :=
  StableHlo.after l2_scrubD (StableHlo.after l2_zero W)

/-- A buffer the stretch does not write keeps its contents. -/
theorem l2_scrubD_frame (W : Valuation τ sig (Elt F)) {r : Ref sig .tc} (hr : r ∉ l2_scrubD_written) :
    l2_scrubD_run W (no_index (Proc.devRef .tc r)) = W (Proc.devRef .tc r) := by
  have h := StableHlo.after_of_writes_sub (τ := τ) (l2_zero ++ (l2_scrubD)) W (forall_append l2_zero_writes (l2_scrubD_writes)) hr
  simp only [StableHlo.after_append] at h
  exact h

theorem l2_scrubD_v179 (W : Valuation τ sig (Elt F)) :
    l2_scrubD_run W (Proc.devRef .tc main_v179) = Cert.Stages.safeOf (W (Proc.devRef .tc main_v178)) := by
  unfold l2_scrubD_run
  after_results_simp
  simp only [l2_scrubD_ofBuf_main_v179, l2_scrubD_toBuf_main_v179, l2_scrubD_ofBuf_main_call12_v8, l2_scrubD_toBuf_main_call12_v8, l2_scrubD_ofBuf_main_call12_call2_v0, l2_scrubD_toBuf_main_call12_call2_v0, l2_scrubD_ofBuf_main_call12_v6, l2_scrubD_toBuf_main_call12_v6, l2_scrubD_ofBuf_main_call12_v4, l2_scrubD_toBuf_main_call12_v4, l2_scrubD_ofBuf_main_call12_call1_v0, l2_scrubD_toBuf_main_call12_call1_v0, l2_scrubD_ofBuf_main_call12_v2, l2_scrubD_toBuf_main_call12_v2, l2_scrubD_ofBuf_main_call12_v0, l2_scrubD_toBuf_main_call12_v0, l2_scrubD_ofBuf_main_call12_call0_v0, l2_scrubD_toBuf_main_call12_call0_v0, l2_scrubD_ofBuf_main_v178, l2_scrubD_toBuf_main_v178, l2_scrubD_ofBuf_main_call12_v1, l2_scrubD_toBuf_main_call12_v1, l2_scrubD_ofBuf_main_cst_58, l2_scrubD_toBuf_main_cst_58, l2_scrubD_ofBuf_main_call12_v5, l2_scrubD_toBuf_main_call12_v5, l2_scrubD_ofBuf_main_cst_60, l2_scrubD_toBuf_main_cst_60, l2_scrubD_ofBuf_main_call12_v3, l2_scrubD_toBuf_main_call12_v3, l2_scrubD_ofBuf_main_call12_cst, l2_scrubD_toBuf_main_call12_cst, l2_scrubD_ofBuf_main_call12_v9, l2_scrubD_toBuf_main_call12_v9, l2_scrubD_ofBuf_main_cst_59, l2_scrubD_toBuf_main_cst_59, l2_scrubD_ofBuf_main_call12_v7, l2_scrubD_toBuf_main_call12_v7, l2_scrubD_ofBuf_main_call12_cst_0, l2_scrubD_toBuf_main_call12_cst_0]
  first | done | rfl

end Cert.ReferenceIdeal.RefRun

end
-- ==== Proof.RefValue.lean ====
/-
  The reference program's result as the network: its line of host operations is the stretches of the preceding modules
  in order, so the fold of the operations' results at the result buffer is, stage by stage, the scrubbed features taken
  twice through the Chebyshev terms and the dense layer; and no operation writes an argument.
-/
import proofs.«134588_j19095424598406_1_alg».proof.Proof.RefRun
import proofs.«134588_j19095424598406_1_alg».proof.Proof.RefValueNorm
import proofs.«134588_j19095424598406_1_alg».proof.Proof.RefValueL1a
import proofs.«134588_j19095424598406_1_alg».proof.Proof.RefValueL1b
import proofs.«134588_j19095424598406_1_alg».proof.Proof.RefValueL2a
import proofs.«134588_j19095424598406_1_alg».proof.Proof.RefValueL2b

noncomputable section

namespace Cert.ReferenceIdeal.RefRun

open Idealize.ShloMosaic Idealize.ShloMosaic.StableHlo Idealize.SL.Sem Cert.ReferenceIdeal Cert.ReferenceIdeal.Facts₀

variable {F : FTy → Type} [FloatOps F]

/-- The line's fold is the stretches' folds in order. -/
theorem after_ops (V : Valuation τ sig (Elt F)) :
    StableHlo.after ops V = l2_scrubD_run (l2_resid_run (l2_scrubC_run (l2_relu_run (l2_scrubB_run (l2_norm_run (l2_scrubA_run (l2_bias_run (l2_term2_run (l2_cheb_run (l2_prop2_run (l2_term1_run (l2_prop1_run (l2_term0_run (l1_scrubD_run (l1_resid_run (l1_scrubC_run (l1_relu_run (l1_scrubB_run (l1_norm_run (l1_scrubA_run (l1_bias_run (l1_term2_run (l1_cheb_run (l1_prop2_run (l1_term1_run (l1_prop1_run (l1_term0_run (scrubX_run (norm_run V))))))))))))))))))))))))))))) := by
  simp only [ops, win0, win1, win2, win3, win4, StableHlo.after_append]
  rfl

/-! The stretches' results restated with the buffer left out of the rewriting index, so that they apply wherever a
    stretch's contents are read at that buffer. -/
theorem norm_v32_at (W : Valuation τ sig (Elt F)) :
    norm_run W (no_index (Proc.devRef .tc main_v32)) = Cert.Stages.normOf (W (Proc.devRef .tc main_arg1)) (W (Proc.devRef .tc main_arg2)) := norm_v32 W
theorem norm_v5_at (W : Valuation τ sig (Elt F)) :
    norm_run W (no_index (Proc.devRef .tc main_v5)) = Cert.Stages.rowOf (W (Proc.devRef .tc main_arg1)) := norm_v5 W
theorem norm_v7_at (W : Valuation τ sig (Elt F)) :
    norm_run W (no_index (Proc.devRef .tc main_v7)) = Cert.Stages.colOf (W (Proc.devRef .tc main_arg1)) := norm_v7 W
theorem scrubX_v33_at (W : Valuation τ sig (Elt F)) :
    scrubX_run W (no_index (Proc.devRef .tc main_v33)) = Cert.Stages.safeOf (W (Proc.devRef .tc main_arg0)) := scrubX_v33 W
theorem l1_term0_v36_at (W : Valuation τ sig (Elt F)) :
    l1_term0_run W (no_index (Proc.devRef .tc main_v36)) = Host.dotGeneral dot_S10000x256_S256x256_S10000x256_1_0_0_1_n_n none (W (Proc.devRef .tc main_v33)) (Cert.Stages.w0Of (W (Proc.devRef .tc main_arg3))) := l1_term0_v36 W
theorem l1_prop1_v49_at (W : Valuation τ sig (Elt F)) :
    l1_prop1_run W (no_index (Proc.devRef .tc main_v49)) = Cert.Stages.propOf (W (Proc.devRef .tc main_v32)) (W (Proc.devRef .tc main_v5)) (W (Proc.devRef .tc main_v7)) (W (Proc.devRef .tc main_v33)) := l1_prop1_v49 W
theorem l1_term1_v53_at (W : Valuation τ sig (Elt F)) :
    l1_term1_run W (no_index (Proc.devRef .tc main_v53)) = addf (W (Proc.devRef .tc main_v36)) (Host.dotGeneral dot_S10000x256_S256x256_S10000x256_1_0_0_1_n_n none (W (Proc.devRef .tc main_v49)) (Cert.Stages.w1Of (W (Proc.devRef .tc main_arg3)))) := l1_term1_v53 W
theorem l1_prop2_v66_at (W : Valuation τ sig (Elt F)) :
    l1_prop2_run W (no_index (Proc.devRef .tc main_v66)) = Cert.Stages.propOf (W (Proc.devRef .tc main_v32)) (W (Proc.devRef .tc main_v5)) (W (Proc.devRef .tc main_v7)) (W (Proc.devRef .tc main_v49)) := l1_prop2_v66 W
theorem l1_cheb_v69_at (W : Valuation τ sig (Elt F)) :
    l1_cheb_run W (no_index (Proc.devRef .tc main_v69)) = Cert.Stages.tx2Of (W (Proc.devRef .tc main_v66)) (W (Proc.devRef .tc main_v33)) := l1_cheb_v69 W
theorem l1_term2_v73_at (W : Valuation τ sig (Elt F)) :
    l1_term2_run W (no_index (Proc.devRef .tc main_v73)) = addf (W (Proc.devRef .tc main_v53)) (Host.dotGeneral dot_S10000x256_S256x256_S10000x256_1_0_0_1_n_n none (W (Proc.devRef .tc main_v69)) (Cert.Stages.w2Of (W (Proc.devRef .tc main_arg3)))) := l1_term2_v73 W
theorem l1_bias_v76_at (W : Valuation τ sig (Elt F)) :
    l1_bias_run W (no_index (Proc.devRef .tc main_v76)) = addf (W (Proc.devRef .tc main_v73)) (Cert.Stages.rowVecRef (W (Proc.devRef .tc main_arg4))) := l1_bias_v76 W
theorem l1_scrubA_v77_at (W : Valuation τ sig (Elt F)) :
    l1_scrubA_run W (no_index (Proc.devRef .tc main_v77)) = Cert.Stages.safeOf (W (Proc.devRef .tc main_v76)) := l1_scrubA_v77 W
theorem l1_norm_v101_at (W : Valuation τ sig (Elt F)) :
    l1_norm_run W (no_index (Proc.devRef .tc main_v101)) = Cert.Stages.lnRef (W (Proc.devRef .tc main_v77)) (W (Proc.devRef .tc main_arg5)) (W (Proc.devRef .tc main_arg6)) := l1_norm_v101 W
theorem l1_scrubB_v102_at (W : Valuation τ sig (Elt F)) :
    l1_scrubB_run W (no_index (Proc.devRef .tc main_v102)) = Cert.Stages.safeOf (W (Proc.devRef .tc main_v101)) := l1_scrubB_v102 W
theorem l1_relu_v103_at (W : Valuation τ sig (Elt F)) :
    l1_relu_run W (no_index (Proc.devRef .tc main_v103)) = Cert.Stages.reluRef (W (Proc.devRef .tc main_v102)) := l1_relu_v103 W
theorem l1_scrubC_v104_at (W : Valuation τ sig (Elt F)) :
    l1_scrubC_run W (no_index (Proc.devRef .tc main_v104)) = Cert.Stages.safeOf (W (Proc.devRef .tc main_v103)) := l1_scrubC_v104 W
theorem l1_resid_v105_at (W : Valuation τ sig (Elt F)) :
    l1_resid_run W (no_index (Proc.devRef .tc main_v105)) = addf (W (Proc.devRef .tc main_v104)) (W (Proc.devRef .tc main_v33)) := l1_resid_v105 W
theorem l1_scrubD_v106_at (W : Valuation τ sig (Elt F)) :
    l1_scrubD_run W (no_index (Proc.devRef .tc main_v106)) = Cert.Stages.safeOf (W (Proc.devRef .tc main_v105)) := l1_scrubD_v106 W
theorem l2_term0_v109_at (W : Valuation τ sig (Elt F)) :
    l2_term0_run W (no_index (Proc.devRef .tc main_v109)) = Host.dotGeneral dot_S10000x256_S256x256_S10000x256_1_0_0_1_n_n none (W (Proc.devRef .tc main_v106)) (Cert.Stages.w0Of (W (Proc.devRef .tc main_arg7))) := l2_term0_v109 W
theorem l2_prop1_v122_at (W : Valuation τ sig (Elt F)) :
    l2_prop1_run W (no_index (Proc.devRef .tc main_v122)) = Cert.Stages.propOf (W (Proc.devRef .tc main_v32)) (W (Proc.devRef .tc main_v5)) (W (Proc.devRef .tc main_v7)) (W (Proc.devRef .tc main_v106)) := l2_prop1_v122 W
theorem l2_term1_v126_at (W : Valuation τ sig (Elt F)) :
    l2_term1_run W (no_index (Proc.devRef .tc main_v126)) = addf (W (Proc.devRef .tc main_v109)) (Host.dotGeneral dot_S10000x256_S256x256_S10000x256_1_0_0_1_n_n none (W (Proc.devRef .tc main_v122)) (Cert.Stages.w1Of (W (Proc.devRef .tc main_arg7)))) := l2_term1_v126 W
theorem l2_prop2_v139_at (W : Valuation τ sig (Elt F)) :
    l2_prop2_run W (no_index (Proc.devRef .tc main_v139)) = Cert.Stages.propOf (W (Proc.devRef .tc main_v32)) (W (Proc.devRef .tc main_v5)) (W (Proc.devRef .tc main_v7)) (W (Proc.devRef .tc main_v122)) := l2_prop2_v139 W
theorem l2_cheb_v142_at (W : Valuation τ sig (Elt F)) :
    l2_cheb_run W (no_index (Proc.devRef .tc main_v142)) = Cert.Stages.tx2Of (W (Proc.devRef .tc main_v139)) (W (Proc.devRef .tc main_v106)) := l2_cheb_v142 W
theorem l2_term2_v146_at (W : Valuation τ sig (Elt F)) :
    l2_term2_run W (no_index (Proc.devRef .tc main_v146)) = addf (W (Proc.devRef .tc main_v126)) (Host.dotGeneral dot_S10000x256_S256x256_S10000x256_1_0_0_1_n_n none (W (Proc.devRef .tc main_v142)) (Cert.Stages.w2Of (W (Proc.devRef .tc main_arg7)))) := l2_term2_v146 W
theorem l2_bias_v149_at (W : Valuation τ sig (Elt F)) :
    l2_bias_run W (no_index (Proc.devRef .tc main_v149)) = addf (W (Proc.devRef .tc main_v146)) (Cert.Stages.rowVecRef (W (Proc.devRef .tc main_arg8))) := l2_bias_v149 W
theorem l2_scrubA_v150_at (W : Valuation τ sig (Elt F)) :
    l2_scrubA_run W (no_index (Proc.devRef .tc main_v150)) = Cert.Stages.safeOf (W (Proc.devRef .tc main_v149)) := l2_scrubA_v150 W
theorem l2_norm_v174_at (W : Valuation τ sig (Elt F)) :
    l2_norm_run W (no_index (Proc.devRef .tc main_v174)) = Cert.Stages.lnRef (W (Proc.devRef .tc main_v150)) (W (Proc.devRef .tc main_arg9)) (W (Proc.devRef .tc main_arg10)) := l2_norm_v174 W
theorem l2_scrubB_v175_at (W : Valuation τ sig (Elt F)) :
    l2_scrubB_run W (no_index (Proc.devRef .tc main_v175)) = Cert.Stages.safeOf (W (Proc.devRef .tc main_v174)) := l2_scrubB_v175 W
theorem l2_relu_v176_at (W : Valuation τ sig (Elt F)) :
    l2_relu_run W (no_index (Proc.devRef .tc main_v176)) = Cert.Stages.reluRef (W (Proc.devRef .tc main_v175)) := l2_relu_v176 W
theorem l2_scrubC_v177_at (W : Valuation τ sig (Elt F)) :
    l2_scrubC_run W (no_index (Proc.devRef .tc main_v177)) = Cert.Stages.safeOf (W (Proc.devRef .tc main_v176)) := l2_scrubC_v177 W
theorem l2_resid_v178_at (W : Valuation τ sig (Elt F)) :
    l2_resid_run W (no_index (Proc.devRef .tc main_v178)) = addf (W (Proc.devRef .tc main_v177)) (W (Proc.devRef .tc main_v106)) := l2_resid_v178 W
theorem l2_scrubD_v179_at (W : Valuation τ sig (Elt F)) :
    l2_scrubD_run W (no_index (Proc.devRef .tc main_v179)) = Cert.Stages.safeOf (W (Proc.devRef .tc main_v178)) := l2_scrubD_v179 W

set_option maxHeartbeats 1000000 in
/-- The result buffer ends holding the network of the arguments' contents. -/
theorem result_eq (V : Valuation τ sig (Elt F)) :
    StableHlo.after ops V (Proc.devRef .tc main_v179)
      = Cert.Stages.netOf Cert.Stages.denseRef (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_ops]
  simp (disch := decide) only [norm_v32_at, norm_v5_at, norm_v7_at, scrubX_v33_at, l1_term0_v36_at, l1_prop1_v49_at, l1_term1_v53_at, l1_prop2_v66_at, l1_cheb_v69_at, l1_term2_v73_at, l1_bias_v76_at, l1_scrubA_v77_at, l1_norm_v101_at, l1_scrubB_v102_at, l1_relu_v103_at, l1_scrubC_v104_at, l1_resid_v105_at, l1_scrubD_v106_at, l2_term0_v109_at, l2_prop1_v122_at, l2_term1_v126_at, l2_prop2_v139_at, l2_cheb_v142_at, l2_term2_v146_at, l2_bias_v149_at, l2_scrubA_v150_at, l2_norm_v174_at, l2_scrubB_v175_at, l2_relu_v176_at, l2_scrubC_v177_at, l2_resid_v178_at, l2_scrubD_v179_at, norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]
  simp only [Cert.Stages.netOf, Cert.Stages.blockOf, Cert.Stages.denseRef, Cert.Stages.convRef] <;> rfl

theorem arg0_eq (V : Valuation τ sig (Elt F)) :
    StableHlo.after ops V (Proc.devRef .tc main_arg0) = V (Proc.devRef .tc main_arg0) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg1_eq (V : Valuation τ sig (Elt F)) :
    StableHlo.after ops V (Proc.devRef .tc main_arg1) = V (Proc.devRef .tc main_arg1) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg2_eq (V : Valuation τ sig (Elt F)) :
    StableHlo.after ops V (Proc.devRef .tc main_arg2) = V (Proc.devRef .tc main_arg2) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg3_eq (V : Valuation τ sig (Elt F)) :
    StableHlo.after ops V (Proc.devRef .tc main_arg3) = V (Proc.devRef .tc main_arg3) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg4_eq (V : Valuation τ sig (Elt F)) :
    StableHlo.after ops V (Proc.devRef .tc main_arg4) = V (Proc.devRef .tc main_arg4) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg5_eq (V : Valuation τ sig (Elt F)) :
    StableHlo.after ops V (Proc.devRef .tc main_arg5) = V (Proc.devRef .tc main_arg5) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg6_eq (V : Valuation τ sig (Elt F)) :
    StableHlo.after ops V (Proc.devRef .tc main_arg6) = V (Proc.devRef .tc main_arg6) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg7_eq (V : Valuation τ sig (Elt F)) :
    StableHlo.after ops V (Proc.devRef .tc main_arg7) = V (Proc.devRef .tc main_arg7) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg8_eq (V : Valuation τ sig (Elt F)) :
    StableHlo.after ops V (Proc.devRef .tc main_arg8) = V (Proc.devRef .tc main_arg8) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg9_eq (V : Valuation τ sig (Elt F)) :
    StableHlo.after ops V (Proc.devRef .tc main_arg9) = V (Proc.devRef .tc main_arg9) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

theorem arg10_eq (V : Valuation τ sig (Elt F)) :
    StableHlo.after ops V (Proc.devRef .tc main_arg10) = V (Proc.devRef .tc main_arg10) := by
  rw [after_ops]
  simp (disch := decide) only [norm_frame, scrubX_frame, l1_term0_frame, l1_prop1_frame, l1_term1_frame, l1_prop2_frame, l1_cheb_frame, l1_term2_frame, l1_bias_frame, l1_scrubA_frame, l1_norm_frame, l1_scrubB_frame, l1_relu_frame, l1_scrubC_frame, l1_resid_frame, l1_scrubD_frame, l2_term0_frame, l2_prop1_frame, l2_term1_frame, l2_prop2_frame, l2_cheb_frame, l2_term2_frame, l2_bias_frame, l2_scrubA_frame, l2_norm_frame, l2_scrubB_frame, l2_relu_frame, l2_scrubC_frame, l2_resid_frame, l2_scrubD_frame]

end Cert.ReferenceIdeal.RefRun

end
-- ==== Proof.LibColRow.lean ====
/-
  A vector viewed as a one-column or a one-row matrix, spelt two ways.

  A kernel's wrapper reshapes an `[a]` vector to an `[a, 1]` column (or a `[b]` vector to a `[1, b]` row) before it
  hands it to a kernel; a jnp reference that writes `v[:, None]` or adds a bias row broadcasts the vector in
  dimensions, along axis 0 (or axis 1). Both are the same array: entry `(p, 0)` of the column is `v p`, entry `(0, q)`
  of the row is `v q`. Also here: a column broadcast in dimensions along every row's entries, and a row along every
  row, read at an index written by coordinates (the host's companions of the kernel-side broadcasts of a column and of
  a row).
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` vector broadcast in dimensions along axis 0 of `[a, 1]` reads, at `(p, u)`, the vector at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A `[b]` vector broadcast in dimensions along axis 1 of `[1, b]` reads, at `(u, q)`, the vector at `q`. -/
theorem broadcastInDim_b_1b_apply {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- The column of a vector: the cast to `[a, 1]` is the broadcast in dimensions along axis 0. -/
theorem shapeCast_col_eq_broadcastInDim {a : ℕ} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext i
  obtain ⟨p, u, rfl⟩ : ∃ (p : Fin a) (u : Fin 1), i = ix2 p u := ⟨i 0, i 1, eq_ix2 i⟩
  rw [broadcastInDim_a_a1_apply]
  refine shapeCast_apply x hc _ _ ?_
  have hu : u.val = 0 := by omega
  rw [Shape.rowMajor_val_two, Shape.rowMajor_val_one]
  show p.val = p.val * 1 + u.val
  rw [hu, Nat.mul_one, Nat.add_zero]

/-- The row of a vector: the cast to `[1, b]` is the broadcast in dimensions along axis 1. -/
theorem shapeCast_row_eq_broadcastInDim {b : ℕ} (x : (⟨1, ![b]⟩ : Shape).Idx → α)
    (hc : (⟨1, ![b]⟩ : Shape).ShapeCasts ⟨2, ![1, b]⟩) (hb : (⟨1, ![b]⟩ : Shape).BroadcastsInDim ⟨2, ![1, b]⟩ ![1]) :
    shapeCast ⟨2, ![1, b]⟩ x hc = broadcastInDim ⟨2, ![1, b]⟩ ![1] hb x := by
  funext i
  obtain ⟨u, q, rfl⟩ : ∃ (u : Fin 1) (q : Fin b), i = ix2 u q := ⟨i 0, i 1, eq_ix2 i⟩
  rw [broadcastInDim_b_1b_apply, shapeCast_a_1a_apply]

/-- An `[a, 1]` column broadcast in dimensions to `[a, b]` reads, at `(p, q)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, b]` row broadcast in dimensions to `[a, b]` reads, at `(p, q)`, the row's entry of column `q`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

end Idealize.ShloMosaic.ValueIdx
-- ==== Proof.RefDenseSpec.lean ====
/-
  The reference's dense layer, read element by element at the exact instance, is the specification `Cert.Cheb.layer`:
  each host operation at an index (r, q) is the corresponding operation of the extended reals, in the same order and
  grouping, so the two sides agree term by term.
-/
import proofs.«134588_j19095424598406_1_alg».proof.Proof.RefDense
import proofs.«134588_j19095424598406_1_alg».proof.Proof.Spec
import proofs.«134588_j19095424598406_1_alg».proof.Proof.LibPlainDot
import proofs.«134588_j19095424598406_1_alg».proof.Proof.LibColRow

noncomputable section

open scoped BigOperators

namespace Cert.Stages

open Idealize.ShloMosaic Idealize.ShloMosaic.ValueIdx Cert.ReferenceIdeal Cert.ReferenceIdeal.Facts₀

/-- The scrub of an array at an index is the scrub of its element. -/
theorem safeOf_apply (x : FVec Ideal S10000x256 .f32) (i : S10000x256.Idx) : safeOf x i = Cert.Cheb.scrub (x i) := rfl

/-- A vector spread over the rows reads, at (r, q), the vector at q. -/
theorem rowVecRef_apply (v : FVec Ideal S256 .f32) (r : Fin 10000) (q : Fin 256) :
    rowVecRef v (ix2 r q) = v (ix1 q) :=
  (broadcastInDim_1b_ab_apply _ bcast_S1x256_S10000x256_0_1 r q).trans
    (broadcastInDim_b_1b_apply v bcast_S256_S1x256_1 (0 : Fin 1) q)

/-- A column spread over the columns reads, at (r, q), the column's entry of row r. -/
theorem colSpreadRef_apply (c : FVec Ideal S10000x1 .f32) (r : Fin 10000) (q : Fin 256) :
    colSpreadRef c (ix2 r q) = c (ix2 r (0 : Fin 1)) :=
  broadcastInDim_a1_ab_apply c bcast_S10000x1_S10000x256_0_1 r q

/-- One matrix product at (r, q): the sum over k of t[r, k] · w[k, q]. -/
theorem dotRef_apply (t : FVec Ideal S10000x256 .f32) (w : FVec Ideal S256x256 .f32) (r : Fin 10000) (q : Fin 256) :
    Host.dotGeneral dot_S10000x256_S256x256_S10000x256_1_0_0_1_n_n none t w (ix2 r q)
      = ∑ k : Fin 256, t (ix2 r k) * w (ix2 k q) :=
  Cert.LibPlainDot.dotGeneral_apply dot_S10000x256_S256x256_S10000x256_1_0_0_1_n_n none .single 256 rfl rfl t w (ix2 r q)
    (fun k => ix2 r k) (fun k => ix2 k q)
    (fun _ => Cert.LibPlainDot.ext2 _ _ rfl rfl) (fun _ => Cert.LibPlainDot.ext2 _ _ rfl rfl)

/-- The row sum over 256 at row r, as the column entry (r, u). -/
theorem rowAvgRef_apply (c : FVec Ideal S10000x256 .f32) (r : Fin 10000) (u : Fin 1) :
    rowAvgRef c (ix2 r u) = Ideal.div (∑ q : Fin 256, c (ix2 r q)) Cert.Cheb.n256 := by
  show Ideal.div (broadcastInDim S10000x1 ![0] bcast_S10000_S10000x1_0
      (Host.reduceAdd c (constant S_ .f32 0x00000000#32) reducesTo_S10000x256_S10000_d1 h_S_) (ix2 r u)) Cert.Cheb.n256 = _
  rw [broadcastInDim_a_a1_apply]
  show Ideal.div (Ideal.hostReduceAdd reducesTo_S10000x256_S10000_d1 c (Ideal.ofBits .f32 0x00000000#32) (ix1 r)) _ = _
  rw [Ideal.hostReduceAdd_single reducesTo_S10000x256_S10000_d1 (by decide) c _ (ix1 r), Ideal.ofBits_zero_f32, zero_add]
  refine congrArg (fun z => Ideal.div z Cert.Cheb.n256) (Finset.sum_congr rfl fun q _ => congrArg c ?_)
  exact Cert.LibPlainDot.ext2 _ _ rfl rfl

section
variable (t0 t1 t2 : FVec Ideal S10000x256 .f32) (w0 w1 w2 : FVec Ideal S256x256 .f32) (b g be : FVec Ideal S256 .f32)

/-- The three products and the bias at (r, q). -/
theorem convRef_apply (r : Fin 10000) (q : Fin 256) :
    convRef t0 t1 t2 w0 w1 w2 b (ix2 r q) = Cert.Cheb.conv t0 t1 t2 w0 w1 w2 b r q := by
  unfold convRef
  rw [addf_apply, addf_apply, addf_apply, dotRef_apply, dotRef_apply, dotRef_apply, rowVecRef_apply]
  rfl

/-- The scrubbed sum at (r, q). -/
theorem cvRef_apply (r : Fin 10000) (q : Fin 256) :
    safeOf (convRef t0 t1 t2 w0 w1 w2 b) (ix2 r q) = Cert.Cheb.cv t0 t1 t2 w0 w1 w2 b r q := by
  rw [safeOf_apply, convRef_apply]
  rfl

/-- The row mean at row r. -/
theorem meanRef_apply (r : Fin 10000) (u : Fin 1) :
    rowAvgRef (safeOf (convRef t0 t1 t2 w0 w1 w2 b)) (ix2 r u) = Cert.Cheb.mean t0 t1 t2 w0 w1 w2 b r :=
  (rowAvgRef_apply _ r u).trans
    (congrArg (fun z => Ideal.div z Cert.Cheb.n256) (Finset.sum_congr rfl fun q _ => cvRef_apply t0 t1 t2 w0 w1 w2 b r q))

/-- The deviation from the row mean at (r, q). -/
theorem devRef_apply (r : Fin 10000) (q : Fin 256) :
    devRef (safeOf (convRef t0 t1 t2 w0 w1 w2 b)) (ix2 r q) = Cert.Cheb.dev t0 t1 t2 w0 w1 w2 b r q := by
  unfold devRef
  rw [subf_apply, colSpreadRef_apply, meanRef_apply, cvRef_apply]
  rfl

/-- The row variance at row r. -/
theorem varRef_apply (r : Fin 10000) (u : Fin 1) :
    varRef (safeOf (convRef t0 t1 t2 w0 w1 w2 b)) (ix2 r u) = Cert.Cheb.var t0 t1 t2 w0 w1 w2 b r :=
  (rowAvgRef_apply _ r u).trans
    (congrArg (fun z => Ideal.div z Cert.Cheb.n256) (Finset.sum_congr rfl fun q _ => by
      rw [mulf_apply, devRef_apply]))

/-- The normalised, scaled and shifted value at (r, q). -/
theorem lnRef_apply (r : Fin 10000) (q : Fin 256) :
    lnRef (safeOf (convRef t0 t1 t2 w0 w1 w2 b)) g be (ix2 r q) = Cert.Cheb.ln t0 t1 t2 w0 w1 w2 b g be r q := by
  unfold lnRef
  rw [addf_apply, mulf_apply, mulf_apply, colSpreadRef_apply, rowVecRef_apply, rowVecRef_apply, devRef_apply]
  show _ * Ideal.rsqrt (varRef (safeOf (convRef t0 t1 t2 w0 w1 w2 b)) (ix2 r (0 : Fin 1)) + Cert.Cheb.eps) * _ + _ = _
  rw [varRef_apply]
  rfl

/-- One element of the reference's dense layer. -/
theorem denseRef_apply (r : Fin 10000) (q : Fin 256) :
    denseRef (F := Ideal) t0 t1 t2 w0 w1 w2 b g be (ix2 r q) = Cert.Cheb.layerAt t0 t1 t2 w0 w1 w2 b g be r q := by
  unfold denseRef
  rw [safeOf_apply, addf_apply, safeOf_apply]
  unfold reluRef
  rw [maximumf_apply, safeOf_apply, lnRef_apply]
  rfl

/-- The reference's dense layer at the exact instance is the specification. -/
theorem denseRef_eq_layer :
    denseRef (F := Ideal) t0 t1 t2 w0 w1 w2 b g be = Cert.Cheb.layer t0 t1 t2 w0 w1 w2 b g be := by
  funext i
  obtain ⟨r, q, rfl⟩ : ∃ (r : Fin 10000) (q : Fin 256), i = ix2 r q := ⟨i 0, i 1, eq_ix2 i⟩
  exact denseRef_apply t0 t1 t2 w0 w1 w2 b g be r q

end

end Cert.Stages

end
-- ==== Proof.lean ====
/-
  The certificate of a two-layer Chebyshev graph network: a kernel program that computes each layer's dense half
  (three matrix products, bias, layer norm, relu, residual, with NaN and infinity scrubbed between the steps) in a
  pallas_call over ten row blocks, against a reference that computes it with host operations. Both programs compute the
  same sparse half on the host — edge normalisation, the two sparse products of each layer — so over the extended reals
  both results are one composition (`Cert.Stages.netOf`) over a dense layer, and the two dense layers are the same
  function element by element (`Cert.Cheb.layer`): the same operations in the same order, so no law of arithmetic and
  no finiteness is needed.

  The three frames: the two kernel programs' are the generated runs of their segments; the reference's is its run read
  off its list of host operations. The idealization rewrote nothing, so `preserves` is trivial.
-/
import proofs.«134588_j19095424598406_1_alg».proof.Defs
import proofs.«134588_j19095424598406_1_alg».proof.Proof.Gen.Kernel
import proofs.«134588_j19095424598406_1_alg».proof.Proof.Gen.Kernel.Frame
import proofs.«134588_j19095424598406_1_alg».proof.Proof.Gen.KernelIdeal
import proofs.«134588_j19095424598406_1_alg».proof.Proof.Gen.KernelIdeal.Frame
import proofs.«134588_j19095424598406_1_alg».proof.Proof.Gen.ReferenceIdeal
import proofs.«134588_j19095424598406_1_alg».proof.Proof.Gen.Pre_finite_inputs
import proofs.«134588_j19095424598406_1_alg».proof.Proof.KernelRun
import proofs.«134588_j19095424598406_1_alg».proof.Proof.KernelValue
import proofs.«134588_j19095424598406_1_alg».proof.Proof.RefRun
import proofs.«134588_j19095424598406_1_alg».proof.Proof.RefValue
import proofs.«134588_j19095424598406_1_alg».proof.Proof.RefDenseSpec

noncomputable section

namespace Cert.Proof

open Idealize.ShloMosaic Idealize.ShloMosaic.TcCoe Idealize.SL.Sem

/-- The reference's dense layer is the specification's, as dense layers. -/
theorem denseRef_eq : (Cert.Stages.denseRef (F := Ideal)) = Cert.KernelIdeal.Value.layerD := by
  funext t0 t1 t2 w0 w1 w2 b g be
  exact Cert.Stages.denseRef_eq_layer t0 t1 t2 w0 w1 w2 b g be

theorem frame_k : Cert.frame_Kernel := fun m ρ _ => Cert.Kernel.Gen.frame m ρ

theorem frame_ki : Cert.frame_KernelIdeal := fun m ρ _ => Cert.KernelIdeal.Gen.frame m ρ

/-- The reference runs and leaves its arguments alone: no operation of its list writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _)⟩)
    (Cert.ReferenceIdeal.RefRun.run_main (F := Ideal) m ρ)

/-- Both programs end with the network over the specification's layer of arguments that agree. -/
theorem algebraic : Cert.algebraic_KernelIdeal_ReferenceIdeal := by
  intro m ρ m' ρ' _ hagree
  refine ⟨fun c => Cert.Stages.netOf (F := Ideal) Cert.KernelIdeal.Value.layerD (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    (θ_run Cert.KernelIdeal.defs _ _).mono (fun r h c => ⟨(h c).1.trans (Cert.KernelIdeal.Value.result_eq m ρ c), (h c).2⟩)
      (Cert.KernelIdeal.Named.run_named (F := Ideal) m ρ), ?_⟩
  refine (θ_run Cert.ReferenceIdeal.defs _ _).mono (fun r h c => ⟨?_,
     (h c Cert.ReferenceIdeal.main_arg0).trans (Cert.ReferenceIdeal.RefRun.arg0_eq _),
     (h c Cert.ReferenceIdeal.main_arg1).trans (Cert.ReferenceIdeal.RefRun.arg1_eq _),
     (h c Cert.ReferenceIdeal.main_arg2).trans (Cert.ReferenceIdeal.RefRun.arg2_eq _),
     (h c Cert.ReferenceIdeal.main_arg3).trans (Cert.ReferenceIdeal.RefRun.arg3_eq _),
     (h c Cert.ReferenceIdeal.main_arg4).trans (Cert.ReferenceIdeal.RefRun.arg4_eq _),
     (h c Cert.ReferenceIdeal.main_arg5).trans (Cert.ReferenceIdeal.RefRun.arg5_eq _),
     (h c Cert.ReferenceIdeal.main_arg6).trans (Cert.ReferenceIdeal.RefRun.arg6_eq _),
     (h c Cert.ReferenceIdeal.main_arg7).trans (Cert.ReferenceIdeal.RefRun.arg7_eq _),
     (h c Cert.ReferenceIdeal.main_arg8).trans (Cert.ReferenceIdeal.RefRun.arg8_eq _),
     (h c Cert.ReferenceIdeal.main_arg9).trans (Cert.ReferenceIdeal.RefRun.arg9_eq _),
     (h c Cert.ReferenceIdeal.main_arg10).trans (Cert.ReferenceIdeal.RefRun.arg10_eq _)⟩)
    (Cert.ReferenceIdeal.RefRun.run_main (F := Ideal) m' ρ')
  refine ((h c Cert.ReferenceIdeal.main_v179).trans (Cert.ReferenceIdeal.RefRun.result_eq _)).trans ?_
  rw [denseRef_eq]
  obtain ⟨a0, a1, a2, a3, a4, a5, a6, a7, a8, a9, a10⟩ := hagree c
  show Cert.Stages.netOf Cert.KernelIdeal.Value.layerD
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10)) = _
  rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
